-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x8 : Shape := ⟨2, ![1024, 8]⟩
abbrev S64x1536x1024 : Shape := ⟨3, ![64, 1536, 1024]⟩
abbrev S64x1024x768 : Shape := ⟨3, ![64, 1024, 768]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x1536x1024 : S_.BroadcastsInDim S64x1536x1024 (![] : Fin 0 → Fin S64x1536x1024.rank)
  reducesTo_S64x1536x1024_S_d0_1_2 : S64x1536x1024.ReducesTo [0, 1, 2] S_
  bcast_S_S64x1024x768 : S_.BroadcastsInDim S64x1024x768 (![] : Fin 0 → Fin S64x1024x768.rank)
  reducesTo_S64x1024x768_S_d0_1_2 : S64x1024x768.ReducesTo [0, 1, 2] S_

variable [Facts]

def fn_part1 {F : FTy → Type} [FloatOps F] (main_arg2 : IVec S1024x8 32) (main_v13 : IVec S_ 1) (main_v16 : IVec S64x1024x768 1) : IVec S_ 1 :=
  let main_c_5 : IVec S_ 1 := constantI S_ 1 1#1
  let main_v17 : IVec S_ 1 := (fun x v => Host.reduce IntOp.andi x v reducesTo_S64x1024x768_S_d0_1_2 h_S_) main_v16 main_c_5
  let main_v18 : IVec S_ 1 := andi main_v13 main_v17
  let main_c_6 : IVec S_ 32 := constantI S_ 32 0#32
  let main_v19 : IVec S1024x8 32 := broadcastInDim S1024x8 ![] bcast_S_S1024x8 main_c_6
  let main_v20 : IVec S1024x8 1 := cmpi .sge main_arg2 main_v19
  let main_c_7 : IVec S_ 32 := constantI S_ 32 64#32
  let main_v21 : IVec S1024x8 32 := broadcastInDim S1024x8 ![] bcast_S_S1024x8 main_c_7
  let main_v22 : IVec S1024x8 1 := cmpi .slt main_arg2 main_v21
  let main_v23 : IVec S1024x8 1 := andi main_v20 main_v22
  let main_c_8 : IVec S_ 1 := constantI S_ 1 1#1
  let main_v24 : IVec S_ 1 := (fun x v => Host.reduce IntOp.andi x v reducesTo_S1024x8_S_d0_1 h_S_) main_v23 main_c_8
  let main_v25 : IVec S_ 1 := andi main_v18 main_v24
  main_v25

def fn {F : FTy → Type} [FloatOps F] (main_arg0 : FVec F S1024x1024 .f32) (main_arg1 : FVec F S1024x8 .f32) (main_arg2 : IVec S1024x8 32) (main_arg3 : FVec F S64x1536x1024 .f32) (main_arg4 : FVec F S64x1024x768 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x1536x1024 .f32 := Host.absf main_arg3
  let main_cst_2 : FVec F S_ .f32 := constant S_ .f32 0x7F800000#32
  let main_v10 : FVec F S64x1536x1024 .f32 := broadcastInDim S64x1536x1024 ![] bcast_S_S64x1536x1024 main_cst_2
  let main_v11 : IVec S64x1536x1024 1 := cmpf .olt main_v9 main_v10
  let main_c_3 : IVec S_ 1 := constantI S_ 1 1#1
  let main_v12 : IVec S_ 1 := (fun x v => Host.reduce IntOp.andi x v reducesTo_S64x1536x1024_S_d0_1_2 h_S_) main_v11 main_c_3
  let main_v13 : IVec S_ 1 := andi main_v8 main_v12
  let main_v14 : FVec F S64x1024x768 .f32 := Host.absf main_arg4
  let main_cst_4 : FVec F S_ .f32 := constant S_ .f32 0x7F800000#32
  let main_v15 : FVec F S64x1024x768 .f32 := broadcastInDim S64x1024x768 ![] bcast_S_S64x1024x768 main_cst_4
  let main_v16 : IVec S64x1024x768 1 := cmpf .olt main_v14 main_v15
  fn_part1 (F := F) main_arg2 main_v13 main_v16
-- ==== Kernel.lean ====
abbrev S1024x1024 : Shape := ⟨2, ![1024, 1024]⟩
abbrev S1024x8 : Shape := ⟨2, ![1024, 8]⟩
abbrev S64x1536x1024 : Shape := ⟨3, ![64, 1536, 1024]⟩
abbrev S64x1024x768 : Shape := ⟨3, ![64, 1024, 768]⟩
abbrev S8192 : Shape := ⟨1, ![8192]⟩
abbrev S_ : Shape := ⟨0, ![]⟩
abbrev S8192x1 : Shape := ⟨2, ![8192, 1]⟩
abbrev S64 : Shape := ⟨1, ![64]⟩
abbrev S8192x1024 : Shape := ⟨2, ![8192, 1024]⟩
abbrev S64x512x1024 : Shape := ⟨3, ![64, 512, 1024]⟩
abbrev S8192x2 : Shape := ⟨2, ![8192, 2]⟩
abbrev S64x1024x1536 : Shape := ⟨3, ![64, 1024, 1536]⟩
abbrev S64x768x1024 : Shape := ⟨3, ![64, 768, 1024]⟩
abbrev S1x128x1024 : Shape := ⟨3, ![1, 128, 1024]⟩
abbrev S1x1024x1536 : Shape := ⟨3, ![1, 1024, 1536]⟩
abbrev S1x768x1024 : Shape := ⟨3, ![1, 768, 1024]⟩
abbrev S1 : Shape := ⟨1, ![1]⟩
abbrev S128x1024 : Shape := ⟨2, ![128, 1024]⟩
abbrev S1024x1536 : Shape := ⟨2, ![1024, 1536]⟩
abbrev S128x1536 : Shape := ⟨2, ![128, 1536]⟩
abbrev S128x768 : Shape := ⟨2, ![128, 768]⟩
abbrev S768x1024 : Shape := ⟨2, ![768, 1024]⟩
abbrev S2 : Shape := ⟨1, ![2]⟩
abbrev S1x2 : Shape := ⟨2, ![1, 2]⟩
abbrev S1024x8x1024 : Shape := ⟨3, ![1024, 8, 1024]⟩
abbrev S1024x8x1 : Shape := ⟨3, ![1024, 8, 1]⟩

abbrev nBuf : Space → Nat
  | .hbm => 149
  | .vmem => 8
  | .smem => 1
  | _ => 0

abbrev hbmTy0_0 (i : Nat) : BufTy := match i % 128 with
  | 0 => ⟨S1024x1024, .f32⟩
  | 1 => ⟨S1024x8, .f32⟩
  | 2 => ⟨S1024x8, .i32⟩
  | 3 => ⟨S64x1536x1024, .f32⟩
  | 4 => ⟨S64x1024x768, .f32⟩
  | 5 => ⟨S8192, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .i32⟩
  | 18 => ⟨S_, .i32⟩
  | 19 => ⟨S64, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S_, .i32⟩
  | 29 => ⟨S8192, .i32⟩
  | 30 => ⟨S_, .i32⟩
  | 31 => ⟨S_, .i32⟩
  | 32 => ⟨S64, .i32⟩
  | 33 => ⟨S64, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192, .i32⟩
  | 44 => ⟨S8192, .i32⟩
  | 45 => ⟨S_, .i32⟩
  | 46 => ⟨S_, .i32⟩
  | 47 => ⟨S8192, .i32⟩
  | 48 => ⟨S8192, .i32⟩
  | 49 => ⟨S8192, .i32⟩
  | 50 => ⟨S_, .i32⟩
  | 51 => ⟨S8192, .i32⟩
  | 52 => ⟨S8192, .i1⟩
  | 53 => ⟨S8192, .i32⟩
  | 54 => ⟨S8192, .i32⟩
  | 55 => ⟨S_, .i32⟩
  | 56 => ⟨S8192, .i32⟩
  | 57 => ⟨S8192, .i1⟩
  | 58 => ⟨S8192, .i1⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x1024, .f32⟩
  | 72 => ⟨S_, .bf16⟩
  | 73 => ⟨S64x512x1024, .bf16⟩
  | 74 => ⟨S8192x1024, .bf16⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x1, .i32⟩
  | 91 => ⟨S8192x2, .i32⟩
  | 92 => ⟨S64x512x1024, .bf16⟩
  | 93 => ⟨S64x1024x1536, .f32⟩
  | 94 => ⟨S64x1024x1536, .bf16⟩
  | 95 => ⟨S64x768x1024, .f32⟩
  | 96 => ⟨S64x768x1024, .bf16⟩
  | 97 => ⟨S64x512x1024, .bf16⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x1, .i32⟩
  | 114 => ⟨S8192x2, .i32⟩
  | 115 => ⟨S2, .i32⟩
  | 116 => ⟨S_, .i32⟩
  | 117 => ⟨S8192x2, .i32⟩
  | 118 => ⟨S8192x2, .i1⟩
  | 119 => ⟨S1x2, .i32⟩
  | 120 => ⟨S8192x2, .i32⟩
  | 121 => ⟨S8192x2, .i1⟩
  | 122 => ⟨S8192x2, .i1⟩
  | 123 => ⟨S_, .i1⟩
  | 124 => ⟨S8192, .i1⟩
  | 125 => ⟨S8192x1024, .bf16⟩
  | 126 => ⟨S8192x1024, .i1⟩
  | 127 => ⟨S_, .bf16⟩
  | _ => ⟨S1024x1024, .f32⟩

abbrev hbmTy0_1 (i : Nat) : BufTy := match i % 128 with
  | 0 => ⟨S8192x1024, .bf16⟩
  | 1 => ⟨S8192x1024, .bf16⟩
  | 2 => ⟨S8192x1024, .f32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x1024, .f32⟩
  | 15 => ⟨S1024x8x1024, .f32⟩
  | 16 => ⟨S1024x8x1, .f32⟩
  | 17 => ⟨S1024x8x1024, .f32⟩
  | 18 => ⟨S1024x8x1024, .f32⟩
  | 19 => ⟨S_, .f32⟩
  | 20 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x128x1024, .bf16⟩
  | .local _ .vmem, ⟨7, _⟩ => ⟨S1x128x1024, .bf16⟩
  | .local _ .smem, ⟨0, _⟩ => ⟨S64, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_call1_call0_c : Ref sig .tc := ⟨.hbm, 30, rfl⟩
abbrev main_call1_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v29 : Ref sig .tc := ⟨.hbm, 62, rfl⟩
abbrev main_c_8 : Ref sig .tc := ⟨.hbm, 63, rfl⟩
abbrev main_v30 : Ref sig .tc := ⟨.hbm, 64, rfl⟩
abbrev main_v31 : Ref sig .tc := ⟨.hbm, 65, rfl⟩
abbrev main_c_9 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst : Ref sig .tc := ⟨.hbm, 72, rfl⟩
abbrev main_v37 : Ref sig .tc := ⟨.hbm, 73, rfl⟩
abbrev main_v38 : Ref sig .tc := ⟨.hbm, 74, rfl⟩
abbrev main_c_10 : Ref sig .tc := ⟨.hbm, 75, rfl⟩
abbrev main_v39 : Ref sig .tc := ⟨.hbm, 76, rfl⟩
abbrev main_v40 : Ref sig .tc := ⟨.hbm, 77, rfl⟩
abbrev main_c_11 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_12 : Ref sig .tc := ⟨.hbm, 82, rfl⟩
abbrev main_v44 : Ref sig .tc := ⟨.hbm, 83, rfl⟩
abbrev main_v45 : Ref sig .tc := ⟨.hbm, 84, rfl⟩
abbrev main_c_13 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_14 : Ref sig .tc := ⟨.hbm, 98, rfl⟩
abbrev main_v58 : Ref sig .tc := ⟨.hbm, 99, rfl⟩
abbrev main_v59 : Ref sig .tc := ⟨.hbm, 100, rfl⟩
abbrev main_c_15 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_16 : Ref sig .tc := ⟨.hbm, 105, rfl⟩
abbrev main_v63 : Ref sig .tc := ⟨.hbm, 106, rfl⟩
abbrev main_v64 : Ref sig .tc := ⟨.hbm, 107, rfl⟩
abbrev main_c_17 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_18 : Ref sig .tc := ⟨.hbm, 115, rfl⟩
abbrev main_c_19 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_20 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_21 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call3_v0 : Ref sig .tc := ⟨.hbm, 131, rfl⟩
abbrev main_call3_v1_0 : Ref sig .tc := ⟨.hbm, 132, rfl⟩
abbrev main_v83 : Ref sig .tc := ⟨.hbm, 133, rfl⟩
abbrev main_c_22 : Ref sig .tc := ⟨.hbm, 134, rfl⟩
abbrev main_v84 : Ref sig .tc := ⟨.hbm, 135, rfl⟩
abbrev main_v85 : Ref sig .tc := ⟨.hbm, 136, rfl⟩
abbrev main_c_23 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_24 : Ref sig .tc := ⟨.hbm, 147, rfl⟩
abbrev main_v95 : Ref sig .tc := ⟨.hbm, 148, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_off2 (i : grid0.Coords) : Fin 1 → Nat :=
  let arg0 : BitVec 32 := BitVec.ofNat 32 (i 0).val
  let v6 : Index := Scalar.indexCast arg0
  ![v6.toNat]
def k0_cond1 (i : grid0.Coords) (v2 : BitVec 32) : BitVec 1 :=
  let arg1 : BitVec 32 := BitVec.ofNat 32 (i 1).val
  let c128_i32 : BitVec 32 := 128#32
  let v0 : BitVec 32 := Scalar.muli arg1 c128_i32
  let v3 : BitVec 1 := Scalar.cmpi .slt v0 v2
  let v4 : BitVec 32 := Scalar.extui v3
  let c0_i32 : BitVec 32 := 0#32
  let v5 : BitVec 1 := Scalar.cmpi .ne v4 c0_i32
  v5

def k0_cond2 (i : grid0.Coords) (v7 : BitVec 32) : BitVec 1 :=
  let arg1 : BitVec 32 := BitVec.ofNat 32 (i 1).val
  let c128_i32 : BitVec 32 := 128#32
  let v0 : BitVec 32 := Scalar.muli arg1 c128_i32
  let v8 : BitVec 1 := Scalar.cmpi .sge v0 v7
  let v9 : BitVec 32 := Scalar.extui v8
  let c0_i32_0 : BitVec 32 := 0#32
  let v10 : BitVec 1 := Scalar.cmpi .ne v9 c0_i32_0
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x512x1024 : S_.BroadcastsInDim S64x512x1024 (![] : Fin 0 → Fin S64x512x1024.rank)
  bitsLt_bf16_f32 : FTy.bits .bf16 < FTy.bits .f32
  concatenates_S8192x1_S8192x1_S8192x2_d1 : Shape.Concatenates [S8192x1, S8192x1] S8192x2 1
  transposes_S64x1536x1024_S64x1024x1536_0_2_1 : S64x1536x1024.Transposes [0, 2, 1] S64x1024x1536
  transposes_S64x1024x768_S64x768x1024_0_2_1 : S64x1024x768.Transposes [0, 2, 1] S64x768x1024
  numel1_S1 : S1.numel = 1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x1536_S1x1024x1536_0_0_0 : ∀ a, (![0, 0, 0] : Fin 3 → Nat) a + S1x1024x1536.size a ≤ S1x1024x1536.size a
  h_S1x1024x1536 : 0 < S1x1024x1536.numel
  shapeCasts_S1x1024x1536_S1024x1536 : S1x1024x1536.ShapeCasts S1024x1536
  slices_S128x1536_o0_0_S128x768 : S128x1536.Slices ![0, 0] S128x768
  slices_S128x1536_o0_768_S128x768 : S128x1536.Slices ![0, 768] S128x768
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  shapeCasts_S128x1024_S1x128x1024 : S128x1024.ShapeCasts S1x128x1024
  packedbf16_S1x128x1024_S1x128x1024_0_0_0 : (Rect.unit (s := S1x128x1024) ![0, 0, 0] S1x128x1024.size inb_S1x128x1024_S1x128x1024_0_0_0).PackedRows (EltTy.packing .bf16)
  bcast_S_S8192x2 : S_.BroadcastsInDim S8192x2 (![] : Fin 0 → Fin S8192x2.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  shapeCasts_S8192x1024_S1024x8x1024 : S8192x1024.ShapeCasts S1024x8x1024
  bcast_S1024x8_S1024x8x1_0_1 : S1024x8.BroadcastsInDim S1024x8x1 (![0, 1] : Fin 2 → Fin S1024x8x1.rank)
  bcast_S1024x8x1_S1024x8x1024_0_1_2 : S1024x8x1.BroadcastsInDim S1024x8x1024 (![0, 1, 2] : Fin 3 → Fin S1024x8x1024.rank)
  reducesTo_S1024x8x1024_S1024x1024_d1 : S1024x8x1024.ReducesTo [1] S1024x1024
  gather_S8192_S8192x1_S8192_n_0_n_n_0_1_1_wf : GatherDims.WF S8192 S8192x1 S8192 [] [0] [] [0] [] 1 ![1]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64x512x1024_S8192x2_S8192x1024_1_01_01_1_wf : ScatterDims.WF S64x512x1024 S8192x2 S8192x1024 [1] [0, 1] [0, 1] 1
  dot_S128x1024_S1024x1536_S128x1536_1_0_0_1_n_n_wf : DotDims.WF S128x1024 S1024x1536 S128x1536 [1] [0] [0] [1] [] []
  dot_S128x768_S768x1024_S128x1024_1_0_0_1_n_n_wf : DotDims.WF S128x768 S768x1024 S128x1024 [1] [0] [0] [1] [] []
  gather_S64x512x1024_S8192x2_S8192x1024_1_01_n_n_01_1_111024_wf : GatherDims.WF S64x512x1024 S8192x2 S8192x1024 [1] [0, 1] [] [0, 1] [] 1 ![1, 1, 1024]
  gather_S8192x1024_S8192x1_S8192x1024_1_0_n_n_0_1_11024_wf : GatherDims.WF S8192x1024 S8192x1 S8192x1024 [1] [0] [] [0] [] 1 ![1, 1024]
  hrank0 : 0 < grid0.rank
  k0_off1_inb : ∀ i : grid0.Coords, ∀ a, (k0_off1 i) a + S1.size a ≤ S64.size a
  k0_off2_inb : ∀ i : grid0.Coords, ∀ a, (k0_off2 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S64x512x1024.size a
  hwx0_0 : ∀ i : grid0.Coords, EltTy.bits .bf16 = 32 ∨ (Rect.block (s := S64x512x1024) S1x128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1536.size a ≤ S64x1024x1536.size a
  hwx0_1 : ∀ i : grid0.Coords, EltTy.bits .bf16 = 32 ∨ (Rect.block (s := S64x1024x1536) S1x1024x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x1024.size a ≤ S64x768x1024.size a
  hwx0_2 : ∀ i : grid0.Coords, EltTy.bits .bf16 = 32 ∨ (Rect.block (s := S64x768x1024) S1x768x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S64x512x1024.size a
  hwx0_3 : ∀ i : grid0.Coords, EltTy.bits .bf16 = 32 ∨ (Rect.block (s := S64x512x1024) S1x128x1024.size (cc0_transform_3 i) (hinb0_3 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64x512x1024_S8192x2_S8192x1024_1_01_01_1 : ScatterDims S64x512x1024 S8192x2 S8192x1024 where
  updateWindowDims := [1]
  insertedWindowDims := [0, 1]
  scatterDimsToOperandDims := [0, 1]
  indexVectorDim := 1
  wf := scatter_S64x512x1024_S8192x2_S8192x1024_1_01_01_1_wf
def dot_S128x1024_S1024x1536_S128x1536_1_0_0_1_n_n : DotDims S128x1024 S1024x1536 S128x1536 where
  lhsContracting := [1]
  rhsContracting := [0]
  lhsNonContracting := [0]
  rhsNonContracting := [1]
  lhsBatch := []
  rhsBatch := []
  wf := dot_S128x1024_S1024x1536_S128x1536_1_0_0_1_n_n_wf
def dot_S128x768_S768x1024_S128x1024_1_0_0_1_n_n : DotDims S128x768 S768x1024 S128x1024 where
  lhsContracting := [1]
  rhsContracting := [0]
  lhsNonContracting := [0]
  rhsNonContracting := [1]
  lhsBatch := []
  rhsBatch := []
  wf := dot_S128x768_S768x1024_S128x1024_1_0_0_1_n_n_wf
def gather_S64x512x1024_S8192x2_S8192x1024_1_01_n_n_01_1_111024 : GatherDims S64x512x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x512x1024_S8192x2_S8192x1024_1_01_n_n_01_1_111024_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

abbrev spec0_0 : Pipeline.WinSpec sig grid0.rank :=
  Pipeline.WinSpec.ofSpec (Memref.whole main_v52) S1x128x1024.size reads0_0 false false 2 stage0_0 sem0_0 nbuf0_0 hstage0_0

abbrev spec0_1 : Pipeline.WinSpec sig grid0.rank :=
  Pipeline.WinSpec.ofSpec (Memref.whole main_v54) S1x1024x1536.size reads0_1 false false 2 stage0_1 sem0_1 nbuf0_1 hstage0_1

abbrev spec0_2 : Pipeline.WinSpec sig grid0.rank :=
  Pipeline.WinSpec.ofSpec (Memref.whole main_v56) S1x768x1024.size reads0_2 false false 2 stage0_2 sem0_2 nbuf0_2 hstage0_2

abbrev spec0_3 : Pipeline.WinSpec sig grid0.rank :=
  Pipeline.WinSpec.ofSpec (Memref.whole main_v57) S1x128x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond1 i (pf.atD 0 (k0_off1 i)) == 1#1) && !(k0_cond2 i (pf.atD 0 (k0_off2 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S1024x1024 : Shape := ⟨2, ![1024, 1024]⟩
abbrev S1024x8 : Shape := ⟨2, ![1024, 8]⟩
abbrev S64x1536x1024 : Shape := ⟨3, ![64, 1536, 1024]⟩
abbrev S64x1024x768 : Shape := ⟨3, ![64, 1024, 768]⟩
abbrev S8192 : Shape := ⟨1, ![8192]⟩
abbrev S_ : Shape := ⟨0, ![]⟩
abbrev S8192x1 : Shape := ⟨2, ![8192, 1]⟩
abbrev S64 : Shape := ⟨1, ![64]⟩
abbrev S8192x1024 : Shape := ⟨2, ![8192, 1024]⟩
abbrev S64x512x1024 : Shape := ⟨3, ![64, 512, 1024]⟩
abbrev S8192x2 : Shape := ⟨2, ![8192, 2]⟩
abbrev S64x512x1536 : Shape := ⟨3, ![64, 512, 1536]⟩
abbrev S64x512x768 : Shape := ⟨3, ![64, 512, 768]⟩
abbrev S2 : Shape := ⟨1, ![2]⟩
abbrev S1x2 : Shape := ⟨2, ![1, 2]⟩
abbrev S1024x8x1024 : Shape := ⟨3, ![1024, 8, 1024]⟩
abbrev S1024x8x1 : Shape := ⟨3, ![1024, 8, 1]⟩

abbrev nBuf : Space → Nat
  | .hbm => 157
  | .vmem => 0
  | .smem => 0
  | _ => 0

abbrev hbmTy0_0 (i : Nat) : BufTy := match i % 128 with
  | 0 => ⟨S1024x1024, .f32⟩
  | 1 => ⟨S1024x8, .f32⟩
  | 2 => ⟨S1024x8, .i32⟩
  | 3 => ⟨S64x1536x1024, .f32⟩
  | 4 => ⟨S64x1024x768, .f32⟩
  | 5 => ⟨S8192, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .i32⟩
  | 18 => ⟨S_, .i32⟩
  | 19 => ⟨S64, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S_, .i32⟩
  | 29 => ⟨S8192, .i32⟩
  | 30 => ⟨S64, .i32⟩
  | 31 => ⟨S_, .i32⟩
  | 32 => ⟨S_, .i32⟩
  | 33 => ⟨S64, .i32⟩
  | 34 => ⟨S64, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192, .i32⟩
  | 45 => ⟨S8192, .i32⟩
  | 46 => ⟨S_, .i32⟩
  | 47 => ⟨S_, .i32⟩
  | 48 => ⟨S8192, .i32⟩
  | 49 => ⟨S8192, .i32⟩
  | 50 => ⟨S8192, .i32⟩
  | 51 => ⟨S_, .i32⟩
  | 52 => ⟨S8192, .i32⟩
  | 53 => ⟨S8192, .i1⟩
  | 54 => ⟨S8192, .i32⟩
  | 55 => ⟨S8192, .i32⟩
  | 56 => ⟨S_, .i32⟩
  | 57 => ⟨S8192, .i32⟩
  | 58 => ⟨S8192, .i1⟩
  | 59 => ⟨S8192, .i1⟩
  | 60 => ⟨S_, .i32⟩
  | 61 => ⟨S8192, .i32⟩
  | 62 => ⟨S8192, .i32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x1024, .f32⟩
  | 73 => ⟨S_, .f32⟩
  | 74 => ⟨S64x512x1024, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x1, .i32⟩
  | 91 => ⟨S8192x2, .i32⟩
  | 92 => ⟨S64x512x1024, .f32⟩
  | 93 => ⟨S64x512x1536, .f32⟩
  | 94 => ⟨S64x512x768, .f32⟩
  | 95 => ⟨S64x512x768, .f32⟩
  | 96 => ⟨S64x512x768, .f32⟩
  | 97 => ⟨S64x512x768, .f32⟩
  | 98 => ⟨S_, .f32⟩
  | 99 => ⟨S64x512x768, .f32⟩
  | 100 => ⟨S64x512x768, .f32⟩
  | 101 => ⟨S_, .f32⟩
  | 102 => ⟨S64x512x768, .f32⟩
  | 103 => ⟨S64x512x768, .f32⟩
  | 104 => ⟨S64x512x768, .f32⟩
  | 105 => ⟨S64x512x768, .f32⟩
  | 106 => ⟨S64x512x1024, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x1, .i32⟩
  | 123 => ⟨S8192x2, .i32⟩
  | 124 => ⟨S2, .i32⟩
  | 125 => ⟨S_, .i32⟩
  | 126 => ⟨S8192x2, .i32⟩
  | 127 => ⟨S8192x2, .i1⟩
  | _ => ⟨S1024x1024, .f32⟩

abbrev hbmTy0_1 (i : Nat) : BufTy := match i % 128 with
  | 0 => ⟨S1x2, .i32⟩
  | 1 => ⟨S8192x2, .i32⟩
  | 2 => ⟨S8192x2, .i1⟩
  | 3 => ⟨S8192x2, .i1⟩
  | 4 => ⟨S_, .i1⟩
  | 5 => ⟨S8192, .i1⟩
  | 6 => ⟨S8192x1024, .f32⟩
  | 7 => ⟨S8192x1024, .i1⟩
  | 8 => ⟨S_, .f32⟩
  | 9 => ⟨S8192x1024, .f32⟩
  | 10 => ⟨S8192x1024, .f32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x1024, .f32⟩
  | 23 => ⟨S1024x8x1024, .f32⟩
  | 24 => ⟨S1024x8x1, .f32⟩
  | 25 => ⟨S1024x8x1024, .f32⟩
  | 26 => ⟨S1024x8x1024, .f32⟩
  | 27 => ⟨S_, .f32⟩
  | 28 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_call1_call0_c : Ref sig .tc := ⟨.hbm, 31, rfl⟩
abbrev main_call1_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v29 : Ref sig .tc := ⟨.hbm, 63, rfl⟩
abbrev main_c_8 : Ref sig .tc := ⟨.hbm, 64, rfl⟩
abbrev main_v30 : Ref sig .tc := ⟨.hbm, 65, rfl⟩
abbrev main_v31 : Ref sig .tc := ⟨.hbm, 66, rfl⟩
abbrev main_c_9 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_v39 : Ref sig .tc := ⟨.hbm, 77, rfl⟩
abbrev main_c_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_12 : Ref sig .tc := ⟨.hbm, 82, rfl⟩
abbrev main_v43 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call3_v0 : Ref sig .tc := ⟨.hbm, 96, rfl⟩
abbrev main_call3_v1 : Ref sig .tc := ⟨.hbm, 97, rfl⟩
abbrev main_call3_cst : Ref sig .tc := ⟨.hbm, 98, rfl⟩
abbrev main_call3_v2 : Ref sig .tc := ⟨.hbm, 99, rfl⟩
abbrev main_call3_v3 : Ref sig .tc := ⟨.hbm, 100, rfl⟩
abbrev main_call3_cst_0 : Ref sig .tc := ⟨.hbm, 101, rfl⟩
abbrev main_call3_v4 : Ref sig .tc := ⟨.hbm, 102, rfl⟩
abbrev main_call3_v5 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_c_14 : Ref sig .tc := ⟨.hbm, 107, rfl⟩
abbrev main_v58 : Ref sig .tc := ⟨.hbm, 108, rfl⟩
abbrev main_v59 : Ref sig .tc := ⟨.hbm, 109, rfl⟩
abbrev main_c_15 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_c_16 : Ref sig .tc := ⟨.hbm, 114, rfl⟩
abbrev main_v63 : Ref sig .tc := ⟨.hbm, 115, rfl⟩
abbrev main_v64 : Ref sig .tc := ⟨.hbm, 116, rfl⟩
abbrev main_c_17 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_18 : Ref sig .tc := ⟨.hbm, 124, rfl⟩
abbrev main_c_19 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_20 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_21 : Ref sig .tc := ⟨.hbm, 136, rfl⟩
abbrev main_v80 : Ref sig .tc := ⟨.hbm, 137, rfl⟩
abbrev main_v81 : Ref sig .tc := ⟨.hbm, 138, rfl⟩
abbrev main_call4_v0 : Ref sig .tc := ⟨.hbm, 139, rfl⟩
abbrev main_call4_v1_0 : Ref sig .tc := ⟨.hbm, 140, rfl⟩
abbrev main_v82 : Ref sig .tc := ⟨.hbm, 141, rfl⟩
abbrev main_c_22 : Ref sig .tc := ⟨.hbm, 142, rfl⟩
abbrev main_v83 : Ref sig .tc := ⟨.hbm, 143, rfl⟩
abbrev main_v84 : Ref sig .tc := ⟨.hbm, 144, rfl⟩
abbrev main_c_23 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_24 : Ref sig .tc := ⟨.hbm, 155, rfl⟩
abbrev main_v94 : Ref sig .tc := ⟨.hbm, 156, rfl⟩

abbrev nD : Nat := 1
abbrev τ : Topo := Topo.v7x

variable {F : FTy → Type} [FloatOps F]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x512x1024 : S_.BroadcastsInDim S64x512x1024 (![] : Fin 0 → Fin S64x512x1024.rank)
  concatenates_S8192x1_S8192x1_S8192x2_d1 : Shape.Concatenates [S8192x1, S8192x1] S8192x2 1
  slices_S64x512x1536_S64x512x768_0_0_0 : S64x512x1536.Slices ![0, 0, 0] S64x512x768
  slices_S64x512x1536_S64x512x768_0_0_768 : S64x512x1536.Slices ![0, 0, 768] S64x512x768
  bcast_S_S64x512x768 : S_.BroadcastsInDim S64x512x768 (![] : Fin 0 → Fin S64x512x768.rank)
  bcast_S_S8192x2 : S_.BroadcastsInDim S8192x2 (![] : Fin 0 → Fin S8192x2.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  shapeCasts_S8192x1024_S1024x8x1024 : S8192x1024.ShapeCasts S1024x8x1024
  bcast_S1024x8_S1024x8x1_0_1 : S1024x8.BroadcastsInDim S1024x8x1 (![0, 1] : Fin 2 → Fin S1024x8x1.rank)
  bcast_S1024x8x1_S1024x8x1024_0_1_2 : S1024x8x1.BroadcastsInDim S1024x8x1024 (![0, 1, 2] : Fin 3 → Fin S1024x8x1024.rank)
  reducesTo_S1024x8x1024_S1024x1024_d1 : S1024x8x1024.ReducesTo [1] S1024x1024
  gather_S8192_S8192x1_S8192_n_0_n_n_0_1_1_wf : GatherDims.WF S8192 S8192x1 S8192 [] [0] [] [0] [] 1 ![1]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64x512x1024_S8192x2_S8192x1024_1_01_01_1_wf : ScatterDims.WF S64x512x1024 S8192x2 S8192x1024 [1] [0, 1] [0, 1] 1
  dot_S64x512x1024_S64x1536x1024_S64x512x1536_2_2_1_1_0_0_wf : DotDims.WF S64x512x1024 S64x1536x1024 S64x512x1536 [2] [2] [1] [1] [0] [0]
  dot_S64x512x768_S64x1024x768_S64x512x1024_2_2_1_1_0_0_wf : DotDims.WF S64x512x768 S64x1024x768 S64x512x1024 [2] [2] [1] [1] [0] [0]
  gather_S64x512x1024_S8192x2_S8192x1024_1_01_n_n_01_1_111024_wf : GatherDims.WF S64x512x1024 S8192x2 S8192x1024 [1] [0, 1] [] [0, 1] [] 1 ![1, 1, 1024]
  gather_S8192x1024_S8192x1_S8192x1024_1_0_n_n_0_1_11024_wf : GatherDims.WF S8192x1024 S8192x1 S8192x1024 [1] [0] [] [0] [] 1 ![1, 1024]

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64x512x1024_S8192x2_S8192x1024_1_01_01_1 : ScatterDims S64x512x1024 S8192x2 S8192x1024 where
  updateWindowDims := [1]
  insertedWindowDims := [0, 1]
  scatterDimsToOperandDims := [0, 1]
  indexVectorDim := 1
  wf := scatter_S64x512x1024_S8192x2_S8192x1024_1_01_01_1_wf
def dot_S64x512x1024_S64x1536x1024_S64x512x1536_2_2_1_1_0_0 : DotDims S64x512x1024 S64x1536x1024 S64x512x1536 where
  lhsContracting := [2]
  rhsContracting := [2]
  lhsNonContracting := [1]
  rhsNonContracting := [1]
  lhsBatch := [0]
  rhsBatch := [0]
  wf := dot_S64x512x1024_S64x1536x1024_S64x512x1536_2_2_1_1_0_0_wf
def dot_S64x512x768_S64x1024x768_S64x512x1024_2_2_1_1_0_0 : DotDims S64x512x768 S64x1024x768 S64x512x1024 where
  lhsContracting := [2]
  rhsContracting := [2]
  lhsNonContracting := [1]
  rhsNonContracting := [1]
  lhsBatch := [0]
  rhsBatch := [0]
  wf := dot_S64x512x768_S64x1024x768_S64x512x1024_2_2_1_1_0_0_wf
def gather_S64x512x1024_S8192x2_S8192x1024_1_01_n_n_01_1_111024 : GatherDims S64x512x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x512x1024_S8192x2_S8192x1024_1_01_n_n_01_1_111024_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.K.BodyRun.lean ====
import proofs.«126691_j58317065945110_2_alg».proof.Proof.Gen.Kernel.Launch
import proofs.«126691_j58317065945110_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body, run once at a symbolic word

The body reads expert `e`'s row count twice from the table of counts and stores the output tile under one of two
conditions on it: the expert MLP of the tile's rows when the tile's first row `128·ci` is below the count, zeros
when it is at or above it. Run symbolically at an unknown count, the tile's staging buffer ends as a nested
conditional of the two stores; which one happened is decided later, from the count alone. -/

/-- The table of per-expert row counts as the body is handed it: its whole buffer. -/
abbrev cntM : Memref sig .tc .smem S64 .i32 := Memref.whole main_v17
abbrev hcntM : cntM.IsWhole := Memref.isWhole_whole _
/-- Its contents' type on core `c`, and the half share of it the region lends the body (read-only). -/
abbrev CntBuf (c : Dev nD) : Type := Buf (Elt F) (cntM.view.loc (c : Thread nD τ))
abbrev cntPt (c : Dev nD) (f : CntBuf (F := F) c) : sProp 𝕄 :=
  cntM.view.loc (c : Thread nD τ) ↦{fullShare.right} f

/-- The count the body reads for the first condition (expert `e = i 0`), out of table contents `xt`. -/
abbrev word1 (c : Dev nD) (i : grid0.Coords) (xt : CntBuf (F := F) c) : Elt F .i32 :=
  View.readAt (Elt F) cntM.view (Rect.unit (s := S64) (k0_off1 i) S1.size (k0_off1_inb i)).toLoadRect xt (Shape.Idx.first (numel1_S1.symm ▸ Nat.one_pos))
/-- and for the second: the same cell, read again. -/
abbrev word2 (c : Dev nD) (i : grid0.Coords) (xt : CntBuf (F := F) c) : Elt F .i32 :=
  View.readAt (Elt F) cntM.view (Rect.unit (s := S64) (k0_off2 i) S1.size (k0_off2_inb i)).toLoadRect xt (Shape.Idx.first (numel1_S1.symm ▸ Nat.one_pos))

/-- The whole tile as a rectangle of the output's staging buffer. -/
abbrev tileRect : Rect S1x128x1024 := Rect.unit (s := S1x128x1024) ![0, 0, 0] S1x128x1024.size inb_S1x128x1024_S1x128x1024_0_0_0

/-- What the output tile's staging buffer holds after the body, from what it held (`f`), the two counts read and the
    MLP payload `p`: the zero tile stored over it if the second condition held, over the payload stored if the first did. -/
def tileBuf (i : grid0.Coords) (arg6 : Memref sig .tc .vmem S1x128x1024 .bf16) (w1 w2 : Elt F .i32)
    (p : FVec F S1x128x1024 .bf16) (f : BufTy.Contents (Elt F) arg6.view.ty) : BufTy.Contents (Elt F) arg6.view.ty :=
  if _hc : k0_cond2 i w2 = 1#1 then
    arg6.view.writes (Elt F) (if _hc : k0_cond1 i w1 = 1#1 then arg6.view.writes (Elt F) f [⟨tileRect, p⟩] else f) [⟨tileRect, k0_pay2⟩]
  else
    if _hc : k0_cond1 i w1 = 1#1 then arg6.view.writes (Elt F) f [⟨tileRect, p⟩] else f

/-- The MLP payload of the three input blocks as the body loads them. -/
abbrev mlpOf (arg3 : Memref sig .tc .vmem S1x128x1024 .bf16) (harg3 : arg3.IsWhole)
    (arg4 : Memref sig .tc .vmem S1x1024x1536 .bf16) (harg4 : arg4.IsWhole)
    (arg5 : Memref sig .tc .vmem S1x768x1024 .bf16) (harg5 : arg5.IsWhole)
    (x0 : Vec F S1x128x1024 .bf16) (x1 : Vec F S1x1024x1536 .bf16) (x2 : Vec F S1x768x1024 .bf16) : FVec F S1x128x1024 .bf16 :=
  k0_pay1
    (View.readAt (Elt F) arg3.view (Rect.unit (s := S1x128x1024) ![0, 0, 0] S1x128x1024.size inb_S1x128x1024_S1x128x1024_0_0_0).toLoadRect (harg3.unread x0))
    (View.readAt (Elt F) arg4.view (Rect.unit (s := S1x1024x1536) ![0, 0, 0] S1x1024x1536.size inb_S1x1024x1536_S1x1024x1536_0_0_0).toLoadRect (harg4.unread x1))
    (View.readAt (Elt F) arg5.view (Rect.unit (s := S1x768x1024) ![0, 0, 0] S1x768x1024.size inb_S1x768x1024_S1x768x1024_0_0_0).toLoadRect (harg5.unread x2))

set_option maxHeartbeats 1000000 in
/-- On whole staging memrefs — the three inputs at their contents, the output tile at anything — and the table of counts
    at any contents, the body runs to its end holding the inputs and the table as they were and the output tile at
    `tileBuf` of what it held. -/
theorem body_run (c : Dev nD) (i : grid0.Coords)
    (arg3 : Memref sig .tc .vmem S1x128x1024 .bf16) (harg3 : arg3.IsWhole)
    (arg4 : Memref sig .tc .vmem S1x1024x1536 .bf16) (harg4 : arg4.IsWhole)
    (arg5 : Memref sig .tc .vmem S1x768x1024 .bf16) (harg5 : arg5.IsWhole)
    (arg6 : Memref sig .tc .vmem S1x128x1024 .bf16) (harg6 : arg6.IsWhole)
    (x0 : Vec F S1x128x1024 .bf16) (x1 : Vec F S1x1024x1536 .bf16) (x2 : Vec F S1x768x1024 .bf16)
    (xt : CntBuf (F := F) c) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ cntPt c xt
        ∗ (iprop(owns (c : Thread nD τ) arg3 fullShare x0 ∗ owns (c : Thread nD τ) arg4 fullShare x1 ∗ owns (c : Thread nD τ) arg5 fullShare x2
            ∗ (∃ f, arg6.view.loc (c : Thread nD τ) ↦[arg6.view.set]{fullShare}
                tileBuf i arg6 (word1 c i xt) (word2 c i xt) (mlpOf arg3 harg3 arg4 harg4 arg5 harg5 x0 x1 x2) f)
            ∗ cntPt c xt) -∗ K ⟨⟩))
      ⊢ wp frame (wpE (defs₀ (F := F)) Variants.none c none) E (cc0__grouped_gemm_kernel i cntM hcntM arg3 harg3 arg4 harg4 arg5 harg5 arg6 harg6) K := by
  simp only [cc0__grouped_gemm_kernel_eq_skeleton]; unfold cc0__grouped_gemm_kernel_skel
  unfold owns
  iintro ⟨⟨%f0, %hf0, H0⟩, ⟨%f1, %hf1, H1⟩, ⟨%f2, %hf2, H2⟩, ⟨%d3, %f3, -, H3⟩, HT, Hk⟩
  obtain rfl := harg3.eq_unread hf0
  obtain rfl := harg4.eq_unread hf1
  obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists f3; unfold tileBuf; iexact H3
  iexact HT

end Cert.Kernel.Hand

end
-- ==== Proof.K.Tile.lean ====
import proofs.«126691_j58317065945110_2_alg».proof.Proof.K.BodyRun
import Idealize.ShloMosaic.Lib.Pipeline.Value
import Idealize.ShloMosaic.Lib.Affine

set_option maxRecDepth 16384

noncomputable section

namespace Cert.Kernel.Hand

open Cert.Kernel Cert.Kernel.Gen
open Idealize.ShloMosaic Idealize.ShloMosaic.TcCoe

variable {F : FTy → Type} [FloatOps F]

/-! ## Which store happened

The two conditions compare the tile's first row `128·ci` with the expert's row count `n`, read signed: the first
holds when `128·ci < n`, the second when `n ≤ 128·ci`. Exactly one holds, so the tile is always stored whole, and
what it holds afterwards does not depend on what it held before. -/

/-- The tile's first row, as the body computes it from the second grid coordinate. -/
abbrev tileRow (i : grid0.Coords) : BitVec 32 := Scalar.muli (BitVec.ofNat 32 (i 1).val) 128#32

theorem cond1_iff (i : grid0.Coords) (n : BitVec 32) : k0_cond1 i n = 1#1 ↔ (tileRow i).toInt < n.toInt := by
  unfold k0_cond1; dsimp only; rw [Scalar.guard_iff, Scalar.cmpi, IntOp.cmpi_slt]

theorem cond2_iff (i : grid0.Coords) (n : BitVec 32) : k0_cond2 i n = 1#1 ↔ n.toInt ≤ (tileRow i).toInt := by
  unfold k0_cond2; dsimp only; rw [Scalar.guard_iff, Scalar.cmpi, IntOp.cmpi_sge]

/-- One of the two stores happens. -/
theorem cond_total (i : grid0.Coords) (n : BitVec 32) : k0_cond1 i n = 1#1 ∨ k0_cond2 i n = 1#1 := by
  rw [cond1_iff, cond2_iff]; exact lt_or_ge _ _

/-- and not both. -/
theorem cond_excl (i : grid0.Coords) (n : BitVec 32) (h : k0_cond2 i n = 1#1) : ¬k0_cond1 i n = 1#1 := by
  rw [cond1_iff]; rw [cond2_iff] at h; omega

/-- The tile's offsets are all zero. -/
theorem tile_off_zero : (![0, 0, 0] : Fin S1x128x1024.rank → Nat) = fun _ => 0 := by
  funext a; fin_cases a <;> rfl

/-- The two reads of the count are one read: both conditions see the same word. -/
theorem word2_eq_word1 (c : Dev nD) (i : grid0.Coords) (xt : CntBuf (F := F) c) : word2 c i xt = word1 c i xt := rfl

/-- A whole-tile store read back is its payload, whatever was there. -/
theorem read_tile_store (arg6 : Memref sig .tc .vmem S1x128x1024 .bf16) (f : BufTy.Contents (Elt F) arg6.view.ty)
    (p : FVec F S1x128x1024 .bf16) : arg6.view.read (Elt F) (arg6.view.writes (Elt F) f [⟨tileRect, p⟩]) = p :=
  (View.read_writes_eq_canon _ _ _ (fun y => ⟨_, List.mem_singleton_self _, View.mem_set_unit_zero tile_off_zero inb_S1x128x1024_S1x128x1024_0_0_0 y⟩)).trans
    (View.canon_unit_zero tile_off_zero _ _)

/-- What the output tile holds after the body, read back: the zero tile when the count is at or below the tile's first
    row, the MLP payload otherwise — for ANY earlier contents `f`. -/
theorem tile_read (i : grid0.Coords) (arg6 : Memref sig .tc .vmem S1x128x1024 .bf16) (n : Elt F .i32)
    (p : FVec F S1x128x1024 .bf16) (f : BufTy.Contents (Elt F) arg6.view.ty) :
    arg6.view.read (Elt F) (tileBuf i arg6 n n p f) = if k0_cond2 i n = 1#1 then k0_pay2 else p := by
  unfold tileBuf
  by_cases h2 : k0_cond2 i n = 1#1
  · rw [dif_pos h2, if_pos h2]; exact read_tile_store arg6 _ _
  · have h1 : k0_cond1 i n = 1#1 := (cond_total i n).resolve_right h2
    rw [dif_neg h2, dif_pos h1, if_neg h2]; exact read_tile_store arg6 _ _

end Cert.Kernel.Hand

end
-- ==== Proof.K.FrameKit.lean ====
import proofs.«126691_j58317065945110_2_alg».proof.Proof.K.Tile
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the grouped matmul

Before the region the host sorts the routed (token, expert) pairs by expert, counts each expert's rows, lays the token
rows out in per-expert buffers and transposes the weights; after it, it gathers each pair's output row back and
combines them by the routing weights. The region reads four arrays the first part wrote and writes one the second reads. -/

/-- Core `c`'s buffers when the region is entered: after the host operations before it. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the host lines after it: it reduces to the region
    continued by the later lines, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1, StableHlo.seq hostOps1_1, StableHlo.seq hostOps1_2]) :=
  Pipeline.hmainP_around pcfgs 0 defs₀ 𝒱₀ m main [hostOps0, hostOps0_1, hostOps0_2, hostOps0_3, hostOps0_4, hostOps0_5, hostOps0_6] [hostOps1, hostOps1_1, hostOps1_2] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of counts, read off the region-entry contents -/

/-- The prefetched table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so any contents are admissible. -/
abbrev adm : (pcfg0 (F := F)).Adm := ⟨tbl m, trivial⟩
abbrev cfgM : Pipeline.Cfg sig Λ₀ := cfg0 (adm m)

/-- The table's half share the region lends the body. -/
theorem PhiT_eq (c : Dev nD) : (Pipeline.ΦT pre0 (tbl m) c : sProp 𝕄) = cntPt c (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not. -/
theorem before_in0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The output tile is written back at every point: every point has its own tile. -/
theorem flush3 (a : (pcfg0 (F := F)).Adm) : ∀ t : Fin (cfg0 a).N, ((cfg0 a).win 3).flush t = true :=
  (by decide +kernel : ∀ t : Fin grid0.N, Pipeline.Window.flushOf grid0 true cc0_transform_3 t = true)

/-- Each window's current staging memref at point `t`, spelled as the pipeline passes it, and its wholeness. -/
abbrev ms0 (t : Fin (cfgM m).N) : Memref sig .tc .vmem S1x128x1024 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1024x1536 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x768x1024 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x128x1024 .bf16 := spec0_3.stage ((cfgM m).slots t 3)
abbrev hs3 (t : Fin (cfgM m).N) : (ms3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0__grouped_gemm_kernel (grid0.coords t) cntM hcntM (ms0 m t) (hs0 m t) (ms1 m t) (hs1 m t) (ms2 m t) (hs2 m t) (ms3 m t) (hs3 m t)

/-! ## The host lines after the region -/

/-- They touch the pipeline's arrays and the bypassing buffers only, never the table. -/
theorem sfx_sub : ∀ ops ∈ ([hostOps1, hostOps1_1, hostOps1_2] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 1000000 in
/-- And write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

end Cert.Kernel.Hand

end
-- ==== Proof.K.Frame.lean ====
import proofs.«126691_j58317065945110_2_alg».proof.Proof.K.FrameKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output tile holds after each point

Point `t = (e, ci)` leaves in the output's staging buffer the zero tile when expert `e`'s count is at or below the
tile's first row `128·ci`, and otherwise the expert MLP of the tile's 128 rows: `(silu(x·w1ᵍ) ∘ (x·w1ᵘ))·w2` with `x` the
rows' block of the per-expert buffer and `w1`, `w2` expert `e`'s blocks of the transposed weights. -/

/-- Expert `e`'s row count as point `t`'s body reads it from the table as the region found it. -/
abbrev countAt (c : Dev nD) (t : Fin (cfgM m).N) : Elt F .i32 := word1 c (grid0.coords t) (tbl m 0)

/-- The output tile after the body at point `t`. -/
def tileAt (c : Dev nD) (t : Fin (cfgM m).N) : Vec F S1x128x1024 .bf16 :=
  if k0_cond2 (grid0.coords t) (countAt m c t) = 1#1 then k0_pay2
  else mlpOf (ms0 m t) (hs0 m t) (ms1 m t) (hs1 m t) (ms2 m t) (hs2 m t) (iblk m c 0 t) (iblk m c 1 t) (iblk m c 2 t)

/-! ## The pipeline's proof data -/

/-- The arrays as the region finds them; after the body each input's buffer at its block and the output's at `tileAt`;
    the invariant the scoped rest, the generator register and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = tileAt m c t := by dsimp only [dats]; try rfl

theorem before0 (c : Dev nD) (t : Fin (cfgM m).N) (d) : (dats m 0 c).before 0 t d = iblk m c 0 t :=
  before_in0_of m (dats m 0 c) (A_eq m c 0) (after0 m c) t d
theorem before1 (c : Dev nD) (t : Fin (cfgM m).N) (d) : (dats m 0 c).before 1 t d = iblk m c 1 t :=
  before_in1_of m (dats m 0 c) (A_eq m c 1) (after1 m c) t d
theorem before2 (c : Dev nD) (t : Fin (cfgM m).N) (d) : (dats m 0 c).before 2 t d = iblk m c 2 t :=
  before_in2_of m (dats m 0 c) (A_eq m c 2) (after2 m c) t d

/-! ## The body obligation, at a generic point -/

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

/-- The body at any point: the inputs' memrefs hold their blocks, so the symbolic run applies at the table's contents;
    the output tile read back is `tileAt` whatever it held; the invariant passes through; nothing is owed. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  iapply (body_run c (grid0.coords t) (ms0 m t) (hs0 m t) (ms1 m t) (hs1 m t) (ms2 m t) (hs2 m t) (ms3 m t) (hs3 m t)
    (iblk m c 0 t) (iblk m c 1 t) (iblk m c 2 t) (tbl m 0) Set.univ _)
  isplitl [H0]; · iexact H0
  isplitl [H1]; · iexact H1
  isplitl [H2]; · iexact H2
  isplitl [H3]; · iexists _; iexact H3
  isplitl [HT]; · iexact HT
  iintro ⟨H0, H1, H2, ⟨%f3, H3⟩, HT⟩
  isplitl [HΦ HT]
  · isplitl [HΦ]; · iexact HΦ
    iexact HT
  isplitl [Ho]; · iexact Ho
  isplitl [H0]; · iexact H0
  isplitl [H1]; · iexact H1
  isplitl [H2]; · iexact H2
  unfold owns; iexists _; isplitr
  swap; · iexact H3
  ipureintro
  exact (tile_read (grid0.coords t) (ms3 m t) (countAt m c t) _ f3).trans (by unfold tileAt; rfl)

set_option maxHeartbeats 1000000 in
/-- The library's body obligation, at every point: the output window is written back at every point, so whether the
    configuration calls a point idle for it is never asked (the two cases of that question are split before anything
    could look at the table's contents to answer it). -/
theorem body_obligation (c : Dev nD) : BodyObligation (dats (F := F) m 0 c) (defs₀ (F := F)) Variants.none () Set.univ := fun t => by
  rw [bigSep_W0, bigSep_W0]
  have hi0 : (cfgM m).idle 0 ((cfgM m).grid.coords t) = false := rfl
  have hi1 : (cfgM m).idle 1 ((cfgM m).grid.coords t) = false := rfl
  have hi2 : (cfgM m).idle 2 ((cfgM m).grid.coords t) = false := rfl
  cases hI : idle0 (tbl m) 3 ((pcfg0.gridAt (tbl m)).coords t)
  · simp only [hi0, hi1, hi2, hI]
    exact sound_body m c t
  · simp only [hi0, hi1, hi2, hI]
    have hfl : (pcfg0.win (adm m) (3 : Fin 4)).flush t = true := flush3 (adm m) t
    first
      | (simp only [hfl]; exact sound_body m c t)
      | (rw [hfl]; exact sound_body m c t)

/-! ## After the host lines that follow the region -/

/-- No host operation after the region writes `main_arg0`, and it is no window's array: it ends as launched. -/
theorem W_main_arg0 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg0 = m ((c : Thread nD τ).loc main_arg0) := by
  unfold Pipeline.afterTail
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`, and it is no window's array: it ends as launched. -/
theorem W_main_arg1 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and it is no window's array: it ends as launched. -/
theorem W_main_arg2 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg2 = m ((c : Thread nD τ).loc main_arg2) := by
  unfold Pipeline.afterTail
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`, and it is no window's array: it ends as launched. -/
theorem W_main_arg3 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg3 = m ((c : Thread nD τ).loc main_arg3) := by
  unfold Pipeline.afterTail
  rw [StableHlo.after_of_forall_not_mem (b := Proc.devRef .tc main_arg3) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`, and it is no window's array: it ends as launched. -/
theorem W_main_arg4 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg4 = m ((c : Thread nD τ).loc main_arg4) := by
  unfold Pipeline.afterTail
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The frame claim's post from the frame run's -/

/-- For any proof data whose arrays are the region-entry contents, a run to the library's frame post, read at the five
    argument arrays (none is a window's array; no host line writes one), is the frame claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (Pipeline.afterTail pcfgs (fun _ => adm m) dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m dats c)),
      (((h c).2 main_arg1 (by decide : main_arg1 ∈ Pipeline.restRefs sig spec0)).trans (W_main_arg1 m dats c)),
      (((h c).2 main_arg2 (by decide : main_arg2 ∈ Pipeline.restRefs sig spec0)).trans (W_main_arg2 m dats c)),
      (((h c).2 main_arg3 (by decide : main_arg3 ∈ Pipeline.restRefs sig spec0)).trans (W_main_arg3 m dats c)),
      (((h c).2 main_arg4 (by decide : main_arg4 ∈ Pipeline.restRefs sig spec0)).trans (W_main_arg4 m dats c))⟩) h

/-! ## The run and the frame -/

set_option backward.isDefEq.respectTransparency.types false in
/-- Every weakly fair execution of @main terminates, and every final state has the pipeline's arrays at what the
    library computes from the proof data and every other unscoped buffer as the later host lines leave it. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1, hostOps1_1, hostOps1_2])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hpf := V_pre m) (hΦ := fun _ _ => rfl)

/-- The frame claim's statement at any `F`: the program runs to the end, faults nowhere, and leaves its five
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KI.BodyRun.lean ====
import proofs.«126691_j58317065945110_2_alg».proof.Proof.Gen.KernelIdeal.Launch
import proofs.«126691_j58317065945110_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body, run once at a symbolic word

The body reads expert `e`'s row count twice from the table of counts and stores the output tile under one of two
conditions on it: the expert MLP of the tile's rows when the tile's first row `128·ci` is below the count, zeros
when it is at or above it. Run symbolically at an unknown count, the tile's staging buffer ends as a nested
conditional of the two stores; which one happened is decided later, from the count alone. -/

/-- The table of per-expert row counts as the body is handed it: its whole buffer. -/
abbrev cntM : Memref sig .tc .smem S64 .i32 := Memref.whole main_v17
abbrev hcntM : cntM.IsWhole := Memref.isWhole_whole _
/-- Its contents' type on core `c`, and the half share of it the region lends the body (read-only). -/
abbrev CntBuf (c : Dev nD) : Type := Buf (Elt F) (cntM.view.loc (c : Thread nD τ))
abbrev cntPt (c : Dev nD) (f : CntBuf (F := F) c) : sProp 𝕄 :=
  cntM.view.loc (c : Thread nD τ) ↦{fullShare.right} f

/-- The count the body reads for the first condition (expert `e = i 0`), out of table contents `xt`. -/
abbrev word1 (c : Dev nD) (i : grid0.Coords) (xt : CntBuf (F := F) c) : Elt F .i32 :=
  View.readAt (Elt F) cntM.view (Rect.unit (s := S64) (k0_off1 i) S1.size (k0_off1_inb i)).toLoadRect xt (Shape.Idx.first (numel1_S1.symm ▸ Nat.one_pos))
/-- and for the second: the same cell, read again. -/
abbrev word2 (c : Dev nD) (i : grid0.Coords) (xt : CntBuf (F := F) c) : Elt F .i32 :=
  View.readAt (Elt F) cntM.view (Rect.unit (s := S64) (k0_off2 i) S1.size (k0_off2_inb i)).toLoadRect xt (Shape.Idx.first (numel1_S1.symm ▸ Nat.one_pos))

/-- The whole tile as a rectangle of the output's staging buffer. -/
abbrev tileRect : Rect S1x128x1024 := Rect.unit (s := S1x128x1024) ![0, 0, 0] S1x128x1024.size inb_S1x128x1024_S1x128x1024_0_0_0

/-- What the output tile's staging buffer holds after the body, from what it held (`f`), the two counts read and the
    MLP payload `p`: the zero tile stored over it if the second condition held, over the payload stored if the first did. -/
def tileBuf (i : grid0.Coords) (arg6 : Memref sig .tc .vmem S1x128x1024 .bf16) (w1 w2 : Elt F .i32)
    (p : FVec F S1x128x1024 .bf16) (f : BufTy.Contents (Elt F) arg6.view.ty) : BufTy.Contents (Elt F) arg6.view.ty :=
  if _hc : k0_cond2 i w2 = 1#1 then
    arg6.view.writes (Elt F) (if _hc : k0_cond1 i w1 = 1#1 then arg6.view.writes (Elt F) f [⟨tileRect, p⟩] else f) [⟨tileRect, k0_pay2⟩]
  else
    if _hc : k0_cond1 i w1 = 1#1 then arg6.view.writes (Elt F) f [⟨tileRect, p⟩] else f

/-- The MLP payload of the three input blocks as the body loads them. -/
abbrev mlpOf (arg3 : Memref sig .tc .vmem S1x128x1024 .bf16) (harg3 : arg3.IsWhole)
    (arg4 : Memref sig .tc .vmem S1x1024x1536 .bf16) (harg4 : arg4.IsWhole)
    (arg5 : Memref sig .tc .vmem S1x768x1024 .bf16) (harg5 : arg5.IsWhole)
    (x0 : Vec F S1x128x1024 .bf16) (x1 : Vec F S1x1024x1536 .bf16) (x2 : Vec F S1x768x1024 .bf16) : FVec F S1x128x1024 .bf16 :=
  k0_pay1
    (View.readAt (Elt F) arg3.view (Rect.unit (s := S1x128x1024) ![0, 0, 0] S1x128x1024.size inb_S1x128x1024_S1x128x1024_0_0_0).toLoadRect (harg3.unread x0))
    (View.readAt (Elt F) arg4.view (Rect.unit (s := S1x1024x1536) ![0, 0, 0] S1x1024x1536.size inb_S1x1024x1536_S1x1024x1536_0_0_0).toLoadRect (harg4.unread x1))
    (View.readAt (Elt F) arg5.view (Rect.unit (s := S1x768x1024) ![0, 0, 0] S1x768x1024.size inb_S1x768x1024_S1x768x1024_0_0_0).toLoadRect (harg5.unread x2))

set_option maxHeartbeats 1000000 in
/-- On whole staging memrefs — the three inputs at their contents, the output tile at anything — and the table of counts
    at any contents, the body runs to its end holding the inputs and the table as they were and the output tile at
    `tileBuf` of what it held. -/
theorem body_run (c : Dev nD) (i : grid0.Coords)
    (arg3 : Memref sig .tc .vmem S1x128x1024 .bf16) (harg3 : arg3.IsWhole)
    (arg4 : Memref sig .tc .vmem S1x1024x1536 .bf16) (harg4 : arg4.IsWhole)
    (arg5 : Memref sig .tc .vmem S1x768x1024 .bf16) (harg5 : arg5.IsWhole)
    (arg6 : Memref sig .tc .vmem S1x128x1024 .bf16) (harg6 : arg6.IsWhole)
    (x0 : Vec F S1x128x1024 .bf16) (x1 : Vec F S1x1024x1536 .bf16) (x2 : Vec F S1x768x1024 .bf16)
    (xt : CntBuf (F := F) c) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ cntPt c xt
        ∗ (iprop(owns (c : Thread nD τ) arg3 fullShare x0 ∗ owns (c : Thread nD τ) arg4 fullShare x1 ∗ owns (c : Thread nD τ) arg5 fullShare x2
            ∗ (∃ f, arg6.view.loc (c : Thread nD τ) ↦[arg6.view.set]{fullShare}
                tileBuf i arg6 (word1 c i xt) (word2 c i xt) (mlpOf arg3 harg3 arg4 harg4 arg5 harg5 x0 x1 x2) f)
            ∗ cntPt c xt) -∗ K ⟨⟩))
      ⊢ wp frame (wpE (defs₀ (F := F)) Variants.none c none) E (cc0__grouped_gemm_kernel i cntM hcntM arg3 harg3 arg4 harg4 arg5 harg5 arg6 harg6) K := by
  simp only [cc0__grouped_gemm_kernel_eq_skeleton]; unfold cc0__grouped_gemm_kernel_skel
  unfold owns
  iintro ⟨⟨%f0, %hf0, H0⟩, ⟨%f1, %hf1, H1⟩, ⟨%f2, %hf2, H2⟩, ⟨%d3, %f3, -, H3⟩, HT, Hk⟩
  obtain rfl := harg3.eq_unread hf0
  obtain rfl := harg4.eq_unread hf1
  obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists f3; unfold tileBuf; iexact H3
  iexact HT

end Cert.KernelIdeal.Hand

end
-- ==== Proof.KI.Tile.lean ====
import proofs.«126691_j58317065945110_2_alg».proof.Proof.KI.BodyRun
import Idealize.ShloMosaic.Lib.Pipeline.Value
import Idealize.ShloMosaic.Lib.Affine

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## Which store happened

The two conditions compare the tile's first row `128·ci` with the expert's row count `n`, read signed: the first
holds when `128·ci < n`, the second when `n ≤ 128·ci`. Exactly one holds, so the tile is always stored whole, and
what it holds afterwards does not depend on what it held before. -/

/-- The tile's first row, as the body computes it from the second grid coordinate. -/
abbrev tileRow (i : grid0.Coords) : BitVec 32 := Scalar.muli (BitVec.ofNat 32 (i 1).val) 128#32

theorem cond1_iff (i : grid0.Coords) (n : BitVec 32) : k0_cond1 i n = 1#1 ↔ (tileRow i).toInt < n.toInt := by
  unfold k0_cond1; dsimp only; rw [Scalar.guard_iff, Scalar.cmpi, IntOp.cmpi_slt]

theorem cond2_iff (i : grid0.Coords) (n : BitVec 32) : k0_cond2 i n = 1#1 ↔ n.toInt ≤ (tileRow i).toInt := by
  unfold k0_cond2; dsimp only; rw [Scalar.guard_iff, Scalar.cmpi, IntOp.cmpi_sge]

/-- One of the two stores happens. -/
theorem cond_total (i : grid0.Coords) (n : BitVec 32) : k0_cond1 i n = 1#1 ∨ k0_cond2 i n = 1#1 := by
  rw [cond1_iff, cond2_iff]; exact lt_or_ge _ _

/-- and not both. -/
theorem cond_excl (i : grid0.Coords) (n : BitVec 32) (h : k0_cond2 i n = 1#1) : ¬k0_cond1 i n = 1#1 := by
  rw [cond1_iff]; rw [cond2_iff] at h; omega

/-- The tile's offsets are all zero. -/
theorem tile_off_zero : (![0, 0, 0] : Fin S1x128x1024.rank → Nat) = fun _ => 0 := by
  funext a; fin_cases a <;> rfl

/-- The two reads of the count are one read: both conditions see the same word. -/
theorem word2_eq_word1 (c : Dev nD) (i : grid0.Coords) (xt : CntBuf (F := F) c) : word2 c i xt = word1 c i xt := rfl

/-- A whole-tile store read back is its payload, whatever was there. -/
theorem read_tile_store (arg6 : Memref sig .tc .vmem S1x128x1024 .bf16) (f : BufTy.Contents (Elt F) arg6.view.ty)
    (p : FVec F S1x128x1024 .bf16) : arg6.view.read (Elt F) (arg6.view.writes (Elt F) f [⟨tileRect, p⟩]) = p :=
  (View.read_writes_eq_canon _ _ _ (fun y => ⟨_, List.mem_singleton_self _, View.mem_set_unit_zero tile_off_zero inb_S1x128x1024_S1x128x1024_0_0_0 y⟩)).trans
    (View.canon_unit_zero tile_off_zero _ _)

/-- What the output tile holds after the body, read back: the zero tile when the count is at or below the tile's first
    row, the MLP payload otherwise — for ANY earlier contents `f`. -/
theorem tile_read (i : grid0.Coords) (arg6 : Memref sig .tc .vmem S1x128x1024 .bf16) (n : Elt F .i32)
    (p : FVec F S1x128x1024 .bf16) (f : BufTy.Contents (Elt F) arg6.view.ty) :
    arg6.view.read (Elt F) (tileBuf i arg6 n n p f) = if k0_cond2 i n = 1#1 then k0_pay2 else p := by
  unfold tileBuf
  by_cases h2 : k0_cond2 i n = 1#1
  · rw [dif_pos h2, if_pos h2]; exact read_tile_store arg6 _ _
  · have h1 : k0_cond1 i n = 1#1 := (cond_total i n).resolve_right h2
    rw [dif_neg h2, dif_pos h1, if_neg h2]; exact read_tile_store arg6 _ _

end Cert.KernelIdeal.Hand

end
-- ==== Proof.KI.FrameKit.lean ====
import proofs.«126691_j58317065945110_2_alg».proof.Proof.KI.Tile
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the grouped matmul

Before the region the host sorts the routed (token, expert) pairs by expert, counts each expert's rows, lays the token
rows out in per-expert buffers and transposes the weights; after it, it gathers each pair's output row back and
combines them by the routing weights. The region reads four arrays the first part wrote and writes one the second reads. -/

/-- Core `c`'s buffers when the region is entered: after the host operations before it. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the host lines after it: it reduces to the region
    continued by the later lines, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1, StableHlo.seq hostOps1_1, StableHlo.seq hostOps1_2]) :=
  Pipeline.hmainP_around pcfgs 0 defs₀ 𝒱₀ m main [hostOps0, hostOps0_1, hostOps0_2, hostOps0_3, hostOps0_4, hostOps0_5, hostOps0_6] [hostOps1, hostOps1_1, hostOps1_2] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of counts, read off the region-entry contents -/

/-- The prefetched table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so any contents are admissible. -/
abbrev adm : (pcfg0 (F := F)).Adm := ⟨tbl m, trivial⟩
abbrev cfgM : Pipeline.Cfg sig Λ₀ := cfg0 (adm m)

/-- The table's half share the region lends the body. -/
theorem PhiT_eq (c : Dev nD) : (Pipeline.ΦT pre0 (tbl m) c : sProp 𝕄) = cntPt c (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not. -/
theorem before_in0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The output tile is written back at every point: every point has its own tile. -/
theorem flush3 (a : (pcfg0 (F := F)).Adm) : ∀ t : Fin (cfg0 a).N, ((cfg0 a).win 3).flush t = true :=
  (by decide +kernel : ∀ t : Fin grid0.N, Pipeline.Window.flushOf grid0 true cc0_transform_3 t = true)

/-- Each window's current staging memref at point `t`, spelled as the pipeline passes it, and its wholeness. -/
abbrev ms0 (t : Fin (cfgM m).N) : Memref sig .tc .vmem S1x128x1024 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1024x1536 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x768x1024 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x128x1024 .bf16 := spec0_3.stage ((cfgM m).slots t 3)
abbrev hs3 (t : Fin (cfgM m).N) : (ms3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0__grouped_gemm_kernel (grid0.coords t) cntM hcntM (ms0 m t) (hs0 m t) (ms1 m t) (hs1 m t) (ms2 m t) (hs2 m t) (ms3 m t) (hs3 m t)

/-! ## The host lines after the region -/

/-- They touch the pipeline's arrays and the bypassing buffers only, never the table. -/
theorem sfx_sub : ∀ ops ∈ ([hostOps1, hostOps1_1, hostOps1_2] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 1000000 in
/-- And write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

end Cert.KernelIdeal.Hand

end
-- ==== Proof.KI.Frame.lean ====
import proofs.«126691_j58317065945110_2_alg».proof.Proof.KI.FrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output tile holds after each point

Point `t = (e, ci)` leaves in the output's staging buffer the zero tile when expert `e`'s count is at or below the
tile's first row `128·ci`, and otherwise the expert MLP of the tile's 128 rows: `(silu(x·w1ᵍ) ∘ (x·w1ᵘ))·w2` with `x` the
rows' block of the per-expert buffer and `w1`, `w2` expert `e`'s blocks of the transposed weights. -/

/-- Expert `e`'s row count as point `t`'s body reads it from the table as the region found it. -/
abbrev countAt (c : Dev nD) (t : Fin (cfgM m).N) : Elt F .i32 := word1 c (grid0.coords t) (tbl m 0)

/-- The output tile after the body at point `t`. -/
def tileAt (c : Dev nD) (t : Fin (cfgM m).N) : Vec F S1x128x1024 .bf16 :=
  if k0_cond2 (grid0.coords t) (countAt m c t) = 1#1 then k0_pay2
  else mlpOf (ms0 m t) (hs0 m t) (ms1 m t) (hs1 m t) (ms2 m t) (hs2 m t) (iblk m c 0 t) (iblk m c 1 t) (iblk m c 2 t)

/-! ## The pipeline's proof data -/

/-- The arrays as the region finds them; after the body each input's buffer at its block and the output's at `tileAt`;
    the invariant the scoped rest, the generator register and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = tileAt m c t := by dsimp only [dats]; try rfl

theorem before0 (c : Dev nD) (t : Fin (cfgM m).N) (d) : (dats m 0 c).before 0 t d = iblk m c 0 t :=
  before_in0_of m (dats m 0 c) (A_eq m c 0) (after0 m c) t d
theorem before1 (c : Dev nD) (t : Fin (cfgM m).N) (d) : (dats m 0 c).before 1 t d = iblk m c 1 t :=
  before_in1_of m (dats m 0 c) (A_eq m c 1) (after1 m c) t d
theorem before2 (c : Dev nD) (t : Fin (cfgM m).N) (d) : (dats m 0 c).before 2 t d = iblk m c 2 t :=
  before_in2_of m (dats m 0 c) (A_eq m c 2) (after2 m c) t d

/-! ## The body obligation, at a generic point -/

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

/-- The body at any point: the inputs' memrefs hold their blocks, so the symbolic run applies at the table's contents;
    the output tile read back is `tileAt` whatever it held; the invariant passes through; nothing is owed. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  iapply (body_run c (grid0.coords t) (ms0 m t) (hs0 m t) (ms1 m t) (hs1 m t) (ms2 m t) (hs2 m t) (ms3 m t) (hs3 m t)
    (iblk m c 0 t) (iblk m c 1 t) (iblk m c 2 t) (tbl m 0) Set.univ _)
  isplitl [H0]; · iexact H0
  isplitl [H1]; · iexact H1
  isplitl [H2]; · iexact H2
  isplitl [H3]; · iexists _; iexact H3
  isplitl [HT]; · iexact HT
  iintro ⟨H0, H1, H2, ⟨%f3, H3⟩, HT⟩
  isplitl [HΦ HT]
  · isplitl [HΦ]; · iexact HΦ
    iexact HT
  isplitl [Ho]; · iexact Ho
  isplitl [H0]; · iexact H0
  isplitl [H1]; · iexact H1
  isplitl [H2]; · iexact H2
  unfold owns; iexists _; isplitr
  swap; · iexact H3
  ipureintro
  exact (tile_read (grid0.coords t) (ms3 m t) (countAt m c t) _ f3).trans (by unfold tileAt; rfl)

set_option maxHeartbeats 1000000 in
/-- The library's body obligation, at every point: the output window is written back at every point, so whether the
    configuration calls a point idle for it is never asked (the two cases of that question are split before anything
    could look at the table's contents to answer it). -/
theorem body_obligation (c : Dev nD) : BodyObligation (dats (F := F) m 0 c) (defs₀ (F := F)) Variants.none () Set.univ := fun t => by
  rw [bigSep_W0, bigSep_W0]
  have hi0 : (cfgM m).idle 0 ((cfgM m).grid.coords t) = false := rfl
  have hi1 : (cfgM m).idle 1 ((cfgM m).grid.coords t) = false := rfl
  have hi2 : (cfgM m).idle 2 ((cfgM m).grid.coords t) = false := rfl
  cases hI : idle0 (tbl m) 3 ((pcfg0.gridAt (tbl m)).coords t)
  · simp only [hi0, hi1, hi2, hI]
    exact sound_body m c t
  · simp only [hi0, hi1, hi2, hI]
    have hfl : (pcfg0.win (adm m) (3 : Fin 4)).flush t = true := flush3 (adm m) t
    first
      | (simp only [hfl]; exact sound_body m c t)
      | (rw [hfl]; exact sound_body m c t)

/-! ## After the host lines that follow the region -/

/-- No host operation after the region writes `main_arg0`, and it is no window's array: it ends as launched. -/
theorem W_main_arg0 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg0 = m ((c : Thread nD τ).loc main_arg0) := by
  unfold Pipeline.afterTail
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`, and it is no window's array: it ends as launched. -/
theorem W_main_arg1 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and it is no window's array: it ends as launched. -/
theorem W_main_arg2 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg2 = m ((c : Thread nD τ).loc main_arg2) := by
  unfold Pipeline.afterTail
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`, and it is no window's array: it ends as launched. -/
theorem W_main_arg3 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg3 = m ((c : Thread nD τ).loc main_arg3) := by
  unfold Pipeline.afterTail
  rw [StableHlo.after_of_forall_not_mem (b := Proc.devRef .tc main_arg3) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`, and it is no window's array: it ends as launched. -/
theorem W_main_arg4 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1, hostOps1_1, hostOps1_2] c main_arg4 = m ((c : Thread nD τ).loc main_arg4) := by
  unfold Pipeline.afterTail
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The frame claim's post from the frame run's -/

/-- For any proof data whose arrays are the region-entry contents, a run to the library's frame post, read at the five
    argument arrays (none is a window's array; no host line writes one), is the frame claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (Pipeline.afterTail pcfgs (fun _ => adm m) dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m dats c)),
      (((h c).2 main_arg1 (by decide : main_arg1 ∈ Pipeline.restRefs sig spec0)).trans (W_main_arg1 m dats c)),
      (((h c).2 main_arg2 (by decide : main_arg2 ∈ Pipeline.restRefs sig spec0)).trans (W_main_arg2 m dats c)),
      (((h c).2 main_arg3 (by decide : main_arg3 ∈ Pipeline.restRefs sig spec0)).trans (W_main_arg3 m dats c)),
      (((h c).2 main_arg4 (by decide : main_arg4 ∈ Pipeline.restRefs sig spec0)).trans (W_main_arg4 m dats c))⟩) h

/-! ## The run and the frame -/

set_option backward.isDefEq.respectTransparency.types false in
/-- Every weakly fair execution of @main terminates, and every final state has the pipeline's arrays at what the
    library computes from the proof data and every other unscoped buffer as the later host lines leave it. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1, hostOps1_1, hostOps1_2])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hpf := V_pre m) (hΦ := fun _ _ => rfl)

/-- The frame claim's statement at any `F`: the program runs to the end, faults nowhere, and leaves its five
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.RI.Ops.lean ====
import proofs.«126691_j58317065945110_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's @main as its 152 host operations in order, each module-local function's lines at its call. -/
abbrev ops : List (HloOp τ sig (Elt F)) :=
  [ StableHlo.reshape main_arg2 main_v0 rfl shapeCasts_S1024x8_S8192,
    StableHlo.TRef.nullary main_call0.v0 (iotaInDim S8192 32 0),
    StableHlo.TRef.binary (.of main_v0 : StableHlo.TRef sig ⟨S8192, .i32⟩) main_call0.v0 main_call0.v1_0 (fun x y => (Host.sort2 S8192 0 comparator_i32_i32_d0 x y).1),
    StableHlo.TRef.binary (.of main_v0 : StableHlo.TRef sig ⟨S8192, .i32⟩) main_call0.v0 main_call0.v1_1 (fun x y => (Host.sort2 S8192 0 comparator_i32_i32_d0 x y).2),
    StableHlo.nullary main_c (constantI S_ 32 0#32),
    StableHlo.unary main_c main_v2 (broadcastInDim S8192 ![] bcast_S_S8192 : (⟨S_, .i32⟩ : BufTy).Contents (Elt F) → (⟨S8192, .i32⟩ : BufTy).Contents (Elt F)),
    StableHlo.binary main_v1 main_v2 main_v3 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 8192#32),
    StableHlo.unary main_c_0 main_v4 (broadcastInDim S8192 ![] bcast_S_S8192 : (⟨S_, .i32⟩ : BufTy).Contents (Elt F) → (⟨S8192, .i32⟩ : BufTy).Contents (Elt F)),
    StableHlo.binary main_v1 main_v4 main_v5 (addi : (⟨S8192, .i32⟩ : BufTy).Contents (Elt F) → (⟨S8192, .i32⟩ : BufTy).Contents (Elt F) → (⟨S8192, .i32⟩ : BufTy).Contents (Elt F)),
    StableHlo.ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S8192x1 ![0] bcast_S8192_S8192x1_0 : (⟨S8192, .i32⟩ : BufTy).Contents (Elt F) → (⟨S8192x1, .i32⟩ : BufTy).Contents (Elt F)),
    StableHlo.binary main_v0 main_v7 main_v8 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_1 (constantI S_ 32 0#32),
    StableHlo.unary main_c_1 main_v9 (broadcastInDim S64 ![] bcast_S_S64 : (⟨S_, .i32⟩ : BufTy).Contents (Elt F) → (⟨S64, .i32⟩ : BufTy).Contents (Elt F)),
    StableHlo.nullary main_c_2 (constantI S_ 32 0#32),
    StableHlo.unary main_c_2 main_v10 (broadcastInDim S8192 ![] bcast_S_S8192 : (⟨S_, .i32⟩ : BufTy).Contents (Elt F) → (⟨S8192, .i32⟩ : BufTy).Contents (Elt F)),
    StableHlo.binary main_v0 main_v10 main_v11 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 64#32),
    StableHlo.unary main_c_3 main_v12 (broadcastInDim S8192 ![] bcast_S_S8192 : (⟨S_, .i32⟩ : BufTy).Contents (Elt F) → (⟨S8192, .i32⟩ : BufTy).Contents (Elt F)),
    StableHlo.binary main_v0 main_v12 main_v13 (addi : (⟨S8192, .i32⟩ : BufTy).Contents (Elt F) → (⟨S8192, .i32⟩ : BufTy).Contents (Elt F) → (⟨S8192, .i32⟩ : BufTy).Contents (Elt F)),
    StableHlo.ternary main_v11 main_v13 main_v0 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v14 main_v15 (broadcastInDim S8192x1 ![0] bcast_S8192_S8192x1_0 : (⟨S8192, .i32⟩ : BufTy).Contents (Elt F) → (⟨S8192x1, .i32⟩ : BufTy).Contents (Elt F)),
    StableHlo.nullary main_c_4 (constantI S_ 32 1#32),
    StableHlo.unary main_c_4 main_v16 (broadcastInDim S8192 ![] bcast_S_S8192 : (⟨S_, .i32⟩ : BufTy).Contents (Elt F) → (⟨S8192, .i32⟩ : BufTy).Contents (Elt F)),
    StableHlo.ternary main_v9 main_v15 main_v16 main_v17 ((fun x i u => Host.scatter scatter_S64_S8192x1_S8192_n_0_0_1 IntOp.addi x i u) : (⟨S64, .i32⟩ : BufTy).Contents (Elt F) → (⟨S8192x1, .i32⟩ : BufTy).Contents (Elt F) → (⟨S8192, .i32⟩ : BufTy).Contents (Elt F) → (⟨S64, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v17 : StableHlo.TRef sig ⟨S64, .i32⟩) main_call1.call0.v0 main_call1.call0.v1 (fun x v => Host.reduceWindow IntOp.addi ![64] ![1] ![63] ![0] x v reduceWindows_S64_S64_w64s1p63_0 h_S_),
    StableHlo.binary main_v18 main_v17 main_v19 (subi : (⟨S64, .i32⟩ : BufTy).Contents (Elt F) → (⟨S64, .i32⟩ : BufTy).Contents (Elt F) → (⟨S64, .i32⟩ : BufTy).Contents (Elt F)),
    StableHlo.nullary main_v20 (iotaInDim S8192 32 0),
    StableHlo.nullary main_c_5 (constantI S_ 32 0#32),
    StableHlo.unary main_c_5 main_v21 (broadcastInDim S8192 ![] bcast_S_S8192 : (⟨S_, .i32⟩ : BufTy).Contents (Elt F) → (⟨S8192, .i32⟩ : BufTy).Contents (Elt F)),
    StableHlo.binary main_v8 main_v21 main_v22 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 64#32),
    StableHlo.unary main_c_6 main_v23 (broadcastInDim S8192 ![] bcast_S_S8192 : (⟨S_, .i32⟩ : BufTy).Contents (Elt F) → (⟨S8192, .i32⟩ : BufTy).Contents (Elt F)),
    StableHlo.binary main_v8 main_v23 main_v24 (addi : (⟨S8192, .i32⟩ : BufTy).Contents (Elt F) → (⟨S8192, .i32⟩ : BufTy).Contents (Elt F) → (⟨S8192, .i32⟩ : BufTy).Contents (Elt F)),
    StableHlo.ternary main_v22 main_v24 main_v8 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.binary main_v19 main_v26 main_v27 ((fun x i => Host.gather gather_S64_S8192x1_S8192_n_0_n_n_0_1_1 x i) : (⟨S64, .i32⟩ : BufTy).Contents (Elt F) → (⟨S8192x1, .i32⟩ : BufTy).Contents (Elt F) → (⟨S8192, .i32⟩ : BufTy).Contents (Elt F)),
    StableHlo.binary main_v20 main_v27 main_v28 (subi : (⟨S8192, .i32⟩ : BufTy).Contents (Elt F) → (⟨S8192, .i32⟩ : BufTy).Contents (Elt F) → (⟨S8192, .i32⟩ : BufTy).Contents (Elt F)),
    StableHlo.nullary main_c_7 (constantI S_ 32 8#32),
    StableHlo.TRef.unary (.of main_c_7 : StableHlo.TRef sig ⟨S_, .i32⟩) main_call2.v0 id,
    StableHlo.TRef.unary main_call2.v0 main_call2.v1 (broadcastInDim S8192 ![] bcast_S_S8192),
    StableHlo.TRef.binary (.of main_v1 : StableHlo.TRef sig ⟨S8192, .i32⟩) main_call2.v1 main_call2.v2 Host.divsi,
    StableHlo.TRef.unary (.of main_v1 : StableHlo.TRef sig ⟨S8192, .i32⟩) main_call2.v3 signi,
    StableHlo.TRef.unary main_call2.v0 main_call2.v4 signi,
    StableHlo.TRef.unary main_call2.v4 main_call2.v5 (broadcastInDim S8192 ![] bcast_S_S8192),
    StableHlo.TRef.binary main_call2.v3 main_call2.v5 main_call2.v6 (cmpi .ne),
    StableHlo.TRef.unary main_call2.v0 main_call2.v7 (broadcastInDim S8192 ![] bcast_S_S8192),
    StableHlo.TRef.binary (.of main_v1 : StableHlo.TRef sig ⟨S8192, .i32⟩) main_call2.v7 main_call2.v8 Host.remsi,
    StableHlo.TRef.nullary main_call2.c (constantI S_ 32 0#32),
    StableHlo.TRef.unary main_call2.c main_call2.v9 (broadcastInDim S8192 ![] bcast_S_S8192),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S8192 ![] bcast_S_S8192),
    StableHlo.TRef.binary main_call2.v2 main_call2.v12 main_call2.v13 subi,
    StableHlo.TRef.ternary main_call2.v11 main_call2.v13 main_call2.v2 main_call2.call0.v0 select,
    StableHlo.nullary main_c_8 (constantI S_ 32 0#32),
    StableHlo.unary main_c_8 main_v30 (broadcastInDim S8192 ![] bcast_S_S8192 : (⟨S_, .i32⟩ : BufTy).Contents (Elt F) → (⟨S8192, .i32⟩ : BufTy).Contents (Elt F)),
    StableHlo.binary main_v29 main_v30 main_v31 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 1024#32),
    StableHlo.unary main_c_9 main_v32 (broadcastInDim S8192 ![] bcast_S_S8192 : (⟨S_, .i32⟩ : BufTy).Contents (Elt F) → (⟨S8192, .i32⟩ : BufTy).Contents (Elt F)),
    StableHlo.binary main_v29 main_v32 main_v33 (addi : (⟨S8192, .i32⟩ : BufTy).Contents (Elt F) → (⟨S8192, .i32⟩ : BufTy).Contents (Elt F) → (⟨S8192, .i32⟩ : BufTy).Contents (Elt F)),
    StableHlo.ternary main_v31 main_v33 main_v29 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v34 main_v35 (broadcastInDim S8192x1 ![0] bcast_S8192_S8192x1_0 : (⟨S8192, .i32⟩ : BufTy).Contents (Elt F) → (⟨S8192x1, .i32⟩ : BufTy).Contents (Elt F)),
    StableHlo.binary main_arg0 main_v35 main_v36 ((fun x i => Host.gather gather_S1024x1024_S8192x1_S8192x1024_1_0_n_n_0_1_11024 x i) : (⟨S1024x1024, .f32⟩ : BufTy).Contents (Elt F) → (⟨S8192x1, .i32⟩ : BufTy).Contents (Elt F) → (⟨S8192x1024, .f32⟩ : BufTy).Contents (Elt F)),
    StableHlo.nullary main_cst (constant S_ .f32 0x00000000#32),
    StableHlo.unary main_cst main_v37 (broadcastInDim S64x512x1024 ![] bcast_S_S64x512x1024 : (⟨S_, .f32⟩ : BufTy).Contents (Elt F) → (⟨S64x512x1024, .f32⟩ : BufTy).Contents (Elt F)),
    StableHlo.nullary main_c_10 (constantI S_ 32 0#32),
    StableHlo.unary main_c_10 main_v38 (broadcastInDim S8192 ![] bcast_S_S8192 : (⟨S_, .i32⟩ : BufTy).Contents (Elt F) → (⟨S8192, .i32⟩ : BufTy).Contents (Elt F)),
    StableHlo.binary main_v8 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 64#32),
    StableHlo.unary main_c_11 main_v40 (broadcastInDim S8192 ![] bcast_S_S8192 : (⟨S_, .i32⟩ : BufTy).Contents (Elt F) → (⟨S8192, .i32⟩ : BufTy).Contents (Elt F)),
    StableHlo.binary main_v8 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v8 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_12 (constantI S_ 32 0#32),
    StableHlo.unary main_c_12 main_v43 (broadcastInDim S8192 ![] bcast_S_S8192 : (⟨S_, .i32⟩ : BufTy).Contents (Elt F) → (⟨S8192, .i32⟩ : BufTy).Contents (Elt F)),
    StableHlo.binary main_v28 main_v43 main_v44 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 512#32),
    StableHlo.unary main_c_13 main_v45 (broadcastInDim S8192 ![] bcast_S_S8192 : (⟨S_, .i32⟩ : BufTy).Contents (Elt F) → (⟨S8192, .i32⟩ : BufTy).Contents (Elt F)),
    StableHlo.binary main_v28 main_v45 main_v46 (addi : (⟨S8192, .i32⟩ : BufTy).Contents (Elt F) → (⟨S8192, .i32⟩ : BufTy).Contents (Elt F) → (⟨S8192, .i32⟩ : BufTy).Contents (Elt F)),
    StableHlo.ternary main_v44 main_v46 main_v28 main_v47 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v42 main_v48 (broadcastInDim S8192x1 ![0] bcast_S8192_S8192x1_0 : (⟨S8192, .i32⟩ : BufTy).Contents (Elt F) → (⟨S8192x1, .i32⟩ : BufTy).Contents (Elt F)),
    StableHlo.unary main_v47 main_v49 (broadcastInDim S8192x1 ![0] bcast_S8192_S8192x1_0 : (⟨S8192, .i32⟩ : BufTy).Contents (Elt F) → (⟨S8192x1, .i32⟩ : BufTy).Contents (Elt F)),
    StableHlo.binary main_v48 main_v49 main_v50 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v37 main_v50 main_v36 main_v51 ((fun x i u => Host.scatter scatter_S64x512x1024_S8192x2_S8192x1024_1_01_01_1 (fun _ b => b) x i u) : (⟨S64x512x1024, .f32⟩ : BufTy).Contents (Elt F) → (⟨S8192x2, .i32⟩ : BufTy).Contents (Elt F) → (⟨S8192x1024, .f32⟩ : BufTy).Contents (Elt F) → (⟨S64x512x1024, .f32⟩ : BufTy).Contents (Elt F)),
    StableHlo.binary main_v51 main_arg3 main_v52 ((fun l r => Host.dotGeneral dot_S64x512x1024_S64x1536x1024_S64x512x1536_2_2_1_1_0_0 none l r) : (⟨S64x512x1024, .f32⟩ : BufTy).Contents (Elt F) → (⟨S64x1536x1024, .f32⟩ : BufTy).Contents (Elt F) → (⟨S64x512x1536, .f32⟩ : BufTy).Contents (Elt F)),
    StableHlo.unary main_v52 main_v53 ((extractStridedSlice S64x512x768 ![0, 0, 0] · slices_S64x512x1536_S64x512x768_0_0_0) : (⟨S64x512x1536, .f32⟩ : BufTy).Contents (Elt F) → (⟨S64x512x768, .f32⟩ : BufTy).Contents (Elt F)),
    StableHlo.unary main_v52 main_v54 ((extractStridedSlice S64x512x768 ![0, 0, 768] · slices_S64x512x1536_S64x512x768_0_0_768) : (⟨S64x512x1536, .f32⟩ : BufTy).Contents (Elt F) → (⟨S64x512x768, .f32⟩ : BufTy).Contents (Elt F)),
    StableHlo.TRef.unary (.of main_v53 : StableHlo.TRef sig ⟨S64x512x768, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S64x512x768 ![] bcast_S_S64x512x768),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S64x512x768 ![] bcast_S_S64x512x768),
    StableHlo.TRef.binary main_call3.v4 main_call3.v3 main_call3.v5 Host.divf,
    StableHlo.TRef.binary (.of main_v53 : StableHlo.TRef sig ⟨S64x512x768, .f32⟩) main_call3.v5 main_call3.v6 mulf,
    StableHlo.binary main_v55 main_v54 main_v56 (mulf : (⟨S64x512x768, .f32⟩ : BufTy).Contents (Elt F) → (⟨S64x512x768, .f32⟩ : BufTy).Contents (Elt F) → (⟨S64x512x768, .f32⟩ : BufTy).Contents (Elt F)),
    StableHlo.binary main_v56 main_arg4 main_v57 ((fun l r => Host.dotGeneral dot_S64x512x768_S64x1024x768_S64x512x1024_2_2_1_1_0_0 none l r) : (⟨S64x512x768, .f32⟩ : BufTy).Contents (Elt F) → (⟨S64x1024x768, .f32⟩ : BufTy).Contents (Elt F) → (⟨S64x512x1024, .f32⟩ : BufTy).Contents (Elt F)),
    StableHlo.nullary main_c_14 (constantI S_ 32 0#32),
    StableHlo.unary main_c_14 main_v58 (broadcastInDim S8192 ![] bcast_S_S8192 : (⟨S_, .i32⟩ : BufTy).Contents (Elt F) → (⟨S8192, .i32⟩ : BufTy).Contents (Elt F)),
    StableHlo.binary main_v8 main_v58 main_v59 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 64#32),
    StableHlo.unary main_c_15 main_v60 (broadcastInDim S8192 ![] bcast_S_S8192 : (⟨S_, .i32⟩ : BufTy).Contents (Elt F) → (⟨S8192, .i32⟩ : BufTy).Contents (Elt F)),
    StableHlo.binary main_v8 main_v60 main_v61 (addi : (⟨S8192, .i32⟩ : BufTy).Contents (Elt F) → (⟨S8192, .i32⟩ : BufTy).Contents (Elt F) → (⟨S8192, .i32⟩ : BufTy).Contents (Elt F)),
    StableHlo.ternary main_v59 main_v61 main_v8 main_v62 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_16 (constantI S_ 32 0#32),
    StableHlo.unary main_c_16 main_v63 (broadcastInDim S8192 ![] bcast_S_S8192 : (⟨S_, .i32⟩ : BufTy).Contents (Elt F) → (⟨S8192, .i32⟩ : BufTy).Contents (Elt F)),
    StableHlo.binary main_v28 main_v63 main_v64 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 512#32),
    StableHlo.unary main_c_17 main_v65 (broadcastInDim S8192 ![] bcast_S_S8192 : (⟨S_, .i32⟩ : BufTy).Contents (Elt F) → (⟨S8192, .i32⟩ : BufTy).Contents (Elt F)),
    StableHlo.binary main_v28 main_v65 main_v66 (addi : (⟨S8192, .i32⟩ : BufTy).Contents (Elt F) → (⟨S8192, .i32⟩ : BufTy).Contents (Elt F) → (⟨S8192, .i32⟩ : BufTy).Contents (Elt F)),
    StableHlo.ternary main_v64 main_v66 main_v28 main_v67 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v62 main_v68 (broadcastInDim S8192x1 ![0] bcast_S8192_S8192x1_0 : (⟨S8192, .i32⟩ : BufTy).Contents (Elt F) → (⟨S8192x1, .i32⟩ : BufTy).Contents (Elt F)),
    StableHlo.unary main_v67 main_v69 (broadcastInDim S8192x1 ![0] bcast_S8192_S8192x1_0 : (⟨S8192, .i32⟩ : BufTy).Contents (Elt F) → (⟨S8192x1, .i32⟩ : BufTy).Contents (Elt F)),
    StableHlo.binary main_v68 main_v69 main_v70 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.nullary main_c_18 (fun i => lit0 (S2.rowMajor i)),
    StableHlo.nullary main_c_19 (constantI S_ 32 0#32),
    StableHlo.unary main_c_19 main_v71 (broadcastInDim S8192x2 ![] bcast_S_S8192x2 : (⟨S_, .i32⟩ : BufTy).Contents (Elt F) → (⟨S8192x2, .i32⟩ : BufTy).Contents (Elt F)),
    StableHlo.binary main_v70 main_v71 main_v72 (cmpi .sge : (⟨S8192x2, .i32⟩ : BufTy).Contents (Elt F) → (⟨S8192x2, .i32⟩ : BufTy).Contents (Elt F) → (⟨S8192x2, .i1⟩ : BufTy).Contents (Elt F)),
    StableHlo.unary main_c_18 main_v73 (broadcastInDim S1x2 ![1] bcast_S2_S1x2_1 : (⟨S2, .i32⟩ : BufTy).Contents (Elt F) → (⟨S1x2, .i32⟩ : BufTy).Contents (Elt F)),
    StableHlo.unary main_v73 main_v74 (broadcastInDim S8192x2 ![0, 1] bcast_S1x2_S8192x2_0_1 : (⟨S1x2, .i32⟩ : BufTy).Contents (Elt F) → (⟨S8192x2, .i32⟩ : BufTy).Contents (Elt F)),
    StableHlo.binary main_v70 main_v74 main_v75 (cmpi .sle : (⟨S8192x2, .i32⟩ : BufTy).Contents (Elt F) → (⟨S8192x2, .i32⟩ : BufTy).Contents (Elt F) → (⟨S8192x2, .i1⟩ : BufTy).Contents (Elt F)),
    StableHlo.binary main_v72 main_v75 main_v76 (andi : (⟨S8192x2, .i1⟩ : BufTy).Contents (Elt F) → (⟨S8192x2, .i1⟩ : BufTy).Contents (Elt F) → (⟨S8192x2, .i1⟩ : BufTy).Contents (Elt F)),
    StableHlo.nullary main_c_20 (constantI S_ 1 1#1),
    StableHlo.binary main_v76 main_c_20 main_v77 ((fun x v => Host.reduce IntOp.andi x v reducesTo_S8192x2_S8192_d1 h_S_) : (⟨S8192x2, .i1⟩ : BufTy).Contents (Elt F) → (⟨S_, .i1⟩ : BufTy).Contents (Elt F) → (⟨S8192, .i1⟩ : BufTy).Contents (Elt F)),
    StableHlo.binary main_v57 main_v70 main_v78 ((fun x i => Host.gather gather_S64x512x1024_S8192x2_S8192x1024_1_01_n_n_01_1_111024 x i) : (⟨S64x512x1024, .f32⟩ : BufTy).Contents (Elt F) → (⟨S8192x2, .i32⟩ : BufTy).Contents (Elt F) → (⟨S8192x1024, .f32⟩ : BufTy).Contents (Elt F)),
    StableHlo.unary main_v77 main_v79 (broadcastInDim S8192x1024 ![0] bcast_S8192_S8192x1024_0 : (⟨S8192, .i1⟩ : BufTy).Contents (Elt F) → (⟨S8192x1024, .i1⟩ : BufTy).Contents (Elt F)),
    StableHlo.nullary main_cst_21 (constant S_ .f32 0x00000000#32),
    StableHlo.unary main_cst_21 main_v80 (broadcastInDim S8192x1024 ![] bcast_S_S8192x1024 : (⟨S_, .f32⟩ : BufTy).Contents (Elt F) → (⟨S8192x1024, .f32⟩ : BufTy).Contents (Elt F)),
    StableHlo.ternary main_v79 main_v78 main_v80 main_v81 (select : (⟨S8192x1024, .i1⟩ : BufTy).Contents (Elt F) → (⟨S8192x1024, .f32⟩ : BufTy).Contents (Elt F) → (⟨S8192x1024, .f32⟩ : BufTy).Contents (Elt F) → (⟨S8192x1024, .f32⟩ : BufTy).Contents (Elt F)),
    StableHlo.TRef.nullary main_call4.v0 (iotaInDim S8192 32 0),
    StableHlo.TRef.binary (.of main_v1 : StableHlo.TRef sig ⟨S8192, .i32⟩) main_call4.v0 main_call4.v1_0 (fun x y => (Host.sort2 S8192 0 comparator_i32_i32_d0 x y).1),
    StableHlo.TRef.binary (.of main_v1 : StableHlo.TRef sig ⟨S8192, .i32⟩) main_call4.v0 main_call4.v1_1 (fun x y => (Host.sort2 S8192 0 comparator_i32_i32_d0 x y).2),
    StableHlo.nullary main_c_22 (constantI S_ 32 0#32),
    StableHlo.unary main_c_22 main_v83 (broadcastInDim S8192 ![] bcast_S_S8192 : (⟨S_, .i32⟩ : BufTy).Contents (Elt F) → (⟨S8192, .i32⟩ : BufTy).Contents (Elt F)),
    StableHlo.binary main_v82 main_v83 main_v84 (cmpi .slt : (⟨S8192, .i32⟩ : BufTy).Contents (Elt F) → (⟨S8192, .i32⟩ : BufTy).Contents (Elt F) → (⟨S8192, .i1⟩ : BufTy).Contents (Elt F)),
    StableHlo.nullary main_c_23 (constantI S_ 32 8192#32),
    StableHlo.unary main_c_23 main_v85 (broadcastInDim S8192 ![] bcast_S_S8192 : (⟨S_, .i32⟩ : BufTy).Contents (Elt F) → (⟨S8192, .i32⟩ : BufTy).Contents (Elt F)),
    StableHlo.binary main_v82 main_v85 main_v86 (addi : (⟨S8192, .i32⟩ : BufTy).Contents (Elt F) → (⟨S8192, .i32⟩ : BufTy).Contents (Elt F) → (⟨S8192, .i32⟩ : BufTy).Contents (Elt F)),
    StableHlo.ternary main_v84 main_v86 main_v82 main_v87 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v87 main_v88 (broadcastInDim S8192x1 ![0] bcast_S8192_S8192x1_0 : (⟨S8192, .i32⟩ : BufTy).Contents (Elt F) → (⟨S8192x1, .i32⟩ : BufTy).Contents (Elt F)),
    StableHlo.binary main_v81 main_v88 main_v89 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    StableHlo.reshape main_v89 main_v90 rfl shapeCasts_S8192x1024_S1024x8x1024,
    StableHlo.unary main_arg1 main_v91 (broadcastInDim S1024x8x1 ![0, 1] bcast_S1024x8_S1024x8x1_0_1 : (⟨S1024x8, .f32⟩ : BufTy).Contents (Elt F) → (⟨S1024x8x1, .f32⟩ : BufTy).Contents (Elt F)),
    StableHlo.unary main_v91 main_v92 (broadcastInDim S1024x8x1024 ![0, 1, 2] bcast_S1024x8x1_S1024x8x1024_0_1_2 : (⟨S1024x8x1, .f32⟩ : BufTy).Contents (Elt F) → (⟨S1024x8x1024, .f32⟩ : BufTy).Contents (Elt F)),
    StableHlo.binary main_v90 main_v92 main_v93 (mulf : (⟨S1024x8x1024, .f32⟩ : BufTy).Contents (Elt F) → (⟨S1024x8x1024, .f32⟩ : BufTy).Contents (Elt F) → (⟨S1024x8x1024, .f32⟩ : BufTy).Contents (Elt F)),
    StableHlo.nullary main_cst_24 (constant S_ .f32 0x00000000#32),
    StableHlo.binary main_v93 main_cst_24 main_v94 ((fun x v => Host.reduceAdd x v reducesTo_S1024x8x1024_S1024x1024_d1 h_S_) : (⟨S1024x8x1024, .f32⟩ : BufTy).Contents (Elt F) → (⟨S_, .f32⟩ : BufTy).Contents (Elt F) → (⟨S1024x1024, .f32⟩ : BufTy).Contents (Elt F)) ]

/-- Each operation touches TensorCore references only. -/
theorem ops_sub : (ops : List (HloOp τ sig (Elt F))).Forall fun op => op.bufs ⊆ tcRefs τ sig :=
  ⟨reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., nullary_bufs_sub .., binary_bufs_sub ..⟩

end Cert.ReferenceIdeal.Hand

end
-- ==== Proof.RI.Run.lean ====
import proofs.«126691_j58317065945110_2_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The reference is one straight line of host operations

Sorting the routed pairs by expert, counting, the prefix sums, the scatter into per-expert buffers, the two batched
products around the gated activation, the gather back and the weighted sum over the eight routes: 152 host operations,
no region, no loop. The module-local functions (argsort twice, cumsum, floor_divide, silu) are their lines at the call. -/

set_option maxRecDepth 16384 in
set_option maxHeartbeats 2000000 in
/-- @main is that straight line: the three windows and the functions unfolded at their calls, the records at their
    fields, and the sequencing reassociated. -/
theorem main_eq (c : Dev nD) : main (F := F) c = seq ops := by
  simp only [main, main_part0, main_part1, main_part2, fn_argsort.body, fn_cumsum_0.body, fn_cumsum.body, fn_where.body,
    fn_floor_divide.body, fn_silu.body, seq, bind_assoc, pure_bind]

set_option maxRecDepth 16384 in
theorem scopedRefs_eq : (Finset.univ.filter fun b : Ref sig .tc => b.isScoped) = ∅ := by decide
set_option maxRecDepth 16384 in
theorem scopedSems_eq : (Finset.univ.filter fun sm : SemLoc sig => sm.isScoped .tc) = ∅ := by decide

/-- No operation allocates. -/
theorem ops_fresh : (ops : List (HloOp τ sig (Elt F))).Forall fun op => op.fresh = ∅ := by
  simp only [List.Forall]; repeat' constructor

/-- Every weakly fair execution of the reference terminates, and every final state has each buffer at the fold of the
    operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- No operation writes `main_arg0`. -/
theorem kept_main_arg0 (V : Valuation τ sig (Elt F)) : after ops V (Proc.devRef .tc main_arg0) = V (Proc.devRef .tc main_arg0) :=
  after_of_forall_not_mem (b := Proc.devRef .tc main_arg0) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg1`. -/
theorem kept_main_arg1 (V : Valuation τ sig (Elt F)) : after ops V (Proc.devRef .tc main_arg1) = V (Proc.devRef .tc main_arg1) :=
  after_of_forall_not_mem (b := Proc.devRef .tc main_arg1) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg2`. -/
theorem kept_main_arg2 (V : Valuation τ sig (Elt F)) : after ops V (Proc.devRef .tc main_arg2) = V (Proc.devRef .tc main_arg2) :=
  after_of_forall_not_mem (b := Proc.devRef .tc main_arg2) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg3`. -/
theorem kept_main_arg3 (V : Valuation τ sig (Elt F)) : after ops V (Proc.devRef .tc main_arg3) = V (Proc.devRef .tc main_arg3) :=
  after_of_forall_not_mem (b := Proc.devRef .tc main_arg3) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg4`. -/
theorem kept_main_arg4 (V : Valuation τ sig (Elt F)) : after ops V (Proc.devRef .tc main_arg4) = V (Proc.devRef .tc main_arg4) :=
  after_of_forall_not_mem (b := Proc.devRef .tc main_arg4) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- The reference's frame: it runs to the end, faults nowhere, and leaves its five argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_arg0).trans (kept_main_arg0 _), (h c main_arg1).trans (kept_main_arg1 _), (h c main_arg2).trans (kept_main_arg2 _), (h c main_arg3).trans (kept_main_arg3 _), (h c main_arg4).trans (kept_main_arg4 _)⟩) (run_all m ρ)

end Cert.ReferenceIdeal.Hand

end
-- ==== Proof.V.StagesKer.lean ====
import proofs.«126691_j58317065945110_2_alg».proof.Proof.Gen.KernelIdeal
import Idealize.ShloMosaic.PureOps.Ideal

noncomputable section

namespace Cert.KernelIdeal.Stage

open Cert.KernelIdeal Cert.KernelIdeal.Gen Idealize.ShloMosaic

variable {F : FTy → Type} [FloatOps F]

/-- operation 0: `main_v0`. -/
def st_main_v0 (ids : (⟨S1024x8, .i32⟩ : BufTy).Contents (Elt F)) : (⟨S8192, .i32⟩ : BufTy).Contents (Elt F) :=
  (fun v => shapeCast S8192 v shapeCasts_S1024x8_S8192) ids
/-- operation 1: `main_call0_v0`. -/
def st_main_call0_v0 : (⟨S8192, .i32⟩ : BufTy).Contents (Elt F) :=
  (iotaInDim S8192 32 0)
/-- operation 2: `main_call0_v1_0`. -/
def st_main_call0_v1_0 (ids : (⟨S1024x8, .i32⟩ : BufTy).Contents (Elt F)) : (⟨S8192, .i32⟩ : BufTy).Contents (Elt F) :=
  (fun x y => (Host.sort2 S8192 0 comparator_i32_i32_d0 x y).1) (st_main_v0 (F := F) ids) (st_main_call0_v0 (F := F))
/-- operation 3: `main_v1`. -/
def st_main_v1 (ids : (⟨S1024x8, .i32⟩ : BufTy).Contents (Elt F)) : (⟨S8192, .i32⟩ : BufTy).Contents (Elt F) :=
  (fun x y => (Host.sort2 S8192 0 comparator_i32_i32_d0 x y).2) (st_main_v0 (F := F) ids) (st_main_call0_v0 (F := F))
/-- operation 4: `main_c`. -/
def st_main_c : (⟨S_, .i32⟩ : BufTy).Contents (Elt F) :=
  (constantI S_ 32 0#32)
/-- operation 5: `main_v2`. -/
def st_main_v2 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c (F := F))
/-- operation 6: `main_v3`. -/
def st_main_v3 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v1 (F := F) ids) (st_main_v2 (F := F))
/-- operation 7: `main_c_0`. -/
def st_main_c_0 : (⟨S_, .i32⟩ : BufTy).Contents (Elt F) :=
  (constantI S_ 32 8192#32)
/-- operation 8: `main_v4`. -/
def st_main_v4 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_0 (F := F))
/-- operation 9: `main_v5`. -/
def st_main_v5 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v1 (F := F) ids) (st_main_v4 (F := F))
/-- operation 10: `main_v6`. -/
def st_main_v6 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v3 (F := F) ids) (st_main_v5 (F := F) ids) (st_main_v1 (F := F) ids)
/-- operation 11: `main_v7`. -/
def st_main_v7 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v6 (F := F) ids)
/-- operation 12: `main_v8`. -/
def st_main_v8 (ids : (⟨S1024x8, .i32⟩ : BufTy).Contents (Elt F)) : (⟨S8192, .i32⟩ : BufTy).Contents (Elt F) :=
  ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)) (st_main_v0 (F := F) ids) (st_main_v7 (F := F) ids)
/-- operation 13: `main_c_1`. -/
def st_main_c_1 : (⟨S_, .i32⟩ : BufTy).Contents (Elt F) :=
  (constantI S_ 32 0#32)
/-- operation 14: `main_v9`. -/
def st_main_v9 : (⟨S64, .i32⟩ : BufTy).Contents (Elt F) :=
  (broadcastInDim S64 ![] bcast_S_S64 : (⟨S_, .i32⟩ : BufTy).Contents (Elt F) → (⟨S64, .i32⟩ : BufTy).Contents (Elt F)) (st_main_c_1 (F := F))
/-- operation 15: `main_c_2`. -/
def st_main_c_2 : (⟨S_, .i32⟩ : BufTy).Contents (Elt F) :=
  (constantI S_ 32 0#32)
/-- operation 16: `main_v10`. -/
def st_main_v10 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_2 (F := F))
/-- operation 17: `main_v11`. -/
def st_main_v11 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v0 (F := F) ids) (st_main_v10 (F := F))
/-- operation 18: `main_c_3`. -/
def st_main_c_3 : (⟨S_, .i32⟩ : BufTy).Contents (Elt F) :=
  (constantI S_ 32 64#32)
/-- operation 19: `main_v12`. -/
def st_main_v12 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_3 (F := F))
/-- operation 20: `main_v13`. -/
def st_main_v13 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v0 (F := F) ids) (st_main_v12 (F := F))
/-- operation 21: `main_v14`. -/
def st_main_v14 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v11 (F := F) ids) (st_main_v13 (F := F) ids) (st_main_v0 (F := F) ids)
/-- operation 22: `main_v15`. -/
def st_main_v15 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v14 (F := F) ids)
/-- operation 23: `main_c_4`. -/
def st_main_c_4 : (⟨S_, .i32⟩ : BufTy).Contents (Elt F) :=
  (constantI S_ 32 1#32)
/-- operation 24: `main_v16`. -/
def st_main_v16 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_4 (F := F))
/-- operation 25: `main_v17`. -/
def st_main_v17 (ids : (⟨S1024x8, .i32⟩ : BufTy).Contents (Elt F)) : (⟨S64, .i32⟩ : BufTy).Contents (Elt F) :=
  ((fun x i u => Host.scatter scatter_S64_S8192x1_S8192_n_0_0_1 IntOp.addi x i u) : (⟨S64, .i32⟩ : BufTy).Contents (Elt F) → (⟨S8192x1, .i32⟩ : BufTy).Contents (Elt F) → (⟨S8192, .i32⟩ : BufTy).Contents (Elt F) → (⟨S64, .i32⟩ : BufTy).Contents (Elt F)) (st_main_v9 (F := F)) (st_main_v15 (F := F) ids) (st_main_v16 (F := F))
/-- operation 26: `main_call1_call0_c`. -/
def st_main_call1_call0_c : (⟨S_, .i32⟩ : BufTy).Contents (Elt F) :=
  (constantI S_ 32 0#32)
/-- operation 27: `main_call1_call0_v0`. -/
def st_main_call1_call0_v0 : (⟨S_, .i32⟩ : BufTy).Contents (Elt F) :=
  (broadcastInDim S_ ![] bcast_S_S_) (st_main_call1_call0_c (F := F))
/-- operation 28: `main_v18`. -/
def st_main_v18 (ids : (⟨S1024x8, .i32⟩ : BufTy).Contents (Elt F)) : (⟨S64, .i32⟩ : BufTy).Contents (Elt F) :=
  (fun x v => Host.reduceWindow IntOp.addi ![64] ![1] ![63] ![0] x v reduceWindows_S64_S64_w64s1p63_0 h_S_) (st_main_v17 (F := F) ids) (st_main_call1_call0_v0 (F := F))
/-- operation 29: `main_v19`. -/
def st_main_v19 (ids : (⟨S1024x8, .i32⟩ : BufTy).Contents (Elt F)) : (⟨S64, .i32⟩ : BufTy).Contents (Elt F) :=
  (subi : (⟨S64, .i32⟩ : BufTy).Contents (Elt F) → (⟨S64, .i32⟩ : BufTy).Contents (Elt F) → (⟨S64, .i32⟩ : BufTy).Contents (Elt F)) (st_main_v18 (F := F) ids) (st_main_v17 (F := F) ids)
/-- operation 30: `main_v20`. -/
def st_main_v20 : (⟨S8192, .i32⟩ : BufTy).Contents (Elt F) :=
  (iotaInDim S8192 32 0)
/-- operation 31: `main_c_5`. -/
def st_main_c_5 : (⟨S_, .i32⟩ : BufTy).Contents (Elt F) :=
  (constantI S_ 32 0#32)
/-- operation 32: `main_v21`. -/
def st_main_v21 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_5 (F := F))
/-- operation 33: `main_v22`. -/
def st_main_v22 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v8 (F := F) ids) (st_main_v21 (F := F))
/-- operation 34: `main_c_6`. -/
def st_main_c_6 : (⟨S_, .i32⟩ : BufTy).Contents (Elt F) :=
  (constantI S_ 32 64#32)
/-- operation 35: `main_v23`. -/
def st_main_v23 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_6 (F := F))
/-- operation 36: `main_v24`. -/
def st_main_v24 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v8 (F := F) ids) (st_main_v23 (F := F))
/-- operation 37: `main_v25`. -/
def st_main_v25 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v22 (F := F) ids) (st_main_v24 (F := F) ids) (st_main_v8 (F := F) ids)
/-- operation 38: `main_v26`. -/
def st_main_v26 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v25 (F := F) ids)
/-- operation 39: `main_v27`. -/
def st_main_v27 (ids : (⟨S1024x8, .i32⟩ : BufTy).Contents (Elt F)) : (⟨S8192, .i32⟩ : BufTy).Contents (Elt F) :=
  ((fun x i => Host.gather gather_S64_S8192x1_S8192_n_0_n_n_0_1_1 x i) : (⟨S64, .i32⟩ : BufTy).Contents (Elt F) → (⟨S8192x1, .i32⟩ : BufTy).Contents (Elt F) → (⟨S8192, .i32⟩ : BufTy).Contents (Elt F)) (st_main_v19 (F := F) ids) (st_main_v26 (F := F) ids)
/-- operation 40: `main_v28`. -/
def st_main_v28 (ids : (⟨S1024x8, .i32⟩ : BufTy).Contents (Elt F)) : (⟨S8192, .i32⟩ : BufTy).Contents (Elt F) :=
  (subi : (⟨S8192, .i32⟩ : BufTy).Contents (Elt F) → (⟨S8192, .i32⟩ : BufTy).Contents (Elt F) → (⟨S8192, .i32⟩ : BufTy).Contents (Elt F)) (st_main_v20 (F := F)) (st_main_v27 (F := F) ids)
/-- operation 41: `main_c_7`. -/
def st_main_c_7 : (⟨S_, .i32⟩ : BufTy).Contents (Elt F) :=
  (constantI S_ 32 8#32)
/-- operation 42: `main_call2_v0`. -/
def st_main_call2_v0 : (⟨S_, .i32⟩ : BufTy).Contents (Elt F) :=
  id (st_main_c_7 (F := F))
/-- operation 43: `main_call2_v1`. -/
def st_main_call2_v1 : (⟨S8192, .i32⟩ : BufTy).Contents (Elt F) :=
  (broadcastInDim S8192 ![] bcast_S_S8192) (st_main_call2_v0 (F := F))
/-- operation 44: `main_call2_v2`. -/
def st_main_call2_v2 (ids : (⟨S1024x8, .i32⟩ : BufTy).Contents (Elt F)) : (⟨S8192, .i32⟩ : BufTy).Contents (Elt F) :=
  Host.divsi (st_main_v1 (F := F) ids) (st_main_call2_v1 (F := F))
/-- operation 45: `main_call2_v3`. -/
def st_main_call2_v3 (ids : (⟨S1024x8, .i32⟩ : BufTy).Contents (Elt F)) : (⟨S8192, .i32⟩ : BufTy).Contents (Elt F) :=
  signi (st_main_v1 (F := F) ids)
/-- operation 46: `main_call2_v4`. -/
def st_main_call2_v4 : (⟨S_, .i32⟩ : BufTy).Contents (Elt F) :=
  signi (st_main_call2_v0 (F := F))
/-- operation 47: `main_call2_v5`. -/
def st_main_call2_v5 : (⟨S8192, .i32⟩ : BufTy).Contents (Elt F) :=
  (broadcastInDim S8192 ![] bcast_S_S8192) (st_main_call2_v4 (F := F))
/-- operation 48: `main_call2_v6`. -/
def st_main_call2_v6 (ids : (⟨S1024x8, .i32⟩ : BufTy).Contents (Elt F)) : (⟨S8192, .i1⟩ : BufTy).Contents (Elt F) :=
  (cmpi .ne) (st_main_call2_v3 (F := F) ids) (st_main_call2_v5 (F := F))
/-- operation 49: `main_call2_v7`. -/
def st_main_call2_v7 : (⟨S8192, .i32⟩ : BufTy).Contents (Elt F) :=
  (broadcastInDim S8192 ![] bcast_S_S8192) (st_main_call2_v0 (F := F))
/-- operation 50: `main_call2_v8`. -/
def st_main_call2_v8 (ids : (⟨S1024x8, .i32⟩ : BufTy).Contents (Elt F)) : (⟨S8192, .i32⟩ : BufTy).Contents (Elt F) :=
  Host.remsi (st_main_v1 (F := F) ids) (st_main_call2_v7 (F := F))
/-- operation 51: `main_call2_c`. -/
def st_main_call2_c : (⟨S_, .i32⟩ : BufTy).Contents (Elt F) :=
  (constantI S_ 32 0#32)
/-- operation 52: `main_call2_v9`. -/
def st_main_call2_v9 : (⟨S8192, .i32⟩ : BufTy).Contents (Elt F) :=
  (broadcastInDim S8192 ![] bcast_S_S8192) (st_main_call2_c (F := F))
/-- operation 53: `main_call2_v10`. -/
def st_main_call2_v10 (ids : (⟨S1024x8, .i32⟩ : BufTy).Contents (Elt F)) : (⟨S8192, .i1⟩ : BufTy).Contents (Elt F) :=
  (cmpi .ne) (st_main_call2_v8 (F := F) ids) (st_main_call2_v9 (F := F))
/-- operation 54: `main_call2_v11`. -/
def st_main_call2_v11 (ids : (⟨S1024x8, .i32⟩ : BufTy).Contents (Elt F)) : (⟨S8192, .i1⟩ : BufTy).Contents (Elt F) :=
  andi (st_main_call2_v6 (F := F) ids) (st_main_call2_v10 (F := F) ids)
/-- operation 55: `main_call2_c_0`. -/
def st_main_call2_c_0 : (⟨S_, .i32⟩ : BufTy).Contents (Elt F) :=
  (constantI S_ 32 1#32)
/-- operation 56: `main_call2_v12`. -/
def st_main_call2_v12 : (⟨S8192, .i32⟩ : BufTy).Contents (Elt F) :=
  (broadcastInDim S8192 ![] bcast_S_S8192) (st_main_call2_c_0 (F := F))
/-- operation 57: `main_call2_v13`. -/
def st_main_call2_v13 (ids : (⟨S1024x8, .i32⟩ : BufTy).Contents (Elt F)) : (⟨S8192, .i32⟩ : BufTy).Contents (Elt F) :=
  subi (st_main_call2_v2 (F := F) ids) (st_main_call2_v12 (F := F))
/-- operation 58: `main_v29`. -/
def st_main_v29 (ids : (⟨S1024x8, .i32⟩ : BufTy).Contents (Elt F)) : (⟨S8192, .i32⟩ : BufTy).Contents (Elt F) :=
  select (st_main_call2_v11 (F := F) ids) (st_main_call2_v13 (F := F) ids) (st_main_call2_v2 (F := F) ids)
/-- operation 59: `main_c_8`. -/
def st_main_c_8 : (⟨S_, .i32⟩ : BufTy).Contents (Elt F) :=
  (constantI S_ 32 0#32)
/-- operation 60: `main_v30`. -/
def st_main_v30 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_8 (F := F))
/-- operation 61: `main_v31`. -/
def st_main_v31 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v29 (F := F) ids) (st_main_v30 (F := F))
/-- operation 62: `main_c_9`. -/
def st_main_c_9 : (⟨S_, .i32⟩ : BufTy).Contents (Elt F) :=
  (constantI S_ 32 1024#32)
/-- operation 63: `main_v32`. -/
def st_main_v32 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_9 (F := F))
/-- operation 64: `main_v33`. -/
def st_main_v33 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v29 (F := F) ids) (st_main_v32 (F := F))
/-- operation 65: `main_v34`. -/
def st_main_v34 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v31 (F := F) ids) (st_main_v33 (F := F) ids) (st_main_v29 (F := F) ids)
/-- operation 66: `main_v35`. -/
def st_main_v35 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v34 (F := F) ids)
/-- operation 67: `main_v36`. -/
def st_main_v36 (x : (⟨S1024x1024, .f32⟩ : BufTy).Contents (Elt F)) (ids : (⟨S1024x8, .i32⟩ : BufTy).Contents (Elt F)) : (⟨S8192x1024, .f32⟩ : BufTy).Contents (Elt F) :=
  ((fun x i => Host.gather gather_S1024x1024_S8192x1_S8192x1024_1_0_n_n_0_1_11024 x i) : (⟨S1024x1024, .f32⟩ : BufTy).Contents (Elt F) → (⟨S8192x1, .i32⟩ : BufTy).Contents (Elt F) → (⟨S8192x1024, .f32⟩ : BufTy).Contents (Elt F)) x (st_main_v35 (F := F) ids)
/-- operation 68: `main_cst`. -/
def st_main_cst : (⟨S_, .bf16⟩ : BufTy).Contents (Elt F) :=
  (constant (F := F) S_ .bf16 0x0000#16)
/-- operation 69: `main_v37`. -/
def st_main_v37 : (⟨S64x512x1024, .bf16⟩ : BufTy).Contents (Elt F) :=
  (broadcastInDim S64x512x1024 ![] bcast_S_S64x512x1024 : (⟨S_, .bf16⟩ : BufTy).Contents (Elt F) → (⟨S64x512x1024, .bf16⟩ : BufTy).Contents (Elt F)) (st_main_cst (F := F))
/-- operation 70: `main_v38`. -/
def st_main_v38 (x : (⟨S1024x1024, .f32⟩ : BufTy).Contents (Elt F)) (ids : (⟨S1024x8, .i32⟩ : BufTy).Contents (Elt F)) : (⟨S8192x1024, .bf16⟩ : BufTy).Contents (Elt F) :=
  ((truncf .bf16 · bitsLt_bf16_f32) : (⟨S8192x1024, .f32⟩ : BufTy).Contents (Elt F) → (⟨S8192x1024, .bf16⟩ : BufTy).Contents (Elt F)) (st_main_v36 (F := F) x ids)
/-- operation 71: `main_c_10`. -/
def st_main_c_10 : (⟨S_, .i32⟩ : BufTy).Contents (Elt F) :=
  (constantI S_ 32 0#32)
/-- operation 72: `main_v39`. -/
def st_main_v39 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_10 (F := F))
/-- operation 73: `main_v40`. -/
def st_main_v40 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v8 (F := F) ids) (st_main_v39 (F := F))
/-- operation 74: `main_c_11`. -/
def st_main_c_11 : (⟨S_, .i32⟩ : BufTy).Contents (Elt F) :=
  (constantI S_ 32 64#32)
/-- operation 75: `main_v41`. -/
def st_main_v41 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_11 (F := F))
/-- operation 76: `main_v42`. -/
def st_main_v42 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v8 (F := F) ids) (st_main_v41 (F := F))
/-- operation 77: `main_v43`. -/
def st_main_v43 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v40 (F := F) ids) (st_main_v42 (F := F) ids) (st_main_v8 (F := F) ids)
/-- operation 78: `main_c_12`. -/
def st_main_c_12 : (⟨S_, .i32⟩ : BufTy).Contents (Elt F) :=
  (constantI S_ 32 0#32)
/-- operation 79: `main_v44`. -/
def st_main_v44 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_12 (F := F))
/-- operation 80: `main_v45`. -/
def st_main_v45 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v28 (F := F) ids) (st_main_v44 (F := F))
/-- operation 81: `main_c_13`. -/
def st_main_c_13 : (⟨S_, .i32⟩ : BufTy).Contents (Elt F) :=
  (constantI S_ 32 512#32)
/-- operation 82: `main_v46`. -/
def st_main_v46 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_13 (F := F))
/-- operation 83: `main_v47`. -/
def st_main_v47 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v28 (F := F) ids) (st_main_v46 (F := F))
/-- operation 84: `main_v48`. -/
def st_main_v48 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v45 (F := F) ids) (st_main_v47 (F := F) ids) (st_main_v28 (F := F) ids)
/-- operation 85: `main_v49`. -/
def st_main_v49 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v43 (F := F) ids)
/-- operation 86: `main_v50`. -/
def st_main_v50 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v48 (F := F) ids)
/-- operation 87: `main_v51`. -/
def st_main_v51 (ids : (⟨S1024x8, .i32⟩ : BufTy).Contents (Elt F)) : (⟨S8192x2, .i32⟩ : BufTy).Contents (Elt F) :=
  ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) (st_main_v49 (F := F) ids) (st_main_v50 (F := F) ids)
/-- operation 88: `main_v52`. -/
def st_main_v52 (x : (⟨S1024x1024, .f32⟩ : BufTy).Contents (Elt F)) (ids : (⟨S1024x8, .i32⟩ : BufTy).Contents (Elt F)) : (⟨S64x512x1024, .bf16⟩ : BufTy).Contents (Elt F) :=
  ((fun x i u => Host.scatter scatter_S64x512x1024_S8192x2_S8192x1024_1_01_01_1 (fun _ b => b) x i u) : (⟨S64x512x1024, .bf16⟩ : BufTy).Contents (Elt F) → (⟨S8192x2, .i32⟩ : BufTy).Contents (Elt F) → (⟨S8192x1024, .bf16⟩ : BufTy).Contents (Elt F) → (⟨S64x512x1024, .bf16⟩ : BufTy).Contents (Elt F)) (st_main_v37 (F := F)) (st_main_v51 (F := F) ids) (st_main_v38 (F := F) x ids)
/-- operation 89: `main_v53`. -/
def st_main_v53 (w1 : (⟨S64x1536x1024, .f32⟩ : BufTy).Contents (Elt F)) : (⟨S64x1024x1536, .f32⟩ : BufTy).Contents (Elt F) :=
  ((transpose S64x1024x1536 [0, 2, 1] · transposes_S64x1536x1024_S64x1024x1536_0_2_1) : (⟨S64x1536x1024, .f32⟩ : BufTy).Contents (Elt F) → (⟨S64x1024x1536, .f32⟩ : BufTy).Contents (Elt F)) w1
/-- operation 90: `main_v54`. -/
def st_main_v54 (w1 : (⟨S64x1536x1024, .f32⟩ : BufTy).Contents (Elt F)) : (⟨S64x1024x1536, .bf16⟩ : BufTy).Contents (Elt F) :=
  ((truncf .bf16 · bitsLt_bf16_f32) : (⟨S64x1024x1536, .f32⟩ : BufTy).Contents (Elt F) → (⟨S64x1024x1536, .bf16⟩ : BufTy).Contents (Elt F)) (st_main_v53 (F := F) w1)
/-- operation 91: `main_v55`. -/
def st_main_v55 (w2 : (⟨S64x1024x768, .f32⟩ : BufTy).Contents (Elt F)) : (⟨S64x768x1024, .f32⟩ : BufTy).Contents (Elt F) :=
  ((transpose S64x768x1024 [0, 2, 1] · transposes_S64x1024x768_S64x768x1024_0_2_1) : (⟨S64x1024x768, .f32⟩ : BufTy).Contents (Elt F) → (⟨S64x768x1024, .f32⟩ : BufTy).Contents (Elt F)) w2
/-- operation 92: `main_v56`. -/
def st_main_v56 (w2 : (⟨S64x1024x768, .f32⟩ : BufTy).Contents (Elt F)) : (⟨S64x768x1024, .bf16⟩ : BufTy).Contents (Elt F) :=
  ((truncf .bf16 · bitsLt_bf16_f32) : (⟨S64x768x1024, .f32⟩ : BufTy).Contents (Elt F) → (⟨S64x768x1024, .bf16⟩ : BufTy).Contents (Elt F)) (st_main_v55 (F := F) w2)
/-- operation 93: `main_c_14`. -/
def tl_main_c_14 : (⟨S_, .i32⟩ : BufTy).Contents (Elt F) :=
  (constantI S_ 32 0#32)
/-- operation 94: `main_v58`. -/
def tl_main_v58 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_14 (F := F))
/-- operation 95: `main_v59`. -/
def tl_main_v59 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v8 (F := F) ids) (tl_main_v58 (F := F))
/-- operation 96: `main_c_15`. -/
def tl_main_c_15 : (⟨S_, .i32⟩ : BufTy).Contents (Elt F) :=
  (constantI S_ 32 64#32)
/-- operation 97: `main_v60`. -/
def tl_main_v60 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_15 (F := F))
/-- operation 98: `main_v61`. -/
def tl_main_v61 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v8 (F := F) ids) (tl_main_v60 (F := F))
/-- operation 99: `main_v62`. -/
def tl_main_v62 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (tl_main_v59 (F := F) ids) (tl_main_v61 (F := F) ids) (st_main_v8 (F := F) ids)
/-- operation 100: `main_c_16`. -/
def tl_main_c_16 : (⟨S_, .i32⟩ : BufTy).Contents (Elt F) :=
  (constantI S_ 32 0#32)
/-- operation 101: `main_v63`. -/
def tl_main_v63 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_16 (F := F))
/-- operation 102: `main_v64`. -/
def tl_main_v64 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v28 (F := F) ids) (tl_main_v63 (F := F))
/-- operation 103: `main_c_17`. -/
def tl_main_c_17 : (⟨S_, .i32⟩ : BufTy).Contents (Elt F) :=
  (constantI S_ 32 512#32)
/-- operation 104: `main_v65`. -/
def tl_main_v65 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_17 (F := F))
/-- operation 105: `main_v66`. -/
def tl_main_v66 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v28 (F := F) ids) (tl_main_v65 (F := F))
/-- operation 106: `main_v67`. -/
def tl_main_v67 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (tl_main_v64 (F := F) ids) (tl_main_v66 (F := F) ids) (st_main_v28 (F := F) ids)
/-- operation 107: `main_v68`. -/
def tl_main_v68 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (tl_main_v62 (F := F) ids)
/-- operation 108: `main_v69`. -/
def tl_main_v69 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (tl_main_v67 (F := F) ids)
/-- operation 109: `main_v70`. -/
def tl_main_v70 (ids : (⟨S1024x8, .i32⟩ : BufTy).Contents (Elt F)) : (⟨S8192x2, .i32⟩ : BufTy).Contents (Elt F) :=
  ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) (tl_main_v68 (F := F) ids) (tl_main_v69 (F := F) ids)
/-- operation 110: `main_c_18`. -/
def tl_main_c_18 : (⟨S2, .i32⟩ : BufTy).Contents (Elt F) :=
  (fun i => lit0 (S2.rowMajor i))
/-- operation 111: `main_c_19`. -/
def tl_main_c_19 : (⟨S_, .i32⟩ : BufTy).Contents (Elt F) :=
  (constantI S_ 32 0#32)
/-- operation 112: `main_v71`. -/
def tl_main_v71 : (⟨S8192x2, .i32⟩ : BufTy).Contents (Elt F) :=
  (broadcastInDim S8192x2 ![] bcast_S_S8192x2 : (⟨S_, .i32⟩ : BufTy).Contents (Elt F) → (⟨S8192x2, .i32⟩ : BufTy).Contents (Elt F)) (tl_main_c_19 (F := F))
/-- operation 113: `main_v72`. -/
def tl_main_v72 (ids : (⟨S1024x8, .i32⟩ : BufTy).Contents (Elt F)) : (⟨S8192x2, .i1⟩ : BufTy).Contents (Elt F) :=
  (cmpi .sge : (⟨S8192x2, .i32⟩ : BufTy).Contents (Elt F) → (⟨S8192x2, .i32⟩ : BufTy).Contents (Elt F) → (⟨S8192x2, .i1⟩ : BufTy).Contents (Elt F)) (tl_main_v70 (F := F) ids) (tl_main_v71 (F := F))
/-- operation 114: `main_v73`. -/
def tl_main_v73 : (⟨S1x2, .i32⟩ : BufTy).Contents (Elt F) :=
  (broadcastInDim S1x2 ![1] bcast_S2_S1x2_1 : (⟨S2, .i32⟩ : BufTy).Contents (Elt F) → (⟨S1x2, .i32⟩ : BufTy).Contents (Elt F)) (tl_main_c_18 (F := F))
/-- operation 115: `main_v74`. -/
def tl_main_v74 : (⟨S8192x2, .i32⟩ : BufTy).Contents (Elt F) :=
  (broadcastInDim S8192x2 ![0, 1] bcast_S1x2_S8192x2_0_1 : (⟨S1x2, .i32⟩ : BufTy).Contents (Elt F) → (⟨S8192x2, .i32⟩ : BufTy).Contents (Elt F)) (tl_main_v73 (F := F))
/-- operation 116: `main_v75`. -/
def tl_main_v75 (ids : (⟨S1024x8, .i32⟩ : BufTy).Contents (Elt F)) : (⟨S8192x2, .i1⟩ : BufTy).Contents (Elt F) :=
  (cmpi .sle : (⟨S8192x2, .i32⟩ : BufTy).Contents (Elt F) → (⟨S8192x2, .i32⟩ : BufTy).Contents (Elt F) → (⟨S8192x2, .i1⟩ : BufTy).Contents (Elt F)) (tl_main_v70 (F := F) ids) (tl_main_v74 (F := F))
/-- operation 117: `main_v76`. -/
def tl_main_v76 (ids : (⟨S1024x8, .i32⟩ : BufTy).Contents (Elt F)) : (⟨S8192x2, .i1⟩ : BufTy).Contents (Elt F) :=
  (andi : (⟨S8192x2, .i1⟩ : BufTy).Contents (Elt F) → (⟨S8192x2, .i1⟩ : BufTy).Contents (Elt F) → (⟨S8192x2, .i1⟩ : BufTy).Contents (Elt F)) (tl_main_v72 (F := F) ids) (tl_main_v75 (F := F) ids)
/-- operation 118: `main_c_20`. -/
def tl_main_c_20 : (⟨S_, .i1⟩ : BufTy).Contents (Elt F) :=
  (constantI S_ 1 1#1)
/-- operation 119: `main_v77`. -/
def tl_main_v77 (ids : (⟨S1024x8, .i32⟩ : BufTy).Contents (Elt F)) : (⟨S8192, .i1⟩ : BufTy).Contents (Elt F) :=
  ((fun x v => Host.reduce IntOp.andi x v reducesTo_S8192x2_S8192_d1 h_S_) : (⟨S8192x2, .i1⟩ : BufTy).Contents (Elt F) → (⟨S_, .i1⟩ : BufTy).Contents (Elt F) → (⟨S8192, .i1⟩ : BufTy).Contents (Elt F)) (tl_main_v76 (F := F) ids) (tl_main_c_20 (F := F))
/-- operation 120: `main_v78`. -/
def tl_main_v78 (yb : (⟨S64x512x1024, .bf16⟩ : BufTy).Contents (Elt F)) (ids : (⟨S1024x8, .i32⟩ : BufTy).Contents (Elt F)) : (⟨S8192x1024, .bf16⟩ : BufTy).Contents (Elt F) :=
  ((fun x i => Host.gather gather_S64x512x1024_S8192x2_S8192x1024_1_01_n_n_01_1_111024 x i) : (⟨S64x512x1024, .bf16⟩ : BufTy).Contents (Elt F) → (⟨S8192x2, .i32⟩ : BufTy).Contents (Elt F) → (⟨S8192x1024, .bf16⟩ : BufTy).Contents (Elt F)) yb (tl_main_v70 (F := F) ids)
/-- operation 121: `main_v79`. -/
def tl_main_v79 (ids : (⟨S1024x8, .i32⟩ : BufTy).Contents (Elt F)) : (⟨S8192x1024, .i1⟩ : BufTy).Contents (Elt F) :=
  (broadcastInDim S8192x1024 ![0] bcast_S8192_S8192x1024_0 : (⟨S8192, .i1⟩ : BufTy).Contents (Elt F) → (⟨S8192x1024, .i1⟩ : BufTy).Contents (Elt F)) (tl_main_v77 (F := F) ids)
/-- operation 122: `main_cst_21`. -/
def tl_main_cst_21 : (⟨S_, .bf16⟩ : BufTy).Contents (Elt F) :=
  (constant (F := F) S_ .bf16 0x0000#16)
/-- operation 123: `main_v80`. -/
def tl_main_v80 : (⟨S8192x1024, .bf16⟩ : BufTy).Contents (Elt F) :=
  (broadcastInDim S8192x1024 ![] bcast_S_S8192x1024 : (⟨S_, .bf16⟩ : BufTy).Contents (Elt F) → (⟨S8192x1024, .bf16⟩ : BufTy).Contents (Elt F)) (tl_main_cst_21 (F := F))
/-- operation 124: `main_v81`. -/
def tl_main_v81 (yb : (⟨S64x512x1024, .bf16⟩ : BufTy).Contents (Elt F)) (ids : (⟨S1024x8, .i32⟩ : BufTy).Contents (Elt F)) : (⟨S8192x1024, .bf16⟩ : BufTy).Contents (Elt F) :=
  (select : (⟨S8192x1024, .i1⟩ : BufTy).Contents (Elt F) → (⟨S8192x1024, .bf16⟩ : BufTy).Contents (Elt F) → (⟨S8192x1024, .bf16⟩ : BufTy).Contents (Elt F) → (⟨S8192x1024, .bf16⟩ : BufTy).Contents (Elt F)) (tl_main_v79 (F := F) ids) (tl_main_v78 (F := F) yb ids) (tl_main_v80 (F := F))
/-- operation 125: `main_v82`. -/
def tl_main_v82 (yb : (⟨S64x512x1024, .bf16⟩ : BufTy).Contents (Elt F)) (ids : (⟨S1024x8, .i32⟩ : BufTy).Contents (Elt F)) : (⟨S8192x1024, .f32⟩ : BufTy).Contents (Elt F) :=
  ((extf .f32 · bitsLt_bf16_f32) : (⟨S8192x1024, .bf16⟩ : BufTy).Contents (Elt F) → (⟨S8192x1024, .f32⟩ : BufTy).Contents (Elt F)) (tl_main_v81 (F := F) yb ids)
/-- operation 126: `main_call3_v0`. -/
def tl_main_call3_v0 : (⟨S8192, .i32⟩ : BufTy).Contents (Elt F) :=
  (iotaInDim S8192 32 0)
/-- operation 127: `main_call3_v1_0`. -/
def tl_main_call3_v1_0 (ids : (⟨S1024x8, .i32⟩ : BufTy).Contents (Elt F)) : (⟨S8192, .i32⟩ : BufTy).Contents (Elt F) :=
  (fun x y => (Host.sort2 S8192 0 comparator_i32_i32_d0 x y).1) (st_main_v1 (F := F) ids) (tl_main_call3_v0 (F := F))
/-- operation 128: `main_v83`. -/
def tl_main_v83 (ids : (⟨S1024x8, .i32⟩ : BufTy).Contents (Elt F)) : (⟨S8192, .i32⟩ : BufTy).Contents (Elt F) :=
  (fun x y => (Host.sort2 S8192 0 comparator_i32_i32_d0 x y).2) (st_main_v1 (F := F) ids) (tl_main_call3_v0 (F := F))
/-- operation 129: `main_c_22`. -/
def tl_main_c_22 : (⟨S_, .i32⟩ : BufTy).Contents (Elt F) :=
  (constantI S_ 32 0#32)
/-- operation 130: `main_v84`. -/
def tl_main_v84 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_22 (F := F))
/-- operation 131: `main_v85`. -/
def tl_main_v85 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (tl_main_v83 (F := F) ids) (tl_main_v84 (F := F))
/-- operation 132: `main_c_23`. -/
def tl_main_c_23 : (⟨S_, .i32⟩ : BufTy).Contents (Elt F) :=
  (constantI S_ 32 8192#32)
/-- operation 133: `main_v86`. -/
def tl_main_v86 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_23 (F := F))
/-- operation 134: `main_v87`. -/
def tl_main_v87 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (tl_main_v83 (F := F) ids) (tl_main_v86 (F := F))
/-- operation 135: `main_v88`. -/
def tl_main_v88 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (tl_main_v85 (F := F) ids) (tl_main_v87 (F := F) ids) (tl_main_v83 (F := F) ids)
/-- operation 136: `main_v89`. -/
def tl_main_v89 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (tl_main_v88 (F := F) ids)
/-- operation 137: `main_v90`. -/
def tl_main_v90 (yb : (⟨S64x512x1024, .bf16⟩ : BufTy).Contents (Elt F)) (ids : (⟨S1024x8, .i32⟩ : BufTy).Contents (Elt F)) : (⟨S8192x1024, .f32⟩ : BufTy).Contents (Elt F) :=
  ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)) (tl_main_v82 (F := F) yb ids) (tl_main_v89 (F := F) ids)
/-- operation 138: `main_v91`. -/
def tl_main_v91 (yb : (⟨S64x512x1024, .bf16⟩ : BufTy).Contents (Elt F)) (ids : (⟨S1024x8, .i32⟩ : BufTy).Contents (Elt F)) : (⟨S1024x8x1024, .f32⟩ : BufTy).Contents (Elt F) :=
  (fun v => shapeCast S1024x8x1024 v shapeCasts_S8192x1024_S1024x8x1024) (tl_main_v90 (F := F) yb ids)
/-- operation 139: `main_v92`. -/
def tl_main_v92 (tw : (⟨S1024x8, .f32⟩ : BufTy).Contents (Elt F)) : (⟨S1024x8x1, .f32⟩ : BufTy).Contents (Elt F) :=
  (broadcastInDim S1024x8x1 ![0, 1] bcast_S1024x8_S1024x8x1_0_1 : (⟨S1024x8, .f32⟩ : BufTy).Contents (Elt F) → (⟨S1024x8x1, .f32⟩ : BufTy).Contents (Elt F)) tw
/-- operation 140: `main_v93`. -/
def tl_main_v93 (tw : (⟨S1024x8, .f32⟩ : BufTy).Contents (Elt F)) : (⟨S1024x8x1024, .f32⟩ : BufTy).Contents (Elt F) :=
  (broadcastInDim S1024x8x1024 ![0, 1, 2] bcast_S1024x8x1_S1024x8x1024_0_1_2 : (⟨S1024x8x1, .f32⟩ : BufTy).Contents (Elt F) → (⟨S1024x8x1024, .f32⟩ : BufTy).Contents (Elt F)) (tl_main_v92 (F := F) tw)
/-- operation 141: `main_v94`. -/
def tl_main_v94 (yb : (⟨S64x512x1024, .bf16⟩ : BufTy).Contents (Elt F)) (tw : (⟨S1024x8, .f32⟩ : BufTy).Contents (Elt F)) (ids : (⟨S1024x8, .i32⟩ : BufTy).Contents (Elt F)) : (⟨S1024x8x1024, .f32⟩ : BufTy).Contents (Elt F) :=
  (mulf : (⟨S1024x8x1024, .f32⟩ : BufTy).Contents (Elt F) → (⟨S1024x8x1024, .f32⟩ : BufTy).Contents (Elt F) → (⟨S1024x8x1024, .f32⟩ : BufTy).Contents (Elt F)) (tl_main_v91 (F := F) yb ids) (tl_main_v93 (F := F) tw)
/-- operation 142: `main_cst_24`. -/
def tl_main_cst_24 : (⟨S_, .f32⟩ : BufTy).Contents (Elt F) :=
  (constant (F := F) S_ .f32 0x00000000#32)
/-- operation 143: `main_v95`. -/
def tl_main_v95 (yb : (⟨S64x512x1024, .bf16⟩ : BufTy).Contents (Elt F)) (tw : (⟨S1024x8, .f32⟩ : BufTy).Contents (Elt F)) (ids : (⟨S1024x8, .i32⟩ : BufTy).Contents (Elt F)) : (⟨S1024x1024, .f32⟩ : BufTy).Contents (Elt F) :=
  ((fun x v => Host.reduceAdd x v reducesTo_S1024x8x1024_S1024x1024_d1 h_S_) : (⟨S1024x8x1024, .f32⟩ : BufTy).Contents (Elt F) → (⟨S_, .f32⟩ : BufTy).Contents (Elt F) → (⟨S1024x1024, .f32⟩ : BufTy).Contents (Elt F)) (tl_main_v94 (F := F) yb tw ids) (tl_main_cst_24 (F := F))

end Cert.KernelIdeal.Stage

end
-- ==== Proof.V.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.V.LibTypedRef.lean ====
import Idealize.ShloMosaic.Lib.StableHlo.Run

/-! ## A function applied through identity transports

A host operation of a module-local function is stated over typed references: its function is wrapped in transports
along "this buffer's type is the value's type". At a literal reference both sides of that equation are the same type, so
the transports are the identity; these lemmas say so for an operation with no, one, two or three operands, WITHOUT
looking inside the function. (Closing such a goal by `rfl` instead can send the unifier into the function's body.) -/

namespace Idealize.ShloMosaic.StableHlo

universe u

theorem cast_app₀ {γ : Sort u} (hγ : γ = γ) (c : γ) : cast hγ c = c := rfl

theorem cast_app₁ {α γ : Sort u} (hα : α = α) (hγ : γ = γ) (f : α → γ) (x : α) :
    cast hγ (f (cast hα x)) = f x := rfl

theorem cast_app₂ {α β γ : Sort u} (hα : α = α) (hβ : β = β) (hγ : γ = γ) (f : α → β → γ) (x : α) (y : β) :
    cast hγ (f (cast hα x) (cast hβ y)) = f x y := rfl

theorem cast_app₃ {α β δ γ : Sort u} (hα : α = α) (hβ : β = β) (hδ : δ = δ) (hγ : γ = γ) (f : α → β → δ → γ)
    (x : α) (y : β) (z : δ) : cast hγ (f (cast hα x) (cast hβ y) (cast hδ z)) = f x y z := rfl

end Idealize.ShloMosaic.StableHlo
-- ==== Proof.V.ReadsKer.lean ====
import proofs.«126691_j58317065945110_2_alg».proof.Proof.KI.FrameKit
import proofs.«126691_j58317065945110_2_alg».proof.Proof.V.StagesKer
import proofs.«126691_j58317065945110_2_alg».proof.Proof.V.LibStageRead
import proofs.«126691_j58317065945110_2_alg».proof.Proof.V.LibTypedRef

set_option maxRecDepth 65536

noncomputable section

namespace Cert.KernelIdeal.Reads

open Cert.KernelIdeal Cert.KernelIdeal.Gen Cert.KernelIdeal.Hand Idealize.ShloMosaic Idealize.ShloMosaic.TcCoe Idealize.ShloMosaic.StableHlo

variable {F : FTy → Type} [FloatOps F]

/-- The host operations before the region, and those after it, each as one line. -/
abbrev preOps : List (HloOp τ sig (Elt F)) := List.flatten [hostOps0, hostOps0_1, hostOps0_2, hostOps0_3, hostOps0_4, hostOps0_5, hostOps0_6]
abbrev tailOps : List (HloOp τ sig (Elt F)) := List.flatten [hostOps1, hostOps1_1, hostOps1_2]

/-- The buffers the line writes, in order. -/
abbrev dsts_preOps : List (Ref sig .tc) := [main_v0, main_call0_v0, main_call0_v1_0, main_v1, main_c, main_v2, main_v3, main_c_0, main_v4, main_v5, main_v6, main_v7, main_v8, main_c_1, main_v9, main_c_2, main_v10, main_v11, main_c_3, main_v12, main_v13, main_v14, main_v15, main_c_4, main_v16, main_v17, main_call1_call0_c, main_call1_call0_v0, main_v18, main_v19, main_v20, main_c_5, main_v21, main_v22, main_c_6, main_v23, main_v24, main_v25, main_v26, main_v27, main_v28, main_c_7, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v29, main_c_8, main_v30, main_v31, main_c_9, main_v32, main_v33, main_v34, main_v35, main_v36, main_cst, main_v37, main_v38, main_c_10, main_v39, main_v40, main_c_11, main_v41, main_v42, main_v43, main_c_12, main_v44, main_v45, main_c_13, main_v46, main_v47, main_v48, main_v49, main_v50, main_v51, main_v52, main_v53, main_v54, main_v55, main_v56]
theorem writes_preOps : WritesAre (preOps (F := F)) dsts_preOps := by
  unfold WritesAre
  simp only [hostOps0, hostOps0_1, hostOps0_2, hostOps0_3, hostOps0_4, hostOps0_5, hostOps0_6, hostOps1, hostOps1_1, hostOps1_2, List.flatten_cons, List.flatten_nil, List.append_nil, List.cons_append, List.nil_append]
  repeat' constructor
  all_goals simp only [nullary_writes, unary_writes, binary_writes, ternary_writes, quaternary_writes, reshape_writes, binaryIndexed_writes, Finset.Subset.refl]

theorem keep_preOps_main_arg0 (V : Valuation τ sig (Elt F)) : after (preOps (F := F)) V (Proc.devRef .tc main_arg0) = V (Proc.devRef .tc main_arg0) :=
  after_keep_from writes_preOps 0 (by decide) V
theorem keep_preOps_main_arg2 (V : Valuation τ sig (Elt F)) : after (preOps (F := F)) V (Proc.devRef .tc main_arg2) = V (Proc.devRef .tc main_arg2) :=
  after_keep_from writes_preOps 0 (by decide) V
theorem keep_preOps_main_arg3 (V : Valuation τ sig (Elt F)) : after (preOps (F := F)) V (Proc.devRef .tc main_arg3) = V (Proc.devRef .tc main_arg3) :=
  after_keep_from writes_preOps 0 (by decide) V
theorem keep_preOps_main_arg4 (V : Valuation τ sig (Elt F)) : after (preOps (F := F)) V (Proc.devRef .tc main_arg4) = V (Proc.devRef .tc main_arg4) :=
  after_keep_from writes_preOps 0 (by decide) V

theorem rd_preOps_main_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v0) = Stage.st_main_v0 (F := F) (A_ids) := by
  rw [read_reshape (y := main_v0) writes_preOps 0 V rfl (by decide) (by decide), keep_preOps_main_arg2 V, hids]
  rfl
set_option maxHeartbeats 1000000 in
theorem rd_preOps_main_call0_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call0_v0) = Stage.st_main_call0_v0 (F := F) := by
  rw [read_nullary (y := main_call0_v0) writes_preOps 1 V rfl (by decide)]
  exact cast_app₀ _ _
set_option maxHeartbeats 1000000 in
theorem rd_preOps_main_call0_v1_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call0_v1_0) = Stage.st_main_call0_v1_0 (F := F) (A_ids) := by
  rw [read_binary (y := main_call0_v1_0) writes_preOps 2 V rfl (by decide) (by decide) (by decide)]
  simp only [rd_preOps_main_v0 V A_x A_tw A_ids A_w1 A_w2 hx htw hids hw1 hw2, rd_preOps_main_call0_v0 V A_x A_tw A_ids A_w1 A_w2 hx htw hids hw1 hw2]
  exact cast_app₂ _ _ _ (((fun x y => (Host.sort2 S8192 0 comparator_i32_i32_d0 x y).1)) : (⟨S8192, .i32⟩ : BufTy).Contents (Elt F) → (⟨S8192, .i32⟩ : BufTy).Contents (Elt F) → (⟨S8192, .i32⟩ : BufTy).Contents (Elt F)) _ _
set_option maxHeartbeats 1000000 in
theorem rd_preOps_main_v1 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v1) = Stage.st_main_v1 (F := F) (A_ids) := by
  rw [read_binary (y := main_v1) writes_preOps 3 V rfl (by decide) (by decide) (by decide)]
  simp only [rd_preOps_main_v0 V A_x A_tw A_ids A_w1 A_w2 hx htw hids hw1 hw2, rd_preOps_main_call0_v0 V A_x A_tw A_ids A_w1 A_w2 hx htw hids hw1 hw2]
  exact cast_app₂ _ _ _ (((fun x y => (Host.sort2 S8192 0 comparator_i32_i32_d0 x y).2)) : (⟨S8192, .i32⟩ : BufTy).Contents (Elt F) → (⟨S8192, .i32⟩ : BufTy).Contents (Elt F) → (⟨S8192, .i32⟩ : BufTy).Contents (Elt F)) _ _
theorem rd_preOps_main_c (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c) = Stage.st_main_c (F := F) := by
  rw [read_nullary (y := main_c) writes_preOps 4 V rfl (by decide)]
  rfl
theorem rd_preOps_main_v2 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v2) = Stage.st_main_v2 (F := F) := by
  rw [read_unary (y := main_v2) writes_preOps 5 V rfl (by decide) (by decide), rd_preOps_main_c V A_x A_tw A_ids A_w1 A_w2 hx htw hids hw1 hw2]
  rfl
theorem rd_preOps_main_v3 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v3) = Stage.st_main_v3 (F := F) (A_ids) := by
  rw [read_binary (y := main_v3) writes_preOps 6 V rfl (by decide) (by decide) (by decide), rd_preOps_main_v1 V A_x A_tw A_ids A_w1 A_w2 hx htw hids hw1 hw2, rd_preOps_main_v2 V A_x A_tw A_ids A_w1 A_w2 hx htw hids hw1 hw2]
  rfl
theorem rd_preOps_main_c_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_0) = Stage.st_main_c_0 (F := F) := by
  rw [read_nullary (y := main_c_0) writes_preOps 7 V rfl (by decide)]
  rfl
theorem rd_preOps_main_v4 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v4) = Stage.st_main_v4 (F := F) := by
  rw [read_unary (y := main_v4) writes_preOps 8 V rfl (by decide) (by decide), rd_preOps_main_c_0 V A_x A_tw A_ids A_w1 A_w2 hx htw hids hw1 hw2]
  rfl
theorem rd_preOps_main_v5 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v5) = Stage.st_main_v5 (F := F) (A_ids) := by
  rw [read_binary (y := main_v5) writes_preOps 9 V rfl (by decide) (by decide) (by decide), rd_preOps_main_v1 V A_x A_tw A_ids A_w1 A_w2 hx htw hids hw1 hw2, rd_preOps_main_v4 V A_x A_tw A_ids A_w1 A_w2 hx htw hids hw1 hw2]
  rfl
theorem rd_preOps_main_v6 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v6) = Stage.st_main_v6 (F := F) (A_ids) := by
  rw [read_ternary (y := main_v6) writes_preOps 10 V rfl (by decide) (by decide) (by decide) (by decide), rd_preOps_main_v3 V A_x A_tw A_ids A_w1 A_w2 hx htw hids hw1 hw2, rd_preOps_main_v5 V A_x A_tw A_ids A_w1 A_w2 hx htw hids hw1 hw2, rd_preOps_main_v1 V A_x A_tw A_ids A_w1 A_w2 hx htw hids hw1 hw2]
  rfl
theorem rd_preOps_main_v7 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v7) = Stage.st_main_v7 (F := F) (A_ids) := by
  rw [read_unary (y := main_v7) writes_preOps 11 V rfl (by decide) (by decide), rd_preOps_main_v6 V A_x A_tw A_ids A_w1 A_w2 hx htw hids hw1 hw2]
  rfl
theorem rd_preOps_main_v8 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v8) = Stage.st_main_v8 (F := F) (A_ids) := by
  rw [read_binary (y := main_v8) writes_preOps 12 V rfl (by decide) (by decide) (by decide), rd_preOps_main_v0 V A_x A_tw A_ids A_w1 A_w2 hx htw hids hw1 hw2, rd_preOps_main_v7 V A_x A_tw A_ids A_w1 A_w2 hx htw hids hw1 hw2]
  rfl
theorem rd_preOps_main_c_1 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_1) = Stage.st_main_c_1 (F := F) := by
  rw [read_nullary (y := main_c_1) writes_preOps 13 V rfl (by decide)]
  rfl
theorem rd_preOps_main_v9 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v9) = Stage.st_main_v9 (F := F) := by
  rw [read_unary (y := main_v9) writes_preOps 14 V rfl (by decide) (by decide), rd_preOps_main_c_1 V A_x A_tw A_ids A_w1 A_w2 hx htw hids hw1 hw2]
  rfl
theorem rd_preOps_main_c_2 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_2) = Stage.st_main_c_2 (F := F) := by
  rw [read_nullary (y := main_c_2) writes_preOps 15 V rfl (by decide)]
  rfl
theorem rd_preOps_main_v10 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v10) = Stage.st_main_v10 (F := F) := by
  rw [read_unary (y := main_v10) writes_preOps 16 V rfl (by decide) (by decide), rd_preOps_main_c_2 V A_x A_tw A_ids A_w1 A_w2 hx htw hids hw1 hw2]
  rfl
theorem rd_preOps_main_v11 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v11) = Stage.st_main_v11 (F := F) (A_ids) := by
  rw [read_binary (y := main_v11) writes_preOps 17 V rfl (by decide) (by decide) (by decide), rd_preOps_main_v0 V A_x A_tw A_ids A_w1 A_w2 hx htw hids hw1 hw2, rd_preOps_main_v10 V A_x A_tw A_ids A_w1 A_w2 hx htw hids hw1 hw2]
  rfl
theorem rd_preOps_main_c_3 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_3) = Stage.st_main_c_3 (F := F) := by
  rw [read_nullary (y := main_c_3) writes_preOps 18 V rfl (by decide)]
  rfl
theorem rd_preOps_main_v12 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v12) = Stage.st_main_v12 (F := F) := by
  rw [read_unary (y := main_v12) writes_preOps 19 V rfl (by decide) (by decide), rd_preOps_main_c_3 V A_x A_tw A_ids A_w1 A_w2 hx htw hids hw1 hw2]
  rfl
theorem rd_preOps_main_v13 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v13) = Stage.st_main_v13 (F := F) (A_ids) := by
  rw [read_binary (y := main_v13) writes_preOps 20 V rfl (by decide) (by decide) (by decide), rd_preOps_main_v0 V A_x A_tw A_ids A_w1 A_w2 hx htw hids hw1 hw2, rd_preOps_main_v12 V A_x A_tw A_ids A_w1 A_w2 hx htw hids hw1 hw2]
  rfl
theorem rd_preOps_main_v14 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v14) = Stage.st_main_v14 (F := F) (A_ids) := by
  rw [read_ternary (y := main_v14) writes_preOps 21 V rfl (by decide) (by decide) (by decide) (by decide), rd_preOps_main_v11 V A_x A_tw A_ids A_w1 A_w2 hx htw hids hw1 hw2, rd_preOps_main_v13 V A_x A_tw A_ids A_w1 A_w2 hx htw hids hw1 hw2, rd_preOps_main_v0 V A_x A_tw A_ids A_w1 A_w2 hx htw hids hw1 hw2]
  rfl
theorem rd_preOps_main_v15 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v15) = Stage.st_main_v15 (F := F) (A_ids) := by
  rw [read_unary (y := main_v15) writes_preOps 22 V rfl (by decide) (by decide), rd_preOps_main_v14 V A_x A_tw A_ids A_w1 A_w2 hx htw hids hw1 hw2]
  rfl
theorem rd_preOps_main_c_4 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_4) = Stage.st_main_c_4 (F := F) := by
  rw [read_nullary (y := main_c_4) writes_preOps 23 V rfl (by decide)]
  rfl
theorem rd_preOps_main_v16 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v16) = Stage.st_main_v16 (F := F) := by
  rw [read_unary (y := main_v16) writes_preOps 24 V rfl (by decide) (by decide), rd_preOps_main_c_4 V A_x A_tw A_ids A_w1 A_w2 hx htw hids hw1 hw2]
  rfl
theorem rd_preOps_main_v17 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v17) = Stage.st_main_v17 (F := F) (A_ids) := by
  rw [read_ternary (y := main_v17) writes_preOps 25 V rfl (by decide) (by decide) (by decide) (by decide), rd_preOps_main_v9 V A_x A_tw A_ids A_w1 A_w2 hx htw hids hw1 hw2, rd_preOps_main_v15 V A_x A_tw A_ids A_w1 A_w2 hx htw hids hw1 hw2, rd_preOps_main_v16 V A_x A_tw A_ids A_w1 A_w2 hx htw hids hw1 hw2]
  rfl
set_option maxHeartbeats 1000000 in
theorem rd_preOps_main_call1_call0_c (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call1_call0_c) = Stage.st_main_call1_call0_c (F := F) := by
  rw [read_nullary (y := main_call1_call0_c) writes_preOps 26 V rfl (by decide)]
  exact cast_app₀ _ _
set_option maxHeartbeats 1000000 in
theorem rd_preOps_main_call1_call0_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call1_call0_v0) = Stage.st_main_call1_call0_v0 (F := F) := by
  rw [read_unary (y := main_call1_call0_v0) writes_preOps 27 V rfl (by decide) (by decide)]
  simp only [rd_preOps_main_call1_call0_c V A_x A_tw A_ids A_w1 A_w2 hx htw hids hw1 hw2]
  exact cast_app₁ _ _ (((broadcastInDim S_ ![] bcast_S_S_)) : (⟨S_, .i32⟩ : BufTy).Contents (Elt F) → (⟨S_, .i32⟩ : BufTy).Contents (Elt F)) _
set_option maxHeartbeats 1000000 in
theorem rd_preOps_main_v18 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v18) = Stage.st_main_v18 (F := F) (A_ids) := by
  rw [read_binary (y := main_v18) writes_preOps 28 V rfl (by decide) (by decide) (by decide)]
  simp only [rd_preOps_main_v17 V A_x A_tw A_ids A_w1 A_w2 hx htw hids hw1 hw2, rd_preOps_main_call1_call0_v0 V A_x A_tw A_ids A_w1 A_w2 hx htw hids hw1 hw2]
  exact cast_app₂ _ _ _ (((fun x v => Host.reduceWindow IntOp.addi ![64] ![1] ![63] ![0] x v reduceWindows_S64_S64_w64s1p63_0 h_S_)) : (⟨S64, .i32⟩ : BufTy).Contents (Elt F) → (⟨S_, .i32⟩ : BufTy).Contents (Elt F) → (⟨S64, .i32⟩ : BufTy).Contents (Elt F)) _ _
theorem rd_preOps_main_v19 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v19) = Stage.st_main_v19 (F := F) (A_ids) := by
  rw [read_binary (y := main_v19) writes_preOps 29 V rfl (by decide) (by decide) (by decide), rd_preOps_main_v18 V A_x A_tw A_ids A_w1 A_w2 hx htw hids hw1 hw2, rd_preOps_main_v17 V A_x A_tw A_ids A_w1 A_w2 hx htw hids hw1 hw2]
  rfl
theorem rd_preOps_main_v20 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v20) = Stage.st_main_v20 (F := F) := by
  rw [read_nullary (y := main_v20) writes_preOps 30 V rfl (by decide)]
  rfl
theorem rd_preOps_main_c_5 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_5) = Stage.st_main_c_5 (F := F) := by
  rw [read_nullary (y := main_c_5) writes_preOps 31 V rfl (by decide)]
  rfl
theorem rd_preOps_main_v21 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v21) = Stage.st_main_v21 (F := F) := by
  rw [read_unary (y := main_v21) writes_preOps 32 V rfl (by decide) (by decide), rd_preOps_main_c_5 V A_x A_tw A_ids A_w1 A_w2 hx htw hids hw1 hw2]
  rfl
theorem rd_preOps_main_v22 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v22) = Stage.st_main_v22 (F := F) (A_ids) := by
  rw [read_binary (y := main_v22) writes_preOps 33 V rfl (by decide) (by decide) (by decide), rd_preOps_main_v8 V A_x A_tw A_ids A_w1 A_w2 hx htw hids hw1 hw2, rd_preOps_main_v21 V A_x A_tw A_ids A_w1 A_w2 hx htw hids hw1 hw2]
  rfl
theorem rd_preOps_main_c_6 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_6) = Stage.st_main_c_6 (F := F) := by
  rw [read_nullary (y := main_c_6) writes_preOps 34 V rfl (by decide)]
  rfl
theorem rd_preOps_main_v23 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v23) = Stage.st_main_v23 (F := F) := by
  rw [read_unary (y := main_v23) writes_preOps 35 V rfl (by decide) (by decide), rd_preOps_main_c_6 V A_x A_tw A_ids A_w1 A_w2 hx htw hids hw1 hw2]
  rfl
theorem rd_preOps_main_v24 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v24) = Stage.st_main_v24 (F := F) (A_ids) := by
  rw [read_binary (y := main_v24) writes_preOps 36 V rfl (by decide) (by decide) (by decide), rd_preOps_main_v8 V A_x A_tw A_ids A_w1 A_w2 hx htw hids hw1 hw2, rd_preOps_main_v23 V A_x A_tw A_ids A_w1 A_w2 hx htw hids hw1 hw2]
  rfl
theorem rd_preOps_main_v25 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v25) = Stage.st_main_v25 (F := F) (A_ids) := by
  rw [read_ternary (y := main_v25) writes_preOps 37 V rfl (by decide) (by decide) (by decide) (by decide), rd_preOps_main_v22 V A_x A_tw A_ids A_w1 A_w2 hx htw hids hw1 hw2, rd_preOps_main_v24 V A_x A_tw A_ids A_w1 A_w2 hx htw hids hw1 hw2, rd_preOps_main_v8 V A_x A_tw A_ids A_w1 A_w2 hx htw hids hw1 hw2]
  rfl
theorem rd_preOps_main_v26 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v26) = Stage.st_main_v26 (F := F) (A_ids) := by
  rw [read_unary (y := main_v26) writes_preOps 38 V rfl (by decide) (by decide), rd_preOps_main_v25 V A_x A_tw A_ids A_w1 A_w2 hx htw hids hw1 hw2]
  rfl
theorem rd_preOps_main_v27 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v27) = Stage.st_main_v27 (F := F) (A_ids) := by
  rw [read_binary (y := main_v27) writes_preOps 39 V rfl (by decide) (by decide) (by decide), rd_preOps_main_v19 V A_x A_tw A_ids A_w1 A_w2 hx htw hids hw1 hw2, rd_preOps_main_v26 V A_x A_tw A_ids A_w1 A_w2 hx htw hids hw1 hw2]
  rfl
theorem rd_preOps_main_v28 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v28) = Stage.st_main_v28 (F := F) (A_ids) := by
  rw [read_binary (y := main_v28) writes_preOps 40 V rfl (by decide) (by decide) (by decide), rd_preOps_main_v20 V A_x A_tw A_ids A_w1 A_w2 hx htw hids hw1 hw2, rd_preOps_main_v27 V A_x A_tw A_ids A_w1 A_w2 hx htw hids hw1 hw2]
  rfl
theorem rd_preOps_main_c_7 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_7) = Stage.st_main_c_7 (F := F) := by
  rw [read_nullary (y := main_c_7) writes_preOps 41 V rfl (by decide)]
  rfl
set_option maxHeartbeats 1000000 in
theorem rd_preOps_main_call2_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v0) = Stage.st_main_call2_v0 (F := F) := by
  rw [read_unary (y := main_call2_v0) writes_preOps 42 V rfl (by decide) (by decide)]
  simp only [rd_preOps_main_c_7 V A_x A_tw A_ids A_w1 A_w2 hx htw hids hw1 hw2]
  exact cast_app₁ _ _ ((id) : (⟨S_, .i32⟩ : BufTy).Contents (Elt F) → (⟨S_, .i32⟩ : BufTy).Contents (Elt F)) _
set_option maxHeartbeats 1000000 in
theorem rd_preOps_main_call2_v1 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v1) = Stage.st_main_call2_v1 (F := F) := by
  rw [read_unary (y := main_call2_v1) writes_preOps 43 V rfl (by decide) (by decide)]
  simp only [rd_preOps_main_call2_v0 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_preOps_main_call2_v2 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v2) = Stage.st_main_call2_v2 (F := F) (A_ids) := by
  rw [read_binary (y := main_call2_v2) writes_preOps 44 V rfl (by decide) (by decide) (by decide)]
  simp only [rd_preOps_main_v1 V A_x A_tw A_ids A_w1 A_w2 hx htw hids hw1 hw2, rd_preOps_main_call2_v1 V A_x A_tw A_ids A_w1 A_w2 hx htw hids hw1 hw2]
  exact cast_app₂ _ _ _ ((Host.divsi) : (⟨S8192, .i32⟩ : BufTy).Contents (Elt F) → (⟨S8192, .i32⟩ : BufTy).Contents (Elt F) → (⟨S8192, .i32⟩ : BufTy).Contents (Elt F)) _ _
set_option maxHeartbeats 1000000 in
theorem rd_preOps_main_call2_v3 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v3) = Stage.st_main_call2_v3 (F := F) (A_ids) := by
  rw [read_unary (y := main_call2_v3) writes_preOps 45 V rfl (by decide) (by decide)]
  simp only [rd_preOps_main_v1 V A_x A_tw A_ids A_w1 A_w2 hx htw hids hw1 hw2]
  exact cast_app₁ _ _ ((signi) : (⟨S8192, .i32⟩ : BufTy).Contents (Elt F) → (⟨S8192, .i32⟩ : BufTy).Contents (Elt F)) _
set_option maxHeartbeats 1000000 in
theorem rd_preOps_main_call2_v4 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v4) = Stage.st_main_call2_v4 (F := F) := by
  rw [read_unary (y := main_call2_v4) writes_preOps 46 V rfl (by decide) (by decide)]
  simp only [rd_preOps_main_call2_v0 V A_x A_tw A_ids A_w1 A_w2 hx htw hids hw1 hw2]
  exact cast_app₁ _ _ ((signi) : (⟨S_, .i32⟩ : BufTy).Contents (Elt F) → (⟨S_, .i32⟩ : BufTy).Contents (Elt F)) _
set_option maxHeartbeats 1000000 in
theorem rd_preOps_main_call2_v5 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v5) = Stage.st_main_call2_v5 (F := F) := by
  rw [read_unary (y := main_call2_v5) writes_preOps 47 V rfl (by decide) (by decide)]
  simp only [rd_preOps_main_call2_v4 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_preOps_main_call2_v6 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v6) = Stage.st_main_call2_v6 (F := F) (A_ids) := by
  rw [read_binary (y := main_call2_v6) writes_preOps 48 V rfl (by decide) (by decide) (by decide)]
  simp only [rd_preOps_main_call2_v3 V A_x A_tw A_ids A_w1 A_w2 hx htw hids hw1 hw2, rd_preOps_main_call2_v5 V A_x A_tw A_ids A_w1 A_w2 hx htw hids hw1 hw2]
  exact cast_app₂ _ _ _ (((cmpi .ne)) : (⟨S8192, .i32⟩ : BufTy).Contents (Elt F) → (⟨S8192, .i32⟩ : BufTy).Contents (Elt F) → (⟨S8192, .i1⟩ : BufTy).Contents (Elt F)) _ _
set_option maxHeartbeats 1000000 in
theorem rd_preOps_main_call2_v7 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v7) = Stage.st_main_call2_v7 (F := F) := by
  rw [read_unary (y := main_call2_v7) writes_preOps 49 V rfl (by decide) (by decide)]
  simp only [rd_preOps_main_call2_v0 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_preOps_main_call2_v8 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v8) = Stage.st_main_call2_v8 (F := F) (A_ids) := by
  rw [read_binary (y := main_call2_v8) writes_preOps 50 V rfl (by decide) (by decide) (by decide)]
  simp only [rd_preOps_main_v1 V A_x A_tw A_ids A_w1 A_w2 hx htw hids hw1 hw2, rd_preOps_main_call2_v7 V A_x A_tw A_ids A_w1 A_w2 hx htw hids hw1 hw2]
  exact cast_app₂ _ _ _ ((Host.remsi) : (⟨S8192, .i32⟩ : BufTy).Contents (Elt F) → (⟨S8192, .i32⟩ : BufTy).Contents (Elt F) → (⟨S8192, .i32⟩ : BufTy).Contents (Elt F)) _ _
set_option maxHeartbeats 1000000 in
theorem rd_preOps_main_call2_c (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_c) = Stage.st_main_call2_c (F := F) := by
  rw [read_nullary (y := main_call2_c) writes_preOps 51 V rfl (by decide)]
  exact cast_app₀ _ _
set_option maxHeartbeats 1000000 in
theorem rd_preOps_main_call2_v9 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v9) = Stage.st_main_call2_v9 (F := F) := by
  rw [read_unary (y := main_call2_v9) writes_preOps 52 V rfl (by decide) (by decide)]
  simp only [rd_preOps_main_call2_c V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_preOps_main_call2_v10 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v10) = Stage.st_main_call2_v10 (F := F) (A_ids) := by
  rw [read_binary (y := main_call2_v10) writes_preOps 53 V rfl (by decide) (by decide) (by decide)]
  simp only [rd_preOps_main_call2_v8 V A_x A_tw A_ids A_w1 A_w2 hx htw hids hw1 hw2, rd_preOps_main_call2_v9 V A_x A_tw A_ids A_w1 A_w2 hx htw hids hw1 hw2]
  exact cast_app₂ _ _ _ (((cmpi .ne)) : (⟨S8192, .i32⟩ : BufTy).Contents (Elt F) → (⟨S8192, .i32⟩ : BufTy).Contents (Elt F) → (⟨S8192, .i1⟩ : BufTy).Contents (Elt F)) _ _
set_option maxHeartbeats 1000000 in
theorem rd_preOps_main_call2_v11 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v11) = Stage.st_main_call2_v11 (F := F) (A_ids) := by
  rw [read_binary (y := main_call2_v11) writes_preOps 54 V rfl (by decide) (by decide) (by decide)]
  simp only [rd_preOps_main_call2_v6 V A_x A_tw A_ids A_w1 A_w2 hx htw hids hw1 hw2, rd_preOps_main_call2_v10 V A_x A_tw A_ids A_w1 A_w2 hx htw hids hw1 hw2]
  exact cast_app₂ _ _ _ ((andi) : (⟨S8192, .i1⟩ : BufTy).Contents (Elt F) → (⟨S8192, .i1⟩ : BufTy).Contents (Elt F) → (⟨S8192, .i1⟩ : BufTy).Contents (Elt F)) _ _
set_option maxHeartbeats 1000000 in
theorem rd_preOps_main_call2_c_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_c_0) = Stage.st_main_call2_c_0 (F := F) := by
  rw [read_nullary (y := main_call2_c_0) writes_preOps 55 V rfl (by decide)]
  exact cast_app₀ _ _
set_option maxHeartbeats 1000000 in
theorem rd_preOps_main_call2_v12 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v12) = Stage.st_main_call2_v12 (F := F) := by
  rw [read_unary (y := main_call2_v12) writes_preOps 56 V rfl (by decide) (by decide)]
  simp only [rd_preOps_main_call2_c_0 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_preOps_main_call2_v13 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_call2_v13) = Stage.st_main_call2_v13 (F := F) (A_ids) := by
  rw [read_binary (y := main_call2_v13) writes_preOps 57 V rfl (by decide) (by decide) (by decide)]
  simp only [rd_preOps_main_call2_v2 V A_x A_tw A_ids A_w1 A_w2 hx htw hids hw1 hw2, rd_preOps_main_call2_v12 V A_x A_tw A_ids A_w1 A_w2 hx htw hids hw1 hw2]
  exact cast_app₂ _ _ _ ((subi) : (⟨S8192, .i32⟩ : BufTy).Contents (Elt F) → (⟨S8192, .i32⟩ : BufTy).Contents (Elt F) → (⟨S8192, .i32⟩ : BufTy).Contents (Elt F)) _ _
set_option maxHeartbeats 1000000 in
theorem rd_preOps_main_v29 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v29) = Stage.st_main_v29 (F := F) (A_ids) := by
  rw [read_ternary (y := main_v29) writes_preOps 58 V rfl (by decide) (by decide) (by decide) (by decide)]
  simp only [rd_preOps_main_call2_v11 V A_x A_tw A_ids A_w1 A_w2 hx htw hids hw1 hw2, rd_preOps_main_call2_v13 V A_x A_tw A_ids A_w1 A_w2 hx htw hids hw1 hw2, rd_preOps_main_call2_v2 V A_x A_tw A_ids A_w1 A_w2 hx htw hids hw1 hw2]
  exact cast_app₃ _ _ _ _ ((select) : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) _ _ _
theorem rd_preOps_main_c_8 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_8) = Stage.st_main_c_8 (F := F) := by
  rw [read_nullary (y := main_c_8) writes_preOps 59 V rfl (by decide)]
  rfl
theorem rd_preOps_main_v30 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v30) = Stage.st_main_v30 (F := F) := by
  rw [read_unary (y := main_v30) writes_preOps 60 V rfl (by decide) (by decide), rd_preOps_main_c_8 V A_x A_tw A_ids A_w1 A_w2 hx htw hids hw1 hw2]
  rfl
theorem rd_preOps_main_v31 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v31) = Stage.st_main_v31 (F := F) (A_ids) := by
  rw [read_binary (y := main_v31) writes_preOps 61 V rfl (by decide) (by decide) (by decide), rd_preOps_main_v29 V A_x A_tw A_ids A_w1 A_w2 hx htw hids hw1 hw2, rd_preOps_main_v30 V A_x A_tw A_ids A_w1 A_w2 hx htw hids hw1 hw2]
  rfl
theorem rd_preOps_main_c_9 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_9) = Stage.st_main_c_9 (F := F) := by
  rw [read_nullary (y := main_c_9) writes_preOps 62 V rfl (by decide)]
  rfl
theorem rd_preOps_main_v32 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v32) = Stage.st_main_v32 (F := F) := by
  rw [read_unary (y := main_v32) writes_preOps 63 V rfl (by decide) (by decide), rd_preOps_main_c_9 V A_x A_tw A_ids A_w1 A_w2 hx htw hids hw1 hw2]
  rfl
theorem rd_preOps_main_v33 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v33) = Stage.st_main_v33 (F := F) (A_ids) := by
  rw [read_binary (y := main_v33) writes_preOps 64 V rfl (by decide) (by decide) (by decide), rd_preOps_main_v29 V A_x A_tw A_ids A_w1 A_w2 hx htw hids hw1 hw2, rd_preOps_main_v32 V A_x A_tw A_ids A_w1 A_w2 hx htw hids hw1 hw2]
  rfl
theorem rd_preOps_main_v34 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v34) = Stage.st_main_v34 (F := F) (A_ids) := by
  rw [read_ternary (y := main_v34) writes_preOps 65 V rfl (by decide) (by decide) (by decide) (by decide), rd_preOps_main_v31 V A_x A_tw A_ids A_w1 A_w2 hx htw hids hw1 hw2, rd_preOps_main_v33 V A_x A_tw A_ids A_w1 A_w2 hx htw hids hw1 hw2, rd_preOps_main_v29 V A_x A_tw A_ids A_w1 A_w2 hx htw hids hw1 hw2]
  rfl
theorem rd_preOps_main_v35 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v35) = Stage.st_main_v35 (F := F) (A_ids) := by
  rw [read_unary (y := main_v35) writes_preOps 66 V rfl (by decide) (by decide), rd_preOps_main_v34 V A_x A_tw A_ids A_w1 A_w2 hx htw hids hw1 hw2]
  rfl
theorem rd_preOps_main_v36 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v36) = Stage.st_main_v36 (F := F) (A_x) (A_ids) := by
  rw [read_binary (y := main_v36) writes_preOps 67 V rfl (by decide) (by decide) (by decide), keep_preOps_main_arg0 V, hx, rd_preOps_main_v35 V A_x A_tw A_ids A_w1 A_w2 hx htw hids hw1 hw2]
  rfl
theorem rd_preOps_main_cst (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_cst) = Stage.st_main_cst (F := F) := by
  rw [read_nullary (y := main_cst) writes_preOps 68 V rfl (by decide)]
  rfl
theorem rd_preOps_main_v37 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v37) = Stage.st_main_v37 (F := F) := by
  rw [read_unary (y := main_v37) writes_preOps 69 V rfl (by decide) (by decide), rd_preOps_main_cst V A_x A_tw A_ids A_w1 A_w2 hx htw hids hw1 hw2]
  rfl
theorem rd_preOps_main_v38 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v38) = Stage.st_main_v38 (F := F) (A_x) (A_ids) := by
  rw [read_unary (y := main_v38) writes_preOps 70 V rfl (by decide) (by decide), rd_preOps_main_v36 V A_x A_tw A_ids A_w1 A_w2 hx htw hids hw1 hw2]
  rfl
theorem rd_preOps_main_c_10 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_10) = Stage.st_main_c_10 (F := F) := by
  rw [read_nullary (y := main_c_10) writes_preOps 71 V rfl (by decide)]
  rfl
theorem rd_preOps_main_v39 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v39) = Stage.st_main_v39 (F := F) := by
  rw [read_unary (y := main_v39) writes_preOps 72 V rfl (by decide) (by decide), rd_preOps_main_c_10 V A_x A_tw A_ids A_w1 A_w2 hx htw hids hw1 hw2]
  rfl
theorem rd_preOps_main_v40 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v40) = Stage.st_main_v40 (F := F) (A_ids) := by
  rw [read_binary (y := main_v40) writes_preOps 73 V rfl (by decide) (by decide) (by decide), rd_preOps_main_v8 V A_x A_tw A_ids A_w1 A_w2 hx htw hids hw1 hw2, rd_preOps_main_v39 V A_x A_tw A_ids A_w1 A_w2 hx htw hids hw1 hw2]
  rfl
theorem rd_preOps_main_c_11 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_11) = Stage.st_main_c_11 (F := F) := by
  rw [read_nullary (y := main_c_11) writes_preOps 74 V rfl (by decide)]
  rfl
theorem rd_preOps_main_v41 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v41) = Stage.st_main_v41 (F := F) := by
  rw [read_unary (y := main_v41) writes_preOps 75 V rfl (by decide) (by decide), rd_preOps_main_c_11 V A_x A_tw A_ids A_w1 A_w2 hx htw hids hw1 hw2]
  rfl
theorem rd_preOps_main_v42 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v42) = Stage.st_main_v42 (F := F) (A_ids) := by
  rw [read_binary (y := main_v42) writes_preOps 76 V rfl (by decide) (by decide) (by decide), rd_preOps_main_v8 V A_x A_tw A_ids A_w1 A_w2 hx htw hids hw1 hw2, rd_preOps_main_v41 V A_x A_tw A_ids A_w1 A_w2 hx htw hids hw1 hw2]
  rfl
theorem rd_preOps_main_v43 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v43) = Stage.st_main_v43 (F := F) (A_ids) := by
  rw [read_ternary (y := main_v43) writes_preOps 77 V rfl (by decide) (by decide) (by decide) (by decide), rd_preOps_main_v40 V A_x A_tw A_ids A_w1 A_w2 hx htw hids hw1 hw2, rd_preOps_main_v42 V A_x A_tw A_ids A_w1 A_w2 hx htw hids hw1 hw2, rd_preOps_main_v8 V A_x A_tw A_ids A_w1 A_w2 hx htw hids hw1 hw2]
  rfl
theorem rd_preOps_main_c_12 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_12) = Stage.st_main_c_12 (F := F) := by
  rw [read_nullary (y := main_c_12) writes_preOps 78 V rfl (by decide)]
  rfl
theorem rd_preOps_main_v44 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v44) = Stage.st_main_v44 (F := F) := by
  rw [read_unary (y := main_v44) writes_preOps 79 V rfl (by decide) (by decide), rd_preOps_main_c_12 V A_x A_tw A_ids A_w1 A_w2 hx htw hids hw1 hw2]
  rfl
theorem rd_preOps_main_v45 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v45) = Stage.st_main_v45 (F := F) (A_ids) := by
  rw [read_binary (y := main_v45) writes_preOps 80 V rfl (by decide) (by decide) (by decide), rd_preOps_main_v28 V A_x A_tw A_ids A_w1 A_w2 hx htw hids hw1 hw2, rd_preOps_main_v44 V A_x A_tw A_ids A_w1 A_w2 hx htw hids hw1 hw2]
  rfl
theorem rd_preOps_main_c_13 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_c_13) = Stage.st_main_c_13 (F := F) := by
  rw [read_nullary (y := main_c_13) writes_preOps 81 V rfl (by decide)]
  rfl
theorem rd_preOps_main_v46 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v46) = Stage.st_main_v46 (F := F) := by
  rw [read_unary (y := main_v46) writes_preOps 82 V rfl (by decide) (by decide), rd_preOps_main_c_13 V A_x A_tw A_ids A_w1 A_w2 hx htw hids hw1 hw2]
  rfl
theorem rd_preOps_main_v47 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v47) = Stage.st_main_v47 (F := F) (A_ids) := by
  rw [read_binary (y := main_v47) writes_preOps 83 V rfl (by decide) (by decide) (by decide), rd_preOps_main_v28 V A_x A_tw A_ids A_w1 A_w2 hx htw hids hw1 hw2, rd_preOps_main_v46 V A_x A_tw A_ids A_w1 A_w2 hx htw hids hw1 hw2]
  rfl
theorem rd_preOps_main_v48 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v48) = Stage.st_main_v48 (F := F) (A_ids) := by
  rw [read_ternary (y := main_v48) writes_preOps 84 V rfl (by decide) (by decide) (by decide) (by decide), rd_preOps_main_v45 V A_x A_tw A_ids A_w1 A_w2 hx htw hids hw1 hw2, rd_preOps_main_v47 V A_x A_tw A_ids A_w1 A_w2 hx htw hids hw1 hw2, rd_preOps_main_v28 V A_x A_tw A_ids A_w1 A_w2 hx htw hids hw1 hw2]
  rfl
theorem rd_preOps_main_v49 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v49) = Stage.st_main_v49 (F := F) (A_ids) := by
  rw [read_unary (y := main_v49) writes_preOps 85 V rfl (by decide) (by decide), rd_preOps_main_v43 V A_x A_tw A_ids A_w1 A_w2 hx htw hids hw1 hw2]
  rfl
theorem rd_preOps_main_v50 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v50) = Stage.st_main_v50 (F := F) (A_ids) := by
  rw [read_unary (y := main_v50) writes_preOps 86 V rfl (by decide) (by decide), rd_preOps_main_v48 V A_x A_tw A_ids A_w1 A_w2 hx htw hids hw1 hw2]
  rfl
theorem rd_preOps_main_v51 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v51) = Stage.st_main_v51 (F := F) (A_ids) := by
  rw [read_binary (y := main_v51) writes_preOps 87 V rfl (by decide) (by decide) (by decide), rd_preOps_main_v49 V A_x A_tw A_ids A_w1 A_w2 hx htw hids hw1 hw2, rd_preOps_main_v50 V A_x A_tw A_ids A_w1 A_w2 hx htw hids hw1 hw2]
  rfl
theorem rd_preOps_main_v52 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v52) = Stage.st_main_v52 (F := F) (A_x) (A_ids) := by
  rw [read_ternary (y := main_v52) writes_preOps 88 V rfl (by decide) (by decide) (by decide) (by decide), rd_preOps_main_v37 V A_x A_tw A_ids A_w1 A_w2 hx htw hids hw1 hw2, rd_preOps_main_v51 V A_x A_tw A_ids A_w1 A_w2 hx htw hids hw1 hw2, rd_preOps_main_v38 V A_x A_tw A_ids A_w1 A_w2 hx htw hids hw1 hw2]
  rfl
theorem rd_preOps_main_v53 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v53) = Stage.st_main_v53 (F := F) (A_w1) := by
  rw [read_unary (y := main_v53) writes_preOps 89 V rfl (by decide) (by decide), keep_preOps_main_arg3 V, hw1]
  rfl
theorem rd_preOps_main_v54 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v54) = Stage.st_main_v54 (F := F) (A_w1) := by
  rw [read_unary (y := main_v54) writes_preOps 90 V rfl (by decide) (by decide), rd_preOps_main_v53 V A_x A_tw A_ids A_w1 A_w2 hx htw hids hw1 hw2]
  rfl
theorem rd_preOps_main_v55 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v55) = Stage.st_main_v55 (F := F) (A_w2) := by
  rw [read_unary (y := main_v55) writes_preOps 91 V rfl (by decide) (by decide), keep_preOps_main_arg4 V, hw2]
  rfl
theorem rd_preOps_main_v56 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (preOps (F := F)) V (Proc.devRef .tc main_v56) = Stage.st_main_v56 (F := F) (A_w2) := by
  rw [read_unary (y := main_v56) writes_preOps 92 V rfl (by decide) (by decide), rd_preOps_main_v55 V A_x A_tw A_ids A_w1 A_w2 hx htw hids hw1 hw2]
  rfl

/-- What the lines after the region find in the buffers the lines before it wrote. -/
structure PreOK (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F)) : Prop where
  main_v1 : V (Proc.devRef .tc main_v1) = Stage.st_main_v1 (F := F) (A_ids)
  main_v28 : V (Proc.devRef .tc main_v28) = Stage.st_main_v28 (F := F) (A_ids)
  main_v8 : V (Proc.devRef .tc main_v8) = Stage.st_main_v8 (F := F) (A_ids)

/-- The buffers the line writes, in order. -/
abbrev dsts_tailOps : List (Ref sig .tc) := [main_c_14, main_v58, main_v59, main_c_15, main_v60, main_v61, main_v62, main_c_16, main_v63, main_v64, main_c_17, main_v65, main_v66, main_v67, main_v68, main_v69, main_v70, main_c_18, main_c_19, main_v71, main_v72, main_v73, main_v74, main_v75, main_v76, main_c_20, main_v77, main_v78, main_v79, main_cst_21, main_v80, main_v81, main_v82, main_call3_v0, main_call3_v1_0, main_v83, main_c_22, main_v84, main_v85, main_c_23, main_v86, main_v87, main_v88, main_v89, main_v90, main_v91, main_v92, main_v93, main_v94, main_cst_24, main_v95]
theorem writes_tailOps : WritesAre (tailOps (F := F)) dsts_tailOps := by
  unfold WritesAre
  simp only [hostOps0, hostOps0_1, hostOps0_2, hostOps0_3, hostOps0_4, hostOps0_5, hostOps0_6, hostOps1, hostOps1_1, hostOps1_2, List.flatten_cons, List.flatten_nil, List.append_nil, List.cons_append, List.nil_append]
  repeat' constructor
  all_goals simp only [nullary_writes, unary_writes, binary_writes, ternary_writes, quaternary_writes, reshape_writes, binaryIndexed_writes, Finset.Subset.refl]

theorem keep_tailOps_main_arg1 (V : Valuation τ sig (Elt F)) : after (tailOps (F := F)) V (Proc.devRef .tc main_arg1) = V (Proc.devRef .tc main_arg1) :=
  after_keep_from writes_tailOps 0 (by decide) V
theorem keep_tailOps_main_v1 (V : Valuation τ sig (Elt F)) : after (tailOps (F := F)) V (Proc.devRef .tc main_v1) = V (Proc.devRef .tc main_v1) :=
  after_keep_from writes_tailOps 0 (by decide) V
theorem keep_tailOps_main_v28 (V : Valuation τ sig (Elt F)) : after (tailOps (F := F)) V (Proc.devRef .tc main_v28) = V (Proc.devRef .tc main_v28) :=
  after_keep_from writes_tailOps 0 (by decide) V
theorem keep_tailOps_main_v57 (V : Valuation τ sig (Elt F)) : after (tailOps (F := F)) V (Proc.devRef .tc main_v57) = V (Proc.devRef .tc main_v57) :=
  after_keep_from writes_tailOps 0 (by decide) V
theorem keep_tailOps_main_v8 (V : Valuation τ sig (Elt F)) : after (tailOps (F := F)) V (Proc.devRef .tc main_v8) = V (Proc.devRef .tc main_v8) :=
  after_keep_from writes_tailOps 0 (by decide) V

theorem rd_tailOps_main_c_14 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_14) = Stage.tl_main_c_14 (F := F) := by
  rw [read_nullary (y := main_c_14) writes_tailOps 0 V rfl (by decide)]
  rfl
theorem rd_tailOps_main_v58 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v58) = Stage.tl_main_v58 (F := F) := by
  rw [read_unary (y := main_v58) writes_tailOps 1 V rfl (by decide) (by decide), rd_tailOps_main_c_14 V A_x A_tw A_ids A_w1 A_w2 hx htw hids hw1 hw2 hpre]
  rfl
theorem rd_tailOps_main_v59 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v59) = Stage.tl_main_v59 (F := F) (A_ids) := by
  rw [read_binary (y := main_v59) writes_tailOps 2 V rfl (by decide) (by decide) (by decide), keep_tailOps_main_v8 V, hpre.main_v8, rd_tailOps_main_v58 V A_x A_tw A_ids A_w1 A_w2 hx htw hids hw1 hw2 hpre]
  rfl
theorem rd_tailOps_main_c_15 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_15) = Stage.tl_main_c_15 (F := F) := by
  rw [read_nullary (y := main_c_15) writes_tailOps 3 V rfl (by decide)]
  rfl
theorem rd_tailOps_main_v60 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v60) = Stage.tl_main_v60 (F := F) := by
  rw [read_unary (y := main_v60) writes_tailOps 4 V rfl (by decide) (by decide), rd_tailOps_main_c_15 V A_x A_tw A_ids A_w1 A_w2 hx htw hids hw1 hw2 hpre]
  rfl
theorem rd_tailOps_main_v61 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v61) = Stage.tl_main_v61 (F := F) (A_ids) := by
  rw [read_binary (y := main_v61) writes_tailOps 5 V rfl (by decide) (by decide) (by decide), keep_tailOps_main_v8 V, hpre.main_v8, rd_tailOps_main_v60 V A_x A_tw A_ids A_w1 A_w2 hx htw hids hw1 hw2 hpre]
  rfl
theorem rd_tailOps_main_v62 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v62) = Stage.tl_main_v62 (F := F) (A_ids) := by
  rw [read_ternary (y := main_v62) writes_tailOps 6 V rfl (by decide) (by decide) (by decide) (by decide), rd_tailOps_main_v59 V A_x A_tw A_ids A_w1 A_w2 hx htw hids hw1 hw2 hpre, rd_tailOps_main_v61 V A_x A_tw A_ids A_w1 A_w2 hx htw hids hw1 hw2 hpre, keep_tailOps_main_v8 V, hpre.main_v8]
  rfl
theorem rd_tailOps_main_c_16 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_16) = Stage.tl_main_c_16 (F := F) := by
  rw [read_nullary (y := main_c_16) writes_tailOps 7 V rfl (by decide)]
  rfl
theorem rd_tailOps_main_v63 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v63) = Stage.tl_main_v63 (F := F) := by
  rw [read_unary (y := main_v63) writes_tailOps 8 V rfl (by decide) (by decide), rd_tailOps_main_c_16 V A_x A_tw A_ids A_w1 A_w2 hx htw hids hw1 hw2 hpre]
  rfl
theorem rd_tailOps_main_v64 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v64) = Stage.tl_main_v64 (F := F) (A_ids) := by
  rw [read_binary (y := main_v64) writes_tailOps 9 V rfl (by decide) (by decide) (by decide), keep_tailOps_main_v28 V, hpre.main_v28, rd_tailOps_main_v63 V A_x A_tw A_ids A_w1 A_w2 hx htw hids hw1 hw2 hpre]
  rfl
theorem rd_tailOps_main_c_17 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_17) = Stage.tl_main_c_17 (F := F) := by
  rw [read_nullary (y := main_c_17) writes_tailOps 10 V rfl (by decide)]
  rfl
theorem rd_tailOps_main_v65 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v65) = Stage.tl_main_v65 (F := F) := by
  rw [read_unary (y := main_v65) writes_tailOps 11 V rfl (by decide) (by decide), rd_tailOps_main_c_17 V A_x A_tw A_ids A_w1 A_w2 hx htw hids hw1 hw2 hpre]
  rfl
theorem rd_tailOps_main_v66 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v66) = Stage.tl_main_v66 (F := F) (A_ids) := by
  rw [read_binary (y := main_v66) writes_tailOps 12 V rfl (by decide) (by decide) (by decide), keep_tailOps_main_v28 V, hpre.main_v28, rd_tailOps_main_v65 V A_x A_tw A_ids A_w1 A_w2 hx htw hids hw1 hw2 hpre]
  rfl
theorem rd_tailOps_main_v67 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v67) = Stage.tl_main_v67 (F := F) (A_ids) := by
  rw [read_ternary (y := main_v67) writes_tailOps 13 V rfl (by decide) (by decide) (by decide) (by decide), rd_tailOps_main_v64 V A_x A_tw A_ids A_w1 A_w2 hx htw hids hw1 hw2 hpre, rd_tailOps_main_v66 V A_x A_tw A_ids A_w1 A_w2 hx htw hids hw1 hw2 hpre, keep_tailOps_main_v28 V, hpre.main_v28]
  rfl
theorem rd_tailOps_main_v68 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v68) = Stage.tl_main_v68 (F := F) (A_ids) := by
  rw [read_unary (y := main_v68) writes_tailOps 14 V rfl (by decide) (by decide), rd_tailOps_main_v62 V A_x A_tw A_ids A_w1 A_w2 hx htw hids hw1 hw2 hpre]
  rfl
theorem rd_tailOps_main_v69 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v69) = Stage.tl_main_v69 (F := F) (A_ids) := by
  rw [read_unary (y := main_v69) writes_tailOps 15 V rfl (by decide) (by decide), rd_tailOps_main_v67 V A_x A_tw A_ids A_w1 A_w2 hx htw hids hw1 hw2 hpre]
  rfl
theorem rd_tailOps_main_v70 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v70) = Stage.tl_main_v70 (F := F) (A_ids) := by
  rw [read_binary (y := main_v70) writes_tailOps 16 V rfl (by decide) (by decide) (by decide), rd_tailOps_main_v68 V A_x A_tw A_ids A_w1 A_w2 hx htw hids hw1 hw2 hpre, rd_tailOps_main_v69 V A_x A_tw A_ids A_w1 A_w2 hx htw hids hw1 hw2 hpre]
  rfl
theorem rd_tailOps_main_c_18 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_18) = Stage.tl_main_c_18 (F := F) := by
  rw [read_nullary (y := main_c_18) writes_tailOps 17 V rfl (by decide)]
  rfl
theorem rd_tailOps_main_c_19 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_19) = Stage.tl_main_c_19 (F := F) := by
  rw [read_nullary (y := main_c_19) writes_tailOps 18 V rfl (by decide)]
  rfl
theorem rd_tailOps_main_v71 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v71) = Stage.tl_main_v71 (F := F) := by
  rw [read_unary (y := main_v71) writes_tailOps 19 V rfl (by decide) (by decide), rd_tailOps_main_c_19 V A_x A_tw A_ids A_w1 A_w2 hx htw hids hw1 hw2 hpre]
  rfl
theorem rd_tailOps_main_v72 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v72) = Stage.tl_main_v72 (F := F) (A_ids) := by
  rw [read_binary (y := main_v72) writes_tailOps 20 V rfl (by decide) (by decide) (by decide), rd_tailOps_main_v70 V A_x A_tw A_ids A_w1 A_w2 hx htw hids hw1 hw2 hpre, rd_tailOps_main_v71 V A_x A_tw A_ids A_w1 A_w2 hx htw hids hw1 hw2 hpre]
  rfl
theorem rd_tailOps_main_v73 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v73) = Stage.tl_main_v73 (F := F) := by
  rw [read_unary (y := main_v73) writes_tailOps 21 V rfl (by decide) (by decide), rd_tailOps_main_c_18 V A_x A_tw A_ids A_w1 A_w2 hx htw hids hw1 hw2 hpre]
  rfl
theorem rd_tailOps_main_v74 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v74) = Stage.tl_main_v74 (F := F) := by
  rw [read_unary (y := main_v74) writes_tailOps 22 V rfl (by decide) (by decide), rd_tailOps_main_v73 V A_x A_tw A_ids A_w1 A_w2 hx htw hids hw1 hw2 hpre]
  rfl
theorem rd_tailOps_main_v75 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v75) = Stage.tl_main_v75 (F := F) (A_ids) := by
  rw [read_binary (y := main_v75) writes_tailOps 23 V rfl (by decide) (by decide) (by decide), rd_tailOps_main_v70 V A_x A_tw A_ids A_w1 A_w2 hx htw hids hw1 hw2 hpre, rd_tailOps_main_v74 V A_x A_tw A_ids A_w1 A_w2 hx htw hids hw1 hw2 hpre]
  rfl
theorem rd_tailOps_main_v76 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v76) = Stage.tl_main_v76 (F := F) (A_ids) := by
  rw [read_binary (y := main_v76) writes_tailOps 24 V rfl (by decide) (by decide) (by decide), rd_tailOps_main_v72 V A_x A_tw A_ids A_w1 A_w2 hx htw hids hw1 hw2 hpre, rd_tailOps_main_v75 V A_x A_tw A_ids A_w1 A_w2 hx htw hids hw1 hw2 hpre]
  rfl
theorem rd_tailOps_main_c_20 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_20) = Stage.tl_main_c_20 (F := F) := by
  rw [read_nullary (y := main_c_20) writes_tailOps 25 V rfl (by decide)]
  rfl
theorem rd_tailOps_main_v77 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v77) = Stage.tl_main_v77 (F := F) (A_ids) := by
  rw [read_binary (y := main_v77) writes_tailOps 26 V rfl (by decide) (by decide) (by decide), rd_tailOps_main_v76 V A_x A_tw A_ids A_w1 A_w2 hx htw hids hw1 hw2 hpre, rd_tailOps_main_c_20 V A_x A_tw A_ids A_w1 A_w2 hx htw hids hw1 hw2 hpre]
  rfl
theorem rd_tailOps_main_v78 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v78) = Stage.tl_main_v78 (F := F) (V (Proc.devRef .tc main_v57)) (A_ids) := by
  rw [read_binary (y := main_v78) writes_tailOps 27 V rfl (by decide) (by decide) (by decide), keep_tailOps_main_v57 V, rd_tailOps_main_v70 V A_x A_tw A_ids A_w1 A_w2 hx htw hids hw1 hw2 hpre]
  rfl
theorem rd_tailOps_main_v79 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v79) = Stage.tl_main_v79 (F := F) (A_ids) := by
  rw [read_unary (y := main_v79) writes_tailOps 28 V rfl (by decide) (by decide), rd_tailOps_main_v77 V A_x A_tw A_ids A_w1 A_w2 hx htw hids hw1 hw2 hpre]
  rfl
theorem rd_tailOps_main_cst_21 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_cst_21) = Stage.tl_main_cst_21 (F := F) := by
  rw [read_nullary (y := main_cst_21) writes_tailOps 29 V rfl (by decide)]
  rfl
theorem rd_tailOps_main_v80 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v80) = Stage.tl_main_v80 (F := F) := by
  rw [read_unary (y := main_v80) writes_tailOps 30 V rfl (by decide) (by decide), rd_tailOps_main_cst_21 V A_x A_tw A_ids A_w1 A_w2 hx htw hids hw1 hw2 hpre]
  rfl
theorem rd_tailOps_main_v81 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v81) = Stage.tl_main_v81 (F := F) (V (Proc.devRef .tc main_v57)) (A_ids) := by
  rw [read_ternary (y := main_v81) writes_tailOps 31 V rfl (by decide) (by decide) (by decide) (by decide), rd_tailOps_main_v79 V A_x A_tw A_ids A_w1 A_w2 hx htw hids hw1 hw2 hpre, rd_tailOps_main_v78 V A_x A_tw A_ids A_w1 A_w2 hx htw hids hw1 hw2 hpre, rd_tailOps_main_v80 V A_x A_tw A_ids A_w1 A_w2 hx htw hids hw1 hw2 hpre]
  rfl
theorem rd_tailOps_main_v82 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v82) = Stage.tl_main_v82 (F := F) (V (Proc.devRef .tc main_v57)) (A_ids) := by
  rw [read_unary (y := main_v82) writes_tailOps 32 V rfl (by decide) (by decide), rd_tailOps_main_v81 V A_x A_tw A_ids A_w1 A_w2 hx htw hids hw1 hw2 hpre]
  rfl
set_option maxHeartbeats 1000000 in
theorem rd_tailOps_main_call3_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_call3_v0) = Stage.tl_main_call3_v0 (F := F) := by
  rw [read_nullary (y := main_call3_v0) writes_tailOps 33 V rfl (by decide)]
  exact cast_app₀ _ _
set_option maxHeartbeats 1000000 in
theorem rd_tailOps_main_call3_v1_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_call3_v1_0) = Stage.tl_main_call3_v1_0 (F := F) (A_ids) := by
  rw [read_binary (y := main_call3_v1_0) writes_tailOps 34 V rfl (by decide) (by decide) (by decide)]
  simp only [keep_tailOps_main_v1 V, hpre.main_v1, rd_tailOps_main_call3_v0 V A_x A_tw A_ids A_w1 A_w2 hx htw hids hw1 hw2 hpre]
  exact cast_app₂ _ _ _ (((fun x y => (Host.sort2 S8192 0 comparator_i32_i32_d0 x y).1)) : (⟨S8192, .i32⟩ : BufTy).Contents (Elt F) → (⟨S8192, .i32⟩ : BufTy).Contents (Elt F) → (⟨S8192, .i32⟩ : BufTy).Contents (Elt F)) _ _
set_option maxHeartbeats 1000000 in
theorem rd_tailOps_main_v83 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v83) = Stage.tl_main_v83 (F := F) (A_ids) := by
  rw [read_binary (y := main_v83) writes_tailOps 35 V rfl (by decide) (by decide) (by decide)]
  simp only [keep_tailOps_main_v1 V, hpre.main_v1, rd_tailOps_main_call3_v0 V A_x A_tw A_ids A_w1 A_w2 hx htw hids hw1 hw2 hpre]
  exact cast_app₂ _ _ _ (((fun x y => (Host.sort2 S8192 0 comparator_i32_i32_d0 x y).2)) : (⟨S8192, .i32⟩ : BufTy).Contents (Elt F) → (⟨S8192, .i32⟩ : BufTy).Contents (Elt F) → (⟨S8192, .i32⟩ : BufTy).Contents (Elt F)) _ _
theorem rd_tailOps_main_c_22 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_22) = Stage.tl_main_c_22 (F := F) := by
  rw [read_nullary (y := main_c_22) writes_tailOps 36 V rfl (by decide)]
  rfl
theorem rd_tailOps_main_v84 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v84) = Stage.tl_main_v84 (F := F) := by
  rw [read_unary (y := main_v84) writes_tailOps 37 V rfl (by decide) (by decide), rd_tailOps_main_c_22 V A_x A_tw A_ids A_w1 A_w2 hx htw hids hw1 hw2 hpre]
  rfl
theorem rd_tailOps_main_v85 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v85) = Stage.tl_main_v85 (F := F) (A_ids) := by
  rw [read_binary (y := main_v85) writes_tailOps 38 V rfl (by decide) (by decide) (by decide), rd_tailOps_main_v83 V A_x A_tw A_ids A_w1 A_w2 hx htw hids hw1 hw2 hpre, rd_tailOps_main_v84 V A_x A_tw A_ids A_w1 A_w2 hx htw hids hw1 hw2 hpre]
  rfl
theorem rd_tailOps_main_c_23 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_c_23) = Stage.tl_main_c_23 (F := F) := by
  rw [read_nullary (y := main_c_23) writes_tailOps 39 V rfl (by decide)]
  rfl
theorem rd_tailOps_main_v86 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v86) = Stage.tl_main_v86 (F := F) := by
  rw [read_unary (y := main_v86) writes_tailOps 40 V rfl (by decide) (by decide), rd_tailOps_main_c_23 V A_x A_tw A_ids A_w1 A_w2 hx htw hids hw1 hw2 hpre]
  rfl
theorem rd_tailOps_main_v87 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v87) = Stage.tl_main_v87 (F := F) (A_ids) := by
  rw [read_binary (y := main_v87) writes_tailOps 41 V rfl (by decide) (by decide) (by decide), rd_tailOps_main_v83 V A_x A_tw A_ids A_w1 A_w2 hx htw hids hw1 hw2 hpre, rd_tailOps_main_v86 V A_x A_tw A_ids A_w1 A_w2 hx htw hids hw1 hw2 hpre]
  rfl
theorem rd_tailOps_main_v88 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v88) = Stage.tl_main_v88 (F := F) (A_ids) := by
  rw [read_ternary (y := main_v88) writes_tailOps 42 V rfl (by decide) (by decide) (by decide) (by decide), rd_tailOps_main_v85 V A_x A_tw A_ids A_w1 A_w2 hx htw hids hw1 hw2 hpre, rd_tailOps_main_v87 V A_x A_tw A_ids A_w1 A_w2 hx htw hids hw1 hw2 hpre, rd_tailOps_main_v83 V A_x A_tw A_ids A_w1 A_w2 hx htw hids hw1 hw2 hpre]
  rfl
theorem rd_tailOps_main_v89 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v89) = Stage.tl_main_v89 (F := F) (A_ids) := by
  rw [read_unary (y := main_v89) writes_tailOps 43 V rfl (by decide) (by decide), rd_tailOps_main_v88 V A_x A_tw A_ids A_w1 A_w2 hx htw hids hw1 hw2 hpre]
  rfl
theorem rd_tailOps_main_v90 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v90) = Stage.tl_main_v90 (F := F) (V (Proc.devRef .tc main_v57)) (A_ids) := by
  rw [read_binary (y := main_v90) writes_tailOps 44 V rfl (by decide) (by decide) (by decide), rd_tailOps_main_v82 V A_x A_tw A_ids A_w1 A_w2 hx htw hids hw1 hw2 hpre, rd_tailOps_main_v89 V A_x A_tw A_ids A_w1 A_w2 hx htw hids hw1 hw2 hpre]
  rfl
theorem rd_tailOps_main_v91 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v91) = Stage.tl_main_v91 (F := F) (V (Proc.devRef .tc main_v57)) (A_ids) := by
  rw [read_reshape (y := main_v91) writes_tailOps 45 V rfl (by decide) (by decide), rd_tailOps_main_v90 V A_x A_tw A_ids A_w1 A_w2 hx htw hids hw1 hw2 hpre]
  rfl
theorem rd_tailOps_main_v92 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v92) = Stage.tl_main_v92 (F := F) (A_tw) := by
  rw [read_unary (y := main_v92) writes_tailOps 46 V rfl (by decide) (by decide), keep_tailOps_main_arg1 V, htw]
  rfl
theorem rd_tailOps_main_v93 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v93) = Stage.tl_main_v93 (F := F) (A_tw) := by
  rw [read_unary (y := main_v93) writes_tailOps 47 V rfl (by decide) (by decide), rd_tailOps_main_v92 V A_x A_tw A_ids A_w1 A_w2 hx htw hids hw1 hw2 hpre]
  rfl
theorem rd_tailOps_main_v94 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v94) = Stage.tl_main_v94 (F := F) (V (Proc.devRef .tc main_v57)) (A_tw) (A_ids) := by
  rw [read_binary (y := main_v94) writes_tailOps 48 V rfl (by decide) (by decide) (by decide), rd_tailOps_main_v91 V A_x A_tw A_ids A_w1 A_w2 hx htw hids hw1 hw2 hpre, rd_tailOps_main_v93 V A_x A_tw A_ids A_w1 A_w2 hx htw hids hw1 hw2 hpre]
  rfl
theorem rd_tailOps_main_cst_24 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_cst_24) = Stage.tl_main_cst_24 (F := F) := by
  rw [read_nullary (y := main_cst_24) writes_tailOps 49 V rfl (by decide)]
  rfl
theorem rd_tailOps_main_v95 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) (hpre : PreOK V A_x A_tw A_ids A_w1 A_w2) :
    after (tailOps (F := F)) V (Proc.devRef .tc main_v95) = Stage.tl_main_v95 (F := F) (V (Proc.devRef .tc main_v57)) (A_tw) (A_ids) := by
  rw [read_binary (y := main_v95) writes_tailOps 50 V rfl (by decide) (by decide) (by decide), rd_tailOps_main_v94 V A_x A_tw A_ids A_w1 A_w2 hx htw hids hw1 hw2 hpre, rd_tailOps_main_cst_24 V A_x A_tw A_ids A_w1 A_w2 hx htw hids hw1 hw2 hpre]
  rfl

end Cert.KernelIdeal.Reads

end
-- ==== Proof.V.KernelValue.lean ====
import proofs.«126691_j58317065945110_2_alg».proof.Proof.V.ReadsKer
import proofs.«126691_j58317065945110_2_alg».proof.Proof.KI.Frame

set_option maxRecDepth 65536

noncomputable section

namespace Cert.KernelIdeal.Hand

open Cert.KernelIdeal Cert.KernelIdeal.Gen Cert.KernelIdeal.Reads
open Idealize.ShloMosaic Idealize.ShloMosaic.TcCoe Idealize.SL.Sem Idealize.ShloMosaic.StableHlo
open Idealize.ShloMosaic.Pipeline (Dat Cfg)

variable {F : FTy → Type} [FloatOps F]

variable (m : (ℓ : Loc nD τ sig) → Buf (Elt F) ℓ) (ρ : Dev nD → PrngReg)

/-! ## What the kernel's program computes

The region finds, in the buffers the host lines before it wrote, those lines' functions of the argument arrays; the lines
after it apply the combine to the array the region leaves and to the sorted ids, slots and sort order the earlier lines
left. Each buffer is read as its operation's own function of its operands' contents; nothing is evaluated. -/

/-- The region-entry contents are the earlier lines' fold over the launch contents. -/
theorem V_eq (c : Dev nD) (b : Ref sig .tc) :
    V m c b = after (preOps (F := F)) (launchContents m c) (Proc.devRef .tc b) := rfl

theorem V_main_v17 (c : Dev nD) : V m c main_v17 = Stage.st_main_v17 (F := F) (m ((c : Thread nD τ).loc main_arg2)) :=
  rd_preOps_main_v17 (launchContents m c) (m ((c : Thread nD τ).loc main_arg0)) (m ((c : Thread nD τ).loc main_arg1)) (m ((c : Thread nD τ).loc main_arg2)) (m ((c : Thread nD τ).loc main_arg3)) (m ((c : Thread nD τ).loc main_arg4)) rfl rfl rfl rfl rfl
theorem V_main_v8 (c : Dev nD) : V m c main_v8 = Stage.st_main_v8 (F := F) (m ((c : Thread nD τ).loc main_arg2)) :=
  rd_preOps_main_v8 (launchContents m c) (m ((c : Thread nD τ).loc main_arg0)) (m ((c : Thread nD τ).loc main_arg1)) (m ((c : Thread nD τ).loc main_arg2)) (m ((c : Thread nD τ).loc main_arg3)) (m ((c : Thread nD τ).loc main_arg4)) rfl rfl rfl rfl rfl
theorem V_main_v28 (c : Dev nD) : V m c main_v28 = Stage.st_main_v28 (F := F) (m ((c : Thread nD τ).loc main_arg2)) :=
  rd_preOps_main_v28 (launchContents m c) (m ((c : Thread nD τ).loc main_arg0)) (m ((c : Thread nD τ).loc main_arg1)) (m ((c : Thread nD τ).loc main_arg2)) (m ((c : Thread nD τ).loc main_arg3)) (m ((c : Thread nD τ).loc main_arg4)) rfl rfl rfl rfl rfl
theorem V_main_v1 (c : Dev nD) : V m c main_v1 = Stage.st_main_v1 (F := F) (m ((c : Thread nD τ).loc main_arg2)) :=
  rd_preOps_main_v1 (launchContents m c) (m ((c : Thread nD τ).loc main_arg0)) (m ((c : Thread nD τ).loc main_arg1)) (m ((c : Thread nD τ).loc main_arg2)) (m ((c : Thread nD τ).loc main_arg3)) (m ((c : Thread nD τ).loc main_arg4)) rfl rfl rfl rfl rfl
theorem V_main_v52 (c : Dev nD) : V m c main_v52 = Stage.st_main_v52 (F := F) (m ((c : Thread nD τ).loc main_arg0)) (m ((c : Thread nD τ).loc main_arg2)) :=
  rd_preOps_main_v52 (launchContents m c) (m ((c : Thread nD τ).loc main_arg0)) (m ((c : Thread nD τ).loc main_arg1)) (m ((c : Thread nD τ).loc main_arg2)) (m ((c : Thread nD τ).loc main_arg3)) (m ((c : Thread nD τ).loc main_arg4)) rfl rfl rfl rfl rfl
theorem V_main_v54 (c : Dev nD) : V m c main_v54 = Stage.st_main_v54 (F := F) (m ((c : Thread nD τ).loc main_arg3)) :=
  rd_preOps_main_v54 (launchContents m c) (m ((c : Thread nD τ).loc main_arg0)) (m ((c : Thread nD τ).loc main_arg1)) (m ((c : Thread nD τ).loc main_arg2)) (m ((c : Thread nD τ).loc main_arg3)) (m ((c : Thread nD τ).loc main_arg4)) rfl rfl rfl rfl rfl
theorem V_main_v56 (c : Dev nD) : V m c main_v56 = Stage.st_main_v56 (F := F) (m ((c : Thread nD τ).loc main_arg4)) :=
  rd_preOps_main_v56 (launchContents m c) (m ((c : Thread nD τ).loc main_arg0)) (m ((c : Thread nD τ).loc main_arg1)) (m ((c : Thread nD τ).loc main_arg2)) (m ((c : Thread nD τ).loc main_arg3)) (m ((c : Thread nD τ).loc main_arg4)) rfl rfl rfl rfl rfl

/-- After the later lines, the result buffer holds the combine of the array the region left. -/
theorem tail_value (c : Dev nD) :
    Pipeline.afterTail pcfgs (fun _ => adm m) (dats m) 0 (V0 m) [hostOps1, hostOps1_1, hostOps1_2] c main_v95
      = Stage.tl_main_v95 (F := F) ((dats m 0 c).arrAt 3 (cfgM m).N) (m ((c : Thread nD τ).loc main_arg1)) (m ((c : Thread nD τ).loc main_arg2)) := by
  unfold Pipeline.afterTail
  have hne : ∀ (b : Ref sig .tc), (∀ w, Pipeline.arrRef spec0 w ≠ b) →
      Pipeline.withArrays spec0 c (V0 m c) (fun w => (dats m 0 c).arrAt w (cfgM m).N) (Proc.devRef .tc b) = V0 m c (Proc.devRef .tc b) :=
    fun b hb => Pipeline.withArrays_of_ne spec0 c (V0 m c) _ b hb
  refine (rd_tailOps_main_v95 (Pipeline.withArrays spec0 c (V0 m c) (fun w => (dats m 0 c).arrAt w (cfgM m).N))
    (m ((c : Thread nD τ).loc main_arg0)) (m ((c : Thread nD τ).loc main_arg1)) (m ((c : Thread nD τ).loc main_arg2)) (m ((c : Thread nD τ).loc main_arg3)) (m ((c : Thread nD τ).loc main_arg4))
    ((hne main_arg0 (by decide)).trans (V_main_arg0 m c)) ((hne main_arg1 (by decide)).trans (V_main_arg1 m c))
    ((hne main_arg2 (by decide)).trans (V_main_arg2 m c)) ((hne main_arg3 (by decide)).trans (V_main_arg3 m c))
    ((hne main_arg4 (by decide)).trans (V_main_arg4 m c))
    ⟨(hne main_v1 (by decide)).trans (V_main_v1 m c), (hne main_v28 (by decide)).trans (V_main_v28 m c), (hne main_v8 (by decide)).trans (V_main_v8 m c)⟩).trans ?_
  rw [Pipeline.withArrays_arr spec0 (launch0 (F := F)).win.arr_inj c (V0 m c) _ 3]

/-- The kernel's run with its result named: every weakly fair execution terminates with the result buffer at the combine
    of the array the region leaves, and the five argument arrays as launched. -/
theorem run_value : θ_run defs (onTc (τ := τ) (main (F := F))) ⟨m, fun _ => 0, ρ⟩ (fun r => ∀ c : Dev nD,
      r.2.mem ((c.tc : Thread nD τ).loc main_v95)
        = Stage.tl_main_v95 (F := F) ((dats m 0 c).arrAt 3 (cfgM m).N) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v95 (by decide : main_v95 ∈ Pipeline.restRefs sig spec0)).trans (tail_value m c),
      (((h c).2 main_arg0 (by decide : main_arg0 ∈ Pipeline.restRefs sig spec0)).trans (W_main_arg0 m (dats m) c)),
      (((h c).2 main_arg1 (by decide : main_arg1 ∈ Pipeline.restRefs sig spec0)).trans (W_main_arg1 m (dats m) c)),
      (((h c).2 main_arg2 (by decide : main_arg2 ∈ Pipeline.restRefs sig spec0)).trans (W_main_arg2 m (dats m) c)),
      (((h c).2 main_arg3 (by decide : main_arg3 ∈ Pipeline.restRefs sig spec0)).trans (W_main_arg3 m (dats m) c)),
      (((h c).2 main_arg4 (by decide : main_arg4 ∈ Pipeline.restRefs sig spec0)).trans (W_main_arg4 m (dats m) c))⟩) (run_main m ρ)

end Cert.KernelIdeal.Hand

end
-- ==== Proof.V.StagesRef.lean ====
import proofs.«126691_j58317065945110_2_alg».proof.Proof.Gen.ReferenceIdeal
import Idealize.ShloMosaic.PureOps.Ideal

noncomputable section

namespace Cert.ReferenceIdeal.Stage

open Cert.ReferenceIdeal Cert.ReferenceIdeal.Gen Idealize.ShloMosaic

variable {F : FTy → Type} [FloatOps F]

/-- operation 0: `main_v0`. -/
def st_main_v0 (ids : (⟨S1024x8, .i32⟩ : BufTy).Contents (Elt F)) : (⟨S8192, .i32⟩ : BufTy).Contents (Elt F) :=
  (fun v => shapeCast S8192 v shapeCasts_S1024x8_S8192) ids
/-- operation 1: `main_call0_v0`. -/
def st_main_call0_v0 : (⟨S8192, .i32⟩ : BufTy).Contents (Elt F) :=
  (iotaInDim S8192 32 0)
/-- operation 2: `main_call0_v1_0`. -/
def st_main_call0_v1_0 (ids : (⟨S1024x8, .i32⟩ : BufTy).Contents (Elt F)) : (⟨S8192, .i32⟩ : BufTy).Contents (Elt F) :=
  (fun x y => (Host.sort2 S8192 0 comparator_i32_i32_d0 x y).1) (st_main_v0 (F := F) ids) (st_main_call0_v0 (F := F))
/-- operation 3: `main_v1`. -/
def st_main_v1 (ids : (⟨S1024x8, .i32⟩ : BufTy).Contents (Elt F)) : (⟨S8192, .i32⟩ : BufTy).Contents (Elt F) :=
  (fun x y => (Host.sort2 S8192 0 comparator_i32_i32_d0 x y).2) (st_main_v0 (F := F) ids) (st_main_call0_v0 (F := F))
/-- operation 4: `main_c`. -/
def st_main_c : (⟨S_, .i32⟩ : BufTy).Contents (Elt F) :=
  (constantI S_ 32 0#32)
/-- operation 5: `main_v2`. -/
def st_main_v2 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c (F := F))
/-- operation 6: `main_v3`. -/
def st_main_v3 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v1 (F := F) ids) (st_main_v2 (F := F))
/-- operation 7: `main_c_0`. -/
def st_main_c_0 : (⟨S_, .i32⟩ : BufTy).Contents (Elt F) :=
  (constantI S_ 32 8192#32)
/-- operation 8: `main_v4`. -/
def st_main_v4 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_0 (F := F))
/-- operation 9: `main_v5`. -/
def st_main_v5 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v1 (F := F) ids) (st_main_v4 (F := F))
/-- operation 10: `main_v6`. -/
def st_main_v6 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v3 (F := F) ids) (st_main_v5 (F := F) ids) (st_main_v1 (F := F) ids)
/-- operation 11: `main_v7`. -/
def st_main_v7 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v6 (F := F) ids)
/-- operation 12: `main_v8`. -/
def st_main_v8 (ids : (⟨S1024x8, .i32⟩ : BufTy).Contents (Elt F)) : (⟨S8192, .i32⟩ : BufTy).Contents (Elt F) :=
  ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)) (st_main_v0 (F := F) ids) (st_main_v7 (F := F) ids)
/-- operation 13: `main_c_1`. -/
def st_main_c_1 : (⟨S_, .i32⟩ : BufTy).Contents (Elt F) :=
  (constantI S_ 32 0#32)
/-- operation 14: `main_v9`. -/
def st_main_v9 : (⟨S64, .i32⟩ : BufTy).Contents (Elt F) :=
  (broadcastInDim S64 ![] bcast_S_S64 : (⟨S_, .i32⟩ : BufTy).Contents (Elt F) → (⟨S64, .i32⟩ : BufTy).Contents (Elt F)) (st_main_c_1 (F := F))
/-- operation 15: `main_c_2`. -/
def st_main_c_2 : (⟨S_, .i32⟩ : BufTy).Contents (Elt F) :=
  (constantI S_ 32 0#32)
/-- operation 16: `main_v10`. -/
def st_main_v10 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_2 (F := F))
/-- operation 17: `main_v11`. -/
def st_main_v11 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v0 (F := F) ids) (st_main_v10 (F := F))
/-- operation 18: `main_c_3`. -/
def st_main_c_3 : (⟨S_, .i32⟩ : BufTy).Contents (Elt F) :=
  (constantI S_ 32 64#32)
/-- operation 19: `main_v12`. -/
def st_main_v12 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_3 (F := F))
/-- operation 20: `main_v13`. -/
def st_main_v13 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v0 (F := F) ids) (st_main_v12 (F := F))
/-- operation 21: `main_v14`. -/
def st_main_v14 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v11 (F := F) ids) (st_main_v13 (F := F) ids) (st_main_v0 (F := F) ids)
/-- operation 22: `main_v15`. -/
def st_main_v15 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v14 (F := F) ids)
/-- operation 23: `main_c_4`. -/
def st_main_c_4 : (⟨S_, .i32⟩ : BufTy).Contents (Elt F) :=
  (constantI S_ 32 1#32)
/-- operation 24: `main_v16`. -/
def st_main_v16 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_4 (F := F))
/-- operation 25: `main_v17`. -/
def st_main_v17 (ids : (⟨S1024x8, .i32⟩ : BufTy).Contents (Elt F)) : (⟨S64, .i32⟩ : BufTy).Contents (Elt F) :=
  ((fun x i u => Host.scatter scatter_S64_S8192x1_S8192_n_0_0_1 IntOp.addi x i u) : (⟨S64, .i32⟩ : BufTy).Contents (Elt F) → (⟨S8192x1, .i32⟩ : BufTy).Contents (Elt F) → (⟨S8192, .i32⟩ : BufTy).Contents (Elt F) → (⟨S64, .i32⟩ : BufTy).Contents (Elt F)) (st_main_v9 (F := F)) (st_main_v15 (F := F) ids) (st_main_v16 (F := F))
/-- operation 26: `main_call1_call0_c`. -/
def st_main_call1_call0_c : (⟨S_, .i32⟩ : BufTy).Contents (Elt F) :=
  (constantI S_ 32 0#32)
/-- operation 27: `main_call1_call0_v0`. -/
def st_main_call1_call0_v0 : (⟨S_, .i32⟩ : BufTy).Contents (Elt F) :=
  (broadcastInDim S_ ![] bcast_S_S_) (st_main_call1_call0_c (F := F))
/-- operation 28: `main_v18`. -/
def st_main_v18 (ids : (⟨S1024x8, .i32⟩ : BufTy).Contents (Elt F)) : (⟨S64, .i32⟩ : BufTy).Contents (Elt F) :=
  (fun x v => Host.reduceWindow IntOp.addi ![64] ![1] ![63] ![0] x v reduceWindows_S64_S64_w64s1p63_0 h_S_) (st_main_v17 (F := F) ids) (st_main_call1_call0_v0 (F := F))
/-- operation 29: `main_v19`. -/
def st_main_v19 (ids : (⟨S1024x8, .i32⟩ : BufTy).Contents (Elt F)) : (⟨S64, .i32⟩ : BufTy).Contents (Elt F) :=
  (subi : (⟨S64, .i32⟩ : BufTy).Contents (Elt F) → (⟨S64, .i32⟩ : BufTy).Contents (Elt F) → (⟨S64, .i32⟩ : BufTy).Contents (Elt F)) (st_main_v18 (F := F) ids) (st_main_v17 (F := F) ids)
/-- operation 30: `main_v20`. -/
def st_main_v20 : (⟨S8192, .i32⟩ : BufTy).Contents (Elt F) :=
  (iotaInDim S8192 32 0)
/-- operation 31: `main_c_5`. -/
def st_main_c_5 : (⟨S_, .i32⟩ : BufTy).Contents (Elt F) :=
  (constantI S_ 32 0#32)
/-- operation 32: `main_v21`. -/
def st_main_v21 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_5 (F := F))
/-- operation 33: `main_v22`. -/
def st_main_v22 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v8 (F := F) ids) (st_main_v21 (F := F))
/-- operation 34: `main_c_6`. -/
def st_main_c_6 : (⟨S_, .i32⟩ : BufTy).Contents (Elt F) :=
  (constantI S_ 32 64#32)
/-- operation 35: `main_v23`. -/
def st_main_v23 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_6 (F := F))
/-- operation 36: `main_v24`. -/
def st_main_v24 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v8 (F := F) ids) (st_main_v23 (F := F))
/-- operation 37: `main_v25`. -/
def st_main_v25 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v22 (F := F) ids) (st_main_v24 (F := F) ids) (st_main_v8 (F := F) ids)
/-- operation 38: `main_v26`. -/
def st_main_v26 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v25 (F := F) ids)
/-- operation 39: `main_v27`. -/
def st_main_v27 (ids : (⟨S1024x8, .i32⟩ : BufTy).Contents (Elt F)) : (⟨S8192, .i32⟩ : BufTy).Contents (Elt F) :=
  ((fun x i => Host.gather gather_S64_S8192x1_S8192_n_0_n_n_0_1_1 x i) : (⟨S64, .i32⟩ : BufTy).Contents (Elt F) → (⟨S8192x1, .i32⟩ : BufTy).Contents (Elt F) → (⟨S8192, .i32⟩ : BufTy).Contents (Elt F)) (st_main_v19 (F := F) ids) (st_main_v26 (F := F) ids)
/-- operation 40: `main_v28`. -/
def st_main_v28 (ids : (⟨S1024x8, .i32⟩ : BufTy).Contents (Elt F)) : (⟨S8192, .i32⟩ : BufTy).Contents (Elt F) :=
  (subi : (⟨S8192, .i32⟩ : BufTy).Contents (Elt F) → (⟨S8192, .i32⟩ : BufTy).Contents (Elt F) → (⟨S8192, .i32⟩ : BufTy).Contents (Elt F)) (st_main_v20 (F := F)) (st_main_v27 (F := F) ids)
/-- operation 41: `main_c_7`. -/
def st_main_c_7 : (⟨S_, .i32⟩ : BufTy).Contents (Elt F) :=
  (constantI S_ 32 8#32)
/-- operation 42: `main_call2_v0`. -/
def st_main_call2_v0 : (⟨S_, .i32⟩ : BufTy).Contents (Elt F) :=
  id (st_main_c_7 (F := F))
/-- operation 43: `main_call2_v1`. -/
def st_main_call2_v1 : (⟨S8192, .i32⟩ : BufTy).Contents (Elt F) :=
  (broadcastInDim S8192 ![] bcast_S_S8192) (st_main_call2_v0 (F := F))
/-- operation 44: `main_call2_v2`. -/
def st_main_call2_v2 (ids : (⟨S1024x8, .i32⟩ : BufTy).Contents (Elt F)) : (⟨S8192, .i32⟩ : BufTy).Contents (Elt F) :=
  Host.divsi (st_main_v1 (F := F) ids) (st_main_call2_v1 (F := F))
/-- operation 45: `main_call2_v3`. -/
def st_main_call2_v3 (ids : (⟨S1024x8, .i32⟩ : BufTy).Contents (Elt F)) : (⟨S8192, .i32⟩ : BufTy).Contents (Elt F) :=
  signi (st_main_v1 (F := F) ids)
/-- operation 46: `main_call2_v4`. -/
def st_main_call2_v4 : (⟨S_, .i32⟩ : BufTy).Contents (Elt F) :=
  signi (st_main_call2_v0 (F := F))
/-- operation 47: `main_call2_v5`. -/
def st_main_call2_v5 : (⟨S8192, .i32⟩ : BufTy).Contents (Elt F) :=
  (broadcastInDim S8192 ![] bcast_S_S8192) (st_main_call2_v4 (F := F))
/-- operation 48: `main_call2_v6`. -/
def st_main_call2_v6 (ids : (⟨S1024x8, .i32⟩ : BufTy).Contents (Elt F)) : (⟨S8192, .i1⟩ : BufTy).Contents (Elt F) :=
  (cmpi .ne) (st_main_call2_v3 (F := F) ids) (st_main_call2_v5 (F := F))
/-- operation 49: `main_call2_v7`. -/
def st_main_call2_v7 : (⟨S8192, .i32⟩ : BufTy).Contents (Elt F) :=
  (broadcastInDim S8192 ![] bcast_S_S8192) (st_main_call2_v0 (F := F))
/-- operation 50: `main_call2_v8`. -/
def st_main_call2_v8 (ids : (⟨S1024x8, .i32⟩ : BufTy).Contents (Elt F)) : (⟨S8192, .i32⟩ : BufTy).Contents (Elt F) :=
  Host.remsi (st_main_v1 (F := F) ids) (st_main_call2_v7 (F := F))
/-- operation 51: `main_call2_c`. -/
def st_main_call2_c : (⟨S_, .i32⟩ : BufTy).Contents (Elt F) :=
  (constantI S_ 32 0#32)
/-- operation 52: `main_call2_v9`. -/
def st_main_call2_v9 : (⟨S8192, .i32⟩ : BufTy).Contents (Elt F) :=
  (broadcastInDim S8192 ![] bcast_S_S8192) (st_main_call2_c (F := F))
/-- operation 53: `main_call2_v10`. -/
def st_main_call2_v10 (ids : (⟨S1024x8, .i32⟩ : BufTy).Contents (Elt F)) : (⟨S8192, .i1⟩ : BufTy).Contents (Elt F) :=
  (cmpi .ne) (st_main_call2_v8 (F := F) ids) (st_main_call2_v9 (F := F))
/-- operation 54: `main_call2_v11`. -/
def st_main_call2_v11 (ids : (⟨S1024x8, .i32⟩ : BufTy).Contents (Elt F)) : (⟨S8192, .i1⟩ : BufTy).Contents (Elt F) :=
  andi (st_main_call2_v6 (F := F) ids) (st_main_call2_v10 (F := F) ids)
/-- operation 55: `main_call2_c_0`. -/
def st_main_call2_c_0 : (⟨S_, .i32⟩ : BufTy).Contents (Elt F) :=
  (constantI S_ 32 1#32)
/-- operation 56: `main_call2_v12`. -/
def st_main_call2_v12 : (⟨S8192, .i32⟩ : BufTy).Contents (Elt F) :=
  (broadcastInDim S8192 ![] bcast_S_S8192) (st_main_call2_c_0 (F := F))
/-- operation 57: `main_call2_v13`. -/
def st_main_call2_v13 (ids : (⟨S1024x8, .i32⟩ : BufTy).Contents (Elt F)) : (⟨S8192, .i32⟩ : BufTy).Contents (Elt F) :=
  subi (st_main_call2_v2 (F := F) ids) (st_main_call2_v12 (F := F))
/-- operation 58: `main_v29`. -/
def st_main_v29 (ids : (⟨S1024x8, .i32⟩ : BufTy).Contents (Elt F)) : (⟨S8192, .i32⟩ : BufTy).Contents (Elt F) :=
  select (st_main_call2_v11 (F := F) ids) (st_main_call2_v13 (F := F) ids) (st_main_call2_v2 (F := F) ids)
/-- operation 59: `main_c_8`. -/
def st_main_c_8 : (⟨S_, .i32⟩ : BufTy).Contents (Elt F) :=
  (constantI S_ 32 0#32)
/-- operation 60: `main_v30`. -/
def st_main_v30 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_8 (F := F))
/-- operation 61: `main_v31`. -/
def st_main_v31 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v29 (F := F) ids) (st_main_v30 (F := F))
/-- operation 62: `main_c_9`. -/
def st_main_c_9 : (⟨S_, .i32⟩ : BufTy).Contents (Elt F) :=
  (constantI S_ 32 1024#32)
/-- operation 63: `main_v32`. -/
def st_main_v32 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_9 (F := F))
/-- operation 64: `main_v33`. -/
def st_main_v33 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v29 (F := F) ids) (st_main_v32 (F := F))
/-- operation 65: `main_v34`. -/
def st_main_v34 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v31 (F := F) ids) (st_main_v33 (F := F) ids) (st_main_v29 (F := F) ids)
/-- operation 66: `main_v35`. -/
def st_main_v35 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v34 (F := F) ids)
/-- operation 67: `main_v36`. -/
def st_main_v36 (x : (⟨S1024x1024, .f32⟩ : BufTy).Contents (Elt F)) (ids : (⟨S1024x8, .i32⟩ : BufTy).Contents (Elt F)) : (⟨S8192x1024, .f32⟩ : BufTy).Contents (Elt F) :=
  ((fun x i => Host.gather gather_S1024x1024_S8192x1_S8192x1024_1_0_n_n_0_1_11024 x i) : (⟨S1024x1024, .f32⟩ : BufTy).Contents (Elt F) → (⟨S8192x1, .i32⟩ : BufTy).Contents (Elt F) → (⟨S8192x1024, .f32⟩ : BufTy).Contents (Elt F)) x (st_main_v35 (F := F) ids)
/-- operation 68: `main_cst`. -/
def st_main_cst : (⟨S_, .f32⟩ : BufTy).Contents (Elt F) :=
  (constant (F := F) S_ .f32 0x00000000#32)
/-- operation 69: `main_v37`. -/
def st_main_v37 : (⟨S64x512x1024, .f32⟩ : BufTy).Contents (Elt F) :=
  (broadcastInDim S64x512x1024 ![] bcast_S_S64x512x1024 : (⟨S_, .f32⟩ : BufTy).Contents (Elt F) → (⟨S64x512x1024, .f32⟩ : BufTy).Contents (Elt F)) (st_main_cst (F := F))
/-- operation 70: `main_c_10`. -/
def st_main_c_10 : (⟨S_, .i32⟩ : BufTy).Contents (Elt F) :=
  (constantI S_ 32 0#32)
/-- operation 71: `main_v38`. -/
def st_main_v38 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_10 (F := F))
/-- operation 72: `main_v39`. -/
def st_main_v39 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v8 (F := F) ids) (st_main_v38 (F := F))
/-- operation 73: `main_c_11`. -/
def st_main_c_11 : (⟨S_, .i32⟩ : BufTy).Contents (Elt F) :=
  (constantI S_ 32 64#32)
/-- operation 74: `main_v40`. -/
def st_main_v40 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_11 (F := F))
/-- operation 75: `main_v41`. -/
def st_main_v41 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v8 (F := F) ids) (st_main_v40 (F := F))
/-- operation 76: `main_v42`. -/
def st_main_v42 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v39 (F := F) ids) (st_main_v41 (F := F) ids) (st_main_v8 (F := F) ids)
/-- operation 77: `main_c_12`. -/
def st_main_c_12 : (⟨S_, .i32⟩ : BufTy).Contents (Elt F) :=
  (constantI S_ 32 0#32)
/-- operation 78: `main_v43`. -/
def st_main_v43 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_12 (F := F))
/-- operation 79: `main_v44`. -/
def st_main_v44 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v28 (F := F) ids) (st_main_v43 (F := F))
/-- operation 80: `main_c_13`. -/
def st_main_c_13 : (⟨S_, .i32⟩ : BufTy).Contents (Elt F) :=
  (constantI S_ 32 512#32)
/-- operation 81: `main_v45`. -/
def st_main_v45 : (⟨S8192, .i32⟩ : BufTy).Contents (Elt F) :=
  (broadcastInDim S8192 ![] bcast_S_S8192 : (⟨S_, .i32⟩ : BufTy).Contents (Elt F) → (⟨S8192, .i32⟩ : BufTy).Contents (Elt F)) (st_main_c_13 (F := F))
/-- operation 82: `main_v46`. -/
def st_main_v46 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v28 (F := F) ids) (st_main_v45 (F := F))
/-- operation 83: `main_v47`. -/
def st_main_v47 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (st_main_v44 (F := F) ids) (st_main_v46 (F := F) ids) (st_main_v28 (F := F) ids)
/-- operation 84: `main_v48`. -/
def st_main_v48 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v42 (F := F) ids)
/-- operation 85: `main_v49`. -/
def st_main_v49 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (st_main_v47 (F := F) ids)
/-- operation 86: `main_v50`. -/
def st_main_v50 (ids : (⟨S1024x8, .i32⟩ : BufTy).Contents (Elt F)) : (⟨S8192x2, .i32⟩ : BufTy).Contents (Elt F) :=
  ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) (st_main_v48 (F := F) ids) (st_main_v49 (F := F) ids)
/-- operation 87: `main_v51`. -/
def st_main_v51 (x : (⟨S1024x1024, .f32⟩ : BufTy).Contents (Elt F)) (ids : (⟨S1024x8, .i32⟩ : BufTy).Contents (Elt F)) : (⟨S64x512x1024, .f32⟩ : BufTy).Contents (Elt F) :=
  ((fun x i u => Host.scatter scatter_S64x512x1024_S8192x2_S8192x1024_1_01_01_1 (fun _ b => b) x i u) : (⟨S64x512x1024, .f32⟩ : BufTy).Contents (Elt F) → (⟨S8192x2, .i32⟩ : BufTy).Contents (Elt F) → (⟨S8192x1024, .f32⟩ : BufTy).Contents (Elt F) → (⟨S64x512x1024, .f32⟩ : BufTy).Contents (Elt F)) (st_main_v37 (F := F)) (st_main_v50 (F := F) ids) (st_main_v36 (F := F) x ids)
/-- operation 88: `main_v52`. -/
def st_main_v52 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x1536, .f32⟩ : BufTy).Contents (Elt F) :=
  ((fun l r => Host.dotGeneral dot_S64x512x1024_S64x1536x1024_S64x512x1536_2_2_1_1_0_0 none l r) : (⟨S64x512x1024, .f32⟩ : BufTy).Contents (Elt F) → (⟨S64x1536x1024, .f32⟩ : BufTy).Contents (Elt F) → (⟨S64x512x1536, .f32⟩ : BufTy).Contents (Elt F)) (st_main_v51 (F := F) x ids) w1
/-- operation 89: `main_v53`. -/
def st_main_v53 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  ((extractStridedSlice S64x512x768 ![0, 0, 0] · slices_S64x512x1536_S64x512x768_0_0_0) : (⟨S64x512x1536, .f32⟩ : BufTy).Contents (Elt F) → (⟨S64x512x768, .f32⟩ : BufTy).Contents (Elt F)) (st_main_v52 (F := F) x ids w1)
/-- operation 90: `main_v54`. -/
def st_main_v54 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  ((extractStridedSlice S64x512x768 ![0, 0, 768] · slices_S64x512x1536_S64x512x768_0_0_768) : (⟨S64x512x1536, .f32⟩ : BufTy).Contents (Elt F) → (⟨S64x512x768, .f32⟩ : BufTy).Contents (Elt F)) (st_main_v52 (F := F) x ids w1)
/-- operation 91: `main_call3_v0`. -/
def st_main_call3_v0 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  Host.negf (st_main_v53 (F := F) x ids w1)
/-- operation 92: `main_call3_v1`. -/
def st_main_call3_v1 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  Host.exp (st_main_call3_v0 (F := F) x ids w1)
/-- operation 93: `main_call3_cst`. -/
def st_main_call3_cst : (⟨S_, .f32⟩ : BufTy).Contents (Elt F) :=
  (constant (F := F) S_ .f32 0x3F800000#32)
/-- operation 94: `main_call3_v2`. -/
def st_main_call3_v2 : (⟨S64x512x768, .f32⟩ : BufTy).Contents (Elt F) :=
  (broadcastInDim S64x512x768 ![] bcast_S_S64x512x768) (st_main_call3_cst (F := F))
/-- operation 95: `main_call3_v3`. -/
def st_main_call3_v3 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  addf (st_main_call3_v2 (F := F)) (st_main_call3_v1 (F := F) x ids w1)
/-- operation 96: `main_call3_cst_0`. -/
def st_main_call3_cst_0 : (⟨S_, .f32⟩ : BufTy).Contents (Elt F) :=
  (constant (F := F) S_ .f32 0x3F800000#32)
/-- operation 97: `main_call3_v4`. -/
def st_main_call3_v4 : (⟨S64x512x768, .f32⟩ : BufTy).Contents (Elt F) :=
  (broadcastInDim S64x512x768 ![] bcast_S_S64x512x768) (st_main_call3_cst_0 (F := F))
/-- operation 98: `main_call3_v5`. -/
def st_main_call3_v5 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  Host.divf (st_main_call3_v4 (F := F)) (st_main_call3_v3 (F := F) x ids w1)
/-- operation 99: `main_v55`. -/
def st_main_v55 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  mulf (st_main_v53 (F := F) x ids w1) (st_main_call3_v5 (F := F) x ids w1)
/-- operation 100: `main_v56`. -/
def st_main_v56 (x : (⟨S1024x1024, .f32⟩ : BufTy).Contents (Elt F)) (ids : (⟨S1024x8, .i32⟩ : BufTy).Contents (Elt F)) (w1 : (⟨S64x1536x1024, .f32⟩ : BufTy).Contents (Elt F)) : (⟨S64x512x768, .f32⟩ : BufTy).Contents (Elt F) :=
  (mulf : (⟨S64x512x768, .f32⟩ : BufTy).Contents (Elt F) → (⟨S64x512x768, .f32⟩ : BufTy).Contents (Elt F) → (⟨S64x512x768, .f32⟩ : BufTy).Contents (Elt F)) (st_main_v55 (F := F) x ids w1) (st_main_v54 (F := F) x ids w1)
/-- operation 101: `main_v57`. -/
def st_main_v57 (x : (⟨S1024x1024, .f32⟩ : BufTy).Contents (Elt F)) (ids : (⟨S1024x8, .i32⟩ : BufTy).Contents (Elt F)) (w1 : (⟨S64x1536x1024, .f32⟩ : BufTy).Contents (Elt F)) (w2 : (⟨S64x1024x768, .f32⟩ : BufTy).Contents (Elt F)) : (⟨S64x512x1024, .f32⟩ : BufTy).Contents (Elt F) :=
  ((fun l r => Host.dotGeneral dot_S64x512x768_S64x1024x768_S64x512x1024_2_2_1_1_0_0 none l r) : (⟨S64x512x768, .f32⟩ : BufTy).Contents (Elt F) → (⟨S64x1024x768, .f32⟩ : BufTy).Contents (Elt F) → (⟨S64x512x1024, .f32⟩ : BufTy).Contents (Elt F)) (st_main_v56 (F := F) x ids w1) w2
/-- operation 102: `main_c_14`. -/
def tl_main_c_14 : (⟨S_, .i32⟩ : BufTy).Contents (Elt F) :=
  (constantI S_ 32 0#32)
/-- operation 103: `main_v58`. -/
def tl_main_v58 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_14 (F := F))
/-- operation 104: `main_v59`. -/
def tl_main_v59 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v8 (F := F) ids) (tl_main_v58 (F := F))
/-- operation 105: `main_c_15`. -/
def tl_main_c_15 : (⟨S_, .i32⟩ : BufTy).Contents (Elt F) :=
  (constantI S_ 32 64#32)
/-- operation 106: `main_v60`. -/
def tl_main_v60 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_15 (F := F))
/-- operation 107: `main_v61`. -/
def tl_main_v61 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v8 (F := F) ids) (tl_main_v60 (F := F))
/-- operation 108: `main_v62`. -/
def tl_main_v62 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (tl_main_v59 (F := F) ids) (tl_main_v61 (F := F) ids) (st_main_v8 (F := F) ids)
/-- operation 109: `main_c_16`. -/
def tl_main_c_16 : (⟨S_, .i32⟩ : BufTy).Contents (Elt F) :=
  (constantI S_ 32 0#32)
/-- operation 110: `main_v63`. -/
def tl_main_v63 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_16 (F := F))
/-- operation 111: `main_v64`. -/
def tl_main_v64 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (st_main_v28 (F := F) ids) (tl_main_v63 (F := F))
/-- operation 112: `main_c_17`. -/
def tl_main_c_17 : (⟨S_, .i32⟩ : BufTy).Contents (Elt F) :=
  (constantI S_ 32 512#32)
/-- operation 113: `main_v65`. -/
def tl_main_v65 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_17 (F := F))
/-- operation 114: `main_v66`. -/
def tl_main_v66 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (st_main_v28 (F := F) ids) (tl_main_v65 (F := F))
/-- operation 115: `main_v67`. -/
def tl_main_v67 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (tl_main_v64 (F := F) ids) (tl_main_v66 (F := F) ids) (st_main_v28 (F := F) ids)
/-- operation 116: `main_v68`. -/
def tl_main_v68 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (tl_main_v62 (F := F) ids)
/-- operation 117: `main_v69`. -/
def tl_main_v69 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (tl_main_v67 (F := F) ids)
/-- operation 118: `main_v70`. -/
def tl_main_v70 (ids : (⟨S1024x8, .i32⟩ : BufTy).Contents (Elt F)) : (⟨S8192x2, .i32⟩ : BufTy).Contents (Elt F) :=
  ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) (tl_main_v68 (F := F) ids) (tl_main_v69 (F := F) ids)
/-- operation 119: `main_c_18`. -/
def tl_main_c_18 : (⟨S2, .i32⟩ : BufTy).Contents (Elt F) :=
  (fun i => lit0 (S2.rowMajor i))
/-- operation 120: `main_c_19`. -/
def tl_main_c_19 : (⟨S_, .i32⟩ : BufTy).Contents (Elt F) :=
  (constantI S_ 32 0#32)
/-- operation 121: `main_v71`. -/
def tl_main_v71 : (⟨S8192x2, .i32⟩ : BufTy).Contents (Elt F) :=
  (broadcastInDim S8192x2 ![] bcast_S_S8192x2 : (⟨S_, .i32⟩ : BufTy).Contents (Elt F) → (⟨S8192x2, .i32⟩ : BufTy).Contents (Elt F)) (tl_main_c_19 (F := F))
/-- operation 122: `main_v72`. -/
def tl_main_v72 (ids : (⟨S1024x8, .i32⟩ : BufTy).Contents (Elt F)) : (⟨S8192x2, .i1⟩ : BufTy).Contents (Elt F) :=
  (cmpi .sge : (⟨S8192x2, .i32⟩ : BufTy).Contents (Elt F) → (⟨S8192x2, .i32⟩ : BufTy).Contents (Elt F) → (⟨S8192x2, .i1⟩ : BufTy).Contents (Elt F)) (tl_main_v70 (F := F) ids) (tl_main_v71 (F := F))
/-- operation 123: `main_v73`. -/
def tl_main_v73 : (⟨S1x2, .i32⟩ : BufTy).Contents (Elt F) :=
  (broadcastInDim S1x2 ![1] bcast_S2_S1x2_1 : (⟨S2, .i32⟩ : BufTy).Contents (Elt F) → (⟨S1x2, .i32⟩ : BufTy).Contents (Elt F)) (tl_main_c_18 (F := F))
/-- operation 124: `main_v74`. -/
def tl_main_v74 : (⟨S8192x2, .i32⟩ : BufTy).Contents (Elt F) :=
  (broadcastInDim S8192x2 ![0, 1] bcast_S1x2_S8192x2_0_1 : (⟨S1x2, .i32⟩ : BufTy).Contents (Elt F) → (⟨S8192x2, .i32⟩ : BufTy).Contents (Elt F)) (tl_main_v73 (F := F))
/-- operation 125: `main_v75`. -/
def tl_main_v75 (ids : (⟨S1024x8, .i32⟩ : BufTy).Contents (Elt F)) : (⟨S8192x2, .i1⟩ : BufTy).Contents (Elt F) :=
  (cmpi .sle : (⟨S8192x2, .i32⟩ : BufTy).Contents (Elt F) → (⟨S8192x2, .i32⟩ : BufTy).Contents (Elt F) → (⟨S8192x2, .i1⟩ : BufTy).Contents (Elt F)) (tl_main_v70 (F := F) ids) (tl_main_v74 (F := F))
/-- operation 126: `main_v76`. -/
def tl_main_v76 (ids : (⟨S1024x8, .i32⟩ : BufTy).Contents (Elt F)) : (⟨S8192x2, .i1⟩ : BufTy).Contents (Elt F) :=
  (andi : (⟨S8192x2, .i1⟩ : BufTy).Contents (Elt F) → (⟨S8192x2, .i1⟩ : BufTy).Contents (Elt F) → (⟨S8192x2, .i1⟩ : BufTy).Contents (Elt F)) (tl_main_v72 (F := F) ids) (tl_main_v75 (F := F) ids)
/-- operation 127: `main_c_20`. -/
def tl_main_c_20 : (⟨S_, .i1⟩ : BufTy).Contents (Elt F) :=
  (constantI S_ 1 1#1)
/-- operation 128: `main_v77`. -/
def tl_main_v77 (ids : (⟨S1024x8, .i32⟩ : BufTy).Contents (Elt F)) : (⟨S8192, .i1⟩ : BufTy).Contents (Elt F) :=
  ((fun x v => Host.reduce IntOp.andi x v reducesTo_S8192x2_S8192_d1 h_S_) : (⟨S8192x2, .i1⟩ : BufTy).Contents (Elt F) → (⟨S_, .i1⟩ : BufTy).Contents (Elt F) → (⟨S8192, .i1⟩ : BufTy).Contents (Elt F)) (tl_main_v76 (F := F) ids) (tl_main_c_20 (F := F))
/-- operation 129: `main_v78`. -/
def tl_main_v78 (yb : (⟨S64x512x1024, .f32⟩ : BufTy).Contents (Elt F)) (ids : (⟨S1024x8, .i32⟩ : BufTy).Contents (Elt F)) : (⟨S8192x1024, .f32⟩ : BufTy).Contents (Elt F) :=
  ((fun x i => Host.gather gather_S64x512x1024_S8192x2_S8192x1024_1_01_n_n_01_1_111024 x i) : (⟨S64x512x1024, .f32⟩ : BufTy).Contents (Elt F) → (⟨S8192x2, .i32⟩ : BufTy).Contents (Elt F) → (⟨S8192x1024, .f32⟩ : BufTy).Contents (Elt F)) yb (tl_main_v70 (F := F) ids)
/-- operation 130: `main_v79`. -/
def tl_main_v79 (ids : (⟨S1024x8, .i32⟩ : BufTy).Contents (Elt F)) : (⟨S8192x1024, .i1⟩ : BufTy).Contents (Elt F) :=
  (broadcastInDim S8192x1024 ![0] bcast_S8192_S8192x1024_0 : (⟨S8192, .i1⟩ : BufTy).Contents (Elt F) → (⟨S8192x1024, .i1⟩ : BufTy).Contents (Elt F)) (tl_main_v77 (F := F) ids)
/-- operation 131: `main_cst_21`. -/
def tl_main_cst_21 : (⟨S_, .f32⟩ : BufTy).Contents (Elt F) :=
  (constant (F := F) S_ .f32 0x00000000#32)
/-- operation 132: `main_v80`. -/
def tl_main_v80 : (⟨S8192x1024, .f32⟩ : BufTy).Contents (Elt F) :=
  (broadcastInDim S8192x1024 ![] bcast_S_S8192x1024 : (⟨S_, .f32⟩ : BufTy).Contents (Elt F) → (⟨S8192x1024, .f32⟩ : BufTy).Contents (Elt F)) (tl_main_cst_21 (F := F))
/-- operation 133: `main_v81`. -/
def tl_main_v81 (yb : (⟨S64x512x1024, .f32⟩ : BufTy).Contents (Elt F)) (ids : (⟨S1024x8, .i32⟩ : BufTy).Contents (Elt F)) : (⟨S8192x1024, .f32⟩ : BufTy).Contents (Elt F) :=
  (select : (⟨S8192x1024, .i1⟩ : BufTy).Contents (Elt F) → (⟨S8192x1024, .f32⟩ : BufTy).Contents (Elt F) → (⟨S8192x1024, .f32⟩ : BufTy).Contents (Elt F) → (⟨S8192x1024, .f32⟩ : BufTy).Contents (Elt F)) (tl_main_v79 (F := F) ids) (tl_main_v78 (F := F) yb ids) (tl_main_v80 (F := F))
/-- operation 134: `main_call4_v0`. -/
def tl_main_call4_v0 : (⟨S8192, .i32⟩ : BufTy).Contents (Elt F) :=
  (iotaInDim S8192 32 0)
/-- operation 135: `main_call4_v1_0`. -/
def tl_main_call4_v1_0 (ids : (⟨S1024x8, .i32⟩ : BufTy).Contents (Elt F)) : (⟨S8192, .i32⟩ : BufTy).Contents (Elt F) :=
  (fun x y => (Host.sort2 S8192 0 comparator_i32_i32_d0 x y).1) (st_main_v1 (F := F) ids) (tl_main_call4_v0 (F := F))
/-- operation 136: `main_v82`. -/
def tl_main_v82 (ids : (⟨S1024x8, .i32⟩ : BufTy).Contents (Elt F)) : (⟨S8192, .i32⟩ : BufTy).Contents (Elt F) :=
  (fun x y => (Host.sort2 S8192 0 comparator_i32_i32_d0 x y).2) (st_main_v1 (F := F) ids) (tl_main_call4_v0 (F := F))
/-- operation 137: `main_c_22`. -/
def tl_main_c_22 : (⟨S_, .i32⟩ : BufTy).Contents (Elt F) :=
  (constantI S_ 32 0#32)
/-- operation 138: `main_v83`. -/
def tl_main_v83 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_22 (F := F))
/-- operation 139: `main_v84`. -/
def tl_main_v84 (ids : (⟨S1024x8, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (tl_main_v82 (F := F) ids) (tl_main_v83 (F := F))
/-- operation 140: `main_c_23`. -/
def tl_main_c_23 : (⟨S_, .i32⟩ : BufTy).Contents (Elt F) :=
  (constantI S_ 32 8192#32)
/-- operation 141: `main_v85`. -/
def tl_main_v85 : (⟨S8192, .i32⟩ : BufTy).Contents (Elt F) :=
  (broadcastInDim S8192 ![] bcast_S_S8192 : (⟨S_, .i32⟩ : BufTy).Contents (Elt F) → (⟨S8192, .i32⟩ : BufTy).Contents (Elt F)) (tl_main_c_23 (F := F))
/-- operation 142: `main_v86`. -/
def tl_main_v86 (ids : (⟨S1024x8, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (tl_main_v82 (F := F) ids) (tl_main_v85 (F := F))
/-- operation 143: `main_v87`. -/
def tl_main_v87 (ids : (⟨S1024x8, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (tl_main_v84 (F := F) ids) (tl_main_v86 (F := F) ids) (tl_main_v82 (F := F) ids)
/-- operation 144: `main_v88`. -/
def tl_main_v88 (ids : (⟨S1024x8, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (tl_main_v87 (F := F) ids)
/-- operation 145: `main_v89`. -/
def tl_main_v89 (yb : (⟨S64x512x1024, .f32⟩ : BufTy).Contents (Elt F)) (ids : (⟨S1024x8, .i32⟩ : BufTy).Contents (Elt F)) : (⟨S8192x1024, .f32⟩ : BufTy).Contents (Elt F) :=
  ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)) (tl_main_v81 (F := F) yb ids) (tl_main_v88 (F := F) ids)
/-- operation 146: `main_v90`. -/
def tl_main_v90 (yb : (⟨S64x512x1024, .f32⟩ : BufTy).Contents (Elt F)) (ids : (⟨S1024x8, .i32⟩ : BufTy).Contents (Elt F)) : (⟨S1024x8x1024, .f32⟩ : BufTy).Contents (Elt F) :=
  (fun v => shapeCast S1024x8x1024 v shapeCasts_S8192x1024_S1024x8x1024) (tl_main_v89 (F := F) yb ids)
/-- operation 147: `main_v91`. -/
def tl_main_v91 (tw : (⟨S1024x8, .f32⟩ : BufTy).Contents (Elt F)) : (⟨S1024x8x1, .f32⟩ : BufTy).Contents (Elt F) :=
  (broadcastInDim S1024x8x1 ![0, 1] bcast_S1024x8_S1024x8x1_0_1 : (⟨S1024x8, .f32⟩ : BufTy).Contents (Elt F) → (⟨S1024x8x1, .f32⟩ : BufTy).Contents (Elt F)) tw
/-- operation 148: `main_v92`. -/
def tl_main_v92 (tw : (⟨S1024x8, .f32⟩ : BufTy).Contents (Elt F)) : (⟨S1024x8x1024, .f32⟩ : BufTy).Contents (Elt F) :=
  (broadcastInDim S1024x8x1024 ![0, 1, 2] bcast_S1024x8x1_S1024x8x1024_0_1_2 : (⟨S1024x8x1, .f32⟩ : BufTy).Contents (Elt F) → (⟨S1024x8x1024, .f32⟩ : BufTy).Contents (Elt F)) (tl_main_v91 (F := F) tw)
/-- operation 149: `main_v93`. -/
def tl_main_v93 (yb : (⟨S64x512x1024, .f32⟩ : BufTy).Contents (Elt F)) (tw : (⟨S1024x8, .f32⟩ : BufTy).Contents (Elt F)) (ids : (⟨S1024x8, .i32⟩ : BufTy).Contents (Elt F)) : (⟨S1024x8x1024, .f32⟩ : BufTy).Contents (Elt F) :=
  (mulf : (⟨S1024x8x1024, .f32⟩ : BufTy).Contents (Elt F) → (⟨S1024x8x1024, .f32⟩ : BufTy).Contents (Elt F) → (⟨S1024x8x1024, .f32⟩ : BufTy).Contents (Elt F)) (tl_main_v90 (F := F) yb ids) (tl_main_v92 (F := F) tw)
/-- operation 150: `main_cst_24`. -/
def tl_main_cst_24 : (⟨S_, .f32⟩ : BufTy).Contents (Elt F) :=
  (constant (F := F) S_ .f32 0x00000000#32)
/-- operation 151: `main_v94`. -/
def tl_main_v94 (yb : (⟨S64x512x1024, .f32⟩ : BufTy).Contents (Elt F)) (tw : (⟨S1024x8, .f32⟩ : BufTy).Contents (Elt F)) (ids : (⟨S1024x8, .i32⟩ : BufTy).Contents (Elt F)) : (⟨S1024x1024, .f32⟩ : BufTy).Contents (Elt F) :=
  ((fun x v => Host.reduceAdd x v reducesTo_S1024x8x1024_S1024x1024_d1 h_S_) : (⟨S1024x8x1024, .f32⟩ : BufTy).Contents (Elt F) → (⟨S_, .f32⟩ : BufTy).Contents (Elt F) → (⟨S1024x1024, .f32⟩ : BufTy).Contents (Elt F)) (tl_main_v93 (F := F) yb tw ids) (tl_main_cst_24 (F := F))

end Cert.ReferenceIdeal.Stage

end
-- ==== Proof.V.ReadsRef.lean ====
import proofs.«126691_j58317065945110_2_alg».proof.Proof.RI.Run
import proofs.«126691_j58317065945110_2_alg».proof.Proof.V.StagesRef
import proofs.«126691_j58317065945110_2_alg».proof.Proof.V.LibStageRead
import proofs.«126691_j58317065945110_2_alg».proof.Proof.V.LibTypedRef

set_option maxRecDepth 65536

noncomputable section

namespace Cert.ReferenceIdeal.Reads

open Cert.ReferenceIdeal Cert.ReferenceIdeal.Gen Cert.ReferenceIdeal.Hand Idealize.ShloMosaic Idealize.ShloMosaic.TcCoe Idealize.ShloMosaic.StableHlo

variable {F : FTy → Type} [FloatOps F]

/-- The buffers the line writes, in order. -/
abbrev dsts_ops : List (Ref sig .tc) := [main_v0, main_call0_v0, main_call0_v1_0, main_v1, main_c, main_v2, main_v3, main_c_0, main_v4, main_v5, main_v6, main_v7, main_v8, main_c_1, main_v9, main_c_2, main_v10, main_v11, main_c_3, main_v12, main_v13, main_v14, main_v15, main_c_4, main_v16, main_v17, main_call1_call0_c, main_call1_call0_v0, main_v18, main_v19, main_v20, main_c_5, main_v21, main_v22, main_c_6, main_v23, main_v24, main_v25, main_v26, main_v27, main_v28, main_c_7, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v29, main_c_8, main_v30, main_v31, main_c_9, main_v32, main_v33, main_v34, main_v35, main_v36, main_cst, main_v37, main_c_10, main_v38, main_v39, main_c_11, main_v40, main_v41, main_v42, main_c_12, main_v43, main_v44, main_c_13, main_v45, main_v46, main_v47, main_v48, main_v49, main_v50, main_v51, main_v52, main_v53, main_v54, main_call3_v0, main_call3_v1, main_call3_cst, main_call3_v2, main_call3_v3, main_call3_cst_0, main_call3_v4, main_call3_v5, main_v55, main_v56, main_v57, main_c_14, main_v58, main_v59, main_c_15, main_v60, main_v61, main_v62, main_c_16, main_v63, main_v64, main_c_17, main_v65, main_v66, main_v67, main_v68, main_v69, main_v70, main_c_18, main_c_19, main_v71, main_v72, main_v73, main_v74, main_v75, main_v76, main_c_20, main_v77, main_v78, main_v79, main_cst_21, main_v80, main_v81, main_call4_v0, main_call4_v1_0, main_v82, main_c_22, main_v83, main_v84, main_c_23, main_v85, main_v86, main_v87, main_v88, main_v89, main_v90, main_v91, main_v92, main_v93, main_cst_24, main_v94]
theorem writes_ops : WritesAre (ops (F := F)) dsts_ops := by
  unfold WritesAre
  repeat' constructor
  all_goals simp only [nullary_writes, unary_writes, binary_writes, ternary_writes, quaternary_writes, reshape_writes, binaryIndexed_writes, Finset.Subset.refl]

theorem keep_ops_main_arg0 (V : Valuation τ sig (Elt F)) : after (ops (F := F)) V (Proc.devRef .tc main_arg0) = V (Proc.devRef .tc main_arg0) :=
  after_keep_from writes_ops 0 (by decide) V
theorem keep_ops_main_arg1 (V : Valuation τ sig (Elt F)) : after (ops (F := F)) V (Proc.devRef .tc main_arg1) = V (Proc.devRef .tc main_arg1) :=
  after_keep_from writes_ops 0 (by decide) V
theorem keep_ops_main_arg2 (V : Valuation τ sig (Elt F)) : after (ops (F := F)) V (Proc.devRef .tc main_arg2) = V (Proc.devRef .tc main_arg2) :=
  after_keep_from writes_ops 0 (by decide) V
theorem keep_ops_main_arg3 (V : Valuation τ sig (Elt F)) : after (ops (F := F)) V (Proc.devRef .tc main_arg3) = V (Proc.devRef .tc main_arg3) :=
  after_keep_from writes_ops 0 (by decide) V
theorem keep_ops_main_arg4 (V : Valuation τ sig (Elt F)) : after (ops (F := F)) V (Proc.devRef .tc main_arg4) = V (Proc.devRef .tc main_arg4) :=
  after_keep_from writes_ops 0 (by decide) V

theorem rd_ops_main_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v0) = Stage.st_main_v0 (F := F) (A_ids) := by
  rw [read_reshape (y := main_v0) writes_ops 0 V rfl (by decide) (by decide), keep_ops_main_arg2 V, hids]
  rfl
set_option maxHeartbeats 1000000 in
theorem rd_ops_main_call0_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call0_v0) = Stage.st_main_call0_v0 (F := F) := by
  rw [read_nullary (y := main_call0_v0) writes_ops 1 V rfl (by decide)]
  exact cast_app₀ _ _
set_option maxHeartbeats 1000000 in
theorem rd_ops_main_call0_v1_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call0_v1_0) = Stage.st_main_call0_v1_0 (F := F) (A_ids) := by
  rw [read_binary (y := main_call0_v1_0) writes_ops 2 V rfl (by decide) (by decide) (by decide)]
  simp only [rd_ops_main_v0 V A_x A_tw A_ids A_w1 A_w2 hx htw hids hw1 hw2, rd_ops_main_call0_v0 V A_x A_tw A_ids A_w1 A_w2 hx htw hids hw1 hw2]
  exact cast_app₂ _ _ _ (((fun x y => (Host.sort2 S8192 0 comparator_i32_i32_d0 x y).1)) : (⟨S8192, .i32⟩ : BufTy).Contents (Elt F) → (⟨S8192, .i32⟩ : BufTy).Contents (Elt F) → (⟨S8192, .i32⟩ : BufTy).Contents (Elt F)) _ _
set_option maxHeartbeats 1000000 in
theorem rd_ops_main_v1 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v1) = Stage.st_main_v1 (F := F) (A_ids) := by
  rw [read_binary (y := main_v1) writes_ops 3 V rfl (by decide) (by decide) (by decide)]
  simp only [rd_ops_main_v0 V A_x A_tw A_ids A_w1 A_w2 hx htw hids hw1 hw2, rd_ops_main_call0_v0 V A_x A_tw A_ids A_w1 A_w2 hx htw hids hw1 hw2]
  exact cast_app₂ _ _ _ (((fun x y => (Host.sort2 S8192 0 comparator_i32_i32_d0 x y).2)) : (⟨S8192, .i32⟩ : BufTy).Contents (Elt F) → (⟨S8192, .i32⟩ : BufTy).Contents (Elt F) → (⟨S8192, .i32⟩ : BufTy).Contents (Elt F)) _ _
theorem rd_ops_main_c (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c) = Stage.st_main_c (F := F) := by
  rw [read_nullary (y := main_c) writes_ops 4 V rfl (by decide)]
  rfl
theorem rd_ops_main_v2 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v2) = Stage.st_main_v2 (F := F) := by
  rw [read_unary (y := main_v2) writes_ops 5 V rfl (by decide) (by decide), rd_ops_main_c V A_x A_tw A_ids A_w1 A_w2 hx htw hids hw1 hw2]
  rfl
theorem rd_ops_main_v3 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v3) = Stage.st_main_v3 (F := F) (A_ids) := by
  rw [read_binary (y := main_v3) writes_ops 6 V rfl (by decide) (by decide) (by decide), rd_ops_main_v1 V A_x A_tw A_ids A_w1 A_w2 hx htw hids hw1 hw2, rd_ops_main_v2 V A_x A_tw A_ids A_w1 A_w2 hx htw hids hw1 hw2]
  rfl
theorem rd_ops_main_c_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_0) = Stage.st_main_c_0 (F := F) := by
  rw [read_nullary (y := main_c_0) writes_ops 7 V rfl (by decide)]
  rfl
theorem rd_ops_main_v4 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v4) = Stage.st_main_v4 (F := F) := by
  rw [read_unary (y := main_v4) writes_ops 8 V rfl (by decide) (by decide), rd_ops_main_c_0 V A_x A_tw A_ids A_w1 A_w2 hx htw hids hw1 hw2]
  rfl
theorem rd_ops_main_v5 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v5) = Stage.st_main_v5 (F := F) (A_ids) := by
  rw [read_binary (y := main_v5) writes_ops 9 V rfl (by decide) (by decide) (by decide), rd_ops_main_v1 V A_x A_tw A_ids A_w1 A_w2 hx htw hids hw1 hw2, rd_ops_main_v4 V A_x A_tw A_ids A_w1 A_w2 hx htw hids hw1 hw2]
  rfl
theorem rd_ops_main_v6 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v6) = Stage.st_main_v6 (F := F) (A_ids) := by
  rw [read_ternary (y := main_v6) writes_ops 10 V rfl (by decide) (by decide) (by decide) (by decide), rd_ops_main_v3 V A_x A_tw A_ids A_w1 A_w2 hx htw hids hw1 hw2, rd_ops_main_v5 V A_x A_tw A_ids A_w1 A_w2 hx htw hids hw1 hw2, rd_ops_main_v1 V A_x A_tw A_ids A_w1 A_w2 hx htw hids hw1 hw2]
  rfl
theorem rd_ops_main_v7 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v7) = Stage.st_main_v7 (F := F) (A_ids) := by
  rw [read_unary (y := main_v7) writes_ops 11 V rfl (by decide) (by decide), rd_ops_main_v6 V A_x A_tw A_ids A_w1 A_w2 hx htw hids hw1 hw2]
  rfl
theorem rd_ops_main_v8 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v8) = Stage.st_main_v8 (F := F) (A_ids) := by
  rw [read_binary (y := main_v8) writes_ops 12 V rfl (by decide) (by decide) (by decide), rd_ops_main_v0 V A_x A_tw A_ids A_w1 A_w2 hx htw hids hw1 hw2, rd_ops_main_v7 V A_x A_tw A_ids A_w1 A_w2 hx htw hids hw1 hw2]
  rfl
theorem rd_ops_main_c_1 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_1) = Stage.st_main_c_1 (F := F) := by
  rw [read_nullary (y := main_c_1) writes_ops 13 V rfl (by decide)]
  rfl
theorem rd_ops_main_v9 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v9) = Stage.st_main_v9 (F := F) := by
  rw [read_unary (y := main_v9) writes_ops 14 V rfl (by decide) (by decide), rd_ops_main_c_1 V A_x A_tw A_ids A_w1 A_w2 hx htw hids hw1 hw2]
  rfl
theorem rd_ops_main_c_2 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_2) = Stage.st_main_c_2 (F := F) := by
  rw [read_nullary (y := main_c_2) writes_ops 15 V rfl (by decide)]
  rfl
theorem rd_ops_main_v10 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v10) = Stage.st_main_v10 (F := F) := by
  rw [read_unary (y := main_v10) writes_ops 16 V rfl (by decide) (by decide), rd_ops_main_c_2 V A_x A_tw A_ids A_w1 A_w2 hx htw hids hw1 hw2]
  rfl
theorem rd_ops_main_v11 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v11) = Stage.st_main_v11 (F := F) (A_ids) := by
  rw [read_binary (y := main_v11) writes_ops 17 V rfl (by decide) (by decide) (by decide), rd_ops_main_v0 V A_x A_tw A_ids A_w1 A_w2 hx htw hids hw1 hw2, rd_ops_main_v10 V A_x A_tw A_ids A_w1 A_w2 hx htw hids hw1 hw2]
  rfl
theorem rd_ops_main_c_3 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_3) = Stage.st_main_c_3 (F := F) := by
  rw [read_nullary (y := main_c_3) writes_ops 18 V rfl (by decide)]
  rfl
theorem rd_ops_main_v12 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v12) = Stage.st_main_v12 (F := F) := by
  rw [read_unary (y := main_v12) writes_ops 19 V rfl (by decide) (by decide), rd_ops_main_c_3 V A_x A_tw A_ids A_w1 A_w2 hx htw hids hw1 hw2]
  rfl
theorem rd_ops_main_v13 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v13) = Stage.st_main_v13 (F := F) (A_ids) := by
  rw [read_binary (y := main_v13) writes_ops 20 V rfl (by decide) (by decide) (by decide), rd_ops_main_v0 V A_x A_tw A_ids A_w1 A_w2 hx htw hids hw1 hw2, rd_ops_main_v12 V A_x A_tw A_ids A_w1 A_w2 hx htw hids hw1 hw2]
  rfl
theorem rd_ops_main_v14 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v14) = Stage.st_main_v14 (F := F) (A_ids) := by
  rw [read_ternary (y := main_v14) writes_ops 21 V rfl (by decide) (by decide) (by decide) (by decide), rd_ops_main_v11 V A_x A_tw A_ids A_w1 A_w2 hx htw hids hw1 hw2, rd_ops_main_v13 V A_x A_tw A_ids A_w1 A_w2 hx htw hids hw1 hw2, rd_ops_main_v0 V A_x A_tw A_ids A_w1 A_w2 hx htw hids hw1 hw2]
  rfl
theorem rd_ops_main_v15 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v15) = Stage.st_main_v15 (F := F) (A_ids) := by
  rw [read_unary (y := main_v15) writes_ops 22 V rfl (by decide) (by decide), rd_ops_main_v14 V A_x A_tw A_ids A_w1 A_w2 hx htw hids hw1 hw2]
  rfl
theorem rd_ops_main_c_4 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_4) = Stage.st_main_c_4 (F := F) := by
  rw [read_nullary (y := main_c_4) writes_ops 23 V rfl (by decide)]
  rfl
theorem rd_ops_main_v16 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v16) = Stage.st_main_v16 (F := F) := by
  rw [read_unary (y := main_v16) writes_ops 24 V rfl (by decide) (by decide), rd_ops_main_c_4 V A_x A_tw A_ids A_w1 A_w2 hx htw hids hw1 hw2]
  rfl
theorem rd_ops_main_v17 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v17) = Stage.st_main_v17 (F := F) (A_ids) := by
  rw [read_ternary (y := main_v17) writes_ops 25 V rfl (by decide) (by decide) (by decide) (by decide), rd_ops_main_v9 V A_x A_tw A_ids A_w1 A_w2 hx htw hids hw1 hw2, rd_ops_main_v15 V A_x A_tw A_ids A_w1 A_w2 hx htw hids hw1 hw2, rd_ops_main_v16 V A_x A_tw A_ids A_w1 A_w2 hx htw hids hw1 hw2]
  rfl
set_option maxHeartbeats 1000000 in
theorem rd_ops_main_call1_call0_c (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call1_call0_c) = Stage.st_main_call1_call0_c (F := F) := by
  rw [read_nullary (y := main_call1_call0_c) writes_ops 26 V rfl (by decide)]
  exact cast_app₀ _ _
set_option maxHeartbeats 1000000 in
theorem rd_ops_main_call1_call0_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call1_call0_v0) = Stage.st_main_call1_call0_v0 (F := F) := by
  rw [read_unary (y := main_call1_call0_v0) writes_ops 27 V rfl (by decide) (by decide)]
  simp only [rd_ops_main_call1_call0_c V A_x A_tw A_ids A_w1 A_w2 hx htw hids hw1 hw2]
  exact cast_app₁ _ _ (((broadcastInDim S_ ![] bcast_S_S_)) : (⟨S_, .i32⟩ : BufTy).Contents (Elt F) → (⟨S_, .i32⟩ : BufTy).Contents (Elt F)) _
set_option maxHeartbeats 1000000 in
theorem rd_ops_main_v18 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v18) = Stage.st_main_v18 (F := F) (A_ids) := by
  rw [read_binary (y := main_v18) writes_ops 28 V rfl (by decide) (by decide) (by decide)]
  simp only [rd_ops_main_v17 V A_x A_tw A_ids A_w1 A_w2 hx htw hids hw1 hw2, rd_ops_main_call1_call0_v0 V A_x A_tw A_ids A_w1 A_w2 hx htw hids hw1 hw2]
  exact cast_app₂ _ _ _ (((fun x v => Host.reduceWindow IntOp.addi ![64] ![1] ![63] ![0] x v reduceWindows_S64_S64_w64s1p63_0 h_S_)) : (⟨S64, .i32⟩ : BufTy).Contents (Elt F) → (⟨S_, .i32⟩ : BufTy).Contents (Elt F) → (⟨S64, .i32⟩ : BufTy).Contents (Elt F)) _ _
theorem rd_ops_main_v19 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v19) = Stage.st_main_v19 (F := F) (A_ids) := by
  rw [read_binary (y := main_v19) writes_ops 29 V rfl (by decide) (by decide) (by decide), rd_ops_main_v18 V A_x A_tw A_ids A_w1 A_w2 hx htw hids hw1 hw2, rd_ops_main_v17 V A_x A_tw A_ids A_w1 A_w2 hx htw hids hw1 hw2]
  rfl
theorem rd_ops_main_v20 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v20) = Stage.st_main_v20 (F := F) := by
  rw [read_nullary (y := main_v20) writes_ops 30 V rfl (by decide)]
  rfl
theorem rd_ops_main_c_5 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_5) = Stage.st_main_c_5 (F := F) := by
  rw [read_nullary (y := main_c_5) writes_ops 31 V rfl (by decide)]
  rfl
theorem rd_ops_main_v21 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v21) = Stage.st_main_v21 (F := F) := by
  rw [read_unary (y := main_v21) writes_ops 32 V rfl (by decide) (by decide), rd_ops_main_c_5 V A_x A_tw A_ids A_w1 A_w2 hx htw hids hw1 hw2]
  rfl
theorem rd_ops_main_v22 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v22) = Stage.st_main_v22 (F := F) (A_ids) := by
  rw [read_binary (y := main_v22) writes_ops 33 V rfl (by decide) (by decide) (by decide), rd_ops_main_v8 V A_x A_tw A_ids A_w1 A_w2 hx htw hids hw1 hw2, rd_ops_main_v21 V A_x A_tw A_ids A_w1 A_w2 hx htw hids hw1 hw2]
  rfl
theorem rd_ops_main_c_6 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_6) = Stage.st_main_c_6 (F := F) := by
  rw [read_nullary (y := main_c_6) writes_ops 34 V rfl (by decide)]
  rfl
theorem rd_ops_main_v23 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v23) = Stage.st_main_v23 (F := F) := by
  rw [read_unary (y := main_v23) writes_ops 35 V rfl (by decide) (by decide), rd_ops_main_c_6 V A_x A_tw A_ids A_w1 A_w2 hx htw hids hw1 hw2]
  rfl
theorem rd_ops_main_v24 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v24) = Stage.st_main_v24 (F := F) (A_ids) := by
  rw [read_binary (y := main_v24) writes_ops 36 V rfl (by decide) (by decide) (by decide), rd_ops_main_v8 V A_x A_tw A_ids A_w1 A_w2 hx htw hids hw1 hw2, rd_ops_main_v23 V A_x A_tw A_ids A_w1 A_w2 hx htw hids hw1 hw2]
  rfl
theorem rd_ops_main_v25 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v25) = Stage.st_main_v25 (F := F) (A_ids) := by
  rw [read_ternary (y := main_v25) writes_ops 37 V rfl (by decide) (by decide) (by decide) (by decide), rd_ops_main_v22 V A_x A_tw A_ids A_w1 A_w2 hx htw hids hw1 hw2, rd_ops_main_v24 V A_x A_tw A_ids A_w1 A_w2 hx htw hids hw1 hw2, rd_ops_main_v8 V A_x A_tw A_ids A_w1 A_w2 hx htw hids hw1 hw2]
  rfl
theorem rd_ops_main_v26 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v26) = Stage.st_main_v26 (F := F) (A_ids) := by
  rw [read_unary (y := main_v26) writes_ops 38 V rfl (by decide) (by decide), rd_ops_main_v25 V A_x A_tw A_ids A_w1 A_w2 hx htw hids hw1 hw2]
  rfl
theorem rd_ops_main_v27 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v27) = Stage.st_main_v27 (F := F) (A_ids) := by
  rw [read_binary (y := main_v27) writes_ops 39 V rfl (by decide) (by decide) (by decide), rd_ops_main_v19 V A_x A_tw A_ids A_w1 A_w2 hx htw hids hw1 hw2, rd_ops_main_v26 V A_x A_tw A_ids A_w1 A_w2 hx htw hids hw1 hw2]
  rfl
theorem rd_ops_main_v28 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v28) = Stage.st_main_v28 (F := F) (A_ids) := by
  rw [read_binary (y := main_v28) writes_ops 40 V rfl (by decide) (by decide) (by decide), rd_ops_main_v20 V A_x A_tw A_ids A_w1 A_w2 hx htw hids hw1 hw2, rd_ops_main_v27 V A_x A_tw A_ids A_w1 A_w2 hx htw hids hw1 hw2]
  rfl
theorem rd_ops_main_c_7 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_7) = Stage.st_main_c_7 (F := F) := by
  rw [read_nullary (y := main_c_7) writes_ops 41 V rfl (by decide)]
  rfl
set_option maxHeartbeats 1000000 in
theorem rd_ops_main_call2_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v0) = Stage.st_main_call2_v0 (F := F) := by
  rw [read_unary (y := main_call2_v0) writes_ops 42 V rfl (by decide) (by decide)]
  simp only [rd_ops_main_c_7 V A_x A_tw A_ids A_w1 A_w2 hx htw hids hw1 hw2]
  exact cast_app₁ _ _ ((id) : (⟨S_, .i32⟩ : BufTy).Contents (Elt F) → (⟨S_, .i32⟩ : BufTy).Contents (Elt F)) _
set_option maxHeartbeats 1000000 in
theorem rd_ops_main_call2_v1 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v1) = Stage.st_main_call2_v1 (F := F) := by
  rw [read_unary (y := main_call2_v1) writes_ops 43 V rfl (by decide) (by decide)]
  simp only [rd_ops_main_call2_v0 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_ops_main_call2_v2 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v2) = Stage.st_main_call2_v2 (F := F) (A_ids) := by
  rw [read_binary (y := main_call2_v2) writes_ops 44 V rfl (by decide) (by decide) (by decide)]
  simp only [rd_ops_main_v1 V A_x A_tw A_ids A_w1 A_w2 hx htw hids hw1 hw2, rd_ops_main_call2_v1 V A_x A_tw A_ids A_w1 A_w2 hx htw hids hw1 hw2]
  exact cast_app₂ _ _ _ ((Host.divsi) : (⟨S8192, .i32⟩ : BufTy).Contents (Elt F) → (⟨S8192, .i32⟩ : BufTy).Contents (Elt F) → (⟨S8192, .i32⟩ : BufTy).Contents (Elt F)) _ _
set_option maxHeartbeats 1000000 in
theorem rd_ops_main_call2_v3 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v3) = Stage.st_main_call2_v3 (F := F) (A_ids) := by
  rw [read_unary (y := main_call2_v3) writes_ops 45 V rfl (by decide) (by decide)]
  simp only [rd_ops_main_v1 V A_x A_tw A_ids A_w1 A_w2 hx htw hids hw1 hw2]
  exact cast_app₁ _ _ ((signi) : (⟨S8192, .i32⟩ : BufTy).Contents (Elt F) → (⟨S8192, .i32⟩ : BufTy).Contents (Elt F)) _
set_option maxHeartbeats 1000000 in
theorem rd_ops_main_call2_v4 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v4) = Stage.st_main_call2_v4 (F := F) := by
  rw [read_unary (y := main_call2_v4) writes_ops 46 V rfl (by decide) (by decide)]
  simp only [rd_ops_main_call2_v0 V A_x A_tw A_ids A_w1 A_w2 hx htw hids hw1 hw2]
  exact cast_app₁ _ _ ((signi) : (⟨S_, .i32⟩ : BufTy).Contents (Elt F) → (⟨S_, .i32⟩ : BufTy).Contents (Elt F)) _
set_option maxHeartbeats 1000000 in
theorem rd_ops_main_call2_v5 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v5) = Stage.st_main_call2_v5 (F := F) := by
  rw [read_unary (y := main_call2_v5) writes_ops 47 V rfl (by decide) (by decide)]
  simp only [rd_ops_main_call2_v4 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_ops_main_call2_v6 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v6) = Stage.st_main_call2_v6 (F := F) (A_ids) := by
  rw [read_binary (y := main_call2_v6) writes_ops 48 V rfl (by decide) (by decide) (by decide)]
  simp only [rd_ops_main_call2_v3 V A_x A_tw A_ids A_w1 A_w2 hx htw hids hw1 hw2, rd_ops_main_call2_v5 V A_x A_tw A_ids A_w1 A_w2 hx htw hids hw1 hw2]
  exact cast_app₂ _ _ _ (((cmpi .ne)) : (⟨S8192, .i32⟩ : BufTy).Contents (Elt F) → (⟨S8192, .i32⟩ : BufTy).Contents (Elt F) → (⟨S8192, .i1⟩ : BufTy).Contents (Elt F)) _ _
set_option maxHeartbeats 1000000 in
theorem rd_ops_main_call2_v7 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v7) = Stage.st_main_call2_v7 (F := F) := by
  rw [read_unary (y := main_call2_v7) writes_ops 49 V rfl (by decide) (by decide)]
  simp only [rd_ops_main_call2_v0 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_ops_main_call2_v8 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v8) = Stage.st_main_call2_v8 (F := F) (A_ids) := by
  rw [read_binary (y := main_call2_v8) writes_ops 50 V rfl (by decide) (by decide) (by decide)]
  simp only [rd_ops_main_v1 V A_x A_tw A_ids A_w1 A_w2 hx htw hids hw1 hw2, rd_ops_main_call2_v7 V A_x A_tw A_ids A_w1 A_w2 hx htw hids hw1 hw2]
  exact cast_app₂ _ _ _ ((Host.remsi) : (⟨S8192, .i32⟩ : BufTy).Contents (Elt F) → (⟨S8192, .i32⟩ : BufTy).Contents (Elt F) → (⟨S8192, .i32⟩ : BufTy).Contents (Elt F)) _ _
set_option maxHeartbeats 1000000 in
theorem rd_ops_main_call2_c (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_c) = Stage.st_main_call2_c (F := F) := by
  rw [read_nullary (y := main_call2_c) writes_ops 51 V rfl (by decide)]
  exact cast_app₀ _ _
set_option maxHeartbeats 1000000 in
theorem rd_ops_main_call2_v9 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v9) = Stage.st_main_call2_v9 (F := F) := by
  rw [read_unary (y := main_call2_v9) writes_ops 52 V rfl (by decide) (by decide)]
  simp only [rd_ops_main_call2_c V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_ops_main_call2_v10 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v10) = Stage.st_main_call2_v10 (F := F) (A_ids) := by
  rw [read_binary (y := main_call2_v10) writes_ops 53 V rfl (by decide) (by decide) (by decide)]
  simp only [rd_ops_main_call2_v8 V A_x A_tw A_ids A_w1 A_w2 hx htw hids hw1 hw2, rd_ops_main_call2_v9 V A_x A_tw A_ids A_w1 A_w2 hx htw hids hw1 hw2]
  exact cast_app₂ _ _ _ (((cmpi .ne)) : (⟨S8192, .i32⟩ : BufTy).Contents (Elt F) → (⟨S8192, .i32⟩ : BufTy).Contents (Elt F) → (⟨S8192, .i1⟩ : BufTy).Contents (Elt F)) _ _
set_option maxHeartbeats 1000000 in
theorem rd_ops_main_call2_v11 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v11) = Stage.st_main_call2_v11 (F := F) (A_ids) := by
  rw [read_binary (y := main_call2_v11) writes_ops 54 V rfl (by decide) (by decide) (by decide)]
  simp only [rd_ops_main_call2_v6 V A_x A_tw A_ids A_w1 A_w2 hx htw hids hw1 hw2, rd_ops_main_call2_v10 V A_x A_tw A_ids A_w1 A_w2 hx htw hids hw1 hw2]
  exact cast_app₂ _ _ _ ((andi) : (⟨S8192, .i1⟩ : BufTy).Contents (Elt F) → (⟨S8192, .i1⟩ : BufTy).Contents (Elt F) → (⟨S8192, .i1⟩ : BufTy).Contents (Elt F)) _ _
set_option maxHeartbeats 1000000 in
theorem rd_ops_main_call2_c_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_c_0) = Stage.st_main_call2_c_0 (F := F) := by
  rw [read_nullary (y := main_call2_c_0) writes_ops 55 V rfl (by decide)]
  exact cast_app₀ _ _
set_option maxHeartbeats 1000000 in
theorem rd_ops_main_call2_v12 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v12) = Stage.st_main_call2_v12 (F := F) := by
  rw [read_unary (y := main_call2_v12) writes_ops 56 V rfl (by decide) (by decide)]
  simp only [rd_ops_main_call2_c_0 V A_x A_tw A_ids A_w1 A_w2 hx htw hids hw1 hw2]
  exact cast_app₁ _ _ (((broadcastInDim S8192 ![] bcast_S_S8192)) : (⟨S_, .i32⟩ : BufTy).Contents (Elt F) → (⟨S8192, .i32⟩ : BufTy).Contents (Elt F)) _
set_option maxHeartbeats 1000000 in
theorem rd_ops_main_call2_v13 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call2_v13) = Stage.st_main_call2_v13 (F := F) (A_ids) := by
  rw [read_binary (y := main_call2_v13) writes_ops 57 V rfl (by decide) (by decide) (by decide)]
  simp only [rd_ops_main_call2_v2 V A_x A_tw A_ids A_w1 A_w2 hx htw hids hw1 hw2, rd_ops_main_call2_v12 V A_x A_tw A_ids A_w1 A_w2 hx htw hids hw1 hw2]
  exact cast_app₂ _ _ _ ((subi) : (⟨S8192, .i32⟩ : BufTy).Contents (Elt F) → (⟨S8192, .i32⟩ : BufTy).Contents (Elt F) → (⟨S8192, .i32⟩ : BufTy).Contents (Elt F)) _ _
set_option maxHeartbeats 1000000 in
theorem rd_ops_main_v29 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v29) = Stage.st_main_v29 (F := F) (A_ids) := by
  rw [read_ternary (y := main_v29) writes_ops 58 V rfl (by decide) (by decide) (by decide) (by decide)]
  simp only [rd_ops_main_call2_v11 V A_x A_tw A_ids A_w1 A_w2 hx htw hids hw1 hw2, rd_ops_main_call2_v13 V A_x A_tw A_ids A_w1 A_w2 hx htw hids hw1 hw2, rd_ops_main_call2_v2 V A_x A_tw A_ids A_w1 A_w2 hx htw hids hw1 hw2]
  exact cast_app₃ _ _ _ _ ((select) : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) _ _ _
theorem rd_ops_main_c_8 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_8) = Stage.st_main_c_8 (F := F) := by
  rw [read_nullary (y := main_c_8) writes_ops 59 V rfl (by decide)]
  rfl
theorem rd_ops_main_v30 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v30) = Stage.st_main_v30 (F := F) := by
  rw [read_unary (y := main_v30) writes_ops 60 V rfl (by decide) (by decide), rd_ops_main_c_8 V A_x A_tw A_ids A_w1 A_w2 hx htw hids hw1 hw2]
  rfl
theorem rd_ops_main_v31 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v31) = Stage.st_main_v31 (F := F) (A_ids) := by
  rw [read_binary (y := main_v31) writes_ops 61 V rfl (by decide) (by decide) (by decide), rd_ops_main_v29 V A_x A_tw A_ids A_w1 A_w2 hx htw hids hw1 hw2, rd_ops_main_v30 V A_x A_tw A_ids A_w1 A_w2 hx htw hids hw1 hw2]
  rfl
theorem rd_ops_main_c_9 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_9) = Stage.st_main_c_9 (F := F) := by
  rw [read_nullary (y := main_c_9) writes_ops 62 V rfl (by decide)]
  rfl
theorem rd_ops_main_v32 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v32) = Stage.st_main_v32 (F := F) := by
  rw [read_unary (y := main_v32) writes_ops 63 V rfl (by decide) (by decide), rd_ops_main_c_9 V A_x A_tw A_ids A_w1 A_w2 hx htw hids hw1 hw2]
  rfl
theorem rd_ops_main_v33 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v33) = Stage.st_main_v33 (F := F) (A_ids) := by
  rw [read_binary (y := main_v33) writes_ops 64 V rfl (by decide) (by decide) (by decide), rd_ops_main_v29 V A_x A_tw A_ids A_w1 A_w2 hx htw hids hw1 hw2, rd_ops_main_v32 V A_x A_tw A_ids A_w1 A_w2 hx htw hids hw1 hw2]
  rfl
theorem rd_ops_main_v34 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v34) = Stage.st_main_v34 (F := F) (A_ids) := by
  rw [read_ternary (y := main_v34) writes_ops 65 V rfl (by decide) (by decide) (by decide) (by decide), rd_ops_main_v31 V A_x A_tw A_ids A_w1 A_w2 hx htw hids hw1 hw2, rd_ops_main_v33 V A_x A_tw A_ids A_w1 A_w2 hx htw hids hw1 hw2, rd_ops_main_v29 V A_x A_tw A_ids A_w1 A_w2 hx htw hids hw1 hw2]
  rfl
theorem rd_ops_main_v35 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v35) = Stage.st_main_v35 (F := F) (A_ids) := by
  rw [read_unary (y := main_v35) writes_ops 66 V rfl (by decide) (by decide), rd_ops_main_v34 V A_x A_tw A_ids A_w1 A_w2 hx htw hids hw1 hw2]
  rfl
theorem rd_ops_main_v36 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v36) = Stage.st_main_v36 (F := F) (A_x) (A_ids) := by
  rw [read_binary (y := main_v36) writes_ops 67 V rfl (by decide) (by decide) (by decide), keep_ops_main_arg0 V, hx, rd_ops_main_v35 V A_x A_tw A_ids A_w1 A_w2 hx htw hids hw1 hw2]
  rfl
theorem rd_ops_main_cst (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_cst) = Stage.st_main_cst (F := F) := by
  rw [read_nullary (y := main_cst) writes_ops 68 V rfl (by decide)]
  rfl
theorem rd_ops_main_v37 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v37) = Stage.st_main_v37 (F := F) := by
  rw [read_unary (y := main_v37) writes_ops 69 V rfl (by decide) (by decide), rd_ops_main_cst V A_x A_tw A_ids A_w1 A_w2 hx htw hids hw1 hw2]
  rfl
theorem rd_ops_main_c_10 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_10) = Stage.st_main_c_10 (F := F) := by
  rw [read_nullary (y := main_c_10) writes_ops 70 V rfl (by decide)]
  rfl
theorem rd_ops_main_v38 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v38) = Stage.st_main_v38 (F := F) := by
  rw [read_unary (y := main_v38) writes_ops 71 V rfl (by decide) (by decide), rd_ops_main_c_10 V A_x A_tw A_ids A_w1 A_w2 hx htw hids hw1 hw2]
  rfl
theorem rd_ops_main_v39 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v39) = Stage.st_main_v39 (F := F) (A_ids) := by
  rw [read_binary (y := main_v39) writes_ops 72 V rfl (by decide) (by decide) (by decide), rd_ops_main_v8 V A_x A_tw A_ids A_w1 A_w2 hx htw hids hw1 hw2, rd_ops_main_v38 V A_x A_tw A_ids A_w1 A_w2 hx htw hids hw1 hw2]
  rfl
theorem rd_ops_main_c_11 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_11) = Stage.st_main_c_11 (F := F) := by
  rw [read_nullary (y := main_c_11) writes_ops 73 V rfl (by decide)]
  rfl
theorem rd_ops_main_v40 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v40) = Stage.st_main_v40 (F := F) := by
  rw [read_unary (y := main_v40) writes_ops 74 V rfl (by decide) (by decide), rd_ops_main_c_11 V A_x A_tw A_ids A_w1 A_w2 hx htw hids hw1 hw2]
  rfl
theorem rd_ops_main_v41 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v41) = Stage.st_main_v41 (F := F) (A_ids) := by
  rw [read_binary (y := main_v41) writes_ops 75 V rfl (by decide) (by decide) (by decide), rd_ops_main_v8 V A_x A_tw A_ids A_w1 A_w2 hx htw hids hw1 hw2, rd_ops_main_v40 V A_x A_tw A_ids A_w1 A_w2 hx htw hids hw1 hw2]
  rfl
theorem rd_ops_main_v42 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v42) = Stage.st_main_v42 (F := F) (A_ids) := by
  rw [read_ternary (y := main_v42) writes_ops 76 V rfl (by decide) (by decide) (by decide) (by decide), rd_ops_main_v39 V A_x A_tw A_ids A_w1 A_w2 hx htw hids hw1 hw2, rd_ops_main_v41 V A_x A_tw A_ids A_w1 A_w2 hx htw hids hw1 hw2, rd_ops_main_v8 V A_x A_tw A_ids A_w1 A_w2 hx htw hids hw1 hw2]
  rfl
theorem rd_ops_main_c_12 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_12) = Stage.st_main_c_12 (F := F) := by
  rw [read_nullary (y := main_c_12) writes_ops 77 V rfl (by decide)]
  rfl
theorem rd_ops_main_v43 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v43) = Stage.st_main_v43 (F := F) := by
  rw [read_unary (y := main_v43) writes_ops 78 V rfl (by decide) (by decide), rd_ops_main_c_12 V A_x A_tw A_ids A_w1 A_w2 hx htw hids hw1 hw2]
  rfl
theorem rd_ops_main_v44 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v44) = Stage.st_main_v44 (F := F) (A_ids) := by
  rw [read_binary (y := main_v44) writes_ops 79 V rfl (by decide) (by decide) (by decide), rd_ops_main_v28 V A_x A_tw A_ids A_w1 A_w2 hx htw hids hw1 hw2, rd_ops_main_v43 V A_x A_tw A_ids A_w1 A_w2 hx htw hids hw1 hw2]
  rfl
theorem rd_ops_main_c_13 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_13) = Stage.st_main_c_13 (F := F) := by
  rw [read_nullary (y := main_c_13) writes_ops 80 V rfl (by decide)]
  rfl
theorem rd_ops_main_v45 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v45) = Stage.st_main_v45 (F := F) := by
  rw [read_unary (y := main_v45) writes_ops 81 V rfl (by decide) (by decide), rd_ops_main_c_13 V A_x A_tw A_ids A_w1 A_w2 hx htw hids hw1 hw2]
  rfl
theorem rd_ops_main_v46 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v46) = Stage.st_main_v46 (F := F) (A_ids) := by
  rw [read_binary (y := main_v46) writes_ops 82 V rfl (by decide) (by decide) (by decide), rd_ops_main_v28 V A_x A_tw A_ids A_w1 A_w2 hx htw hids hw1 hw2, rd_ops_main_v45 V A_x A_tw A_ids A_w1 A_w2 hx htw hids hw1 hw2]
  rfl
theorem rd_ops_main_v47 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v47) = Stage.st_main_v47 (F := F) (A_ids) := by
  rw [read_ternary (y := main_v47) writes_ops 83 V rfl (by decide) (by decide) (by decide) (by decide), rd_ops_main_v44 V A_x A_tw A_ids A_w1 A_w2 hx htw hids hw1 hw2, rd_ops_main_v46 V A_x A_tw A_ids A_w1 A_w2 hx htw hids hw1 hw2, rd_ops_main_v28 V A_x A_tw A_ids A_w1 A_w2 hx htw hids hw1 hw2]
  rfl
theorem rd_ops_main_v48 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v48) = Stage.st_main_v48 (F := F) (A_ids) := by
  rw [read_unary (y := main_v48) writes_ops 84 V rfl (by decide) (by decide), rd_ops_main_v42 V A_x A_tw A_ids A_w1 A_w2 hx htw hids hw1 hw2]
  rfl
theorem rd_ops_main_v49 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v49) = Stage.st_main_v49 (F := F) (A_ids) := by
  rw [read_unary (y := main_v49) writes_ops 85 V rfl (by decide) (by decide), rd_ops_main_v47 V A_x A_tw A_ids A_w1 A_w2 hx htw hids hw1 hw2]
  rfl
theorem rd_ops_main_v50 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v50) = Stage.st_main_v50 (F := F) (A_ids) := by
  rw [read_binary (y := main_v50) writes_ops 86 V rfl (by decide) (by decide) (by decide), rd_ops_main_v48 V A_x A_tw A_ids A_w1 A_w2 hx htw hids hw1 hw2, rd_ops_main_v49 V A_x A_tw A_ids A_w1 A_w2 hx htw hids hw1 hw2]
  rfl
theorem rd_ops_main_v51 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v51) = Stage.st_main_v51 (F := F) (A_x) (A_ids) := by
  rw [read_ternary (y := main_v51) writes_ops 87 V rfl (by decide) (by decide) (by decide) (by decide), rd_ops_main_v37 V A_x A_tw A_ids A_w1 A_w2 hx htw hids hw1 hw2, rd_ops_main_v50 V A_x A_tw A_ids A_w1 A_w2 hx htw hids hw1 hw2, rd_ops_main_v36 V A_x A_tw A_ids A_w1 A_w2 hx htw hids hw1 hw2]
  rfl
theorem rd_ops_main_v52 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v52) = Stage.st_main_v52 (F := F) (A_x) (A_ids) (A_w1) := by
  rw [read_binary (y := main_v52) writes_ops 88 V rfl (by decide) (by decide) (by decide), rd_ops_main_v51 V A_x A_tw A_ids A_w1 A_w2 hx htw hids hw1 hw2, keep_ops_main_arg3 V, hw1]
  rfl
theorem rd_ops_main_v53 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v53) = Stage.st_main_v53 (F := F) (A_x) (A_ids) (A_w1) := by
  rw [read_unary (y := main_v53) writes_ops 89 V rfl (by decide) (by decide), rd_ops_main_v52 V A_x A_tw A_ids A_w1 A_w2 hx htw hids hw1 hw2]
  rfl
theorem rd_ops_main_v54 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v54) = Stage.st_main_v54 (F := F) (A_x) (A_ids) (A_w1) := by
  rw [read_unary (y := main_v54) writes_ops 90 V rfl (by decide) (by decide), rd_ops_main_v52 V A_x A_tw A_ids A_w1 A_w2 hx htw hids hw1 hw2]
  rfl
set_option maxHeartbeats 1000000 in
theorem rd_ops_main_call3_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_v0) = Stage.st_main_call3_v0 (F := F) (A_x) (A_ids) (A_w1) := by
  rw [read_unary (y := main_call3_v0) writes_ops 91 V rfl (by decide) (by decide)]
  simp only [rd_ops_main_v53 V A_x A_tw A_ids A_w1 A_w2 hx htw hids hw1 hw2]
  exact cast_app₁ _ _ ((Host.negf) : (⟨S64x512x768, .f32⟩ : BufTy).Contents (Elt F) → (⟨S64x512x768, .f32⟩ : BufTy).Contents (Elt F)) _
set_option maxHeartbeats 1000000 in
theorem rd_ops_main_call3_v1 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_v1) = Stage.st_main_call3_v1 (F := F) (A_x) (A_ids) (A_w1) := by
  rw [read_unary (y := main_call3_v1) writes_ops 92 V rfl (by decide) (by decide)]
  simp only [rd_ops_main_call3_v0 V A_x A_tw A_ids A_w1 A_w2 hx htw hids hw1 hw2]
  exact cast_app₁ _ _ ((Host.exp) : (⟨S64x512x768, .f32⟩ : BufTy).Contents (Elt F) → (⟨S64x512x768, .f32⟩ : BufTy).Contents (Elt F)) _
set_option maxHeartbeats 1000000 in
theorem rd_ops_main_call3_cst (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_cst) = Stage.st_main_call3_cst (F := F) := by
  rw [read_nullary (y := main_call3_cst) writes_ops 93 V rfl (by decide)]
  exact cast_app₀ _ _
set_option maxHeartbeats 1000000 in
theorem rd_ops_main_call3_v2 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_v2) = Stage.st_main_call3_v2 (F := F) := by
  rw [read_unary (y := main_call3_v2) writes_ops 94 V rfl (by decide) (by decide)]
  simp only [rd_ops_main_call3_cst V A_x A_tw A_ids A_w1 A_w2 hx htw hids hw1 hw2]
  exact cast_app₁ _ _ (((broadcastInDim S64x512x768 ![] bcast_S_S64x512x768)) : (⟨S_, .f32⟩ : BufTy).Contents (Elt F) → (⟨S64x512x768, .f32⟩ : BufTy).Contents (Elt F)) _
set_option maxHeartbeats 1000000 in
theorem rd_ops_main_call3_v3 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_v3) = Stage.st_main_call3_v3 (F := F) (A_x) (A_ids) (A_w1) := by
  rw [read_binary (y := main_call3_v3) writes_ops 95 V rfl (by decide) (by decide) (by decide)]
  simp only [rd_ops_main_call3_v2 V A_x A_tw A_ids A_w1 A_w2 hx htw hids hw1 hw2, rd_ops_main_call3_v1 V A_x A_tw A_ids A_w1 A_w2 hx htw hids hw1 hw2]
  exact cast_app₂ _ _ _ ((addf) : (⟨S64x512x768, .f32⟩ : BufTy).Contents (Elt F) → (⟨S64x512x768, .f32⟩ : BufTy).Contents (Elt F) → (⟨S64x512x768, .f32⟩ : BufTy).Contents (Elt F)) _ _
set_option maxHeartbeats 1000000 in
theorem rd_ops_main_call3_cst_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_cst_0) = Stage.st_main_call3_cst_0 (F := F) := by
  rw [read_nullary (y := main_call3_cst_0) writes_ops 96 V rfl (by decide)]
  exact cast_app₀ _ _
set_option maxHeartbeats 1000000 in
theorem rd_ops_main_call3_v4 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_v4) = Stage.st_main_call3_v4 (F := F) := by
  rw [read_unary (y := main_call3_v4) writes_ops 97 V rfl (by decide) (by decide)]
  simp only [rd_ops_main_call3_cst_0 V A_x A_tw A_ids A_w1 A_w2 hx htw hids hw1 hw2]
  exact cast_app₁ _ _ (((broadcastInDim S64x512x768 ![] bcast_S_S64x512x768)) : (⟨S_, .f32⟩ : BufTy).Contents (Elt F) → (⟨S64x512x768, .f32⟩ : BufTy).Contents (Elt F)) _
set_option maxHeartbeats 1000000 in
theorem rd_ops_main_call3_v5 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call3_v5) = Stage.st_main_call3_v5 (F := F) (A_x) (A_ids) (A_w1) := by
  rw [read_binary (y := main_call3_v5) writes_ops 98 V rfl (by decide) (by decide) (by decide)]
  simp only [rd_ops_main_call3_v4 V A_x A_tw A_ids A_w1 A_w2 hx htw hids hw1 hw2, rd_ops_main_call3_v3 V A_x A_tw A_ids A_w1 A_w2 hx htw hids hw1 hw2]
  exact cast_app₂ _ _ _ ((Host.divf) : (⟨S64x512x768, .f32⟩ : BufTy).Contents (Elt F) → (⟨S64x512x768, .f32⟩ : BufTy).Contents (Elt F) → (⟨S64x512x768, .f32⟩ : BufTy).Contents (Elt F)) _ _
set_option maxHeartbeats 1000000 in
theorem rd_ops_main_v55 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v55) = Stage.st_main_v55 (F := F) (A_x) (A_ids) (A_w1) := by
  rw [read_binary (y := main_v55) writes_ops 99 V rfl (by decide) (by decide) (by decide)]
  simp only [rd_ops_main_v53 V A_x A_tw A_ids A_w1 A_w2 hx htw hids hw1 hw2, rd_ops_main_call3_v5 V A_x A_tw A_ids A_w1 A_w2 hx htw hids hw1 hw2]
  exact cast_app₂ _ _ _ ((mulf) : (⟨S64x512x768, .f32⟩ : BufTy).Contents (Elt F) → (⟨S64x512x768, .f32⟩ : BufTy).Contents (Elt F) → (⟨S64x512x768, .f32⟩ : BufTy).Contents (Elt F)) _ _
theorem rd_ops_main_v56 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v56) = Stage.st_main_v56 (F := F) (A_x) (A_ids) (A_w1) := by
  rw [read_binary (y := main_v56) writes_ops 100 V rfl (by decide) (by decide) (by decide), rd_ops_main_v55 V A_x A_tw A_ids A_w1 A_w2 hx htw hids hw1 hw2, rd_ops_main_v54 V A_x A_tw A_ids A_w1 A_w2 hx htw hids hw1 hw2]
  rfl
theorem rd_ops_main_v57 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v57) = Stage.st_main_v57 (F := F) (A_x) (A_ids) (A_w1) (A_w2) := by
  rw [read_binary (y := main_v57) writes_ops 101 V rfl (by decide) (by decide) (by decide), rd_ops_main_v56 V A_x A_tw A_ids A_w1 A_w2 hx htw hids hw1 hw2, keep_ops_main_arg4 V, hw2]
  rfl
theorem rd_ops_main_c_14 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_14) = Stage.tl_main_c_14 (F := F) := by
  rw [read_nullary (y := main_c_14) writes_ops 102 V rfl (by decide)]
  rfl
theorem rd_ops_main_v58 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v58) = Stage.tl_main_v58 (F := F) := by
  rw [read_unary (y := main_v58) writes_ops 103 V rfl (by decide) (by decide), rd_ops_main_c_14 V A_x A_tw A_ids A_w1 A_w2 hx htw hids hw1 hw2]
  rfl
theorem rd_ops_main_v59 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v59) = Stage.tl_main_v59 (F := F) (A_ids) := by
  rw [read_binary (y := main_v59) writes_ops 104 V rfl (by decide) (by decide) (by decide), rd_ops_main_v8 V A_x A_tw A_ids A_w1 A_w2 hx htw hids hw1 hw2, rd_ops_main_v58 V A_x A_tw A_ids A_w1 A_w2 hx htw hids hw1 hw2]
  rfl
theorem rd_ops_main_c_15 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_15) = Stage.tl_main_c_15 (F := F) := by
  rw [read_nullary (y := main_c_15) writes_ops 105 V rfl (by decide)]
  rfl
theorem rd_ops_main_v60 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v60) = Stage.tl_main_v60 (F := F) := by
  rw [read_unary (y := main_v60) writes_ops 106 V rfl (by decide) (by decide), rd_ops_main_c_15 V A_x A_tw A_ids A_w1 A_w2 hx htw hids hw1 hw2]
  rfl
theorem rd_ops_main_v61 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v61) = Stage.tl_main_v61 (F := F) (A_ids) := by
  rw [read_binary (y := main_v61) writes_ops 107 V rfl (by decide) (by decide) (by decide), rd_ops_main_v8 V A_x A_tw A_ids A_w1 A_w2 hx htw hids hw1 hw2, rd_ops_main_v60 V A_x A_tw A_ids A_w1 A_w2 hx htw hids hw1 hw2]
  rfl
theorem rd_ops_main_v62 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v62) = Stage.tl_main_v62 (F := F) (A_ids) := by
  rw [read_ternary (y := main_v62) writes_ops 108 V rfl (by decide) (by decide) (by decide) (by decide), rd_ops_main_v59 V A_x A_tw A_ids A_w1 A_w2 hx htw hids hw1 hw2, rd_ops_main_v61 V A_x A_tw A_ids A_w1 A_w2 hx htw hids hw1 hw2, rd_ops_main_v8 V A_x A_tw A_ids A_w1 A_w2 hx htw hids hw1 hw2]
  rfl
theorem rd_ops_main_c_16 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_16) = Stage.tl_main_c_16 (F := F) := by
  rw [read_nullary (y := main_c_16) writes_ops 109 V rfl (by decide)]
  rfl
theorem rd_ops_main_v63 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v63) = Stage.tl_main_v63 (F := F) := by
  rw [read_unary (y := main_v63) writes_ops 110 V rfl (by decide) (by decide), rd_ops_main_c_16 V A_x A_tw A_ids A_w1 A_w2 hx htw hids hw1 hw2]
  rfl
theorem rd_ops_main_v64 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v64) = Stage.tl_main_v64 (F := F) (A_ids) := by
  rw [read_binary (y := main_v64) writes_ops 111 V rfl (by decide) (by decide) (by decide), rd_ops_main_v28 V A_x A_tw A_ids A_w1 A_w2 hx htw hids hw1 hw2, rd_ops_main_v63 V A_x A_tw A_ids A_w1 A_w2 hx htw hids hw1 hw2]
  rfl
theorem rd_ops_main_c_17 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_17) = Stage.tl_main_c_17 (F := F) := by
  rw [read_nullary (y := main_c_17) writes_ops 112 V rfl (by decide)]
  rfl
theorem rd_ops_main_v65 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v65) = Stage.tl_main_v65 (F := F) := by
  rw [read_unary (y := main_v65) writes_ops 113 V rfl (by decide) (by decide), rd_ops_main_c_17 V A_x A_tw A_ids A_w1 A_w2 hx htw hids hw1 hw2]
  rfl
theorem rd_ops_main_v66 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v66) = Stage.tl_main_v66 (F := F) (A_ids) := by
  rw [read_binary (y := main_v66) writes_ops 114 V rfl (by decide) (by decide) (by decide), rd_ops_main_v28 V A_x A_tw A_ids A_w1 A_w2 hx htw hids hw1 hw2, rd_ops_main_v65 V A_x A_tw A_ids A_w1 A_w2 hx htw hids hw1 hw2]
  rfl
theorem rd_ops_main_v67 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v67) = Stage.tl_main_v67 (F := F) (A_ids) := by
  rw [read_ternary (y := main_v67) writes_ops 115 V rfl (by decide) (by decide) (by decide) (by decide), rd_ops_main_v64 V A_x A_tw A_ids A_w1 A_w2 hx htw hids hw1 hw2, rd_ops_main_v66 V A_x A_tw A_ids A_w1 A_w2 hx htw hids hw1 hw2, rd_ops_main_v28 V A_x A_tw A_ids A_w1 A_w2 hx htw hids hw1 hw2]
  rfl
theorem rd_ops_main_v68 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v68) = Stage.tl_main_v68 (F := F) (A_ids) := by
  rw [read_unary (y := main_v68) writes_ops 116 V rfl (by decide) (by decide), rd_ops_main_v62 V A_x A_tw A_ids A_w1 A_w2 hx htw hids hw1 hw2]
  rfl
theorem rd_ops_main_v69 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v69) = Stage.tl_main_v69 (F := F) (A_ids) := by
  rw [read_unary (y := main_v69) writes_ops 117 V rfl (by decide) (by decide), rd_ops_main_v67 V A_x A_tw A_ids A_w1 A_w2 hx htw hids hw1 hw2]
  rfl
theorem rd_ops_main_v70 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v70) = Stage.tl_main_v70 (F := F) (A_ids) := by
  rw [read_binary (y := main_v70) writes_ops 118 V rfl (by decide) (by decide) (by decide), rd_ops_main_v68 V A_x A_tw A_ids A_w1 A_w2 hx htw hids hw1 hw2, rd_ops_main_v69 V A_x A_tw A_ids A_w1 A_w2 hx htw hids hw1 hw2]
  rfl
theorem rd_ops_main_c_18 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_18) = Stage.tl_main_c_18 (F := F) := by
  rw [read_nullary (y := main_c_18) writes_ops 119 V rfl (by decide)]
  rfl
theorem rd_ops_main_c_19 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_19) = Stage.tl_main_c_19 (F := F) := by
  rw [read_nullary (y := main_c_19) writes_ops 120 V rfl (by decide)]
  rfl
theorem rd_ops_main_v71 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v71) = Stage.tl_main_v71 (F := F) := by
  rw [read_unary (y := main_v71) writes_ops 121 V rfl (by decide) (by decide), rd_ops_main_c_19 V A_x A_tw A_ids A_w1 A_w2 hx htw hids hw1 hw2]
  rfl
theorem rd_ops_main_v72 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v72) = Stage.tl_main_v72 (F := F) (A_ids) := by
  rw [read_binary (y := main_v72) writes_ops 122 V rfl (by decide) (by decide) (by decide), rd_ops_main_v70 V A_x A_tw A_ids A_w1 A_w2 hx htw hids hw1 hw2, rd_ops_main_v71 V A_x A_tw A_ids A_w1 A_w2 hx htw hids hw1 hw2]
  rfl
theorem rd_ops_main_v73 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v73) = Stage.tl_main_v73 (F := F) := by
  rw [read_unary (y := main_v73) writes_ops 123 V rfl (by decide) (by decide), rd_ops_main_c_18 V A_x A_tw A_ids A_w1 A_w2 hx htw hids hw1 hw2]
  rfl
theorem rd_ops_main_v74 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v74) = Stage.tl_main_v74 (F := F) := by
  rw [read_unary (y := main_v74) writes_ops 124 V rfl (by decide) (by decide), rd_ops_main_v73 V A_x A_tw A_ids A_w1 A_w2 hx htw hids hw1 hw2]
  rfl
theorem rd_ops_main_v75 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v75) = Stage.tl_main_v75 (F := F) (A_ids) := by
  rw [read_binary (y := main_v75) writes_ops 125 V rfl (by decide) (by decide) (by decide), rd_ops_main_v70 V A_x A_tw A_ids A_w1 A_w2 hx htw hids hw1 hw2, rd_ops_main_v74 V A_x A_tw A_ids A_w1 A_w2 hx htw hids hw1 hw2]
  rfl
theorem rd_ops_main_v76 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v76) = Stage.tl_main_v76 (F := F) (A_ids) := by
  rw [read_binary (y := main_v76) writes_ops 126 V rfl (by decide) (by decide) (by decide), rd_ops_main_v72 V A_x A_tw A_ids A_w1 A_w2 hx htw hids hw1 hw2, rd_ops_main_v75 V A_x A_tw A_ids A_w1 A_w2 hx htw hids hw1 hw2]
  rfl
theorem rd_ops_main_c_20 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_20) = Stage.tl_main_c_20 (F := F) := by
  rw [read_nullary (y := main_c_20) writes_ops 127 V rfl (by decide)]
  rfl
theorem rd_ops_main_v77 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v77) = Stage.tl_main_v77 (F := F) (A_ids) := by
  rw [read_binary (y := main_v77) writes_ops 128 V rfl (by decide) (by decide) (by decide), rd_ops_main_v76 V A_x A_tw A_ids A_w1 A_w2 hx htw hids hw1 hw2, rd_ops_main_c_20 V A_x A_tw A_ids A_w1 A_w2 hx htw hids hw1 hw2]
  rfl
theorem rd_ops_main_v78 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v78) = Stage.tl_main_v78 (F := F) (after (ops (F := F)) V (Proc.devRef .tc main_v57)) (A_ids) := by
  rw [read_binary (y := main_v78) writes_ops 129 V rfl (by decide) (by decide) (by decide), rd_ops_main_v57 V A_x A_tw A_ids A_w1 A_w2 hx htw hids hw1 hw2, rd_ops_main_v70 V A_x A_tw A_ids A_w1 A_w2 hx htw hids hw1 hw2]
  rfl
theorem rd_ops_main_v79 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v79) = Stage.tl_main_v79 (F := F) (A_ids) := by
  rw [read_unary (y := main_v79) writes_ops 130 V rfl (by decide) (by decide), rd_ops_main_v77 V A_x A_tw A_ids A_w1 A_w2 hx htw hids hw1 hw2]
  rfl
theorem rd_ops_main_cst_21 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_cst_21) = Stage.tl_main_cst_21 (F := F) := by
  rw [read_nullary (y := main_cst_21) writes_ops 131 V rfl (by decide)]
  rfl
theorem rd_ops_main_v80 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v80) = Stage.tl_main_v80 (F := F) := by
  rw [read_unary (y := main_v80) writes_ops 132 V rfl (by decide) (by decide), rd_ops_main_cst_21 V A_x A_tw A_ids A_w1 A_w2 hx htw hids hw1 hw2]
  rfl
theorem rd_ops_main_v81 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v81) = Stage.tl_main_v81 (F := F) (after (ops (F := F)) V (Proc.devRef .tc main_v57)) (A_ids) := by
  rw [read_ternary (y := main_v81) writes_ops 133 V rfl (by decide) (by decide) (by decide) (by decide), rd_ops_main_v79 V A_x A_tw A_ids A_w1 A_w2 hx htw hids hw1 hw2, rd_ops_main_v78 V A_x A_tw A_ids A_w1 A_w2 hx htw hids hw1 hw2, rd_ops_main_v80 V A_x A_tw A_ids A_w1 A_w2 hx htw hids hw1 hw2]
  rfl
set_option maxHeartbeats 1000000 in
theorem rd_ops_main_call4_v0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call4_v0) = Stage.tl_main_call4_v0 (F := F) := by
  rw [read_nullary (y := main_call4_v0) writes_ops 134 V rfl (by decide)]
  exact cast_app₀ _ _
set_option maxHeartbeats 1000000 in
theorem rd_ops_main_call4_v1_0 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_call4_v1_0) = Stage.tl_main_call4_v1_0 (F := F) (A_ids) := by
  rw [read_binary (y := main_call4_v1_0) writes_ops 135 V rfl (by decide) (by decide) (by decide)]
  simp only [rd_ops_main_v1 V A_x A_tw A_ids A_w1 A_w2 hx htw hids hw1 hw2, rd_ops_main_call4_v0 V A_x A_tw A_ids A_w1 A_w2 hx htw hids hw1 hw2]
  exact cast_app₂ _ _ _ (((fun x y => (Host.sort2 S8192 0 comparator_i32_i32_d0 x y).1)) : (⟨S8192, .i32⟩ : BufTy).Contents (Elt F) → (⟨S8192, .i32⟩ : BufTy).Contents (Elt F) → (⟨S8192, .i32⟩ : BufTy).Contents (Elt F)) _ _
set_option maxHeartbeats 1000000 in
theorem rd_ops_main_v82 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v82) = Stage.tl_main_v82 (F := F) (A_ids) := by
  rw [read_binary (y := main_v82) writes_ops 136 V rfl (by decide) (by decide) (by decide)]
  simp only [rd_ops_main_v1 V A_x A_tw A_ids A_w1 A_w2 hx htw hids hw1 hw2, rd_ops_main_call4_v0 V A_x A_tw A_ids A_w1 A_w2 hx htw hids hw1 hw2]
  exact cast_app₂ _ _ _ (((fun x y => (Host.sort2 S8192 0 comparator_i32_i32_d0 x y).2)) : (⟨S8192, .i32⟩ : BufTy).Contents (Elt F) → (⟨S8192, .i32⟩ : BufTy).Contents (Elt F) → (⟨S8192, .i32⟩ : BufTy).Contents (Elt F)) _ _
theorem rd_ops_main_c_22 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_22) = Stage.tl_main_c_22 (F := F) := by
  rw [read_nullary (y := main_c_22) writes_ops 137 V rfl (by decide)]
  rfl
theorem rd_ops_main_v83 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v83) = Stage.tl_main_v83 (F := F) := by
  rw [read_unary (y := main_v83) writes_ops 138 V rfl (by decide) (by decide), rd_ops_main_c_22 V A_x A_tw A_ids A_w1 A_w2 hx htw hids hw1 hw2]
  rfl
theorem rd_ops_main_v84 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v84) = Stage.tl_main_v84 (F := F) (A_ids) := by
  rw [read_binary (y := main_v84) writes_ops 139 V rfl (by decide) (by decide) (by decide), rd_ops_main_v82 V A_x A_tw A_ids A_w1 A_w2 hx htw hids hw1 hw2, rd_ops_main_v83 V A_x A_tw A_ids A_w1 A_w2 hx htw hids hw1 hw2]
  rfl
theorem rd_ops_main_c_23 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_c_23) = Stage.tl_main_c_23 (F := F) := by
  rw [read_nullary (y := main_c_23) writes_ops 140 V rfl (by decide)]
  rfl
theorem rd_ops_main_v85 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v85) = Stage.tl_main_v85 (F := F) := by
  rw [read_unary (y := main_v85) writes_ops 141 V rfl (by decide) (by decide), rd_ops_main_c_23 V A_x A_tw A_ids A_w1 A_w2 hx htw hids hw1 hw2]
  rfl
theorem rd_ops_main_v86 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v86) = Stage.tl_main_v86 (F := F) (A_ids) := by
  rw [read_binary (y := main_v86) writes_ops 142 V rfl (by decide) (by decide) (by decide), rd_ops_main_v82 V A_x A_tw A_ids A_w1 A_w2 hx htw hids hw1 hw2, rd_ops_main_v85 V A_x A_tw A_ids A_w1 A_w2 hx htw hids hw1 hw2]
  rfl
theorem rd_ops_main_v87 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v87) = Stage.tl_main_v87 (F := F) (A_ids) := by
  rw [read_ternary (y := main_v87) writes_ops 143 V rfl (by decide) (by decide) (by decide) (by decide), rd_ops_main_v84 V A_x A_tw A_ids A_w1 A_w2 hx htw hids hw1 hw2, rd_ops_main_v86 V A_x A_tw A_ids A_w1 A_w2 hx htw hids hw1 hw2, rd_ops_main_v82 V A_x A_tw A_ids A_w1 A_w2 hx htw hids hw1 hw2]
  rfl
theorem rd_ops_main_v88 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v88) = Stage.tl_main_v88 (F := F) (A_ids) := by
  rw [read_unary (y := main_v88) writes_ops 144 V rfl (by decide) (by decide), rd_ops_main_v87 V A_x A_tw A_ids A_w1 A_w2 hx htw hids hw1 hw2]
  rfl
theorem rd_ops_main_v89 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v89) = Stage.tl_main_v89 (F := F) (after (ops (F := F)) V (Proc.devRef .tc main_v57)) (A_ids) := by
  rw [read_binary (y := main_v89) writes_ops 145 V rfl (by decide) (by decide) (by decide), rd_ops_main_v81 V A_x A_tw A_ids A_w1 A_w2 hx htw hids hw1 hw2, rd_ops_main_v88 V A_x A_tw A_ids A_w1 A_w2 hx htw hids hw1 hw2]
  rfl
theorem rd_ops_main_v90 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v90) = Stage.tl_main_v90 (F := F) (after (ops (F := F)) V (Proc.devRef .tc main_v57)) (A_ids) := by
  rw [read_reshape (y := main_v90) writes_ops 146 V rfl (by decide) (by decide), rd_ops_main_v89 V A_x A_tw A_ids A_w1 A_w2 hx htw hids hw1 hw2]
  rfl
theorem rd_ops_main_v91 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v91) = Stage.tl_main_v91 (F := F) (A_tw) := by
  rw [read_unary (y := main_v91) writes_ops 147 V rfl (by decide) (by decide), keep_ops_main_arg1 V, htw]
  rfl
theorem rd_ops_main_v92 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v92) = Stage.tl_main_v92 (F := F) (A_tw) := by
  rw [read_unary (y := main_v92) writes_ops 148 V rfl (by decide) (by decide), rd_ops_main_v91 V A_x A_tw A_ids A_w1 A_w2 hx htw hids hw1 hw2]
  rfl
theorem rd_ops_main_v93 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v93) = Stage.tl_main_v93 (F := F) (after (ops (F := F)) V (Proc.devRef .tc main_v57)) (A_tw) (A_ids) := by
  rw [read_binary (y := main_v93) writes_ops 149 V rfl (by decide) (by decide) (by decide), rd_ops_main_v90 V A_x A_tw A_ids A_w1 A_w2 hx htw hids hw1 hw2, rd_ops_main_v92 V A_x A_tw A_ids A_w1 A_w2 hx htw hids hw1 hw2]
  rfl
theorem rd_ops_main_cst_24 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_cst_24) = Stage.tl_main_cst_24 (F := F) := by
  rw [read_nullary (y := main_cst_24) writes_ops 150 V rfl (by decide)]
  rfl
theorem rd_ops_main_v94 (V : Valuation τ sig (Elt F)) (A_x : (⟨S1024x1024, .f32⟩ : BufTy).Contents (Elt F)) (A_tw : (⟨S1024x8, .f32⟩ : BufTy).Contents (Elt F)) (A_ids : (⟨S1024x8, .i32⟩ : BufTy).Contents (Elt F)) (A_w1 : (⟨S64x1536x1024, .f32⟩ : BufTy).Contents (Elt F)) (A_w2 : (⟨S64x1024x768, .f32⟩ : BufTy).Contents (Elt F))
    (hx : V (Proc.devRef .tc main_arg0) = A_x) (htw : V (Proc.devRef .tc main_arg1) = A_tw) (hids : V (Proc.devRef .tc main_arg2) = A_ids) (hw1 : V (Proc.devRef .tc main_arg3) = A_w1) (hw2 : V (Proc.devRef .tc main_arg4) = A_w2) :
    after (ops (F := F)) V (Proc.devRef .tc main_v94) = Stage.tl_main_v94 (F := F) (after (ops (F := F)) V (Proc.devRef .tc main_v57)) (A_tw) (A_ids) := by
  rw [read_binary (y := main_v94) writes_ops 151 V rfl (by decide) (by decide) (by decide), rd_ops_main_v93 V A_x A_tw A_ids A_w1 A_w2 hx htw hids hw1 hw2, rd_ops_main_cst_24 V A_x A_tw A_ids A_w1 A_w2 hx htw hids hw1 hw2]
  rfl

end Cert.ReferenceIdeal.Reads

end
-- ==== Proof.V.RefValue.lean ====
import proofs.«126691_j58317065945110_2_alg».proof.Proof.V.ReadsRef

set_option maxRecDepth 65536

noncomputable section

namespace Cert.ReferenceIdeal.Hand

open Cert.ReferenceIdeal Cert.ReferenceIdeal.Gen Cert.ReferenceIdeal.Reads Idealize.ShloMosaic Idealize.ShloMosaic.TcCoe Idealize.SL.Sem Idealize.ShloMosaic.StableHlo

variable {F : FTy → Type} [FloatOps F]

/-! ## What the reference computes

The result buffer after the 152 operations is the combine — gather the routed rows back under the in-bounds mask, undo the
sort, weight and sum over the eight routes — of the array the first hundred and two leave in the second batched product's
buffer. Each buffer's contents is its operation's own function of its operands' contents; nothing is evaluated. -/

/-- The fold at the result buffer, as the stage functions of the argument arrays. -/
theorem out_eq (V : Valuation τ sig (Elt F)) :
    after (ops (F := F)) V (Proc.devRef .tc main_v94)
      = Stage.tl_main_v94 (F := F) (Stage.st_main_v57 (F := F) (V (Proc.devRef .tc main_arg0)) (V (Proc.devRef .tc main_arg2)) (V (Proc.devRef .tc main_arg3)) (V (Proc.devRef .tc main_arg4)))
          (V (Proc.devRef .tc main_arg1)) (V (Proc.devRef .tc main_arg2)) := by
  rw [rd_ops_main_v94 V _ _ _ _ _ rfl rfl rfl rfl rfl, rd_ops_main_v57 V _ _ _ _ _ rfl rfl rfl rfl rfl]

/-- The reference's run with its result named: every weakly fair execution terminates with the result buffer at the
    combine of the expert outputs and the five argument arrays as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v94)
        = Stage.tl_main_v94 (F := F) (Stage.st_main_v57 (F := F) (m ((c.tc : Thread nD τ).loc main_arg0)) (m ((c.tc : Thread nD τ).loc main_arg2)) (m ((c.tc : Thread nD τ).loc main_arg3)) (m ((c.tc : Thread nD τ).loc main_arg4)))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v94).trans (out_eq _), (h c main_arg0).trans (kept_main_arg0 _), (h c main_arg1).trans (kept_main_arg1 _), (h c main_arg2).trans (kept_main_arg2 _), (h c main_arg3).trans (kept_main_arg3 _), (h c main_arg4).trans (kept_main_arg4 _)⟩) (run_all m ρ)

end Cert.ReferenceIdeal.Hand

end
-- ==== Proof.V.MlpSpec.lean ====
import Idealize.ShloMosaic.PureOps.Ideal
import Idealize.ShloMosaic.Lib.ValueIdx

noncomputable section

namespace Cert.MoeSpec

open Idealize.ShloMosaic

/-! ## One entry of the expert MLP, over the extended reals

For one routed row `x` (1024 hidden entries), one expert's merged gate/up weights `W1` (1536 × 1024: rows `0 … 767` the
gate, rows `768 … 1535` the up projection) and its down projection `W2` (1024 × 768), output entry `h` is

  Σ_f ( g_f · σ(g_f) · u_f ) · W2[h, f],   g_f = Σ_k x_k · W1[f, k],   u_f = Σ_k x_k · W1[768 + f, k],

with `σ` the logistic function. Both programs compute exactly this at every (expert, slot, h) they agree on: the tile
kernel from blocks of the transposed weights, the reference from two batched products. No finiteness is needed: the two
sides are the same sums of the same products in the same order of factors. -/

/-- The gate pre-activation `g_f`. -/
def gate (x : Fin 1024 → EReal) (W1 : Fin 1536 → Fin 1024 → EReal) (f : Fin 768) : EReal :=
  ∑ k : Fin 1024, x k * W1 ⟨f.val, by omega⟩ k

/-- The up projection `u_f`. -/
def up (x : Fin 1024 → EReal) (W1 : Fin 1536 → Fin 1024 → EReal) (f : Fin 768) : EReal :=
  ∑ k : Fin 1024, x k * W1 ⟨768 + f.val, by omega⟩ k

/-- Output entry `h` of the expert MLP of row `x`. -/
def mlpEntry (x : Fin 1024 → EReal) (W1 : Fin 1536 → Fin 1024 → EReal) (W2 : Fin 1024 → Fin 768 → EReal) (h : Fin 1024) : EReal :=
  ∑ f : Fin 768, (gate x W1 f * Ideal.logistic (gate x W1 f) * up x W1 f) * W2 h f

end Cert.MoeSpec

end
-- ==== Proof.V.LibLogisticForm.lean ====
/-
  The logistic function written as a quotient, over the extended reals.

  A program may apply the logistic function as one operation or spell it `1 / (1 + e^(-z))` with the 32-bit pattern of
  the number one, a negation, an exponential, a sum and a quotient. Over the extended reals the two are the same function:
  the pattern `0x3F800000` denotes one, and the logistic function is defined as that quotient, with the conventions
  `e^(-∞) = 0` and `1 / ∞ = 0` giving the limits `1` at `+∞` and `0` at `-∞`.
-/
import Idealize.ShloMosaic.PureOps.Ideal

noncomputable section

namespace Idealize.ShloMosaic.LogisticForm

open Idealize.ShloMosaic

/-- The bit pattern `0x3F800000` of the 32-bit format denotes the number one. -/
theorem one_f32 : Ideal.ofBits .f32 0x3F800000#32 = 1 := by
  simp [Ideal.ofBits, Ideal.ieee, -EReal.coe_mul]; norm_num

/-- One over one plus the exponential of the negation, in the host's operations and with the number one given by its
    32-bit pattern, is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_f32]
  rfl

end Idealize.ShloMosaic.LogisticForm

end
-- ==== Proof.V.MlpRef.lean ====
import proofs.«126691_j58317065945110_2_alg».proof.Proof.Gen.ReferenceIdeal
import proofs.«126691_j58317065945110_2_alg».proof.Proof.V.MlpSpec
import proofs.«126691_j58317065945110_2_alg».proof.Proof.V.LibLogisticForm
import Idealize.ShloMosaic.PureOps.Ideal.Laws
import Idealize.ShloMosaic.Lib.ValueLayout
import Idealize.ShloMosaic.Lib.KernelVsHost

noncomputable section

namespace Cert.ReferenceIdeal.MlpValue

open Idealize.ShloMosaic Idealize.ShloMosaic.ValueIdx Cert.ReferenceIdeal Cert.ReferenceIdeal.Facts₀

/-! ## The reference's expert MLP, read at an entry

From the dispatched rows `buf` (64 × 512 × 1024: expert, capacity slot, hidden) and the weights `w1` (64 × 1536 × 1024)
and `w2` (64 × 1024 × 768) the reference forms, expert by expert,

  H = buf · w1ᵀ (64 × 512 × 1536),  G = H[:, :, 0 … 767],  U = H[:, :, 768 … 1535],
  Y = ((G · (1 / (1 + e^(−G)))) · U) · w2ᵀ (64 × 512 × 1024),

both products batched over the expert axis and contracting the last axis of each operand, the number one a broadcast
scalar constant. Over the extended reals the quotient is the logistic function σ and each product is the plain sum over
the contracted coordinate, so entry (e, s, h) is

  Σ_f ( g_f · σ(g_f) · u_f ) · w2[e, h, f],   g_f = Σ_k buf[e, s, k] · w1[e, f, k],   u_f = Σ_k buf[e, s, k] · w1[e, 768 + f, k]:

`Cert.MoeSpec.mlpEntry` of row (e, s) against expert `e`'s weights. Nothing is reassociated or distributed, so no
finiteness is assumed. -/

/-- A stack of G products, member by member, each an m×k matrix against the TRANSPOSE of an n×k matrix — the batched
    product with batch axes 0 and 0 contracting axis 2 with axis 2 — read at (g, a, b): the sum over the contracted
    coordinate of the products of the two members' entries. -/
theorem dotGeneral_stackT_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The first batched product read at (e, s, c). -/
theorem dot1_apply (A : FVec Ideal S64x512x1024 .f32) (B : FVec Ideal S64x1536x1024 .f32) (e : Fin 64) (s : Fin 512) (c : Fin 1536) :
    Host.dotGeneral dot_S64x512x1024_S64x1536x1024_S64x512x1536_2_2_1_1_0_0 none A B (ix3 e s c)
      = ∑ k : Fin 1024, A (ix3 e s k) * B (ix3 e c k) :=
  dotGeneral_stackT_apply dot_S64x512x1024_S64x1536x1024_S64x512x1536_2_2_1_1_0_0_wf none A B e s c

/-- The second batched product read at (e, s, h). -/
theorem dot2_apply (A : FVec Ideal S64x512x768 .f32) (B : FVec Ideal S64x1024x768 .f32) (e : Fin 64) (s : Fin 512) (h : Fin 1024) :
    Host.dotGeneral dot_S64x512x768_S64x1024x768_S64x512x1024_2_2_1_1_0_0 none A B (ix3 e s h)
      = ∑ f : Fin 768, A (ix3 e s f) * B (ix3 e h f) :=
  dotGeneral_stackT_apply dot_S64x512x768_S64x1024x768_S64x512x1024_2_2_1_1_0_0_wf none A B e s h

/-- The leading 768 of the 1536 columns of every member: entry (e, s, f) is the operand's entry (e, s, f). -/
theorem slice_gate_apply (H : FVec Ideal S64x512x1536 .f32) (e : Fin 64) (s : Fin 512) (f : Fin 768) :
    extractStridedSlice S64x512x768 ![0, 0, 0] H slices_S64x512x1536_S64x512x768_0_0_0 (ix3 e s f)
      = H (ix3 e s (⟨f.val, by omega⟩ : Fin 1536)) :=
  extractStridedSlice_apply _ H _ _ _ fun a => by
    match a with
    | ⟨0, _⟩ => exact (Nat.zero_add _).symm
    | ⟨1, _⟩ => exact (Nat.zero_add _).symm
    | ⟨2, _⟩ => exact (Nat.zero_add _).symm

/-- The trailing 768 of the 1536 columns of every member: entry (e, s, f) is the operand's entry (e, s, 768 + f). -/
theorem slice_up_apply (H : FVec Ideal S64x512x1536 .f32) (e : Fin 64) (s : Fin 512) (f : Fin 768) :
    extractStridedSlice S64x512x768 ![0, 0, 768] H slices_S64x512x1536_S64x512x768_0_0_768 (ix3 e s f)
      = H (ix3 e s (⟨768 + f.val, by omega⟩ : Fin 1536)) :=
  extractStridedSlice_apply _ H _ _ _ fun a => by
    match a with
    | ⟨0, _⟩ => exact (Nat.zero_add _).symm
    | ⟨1, _⟩ => exact (Nat.zero_add _).symm
    | ⟨2, _⟩ => rfl

/-- One over one plus the exponential of the negation, entrywise, with the number one a broadcast scalar constant: at
    every index the logistic function of the entry. -/
theorem sigmoid_apply (G : FVec Ideal S64x512x768 .f32) (i : S64x512x768.Idx) :
    Host.divf (broadcastInDim S64x512x768 ![] bcast_S_S64x512x768 (constant (F := Ideal) S_ .f32 0x3F800000#32))
        (addf (broadcastInDim S64x512x768 ![] bcast_S_S64x512x768 (constant (F := Ideal) S_ .f32 0x3F800000#32))
          (Host.exp (Host.negf G))) i
      = Ideal.logistic (G i) :=
  LogisticForm.logistic_spelt (G i)

/-- The reference's expert MLP as one function of the dispatched rows and the two weight arrays: the first batched
    product, its two column halves, the logistic function of the first half spelt as a quotient, the two entrywise
    products, the second batched product. -/
def refMlp (buf : FVec Ideal S64x512x1024 .f32) (w1 : FVec Ideal S64x1536x1024 .f32) (w2 : FVec Ideal S64x1024x768 .f32) :
    FVec Ideal S64x512x1024 .f32 :=
  have H : FVec Ideal S64x512x1536 .f32 := Host.dotGeneral dot_S64x512x1024_S64x1536x1024_S64x512x1536_2_2_1_1_0_0 none buf w1
  have G : FVec Ideal S64x512x768 .f32 := extractStridedSlice S64x512x768 ![0, 0, 0] H slices_S64x512x1536_S64x512x768_0_0_0
  have U : FVec Ideal S64x512x768 .f32 := extractStridedSlice S64x512x768 ![0, 0, 768] H slices_S64x512x1536_S64x512x768_0_0_768
  have one : FVec Ideal S64x512x768 .f32 :=
    broadcastInDim S64x512x768 ![] bcast_S_S64x512x768 (constant (F := Ideal) S_ .f32 0x3F800000#32)
  Host.dotGeneral dot_S64x512x768_S64x1024x768_S64x512x1024_2_2_1_1_0_0 none
    (mulf (mulf G (Host.divf one (addf one (Host.exp (Host.negf G))))) U) w2

/-- Entry (e, s, h) of the reference's expert MLP is the expert MLP's output entry `h` of row (e, s) against expert
    `e`'s weights: the same sums of the same products, factor for factor. -/
theorem refMlp_apply (buf : FVec Ideal S64x512x1024 .f32) (w1 : FVec Ideal S64x1536x1024 .f32) (w2 : FVec Ideal S64x1024x768 .f32)
    (e : Fin 64) (s : Fin 512) (h : Fin 1024) :
    refMlp buf w1 w2 (ix3 e s h)
      = Cert.MoeSpec.mlpEntry (fun k => buf (ix3 e s k)) (fun f k => w1 (ix3 e f k)) (fun h' f => w2 (ix3 e h' f)) h := by
  unfold refMlp
  rw [dot2_apply]
  unfold Cert.MoeSpec.mlpEntry
  refine Finset.sum_congr rfl fun f _ => ?_
  rw [mulf_apply, mulf_apply, sigmoid_apply, slice_gate_apply, slice_up_apply, dot1_apply, dot1_apply]
  rfl

end Cert.ReferenceIdeal.MlpValue

end
-- ==== Proof.V.LibPairGather.lean ====
/-
  A gather of rows of a stack of matrices at pairs of start indices, read at an index.

  What `x[idx[:, 0], idx[:, 1], :]` of an array `x : [E, C, H]` at an integer array `idx : [N, 2]` lowers to:
  `stablehlo.gather` with offset_dims `[1]`, collapsed_slice_dims `[0, 1]`, no batching axes, start_index_map `[0, 1]`,
  index_vector_dim `1` and slice_sizes `[1, 1, H]`. Result element `(i, h)` is `x` at `(e, c, h)` where `e` and `c` are the
  two components `idx[i, 0]` and `idx[i, 1]` of the start index, each read as a signed integer and clamped into
  `[0, E − 1]` and `[0, C − 1]`, as StableHLO's gather clamps every start index; on the last axis the slice is the whole
  axis, the start is `0` and the offset is `h`.
-/
import Idealize.ShloMosaic.Lib.ValueIdx

noncomputable section

namespace Idealize.ShloMosaic.PairGather

open Idealize.ShloMosaic Idealize.ShloMosaic.ValueIdx

variable {α : Type}

/-- Those dimension numbers for an operand `[E, C, H]`, start indices `[N, 2]` and result `[N, H]`; their conditions `wf`
    are decided on a program's literal shapes. -/
abbrev pairDims (E C H N : Nat)
    (wf : GatherDims.WF ⟨3, ![E, C, H]⟩ ⟨2, ![N, 2]⟩ ⟨2, ![N, H]⟩ [1] [0, 1] [] [0, 1] [] 1 ![1, 1, H]) :
    GatherDims ⟨3, ![E, C, H]⟩ ⟨2, ![N, 2]⟩ ⟨2, ![N, H]⟩ where
  offsetDims := [1]
  collapsedSliceDims := [0, 1]
  operandBatchingDims := []
  startIndicesBatchingDims := []
  startIndexMap := [0, 1]
  indexVectorDim := 1
  sliceSizes := ![1, 1, H]
  wf := wf

/-- Axis `0` is one of the two axes the start index names. -/
theorem mem0 : (0 : Fin 3) ∈ ([0, 1] : List (Fin 3)) := List.mem_cons_self
/-- Axis `1` is the other. -/
theorem mem1 : (1 : Fin 3) ∈ ([0, 1] : List (Fin 3)) := List.mem_cons_of_mem _ List.mem_cons_self
/-- Axis `2` is not among them. -/
theorem not_mem2 : (2 : Fin 3) ∉ ([0, 1] : List (Fin 3)) := by decide

/-- THE GATHER READ AT `(i, h)`: the operand at `(e, c, h)`, `e` and `c` the start index's two components `idx[i, 0]` and
    `idx[i, 1]`, each read signed and clamped into `[0, E − 1]` and `[0, C − 1]`. -/
theorem gather_pair_apply {E C H N w : Nat} (hE : 0 < E) (hC : 0 < C)
    (wf : GatherDims.WF ⟨3, ![E, C, H]⟩ ⟨2, ![N, 2]⟩ ⟨2, ![N, H]⟩ [1] [0, 1] [] [0, 1] [] 1 ![1, 1, H])
    (x : (⟨3, ![E, C, H]⟩ : Shape).Idx → α) (idx : IVec ⟨2, ![N, 2]⟩ w) (i : Fin N) (h : Fin H) :
    Host.gather (pairDims E C H N wf) x idx (ix2 i h)
      = x (ix3 (⟨min (idx (ix2 i (0 : Fin 2))).toInt.toNat (E - 1), by omega⟩ : Fin E)
               (⟨min (idx (ix2 i (1 : Fin 2))).toInt.toNat (C - 1), by omega⟩ : Fin C) h) := by
  unfold Host.gather
  congr 1
  funext a
  refine Fin.ext ?_
  match a with
  | ⟨0, _⟩ =>
    show (pairDims E C H N wf).start (ix2 i h) idx 0 + (pairDims E C H N wf).batchCoord (ix2 i h) 0
        + (pairDims E C H N wf).offCoord (ix2 i h) 0 = _
    rw [GatherDims.batchCoord_eq_zero _ _ _ List.not_mem_nil,
      GatherDims.offCoord_eq_zero _ _ _ (fun hm => ((GatherDims.mem_sKept _ _).mp hm).1 mem0)]
    simp only [Nat.add_zero]
    unfold GatherDims.start
    rw [dif_pos (show (0 : Fin 3) ∈ (pairDims E C H N wf).startIndexMap from mem0)]
    have hsi : (pairDims E C H N wf).siIdx (ix2 i h) ⟨List.idxOf (0 : Fin 3) (pairDims E C H N wf).startIndexMap,
        List.idxOf_lt_length_iff.2 mem0⟩ = ix2 i (0 : Fin 2) := by
      funext b; refine Fin.ext ?_
      match b with
      | ⟨0, _⟩ => rfl
      | ⟨1, _⟩ => rfl
    rw [hsi]
    rfl
  | ⟨1, _⟩ =>
    show (pairDims E C H N wf).start (ix2 i h) idx 1 + (pairDims E C H N wf).batchCoord (ix2 i h) 1
        + (pairDims E C H N wf).offCoord (ix2 i h) 1 = _
    rw [GatherDims.batchCoord_eq_zero _ _ _ List.not_mem_nil,
      GatherDims.offCoord_eq_zero _ _ _ (fun hm => ((GatherDims.mem_sKept _ _).mp hm).1 mem1)]
    simp only [Nat.add_zero]
    unfold GatherDims.start
    rw [dif_pos (show (1 : Fin 3) ∈ (pairDims E C H N wf).startIndexMap from mem1)]
    have hsi : (pairDims E C H N wf).siIdx (ix2 i h) ⟨List.idxOf (1 : Fin 3) (pairDims E C H N wf).startIndexMap,
        List.idxOf_lt_length_iff.2 mem1⟩ = ix2 i (1 : Fin 2) := by
      funext b; refine Fin.ext ?_
      match b with
      | ⟨0, _⟩ => rfl
      | ⟨1, _⟩ => rfl
    rw [hsi]
    rfl
  | ⟨2, _⟩ =>
    show (pairDims E C H N wf).start (ix2 i h) idx 2 + (pairDims E C H N wf).batchCoord (ix2 i h) 2
        + (pairDims E C H N wf).offCoord (ix2 i h) 2 = h.val
    rw [GatherDims.batchCoord_eq_zero _ _ _ List.not_mem_nil]
    have hst : (pairDims E C H N wf).start (ix2 i h) idx 2 = 0 := by
      unfold GatherDims.start
      rw [dif_neg (show (2 : Fin 3) ∉ (pairDims E C H N wf).startIndexMap from not_mem2)]
    rw [hst]
    have hk : (2 : Fin 3) ∈ (pairDims E C H N wf).sKept :=
      (GatherDims.mem_sKept _ _).mpr ⟨not_mem2, List.not_mem_nil⟩
    unfold GatherDims.offCoord
    rw [dif_pos hk]
    simp only [Nat.zero_add]
    rfl

end Idealize.ShloMosaic.PairGather

end
-- ==== Proof.V.PairGatherInst.lean ====
/-
  The program's two gathers of rows at (expert, slot) pairs, read at an index.

  The reference and the kernel's host program each gather, from an array of 64 × 512 rows of 1024 entries, the row at
  the pair `idx[i, :]` for each of 8192 positions `i`. Read at `(i, h)` each is the operand at `(e, c, h)`, `e` and `c` the
  pair's two components read signed and clamped into `[0, 63]` and `[0, 511]`.
-/
import proofs.«126691_j58317065945110_2_alg».proof.Proof.Gen.ReferenceIdeal
import proofs.«126691_j58317065945110_2_alg».proof.Proof.Gen.KernelIdeal
import proofs.«126691_j58317065945110_2_alg».proof.Proof.V.LibPairGather

noncomputable section

namespace Cert.PairGatherInst

open Idealize.ShloMosaic Idealize.ShloMosaic.ValueIdx Idealize.ShloMosaic.PairGather

variable {α : Type}

/-- The reference's gather read at `(i, h)`. -/
theorem ref_gather_apply {w : Nat} (x : Cert.ReferenceIdeal.S64x512x1024.Idx → α) (idx : IVec Cert.ReferenceIdeal.S8192x2 w)
    (i : Fin 8192) (h : Fin 1024) :
    Host.gather Cert.ReferenceIdeal.gather_S64x512x1024_S8192x2_S8192x1024_1_01_n_n_01_1_111024 x idx (ix2 i h)
      = x (ix3 (⟨min (idx (ix2 i (0 : Fin 2))).toInt.toNat 63, by omega⟩ : Fin 64)
               (⟨min (idx (ix2 i (1 : Fin 2))).toInt.toNat 511, by omega⟩ : Fin 512) h) :=
  gather_pair_apply (by decide) (by decide)
    Cert.ReferenceIdeal.Facts₀.gather_S64x512x1024_S8192x2_S8192x1024_1_01_n_n_01_1_111024_wf x idx i h

/-- The kernel's host program's gather read at `(i, h)`. -/
theorem kernel_gather_apply {w : Nat} (x : Cert.KernelIdeal.S64x512x1024.Idx → α) (idx : IVec Cert.KernelIdeal.S8192x2 w)
    (i : Fin 8192) (h : Fin 1024) :
    Host.gather Cert.KernelIdeal.gather_S64x512x1024_S8192x2_S8192x1024_1_01_n_n_01_1_111024 x idx (ix2 i h)
      = x (ix3 (⟨min (idx (ix2 i (0 : Fin 2))).toInt.toNat 63, by omega⟩ : Fin 64)
               (⟨min (idx (ix2 i (1 : Fin 2))).toInt.toNat 511, by omega⟩ : Fin 512) h) :=
  gather_pair_apply (by decide) (by decide)
    Cert.KernelIdeal.Facts₀.gather_S64x512x1024_S8192x2_S8192x1024_1_01_n_n_01_1_111024_wf x idx i h

end Cert.PairGatherInst

end
-- ==== Proof.V.SelectEq.lean ====
import proofs.«126691_j58317065945110_2_alg».proof.Proof.V.StagesRef
import proofs.«126691_j58317065945110_2_alg».proof.Proof.V.StagesKer
import proofs.«126691_j58317065945110_2_alg».proof.Proof.V.MlpRef
import proofs.«126691_j58317065945110_2_alg».proof.Proof.V.PairGatherInst
import proofs.«126691_j58317065945110_2_alg».proof.Proof.V.MlpSpec
import proofs.«126691_j58317065945110_2_alg».proof.Proof.KI.Tile
import Idealize.ShloMosaic.Lib.ValueLayout
import Idealize.ShloMosaic.Lib.IdealHost

noncomputable section

namespace Cert.MoeValue

open Idealize.ShloMosaic Idealize.ShloMosaic.ValueIdx Idealize.SL.Sem

/-! ## The masked gather of the expert output is the same in both programs

After the expert MLP both host programs read the expert-output array only through one gather of rows at
(expert, slot) pairs under an in-bounds mask: position `i` keeps the row at the pair `idx[i, :]` (each component read
signed and clamped) where the mask is set and is zero elsewhere; the kernel's program does this on 16-bit values with a
16-bit zero and then widens, the reference on 32-bit values with a 32-bit zero. The mask, the pairs and everything they
depend on are the same operations in both programs. Over the extended reals widening and narrowing are the identity and
both zero patterns are zero, so the two results agree as soon as the kernel's expert output agrees with the reference's
at every row the mask keeps. The reference's row is the expert MLP of the dispatched token buffer; the kernel's tiles
hold either that MLP (over the transposed, narrowed weights, which read back as the weights) or the zero tile, and the
rows the mask keeps lie in tiles of the first kind. -/

attribute [local irreducible] Host.reduce Host.sort2 Host.gather Host.scatter Host.reduceAdd

/-! ## The two zeros -/

/-- The 16-bit pattern of all zeros denotes the number zero. -/
theorem zero_bf16 : Ideal.ofBits .bf16 0x0000#16 = 0 := by simp [Ideal.ofBits, Ideal.ieee]

/-! ## The stages the two host programs share -/

section Shared
variable (x : (⟨Cert.KernelIdeal.S1024x1024, .f32⟩ : BufTy).Contents (Elt Ideal))
  (ids : (⟨Cert.KernelIdeal.S1024x8, .i32⟩ : BufTy).Contents (Elt Ideal))
  (w1 : (⟨Cert.KernelIdeal.S64x1536x1024, .f32⟩ : BufTy).Contents (Elt Ideal))
  (w2 : (⟨Cert.KernelIdeal.S64x1024x768, .f32⟩ : BufTy).Contents (Elt Ideal))

/-- The (expert, slot) pairs the final gather reads are the same array in both programs. -/
theorem v70_eq : Cert.KernelIdeal.Stage.tl_main_v70 (F := Ideal) ids = Cert.ReferenceIdeal.Stage.tl_main_v70 (F := Ideal) ids := rfl

/-- The in-bounds mask is the same array in both programs. -/
theorem v77_eq : Cert.KernelIdeal.Stage.tl_main_v77 (F := Ideal) ids = Cert.ReferenceIdeal.Stage.tl_main_v77 (F := Ideal) ids := rfl

/-- The gathered token rows are the same array in both programs. -/
theorem v36_eq : Cert.KernelIdeal.Stage.st_main_v36 (F := Ideal) x ids = Cert.ReferenceIdeal.Stage.st_main_v36 (F := Ideal) x ids := rfl

/-- The (expert, slot) pairs the dispatch scatters to are the same array in both programs. -/
theorem dispatchIdx_eq : Cert.KernelIdeal.Stage.st_main_v51 (F := Ideal) ids = Cert.ReferenceIdeal.Stage.st_main_v50 (F := Ideal) ids := rfl

/-- The dispatched token buffer: the kernel's program scatters the rows, narrowed, into a 16-bit zero array, the reference
    the rows into a 32-bit zero array; over the extended reals narrowing is the identity and both zeros are zero, so the
    two buffers are the same array. -/
theorem tok_eq : (Cert.KernelIdeal.Stage.st_main_v52 (F := Ideal) x ids : Cert.KernelIdeal.S64x512x1024.Idx → EReal)
    = Cert.ReferenceIdeal.Stage.st_main_v51 (F := Ideal) x ids := by
  have hz : (Cert.KernelIdeal.Stage.st_main_v37 (F := Ideal) : Cert.KernelIdeal.S64x512x1024.Idx → EReal) = Cert.ReferenceIdeal.Stage.st_main_v37 (F := Ideal) := by
    funext j
    show Ideal.ofBits .bf16 0x0000#16 = Ideal.ofBits .f32 0x00000000#32
    rw [zero_bf16, Ideal.ofBits_zero_f32]
  show Host.scatter Cert.KernelIdeal.scatter_S64x512x1024_S8192x2_S8192x1024_1_01_01_1 (fun _ b => b)
      (Cert.KernelIdeal.Stage.st_main_v37 (F := Ideal) : Cert.KernelIdeal.S64x512x1024.Idx → EReal) (Cert.KernelIdeal.Stage.st_main_v51 (F := Ideal) ids)
      (Cert.KernelIdeal.Stage.st_main_v36 (F := Ideal) x ids : Cert.KernelIdeal.S8192x1024.Idx → EReal) = _
  rw [hz]
  rfl

/-- The first weight array transposed and narrowed, read at (e, k, f): the weight at (e, f, k). -/
theorem w1t_apply (e : Fin 64) (k : Fin 1024) (f : Fin 1536) :
    Cert.KernelIdeal.Stage.st_main_v54 (F := Ideal) w1 (ix3 e k f) = w1 (ix3 e f k) :=
  transpose_ix3_021_apply w1 Cert.KernelIdeal.Facts₀.transposes_S64x1536x1024_S64x1024x1536_0_2_1 e k f

/-- The second weight array transposed and narrowed, read at (e, f, h): the weight at (e, h, f). -/
theorem w2t_apply (e : Fin 64) (f : Fin 768) (h : Fin 1024) :
    Cert.KernelIdeal.Stage.st_main_v56 (F := Ideal) w2 (ix3 e f h) = w2 (ix3 e h f) :=
  transpose_ix3_021_apply w2 Cert.KernelIdeal.Facts₀.transposes_S64x1024x768_S64x768x1024_0_2_1 e f h

/-- The reference's expert output is its expert MLP of the dispatched token buffer. -/
theorem st57_eq : Cert.ReferenceIdeal.Stage.st_main_v57 (F := Ideal) x ids w1 w2
    = Cert.ReferenceIdeal.MlpValue.refMlp (Cert.ReferenceIdeal.Stage.st_main_v51 (F := Ideal) x ids) w1 w2 := rfl

end Shared

/-! ## The masked gather of the expert output, in both programs -/

/-- The capacity tile of slot `s`: tiles have 128 rows. -/
abbrev tileOf (s : Fin 512) : Fin 4 := ⟨s.val / 128, by have := s.isLt; omega⟩

/-- The expert the final gather reads for position `i`: the pair's first component, read signed and clamped into [0, 63]. -/
abbrev expertOf (ids : (⟨Cert.KernelIdeal.S1024x8, .i32⟩ : BufTy).Contents (Elt Ideal)) (i : Fin 8192) : Fin 64 :=
  ⟨min ((Cert.ReferenceIdeal.Stage.tl_main_v70 (F := Ideal) ids : IVec Cert.ReferenceIdeal.S8192x2 32) (ix2 i (0 : Fin 2))).toInt.toNat 63, by omega⟩

/-- The capacity slot the final gather reads for position `i`: the pair's second component, read signed and clamped into
    [0, 511]. -/
abbrev slotOf (ids : (⟨Cert.KernelIdeal.S1024x8, .i32⟩ : BufTy).Contents (Elt Ideal)) (i : Fin 8192) : Fin 512 :=
  ⟨min ((Cert.ReferenceIdeal.Stage.tl_main_v70 (F := Ideal) ids : IVec Cert.ReferenceIdeal.S8192x2 32) (ix2 i (1 : Fin 2))).toInt.toNat 511, by omega⟩

section Select
variable (x : (⟨Cert.KernelIdeal.S1024x1024, .f32⟩ : BufTy).Contents (Elt Ideal))
  (ids : (⟨Cert.KernelIdeal.S1024x8, .i32⟩ : BufTy).Contents (Elt Ideal))
  (w1 : (⟨Cert.KernelIdeal.S64x1536x1024, .f32⟩ : BufTy).Contents (Elt Ideal))
  (w2 : (⟨Cert.KernelIdeal.S64x1024x768, .f32⟩ : BufTy).Contents (Elt Ideal))

/-- The mask laid along every row, read at (i, h): the mask at i. -/
theorem maskR_apply (i : Fin 8192) (h : Fin 1024) :
    Cert.ReferenceIdeal.Stage.tl_main_v79 (F := Ideal) ids (ix2 i h) = Cert.ReferenceIdeal.Stage.tl_main_v77 (F := Ideal) ids (ix1 i) :=
  broadcastInDim_apply _ _ (Cert.ReferenceIdeal.Stage.tl_main_v77 (F := Ideal) ids) (ix2 i h) (ix1 i) fun a => by
    match a with
    | ⟨0, _⟩ => rfl

/-- The same in the kernel's program. -/
theorem maskK_apply (i : Fin 8192) (h : Fin 1024) :
    Cert.KernelIdeal.Stage.tl_main_v79 (F := Ideal) ids (ix2 i h) = Cert.ReferenceIdeal.Stage.tl_main_v77 (F := Ideal) ids (ix1 i) :=
  maskR_apply ids i h

/-- The reference's masked gather read at (i, h): under the mask the expert output at (expert, slot, h), else zero. -/
theorem selR_apply (ybr : (⟨Cert.ReferenceIdeal.S64x512x1024, .f32⟩ : BufTy).Contents (Elt Ideal)) (i : Fin 8192) (h : Fin 1024) :
    (Cert.ReferenceIdeal.Stage.tl_main_v81 (F := Ideal) ybr ids (ix2 i h) : EReal)
      = if Cert.ReferenceIdeal.Stage.tl_main_v77 (F := Ideal) ids (ix1 i) = 1#1 then (ybr (ix3 (expertOf ids i) (slotOf ids i) h) : EReal) else 0 := by
  show Scalar.select (Cert.ReferenceIdeal.Stage.tl_main_v79 (F := Ideal) ids (ix2 i h))
      (Host.gather Cert.ReferenceIdeal.gather_S64x512x1024_S8192x2_S8192x1024_1_01_n_n_01_1_111024 ybr
        (Cert.ReferenceIdeal.Stage.tl_main_v70 (F := Ideal) ids) (ix2 i h))
      (Ideal.ofBits .f32 0x00000000#32) = _
  rw [maskR_apply, Cert.PairGatherInst.ref_gather_apply, Ideal.ofBits_zero_f32]
  rfl

/-- The kernel's program's masked gather, widened, read at (i, h): the same reading of its own expert output. -/
theorem selK_apply (ybk : (⟨Cert.KernelIdeal.S64x512x1024, .bf16⟩ : BufTy).Contents (Elt Ideal)) (i : Fin 8192) (h : Fin 1024) :
    (Cert.KernelIdeal.Stage.tl_main_v82 (F := Ideal) ybk ids (ix2 i h) : EReal)
      = if Cert.ReferenceIdeal.Stage.tl_main_v77 (F := Ideal) ids (ix1 i) = 1#1 then (ybk (ix3 (expertOf ids i) (slotOf ids i) h) : EReal) else 0 := by
  show Scalar.select (Cert.KernelIdeal.Stage.tl_main_v79 (F := Ideal) ids (ix2 i h))
      (Host.gather Cert.KernelIdeal.gather_S64x512x1024_S8192x2_S8192x1024_1_01_n_n_01_1_111024 ybk
        (Cert.ReferenceIdeal.Stage.tl_main_v70 (F := Ideal) ids) (ix2 i h))
      (Ideal.ofBits .bf16 0x0000#16) = _
  rw [maskK_apply, Cert.PairGatherInst.kernel_gather_apply, zero_bf16]
  rfl

end Select

/-- THE TWO PROGRAMS' MASKED GATHERS AGREE. If the kernel's expert output `ybk` is, tile by tile, the zero tile where the
    tile's first row is at or past the expert's row count and the expert MLP of the dispatched tokens elsewhere (`hyb`),
    and every position the mask keeps reads a tile of the second kind (`hcore`), then the kernel's program's masked
    gather of `ybk`, widened, is the reference's masked gather of its own expert output: where the mask drops a position
    both are zero, where it keeps one both are the same expert MLP entry. `pt0` names the grid point of an
    (expert, tile) pair; the statement holds for any such naming. -/
theorem sel_eq (pt0 : Fin 64 → Fin 4 → Fin Cert.KernelIdeal.grid0.N)
    (x : (⟨Cert.KernelIdeal.S1024x1024, .f32⟩ : BufTy).Contents (Elt Ideal))
    (ids : (⟨Cert.KernelIdeal.S1024x8, .i32⟩ : BufTy).Contents (Elt Ideal))
    (w1 : (⟨Cert.KernelIdeal.S64x1536x1024, .f32⟩ : BufTy).Contents (Elt Ideal))
    (w2 : (⟨Cert.KernelIdeal.S64x1024x768, .f32⟩ : BufTy).Contents (Elt Ideal))
    (ybk : (⟨Cert.KernelIdeal.S64x512x1024, .bf16⟩ : BufTy).Contents (Elt Ideal))
    (hcore : ∀ i : Fin 8192, Cert.ReferenceIdeal.Stage.tl_main_v77 (F := Ideal) ids (ix1 i) = 1#1 →
        ¬ Cert.KernelIdeal.k0_cond2 (Cert.KernelIdeal.grid0.coords (pt0 (expertOf ids i) (tileOf (slotOf ids i))))
            (Cert.KernelIdeal.Stage.st_main_v17 (F := Ideal) ids (ix1 (expertOf ids i))) = 1#1)
    (hyb : ∀ (e : Fin 64) (s : Fin 512) (h : Fin 1024), (ybk (ix3 e s h) : EReal) =
        if Cert.KernelIdeal.k0_cond2 (Cert.KernelIdeal.grid0.coords (pt0 e (tileOf s)))
            (Cert.KernelIdeal.Stage.st_main_v17 (F := Ideal) ids (ix1 e)) = 1#1 then 0
        else Cert.MoeSpec.mlpEntry (fun k => Cert.KernelIdeal.Stage.st_main_v52 (F := Ideal) x ids (ix3 e s k))
          (fun f k => Cert.KernelIdeal.Stage.st_main_v54 (F := Ideal) w1 (ix3 e k f)) (fun h' f => Cert.KernelIdeal.Stage.st_main_v56 (F := Ideal) w2 (ix3 e f h')) h) :
    Cert.KernelIdeal.Stage.tl_main_v82 (F := Ideal) ybk ids = Cert.ReferenceIdeal.Stage.tl_main_v81 (F := Ideal) (Cert.ReferenceIdeal.Stage.st_main_v57 (F := Ideal) x ids w1 w2) ids := by
  funext j
  obtain ⟨i, h, rfl⟩ : ∃ (i : Fin 8192) (h : Fin 1024), j = ix2 i h := ⟨j 0, j 1, eq_ix2 j⟩
  refine (selK_apply ids ybk i h).trans (Eq.trans ?_ (selR_apply ids _ i h).symm)
  by_cases hm : Cert.ReferenceIdeal.Stage.tl_main_v77 (F := Ideal) ids (ix1 i) = 1#1
  · rw [if_pos hm, if_pos hm]
    refine (hyb (expertOf ids i) (slotOf ids i) h).trans ?_
    rw [if_neg (hcore i hm), st57_eq, Cert.ReferenceIdeal.MlpValue.refMlp_apply]
    have hA : (fun k => (Cert.KernelIdeal.Stage.st_main_v52 (F := Ideal) x ids (ix3 (expertOf ids i) (slotOf ids i) k) : EReal))
        = fun k => Cert.ReferenceIdeal.Stage.st_main_v51 (F := Ideal) x ids (ix3 (expertOf ids i) (slotOf ids i) k) :=
      funext fun k => congrFun (tok_eq x ids) _
    have hB : (fun (f : Fin 1536) (k : Fin 1024) => (Cert.KernelIdeal.Stage.st_main_v54 (F := Ideal) w1 (ix3 (expertOf ids i) k f) : EReal))
        = fun f k => w1 (ix3 (expertOf ids i) f k) :=
      funext fun f => funext fun k => w1t_apply w1 _ k f
    have hC : (fun (h' : Fin 1024) (f : Fin 768) => (Cert.KernelIdeal.Stage.st_main_v56 (F := Ideal) w2 (ix3 (expertOf ids i) f h') : EReal))
        = fun h' f => w2 (ix3 (expertOf ids i) h' f) :=
      funext fun h' => funext fun f => w2t_apply w2 _ f h'
    exact congrFun (congr (congr (congrArg Cert.MoeSpec.mlpEntry hA) hB) hC) h
  · rw [if_neg hm, if_neg hm]

/-! ## From the masked gather to the output

After the masked gather both programs restore the token order by a second gather, group the eight choices of each token,
weight them and sum them: the same operations in both, reading the expert output only through the masked gather. -/

/-- If the two programs' masked gathers agree, so do their outputs. -/
theorem tail_congr
    (ybk : (⟨Cert.KernelIdeal.S64x512x1024, .bf16⟩ : BufTy).Contents (Elt Ideal))
    (ybr : (⟨Cert.ReferenceIdeal.S64x512x1024, .f32⟩ : BufTy).Contents (Elt Ideal))
    (tw : (⟨Cert.KernelIdeal.S1024x8, .f32⟩ : BufTy).Contents (Elt Ideal))
    (ids : (⟨Cert.KernelIdeal.S1024x8, .i32⟩ : BufTy).Contents (Elt Ideal))
    (hsel : Cert.KernelIdeal.Stage.tl_main_v82 (F := Ideal) ybk ids = Cert.ReferenceIdeal.Stage.tl_main_v81 (F := Ideal) ybr ids) :
    Cert.KernelIdeal.Stage.tl_main_v95 (F := Ideal) ybk tw ids = Cert.ReferenceIdeal.Stage.tl_main_v94 (F := Ideal) ybr tw ids := by
  unfold Cert.KernelIdeal.Stage.tl_main_v95 Cert.KernelIdeal.Stage.tl_main_v94 Cert.KernelIdeal.Stage.tl_main_v91
    Cert.KernelIdeal.Stage.tl_main_v90
  rw [hsel]
  rfl

end Cert.MoeValue

end
-- ==== Proof.V.DispatchStages.lean ====
/-
  The reference's host dispatch as functions of the routed expert ids alone: one definition per buffer, each the
  printed operation's function applied to the definitions of its operands. In order: the flat ids, the stable
  sorting permutation, the sorted ids, the per-expert counts (a scatter of ones), their inclusive prefix sums
  (a windowed sum) and exclusive prefix sums (starts), the slot of each sorted position within its expert's group
  (position minus start), and the index pairs (expert, slot) of the final gather with their in-bounds mask.
-/
import proofs.«126691_j58317065945110_2_alg».proof.Proof.Gen.ReferenceIdeal
import Idealize.ShloMosaic.PureOps.Ideal

noncomputable section

namespace Cert.ReferenceIdeal.Dispatch

open Cert.ReferenceIdeal Cert.ReferenceIdeal.Gen Idealize.ShloMosaic

/-- Ids reshaped to [8192]: the flat routed expert ids. -/
def st_v0 (ids : (⟨S1024x8, .i32⟩ : BufTy).Contents (Elt Ideal)) : (⟨S8192, .i32⟩ : BufTy).Contents (Elt Ideal) :=
  shapeCast S8192 ids shapeCasts_S1024x8_S8192
/-- The positions 0 … 8191. -/
def st_call0_v0 : (⟨S8192, .i32⟩ : BufTy).Contents (Elt Ideal) :=
  iotaInDim S8192 32 0
/-- The stable sorting permutation of the flat ids (source position of each sorted position). -/
def st_v1 (ids : (⟨S1024x8, .i32⟩ : BufTy).Contents (Elt Ideal)) : (⟨S8192, .i32⟩ : BufTy).Contents (Elt Ideal) :=
  (Host.sort2 S8192 0 comparator_i32_i32_d0 (st_v0 ids) st_call0_v0).2
def st_c : (⟨S_, .i32⟩ : BufTy).Contents (Elt Ideal) :=
  constantI S_ 32 0#32
def st_v2 : (⟨S8192, .i32⟩ : BufTy).Contents (Elt Ideal) :=
  broadcastInDim S8192 ![] bcast_S_S8192 st_c
def st_v3 (ids : (⟨S1024x8, .i32⟩ : BufTy).Contents (Elt Ideal)) : (⟨S8192, .i1⟩ : BufTy).Contents (Elt Ideal) :=
  cmpi .slt (st_v1 ids) st_v2
def st_c_0 : (⟨S_, .i32⟩ : BufTy).Contents (Elt Ideal) :=
  constantI S_ 32 8192#32
def st_v4 : (⟨S8192, .i32⟩ : BufTy).Contents (Elt Ideal) :=
  broadcastInDim S8192 ![] bcast_S_S8192 st_c_0
def st_v5 (ids : (⟨S1024x8, .i32⟩ : BufTy).Contents (Elt Ideal)) : (⟨S8192, .i32⟩ : BufTy).Contents (Elt Ideal) :=
  addi (st_v1 ids) st_v4
/-- The permutation with negatives wrapped by 8192. -/
def st_v6 (ids : (⟨S1024x8, .i32⟩ : BufTy).Contents (Elt Ideal)) : (⟨S8192, .i32⟩ : BufTy).Contents (Elt Ideal) :=
  select (st_v3 ids) (st_v5 ids) (st_v1 ids)
def st_v7 (ids : (⟨S1024x8, .i32⟩ : BufTy).Contents (Elt Ideal)) : (⟨S8192x1, .i32⟩ : BufTy).Contents (Elt Ideal) :=
  broadcastInDim S8192x1 ![0] bcast_S8192_S8192x1_0 (st_v6 ids)
/-- The sorted ids. -/
def st_v8 (ids : (⟨S1024x8, .i32⟩ : BufTy).Contents (Elt Ideal)) : (⟨S8192, .i32⟩ : BufTy).Contents (Elt Ideal) :=
  Host.gather gather_S8192_S8192x1_S8192_n_0_n_n_0_1_1 (st_v0 ids) (st_v7 ids)
def st_c_1 : (⟨S_, .i32⟩ : BufTy).Contents (Elt Ideal) :=
  constantI S_ 32 0#32
def st_v9 : (⟨S64, .i32⟩ : BufTy).Contents (Elt Ideal) :=
  broadcastInDim S64 ![] bcast_S_S64 st_c_1
def st_c_2 : (⟨S_, .i32⟩ : BufTy).Contents (Elt Ideal) :=
  constantI S_ 32 0#32
def st_v10 : (⟨S8192, .i32⟩ : BufTy).Contents (Elt Ideal) :=
  broadcastInDim S8192 ![] bcast_S_S8192 st_c_2
def st_v11 (ids : (⟨S1024x8, .i32⟩ : BufTy).Contents (Elt Ideal)) : (⟨S8192, .i1⟩ : BufTy).Contents (Elt Ideal) :=
  cmpi .slt (st_v0 ids) st_v10
def st_c_3 : (⟨S_, .i32⟩ : BufTy).Contents (Elt Ideal) :=
  constantI S_ 32 64#32
def st_v12 : (⟨S8192, .i32⟩ : BufTy).Contents (Elt Ideal) :=
  broadcastInDim S8192 ![] bcast_S_S8192 st_c_3
def st_v13 (ids : (⟨S1024x8, .i32⟩ : BufTy).Contents (Elt Ideal)) : (⟨S8192, .i32⟩ : BufTy).Contents (Elt Ideal) :=
  addi (st_v0 ids) st_v12
/-- The flat ids with negatives wrapped by 64. -/
def st_v14 (ids : (⟨S1024x8, .i32⟩ : BufTy).Contents (Elt Ideal)) : (⟨S8192, .i32⟩ : BufTy).Contents (Elt Ideal) :=
  select (st_v11 ids) (st_v13 ids) (st_v0 ids)
def st_v15 (ids : (⟨S1024x8, .i32⟩ : BufTy).Contents (Elt Ideal)) : (⟨S8192x1, .i32⟩ : BufTy).Contents (Elt Ideal) :=
  broadcastInDim S8192x1 ![0] bcast_S8192_S8192x1_0 (st_v14 ids)
def st_c_4 : (⟨S_, .i32⟩ : BufTy).Contents (Elt Ideal) :=
  constantI S_ 32 1#32
def st_v16 : (⟨S8192, .i32⟩ : BufTy).Contents (Elt Ideal) :=
  broadcastInDim S8192 ![] bcast_S_S8192 st_c_4
/-- Counts: how many flat ids equal each expert. -/
def st_v17 (ids : (⟨S1024x8, .i32⟩ : BufTy).Contents (Elt Ideal)) : (⟨S64, .i32⟩ : BufTy).Contents (Elt Ideal) :=
  Host.scatter scatter_S64_S8192x1_S8192_n_0_0_1 IntOp.addi st_v9 (st_v15 ids) st_v16
def st_call1_call0_c : (⟨S_, .i32⟩ : BufTy).Contents (Elt Ideal) :=
  constantI S_ 32 0#32
def st_call1_call0_v0 : (⟨S_, .i32⟩ : BufTy).Contents (Elt Ideal) :=
  broadcastInDim S_ ![] bcast_S_S_ st_call1_call0_c
/-- The inclusive prefix sums of the counts. -/
def st_v18 (ids : (⟨S1024x8, .i32⟩ : BufTy).Contents (Elt Ideal)) : (⟨S64, .i32⟩ : BufTy).Contents (Elt Ideal) :=
  Host.reduceWindow IntOp.addi ![64] ![1] ![63] ![0] (st_v17 ids) st_call1_call0_v0 reduceWindows_S64_S64_w64s1p63_0 h_S_
/-- Starts: the exclusive prefix sums. -/
def st_v19 (ids : (⟨S1024x8, .i32⟩ : BufTy).Contents (Elt Ideal)) : (⟨S64, .i32⟩ : BufTy).Contents (Elt Ideal) :=
  subi (st_v18 ids) (st_v17 ids)
def st_v20 : (⟨S8192, .i32⟩ : BufTy).Contents (Elt Ideal) :=
  iotaInDim S8192 32 0
def st_c_5 : (⟨S_, .i32⟩ : BufTy).Contents (Elt Ideal) :=
  constantI S_ 32 0#32
def st_v21 : (⟨S8192, .i32⟩ : BufTy).Contents (Elt Ideal) :=
  broadcastInDim S8192 ![] bcast_S_S8192 st_c_5
def st_v22 (ids : (⟨S1024x8, .i32⟩ : BufTy).Contents (Elt Ideal)) : (⟨S8192, .i1⟩ : BufTy).Contents (Elt Ideal) :=
  cmpi .slt (st_v8 ids) st_v21
def st_c_6 : (⟨S_, .i32⟩ : BufTy).Contents (Elt Ideal) :=
  constantI S_ 32 64#32
def st_v23 : (⟨S8192, .i32⟩ : BufTy).Contents (Elt Ideal) :=
  broadcastInDim S8192 ![] bcast_S_S8192 st_c_6
def st_v24 (ids : (⟨S1024x8, .i32⟩ : BufTy).Contents (Elt Ideal)) : (⟨S8192, .i32⟩ : BufTy).Contents (Elt Ideal) :=
  addi (st_v8 ids) st_v23
def st_v25 (ids : (⟨S1024x8, .i32⟩ : BufTy).Contents (Elt Ideal)) : (⟨S8192, .i32⟩ : BufTy).Contents (Elt Ideal) :=
  select (st_v22 ids) (st_v24 ids) (st_v8 ids)
def st_v26 (ids : (⟨S1024x8, .i32⟩ : BufTy).Contents (Elt Ideal)) : (⟨S8192x1, .i32⟩ : BufTy).Contents (Elt Ideal) :=
  broadcastInDim S8192x1 ![0] bcast_S8192_S8192x1_0 (st_v25 ids)
/-- The start of each sorted position's expert. -/
def st_v27 (ids : (⟨S1024x8, .i32⟩ : BufTy).Contents (Elt Ideal)) : (⟨S8192, .i32⟩ : BufTy).Contents (Elt Ideal) :=
  Host.gather gather_S64_S8192x1_S8192_n_0_n_n_0_1_1 (st_v19 ids) (st_v26 ids)
/-- Pos: each sorted position's slot within its expert's group. -/
def st_v28 (ids : (⟨S1024x8, .i32⟩ : BufTy).Contents (Elt Ideal)) : (⟨S8192, .i32⟩ : BufTy).Contents (Elt Ideal) :=
  subi st_v20 (st_v27 ids)
def st_c_14 : (⟨S_, .i32⟩ : BufTy).Contents (Elt Ideal) :=
  constantI S_ 32 0#32
def st_v58 : (⟨S8192, .i32⟩ : BufTy).Contents (Elt Ideal) :=
  broadcastInDim S8192 ![] bcast_S_S8192 st_c_14
def st_v59 (ids : (⟨S1024x8, .i32⟩ : BufTy).Contents (Elt Ideal)) : (⟨S8192, .i1⟩ : BufTy).Contents (Elt Ideal) :=
  cmpi .slt (st_v8 ids) st_v58
def st_c_15 : (⟨S_, .i32⟩ : BufTy).Contents (Elt Ideal) :=
  constantI S_ 32 64#32
def st_v60 : (⟨S8192, .i32⟩ : BufTy).Contents (Elt Ideal) :=
  broadcastInDim S8192 ![] bcast_S_S8192 st_c_15
def st_v61 (ids : (⟨S1024x8, .i32⟩ : BufTy).Contents (Elt Ideal)) : (⟨S8192, .i32⟩ : BufTy).Contents (Elt Ideal) :=
  addi (st_v8 ids) st_v60
/-- The gather's expert coordinate: the sorted id, negatives wrapped by 64. -/
def st_v62 (ids : (⟨S1024x8, .i32⟩ : BufTy).Contents (Elt Ideal)) : (⟨S8192, .i32⟩ : BufTy).Contents (Elt Ideal) :=
  select (st_v59 ids) (st_v61 ids) (st_v8 ids)
def st_c_16 : (⟨S_, .i32⟩ : BufTy).Contents (Elt Ideal) :=
  constantI S_ 32 0#32
def st_v63 : (⟨S8192, .i32⟩ : BufTy).Contents (Elt Ideal) :=
  broadcastInDim S8192 ![] bcast_S_S8192 st_c_16
def st_v64 (ids : (⟨S1024x8, .i32⟩ : BufTy).Contents (Elt Ideal)) : (⟨S8192, .i1⟩ : BufTy).Contents (Elt Ideal) :=
  cmpi .slt (st_v28 ids) st_v63
def st_c_17 : (⟨S_, .i32⟩ : BufTy).Contents (Elt Ideal) :=
  constantI S_ 32 512#32
def st_v65 : (⟨S8192, .i32⟩ : BufTy).Contents (Elt Ideal) :=
  broadcastInDim S8192 ![] bcast_S_S8192 st_c_17
def st_v66 (ids : (⟨S1024x8, .i32⟩ : BufTy).Contents (Elt Ideal)) : (⟨S8192, .i32⟩ : BufTy).Contents (Elt Ideal) :=
  addi (st_v28 ids) st_v65
/-- The gather's slot coordinate: pos, negatives wrapped by 512. -/
def st_v67 (ids : (⟨S1024x8, .i32⟩ : BufTy).Contents (Elt Ideal)) : (⟨S8192, .i32⟩ : BufTy).Contents (Elt Ideal) :=
  select (st_v64 ids) (st_v66 ids) (st_v28 ids)
def st_v68 (ids : (⟨S1024x8, .i32⟩ : BufTy).Contents (Elt Ideal)) : (⟨S8192x1, .i32⟩ : BufTy).Contents (Elt Ideal) :=
  broadcastInDim S8192x1 ![0] bcast_S8192_S8192x1_0 (st_v62 ids)
def st_v69 (ids : (⟨S1024x8, .i32⟩ : BufTy).Contents (Elt Ideal)) : (⟨S8192x1, .i32⟩ : BufTy).Contents (Elt Ideal) :=
  broadcastInDim S8192x1 ![0] bcast_S8192_S8192x1_0 (st_v67 ids)
/-- The gather's index pairs (expert, slot). -/
def st_v70 (ids : (⟨S1024x8, .i32⟩ : BufTy).Contents (Elt Ideal)) : (⟨S8192x2, .i32⟩ : BufTy).Contents (Elt Ideal) :=
  concatenate S8192x2 1 [⟨S8192x1, st_v68 ids⟩, ⟨S8192x1, st_v69 ids⟩] concatenates_S8192x1_S8192x1_S8192x2_d1
/-- The bounds [63, 511]. -/
def st_c_18 : (⟨S2, .i32⟩ : BufTy).Contents (Elt Ideal) :=
  fun i => lit0 (S2.rowMajor i)
def st_c_19 : (⟨S_, .i32⟩ : BufTy).Contents (Elt Ideal) :=
  constantI S_ 32 0#32
def st_v71 : (⟨S8192x2, .i32⟩ : BufTy).Contents (Elt Ideal) :=
  broadcastInDim S8192x2 ![] bcast_S_S8192x2 st_c_19
def st_v72 (ids : (⟨S1024x8, .i32⟩ : BufTy).Contents (Elt Ideal)) : (⟨S8192x2, .i1⟩ : BufTy).Contents (Elt Ideal) :=
  cmpi .sge (st_v70 ids) st_v71
def st_v73 : (⟨S1x2, .i32⟩ : BufTy).Contents (Elt Ideal) :=
  broadcastInDim S1x2 ![1] bcast_S2_S1x2_1 st_c_18
def st_v74 : (⟨S8192x2, .i32⟩ : BufTy).Contents (Elt Ideal) :=
  broadcastInDim S8192x2 ![0, 1] bcast_S1x2_S8192x2_0_1 st_v73
def st_v75 (ids : (⟨S1024x8, .i32⟩ : BufTy).Contents (Elt Ideal)) : (⟨S8192x2, .i1⟩ : BufTy).Contents (Elt Ideal) :=
  cmpi .sle (st_v70 ids) st_v74
def st_v76 (ids : (⟨S1024x8, .i32⟩ : BufTy).Contents (Elt Ideal)) : (⟨S8192x2, .i1⟩ : BufTy).Contents (Elt Ideal) :=
  andi (st_v72 ids) (st_v75 ids)
def st_c_20 : (⟨S_, .i1⟩ : BufTy).Contents (Elt Ideal) :=
  constantI S_ 1 1#1
/-- The in-bounds mask: both coordinates of the pair inside [0,63] × [0,511]. -/
def st_v77 (ids : (⟨S1024x8, .i32⟩ : BufTy).Contents (Elt Ideal)) : (⟨S8192, .i1⟩ : BufTy).Contents (Elt Ideal) :=
  Host.reduce IntOp.andi (st_v76 ids) st_c_20 reducesTo_S8192x2_S8192_d1 h_S_

end Cert.ReferenceIdeal.Dispatch

end
-- ==== Proof.V.DispatchOps.lean ====
/-
  Reading the dispatch's host operations at an index, for flat arrays and columns of any length: a two-operand
  sort of rank-1 arrays reads both through one permutation of the positions; a gather of a flat array at a column
  of start indices reads the array at the start index, signed and clamped; a scatter that adds ones into a flat
  array counts the updates landing at each element, and an update lands at `e` exactly when its index word is `e`;
  a windowed sum whose window reaches back over all earlier positions is the running total; a column of a flat
  array reads the array; and the word arithmetic of small naturals.
-/
import Idealize.ShloMosaic.Lib.SortFacts
import Idealize.ShloMosaic.Lib.ValueIdx
import Idealize.ShloMosaic.Lib.ReduceAll
import Idealize.ShloMosaic.PureOps.Ideal

namespace Cert.ReferenceIdeal.Dispatch

open Idealize.ShloMosaic Idealize.ShloMosaic.ValueIdx

/-! ## Rank-1 indices -/

theorem ofFin_eq_ix1 {n : Nat} (k : Fin n) : Shape.Idx.ofFin k = ix1 k := by
  funext d; match d with | ⟨0, _⟩ => rfl

/-! ## A two-operand sort of rank-1 arrays reads both through one permutation of the positions -/

set_option maxHeartbeats 400000 in
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (ix1 (sortedFrom (fun k k' => cmp (x (ix1 k), y (ix1 k)) (x (ix1 k'), y (ix1 k')) == 1#1) (j 0))) := by
  unfold Host.sort2
  simp [ofFin_eq_ix1]

/-! ## A gather of a flat array at a column of start indices -/

section Col
variable {α : Type}

abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

set_option maxHeartbeats 400000 in
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (colDims N R wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (colDims N R wf).start y idx 0 + (colDims N R wf).batchCoord y 0 + (colDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx y ⟨List.idxOf (0 : Fin 1) (colDims N R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Col

/-! ## A scatter that adds ones counts -/

set_option maxHeartbeats 400000 in
theorem scatter_add_ones_apply {s si u : Shape} {w : Nat} (d : ScatterDims s si u) (x : s.Idx → BitVec 32)
    (idx : IVec si w) (upd : u.Idx → BitVec 32) (hupd : ∀ j, upd j = 1#32) (e : s.Idx) :
    Host.scatter d IntOp.addi x idx upd e
      = x e + BitVec.ofNat 32 (((List.finRange u.numel).filter fun n => d.resultIdx? (u.rowMajor.symm n) idx = some e).length) := by
  unfold Host.scatter
  generalize List.finRange u.numel = l
  induction l generalizing x with
  | nil => simp
  | cons a l ih =>
    rw [List.foldl_cons, ih]
    cases hi : d.resultIdx? (u.rowMajor.symm a) idx with
    | none =>
      rw [List.filter_cons_of_neg (by simp [hi])]
    | some i =>
      show (if e = i then IntOp.addi (x i) (upd (u.rowMajor.symm a)) else x e) + _ = _
      by_cases hie : e = i
      · subst hie
        rw [List.filter_cons_of_pos (by simp [hi]), List.length_cons, if_pos rfl, hupd]
        show x e + 1#32 + _ = _
        rw [BitVec.add_assoc, ← BitVec.ofNat_add]
        congr 2
        omega
      · rw [List.filter_cons_of_neg (by simp [hi]; exact fun h => hie h.symm), if_neg hie]

/-! ## The scatter of a column of indices into a flat array: where an update lands -/

abbrev colScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

set_option maxHeartbeats 400000 in
theorem colScatter_start {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (colScatterDims N R wf).start j idx 0 = (idx (ix2 (j 0) (0 : Fin 1))).toInt := by
  unfold ScatterDims.start
  rw [dif_pos (show (0 : Fin 1) ∈ (colScatterDims N R wf).scatterDimsToOperandDims from List.mem_singleton.mpr rfl)]
  have hsi : (colScatterDims N R wf).siIdx j ⟨List.idxOf (0 : Fin 1) (colScatterDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

set_option maxHeartbeats 400000 in
theorem colScatter_window {N R : Nat} (wf : ScatterDims.WF ⟨1, ![N]⟩ ⟨2, ![R, 1]⟩ ⟨1, ![R]⟩ [] [0] [0] 1)
    (j : (⟨1, ![R]⟩ : Shape).Idx) : (colScatterDims N R wf).window j 0 = 0 := by
  unfold ScatterDims.window
  rw [dif_neg]
  simp [ScatterDims.sKept, Shape.kept]

set_option maxHeartbeats 400000 in
/-- An update lands at `e` exactly when its index word, read signed, is `e`. -/
theorem colScatter_resultIdx?_eq_some {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (e : Fin N) :
    (colScatterDims N R wf).resultIdx? j idx = some (ix1 e) ↔ (idx (ix2 (j 0) (0 : Fin 1))).toInt = (e.val : Int) := by
  have hs := colScatter_start wf idx j
  have hw := colScatter_window wf j
  have hN : (⟨1, ![N]⟩ : Shape).size 0 = N := rfl
  unfold ScatterDims.resultIdx?
  constructor
  · intro h
    split at h
    · rename_i hh
      have h' := congrArg (fun f : (⟨1, ![N]⟩ : Shape).Idx => (f 0).val) (Option.some.inj h)
      have hb := hh 0
      rw [hs, hw] at hb
      change ((colScatterDims N R wf).start j idx 0 + ((colScatterDims N R wf).window j 0 : Int)).toNat = e.val at h'
      rw [hs, hw] at h'
      omega
    · exact absurd h (by simp)
  · intro h
    have he := e.isLt
    have hh : ∀ a, 0 ≤ (colScatterDims N R wf).start j idx a + ((colScatterDims N R wf).window j a : Int)
        ∧ (colScatterDims N R wf).start j idx a + ((colScatterDims N R wf).window j a : Int) < (⟨1, ![N]⟩ : Shape).size a := by
      intro a
      obtain rfl : a = 0 := Subsingleton.elim _ _
      rw [hs, hw, h, hN]
      omega
    rw [dif_pos hh]
    refine congrArg some ?_
    funext a
    obtain rfl : a = 0 := Subsingleton.elim _ _
    refine Fin.ext ?_
    show ((colScatterDims N R wf).start j idx 0 + ((colScatterDims N R wf).window j 0 : Int)).toNat = e.val
    rw [hs, hw, h]
    omega

/-! ## Counting over a list of all positions is counting over the finite type -/

theorem length_filter_finRange {n : Nat} (p : Fin n → Prop) [DecidablePred p] :
    ((List.finRange n).filter fun k => decide (p k)).length = (Finset.univ.filter p).card := by
  rw [Fin.univ_def]
  simp [Finset.filter, Finset.card]

/-! ## A left fold that adds words holding naturals -/

theorem foldl_add_ofNat {ι : Type} (g : BitVec 32 → ι → BitVec 32) (t : ι → ℕ)
    (hg : ∀ r n, g r n = r + BitVec.ofNat 32 (t n)) (l : List ι) (a : ℕ) :
    l.foldl g (BitVec.ofNat 32 a) = BitVec.ofNat 32 (a + (l.map t).sum) := by
  induction l generalizing a with
  | nil => simp
  | cons b l ih =>
    rw [List.foldl_cons, hg, ← BitVec.ofNat_add, ih, List.map_cons, List.sum_cons, Nat.add_assoc]

/-! ## A windowed sum over all positions up to each one is the running total -/

/-- A rank-1 index is its coordinate. -/
def idxEquiv1 (n : Nat) : (⟨1, ![n]⟩ : Shape).Idx ≃ Fin n where
  toFun i := i 0
  invFun k := ix1 k
  left_inv i := (eq_ix1 i).symm
  right_inv _ := rfl

theorem sum_window_range (n j0 : ℕ) (hj : j0 < n) (c : ℕ → ℕ) :
    ∑ w ∈ Finset.range n, (if n - 1 ≤ j0 + w then c (j0 + w - (n - 1)) else 0) = ∑ e' ∈ Finset.range (j0 + 1), c e' := by
  rw [← Finset.sum_filter]
  refine Finset.sum_nbij' (fun w => j0 + w - (n - 1)) (fun e' => e' + (n - 1) - j0) ?_ ?_ ?_ ?_ ?_
  · intro w hw; simp only [Finset.mem_filter, Finset.mem_range] at hw ⊢; omega
  · intro e' he; simp only [Finset.mem_filter, Finset.mem_range] at he ⊢; omega
  · intro w hw; simp only [Finset.mem_filter, Finset.mem_range] at hw; omega
  · intro e' he; simp only [Finset.mem_range] at he; omega
  · intro w hw; rfl

set_option maxHeartbeats 400000 in
theorem cumsum_apply {n : Nat} (hn : 0 < n) {u : Shape}
    (h : (⟨1, ![n]⟩ : Shape).ReduceWindows ![n] ![1] ![n - 1] ![0] ⟨1, ![n]⟩) (hu : 0 < u.numel)
    (x : (⟨1, ![n]⟩ : Shape).Idx → BitVec 32) (init : u.Idx → BitVec 32) (hinit : ∀ i, init i = 0#32)
    (c : ℕ → ℕ) (hx : ∀ e : Fin n, x (ix1 e) = BitVec.ofNat 32 (c e.val)) (j : (⟨1, ![n]⟩ : Shape).Idx) :
    Host.reduceWindow IntOp.addi ![n] ![1] ![n - 1] ![0] x init h hu j
      = BitVec.ofNat 32 (∑ e' ∈ Finset.range ((j 0).val + 1), c e') := by
  unfold Host.reduceWindow
  rw [hinit]
  have hj : (j 0).val < n := (j 0).isLt
  let F : ℕ → ℕ := fun w => if n - 1 ≤ (j 0).val + w then c ((j 0).val + w - (n - 1)) else 0
  refine (foldl_add_ofNat _ (fun nn => F (((⟨1, ![n]⟩ : Shape).rowMajor.symm nn) 0).val) ?_ _ 0).trans ?_
  · intro r nn
    dsimp only
    have hwlt : (((⟨1, ![n]⟩ : Shape).rowMajor.symm nn) 0).val < n := (((⟨1, ![n]⟩ : Shape).rowMajor.symm nn) 0).isLt
    split
    · rename_i hin
      have h0 : n - 1 ≤ (j 0).val * 1 + (((⟨1, ![n]⟩ : Shape).rowMajor.symm nn) 0).val
          ∧ (j 0).val * 1 + (((⟨1, ![n]⟩ : Shape).rowMajor.symm nn) 0).val - (n - 1) < n := hin 0
      have hc : n - 1 ≤ (j 0).val + (((⟨1, ![n]⟩ : Shape).rowMajor.symm nn) 0).val := by omega
      show r + x _ = r + BitVec.ofNat 32 (F _)
      have hF : F (((⟨1, ![n]⟩ : Shape).rowMajor.symm nn) 0).val
          = c ((j 0).val + (((⟨1, ![n]⟩ : Shape).rowMajor.symm nn) 0).val - (n - 1)) := if_pos hc
      rw [hF, ← hx ⟨(j 0).val + (((⟨1, ![n]⟩ : Shape).rowMajor.symm nn) 0).val - (n - 1), by omega⟩]
      refine congrArg (fun i => r + x i) ?_
      funext a
      obtain rfl : a = 0 := Subsingleton.elim _ _
      refine Fin.ext ?_
      show (j 0).val * 1 + (((⟨1, ![n]⟩ : Shape).rowMajor.symm nn) 0).val - (n - 1)
        = (j 0).val + (((⟨1, ![n]⟩ : Shape).rowMajor.symm nn) 0).val - (n - 1)
      omega
    · rename_i hin
      have hc : ¬ n - 1 ≤ (j 0).val + (((⟨1, ![n]⟩ : Shape).rowMajor.symm nn) 0).val := by
        intro hc
        apply hin
        intro a
        obtain rfl : a = 0 := Subsingleton.elim _ _
        show n - 1 ≤ (j 0).val * 1 + (((⟨1, ![n]⟩ : Shape).rowMajor.symm nn) 0).val
          ∧ (j 0).val * 1 + (((⟨1, ![n]⟩ : Shape).rowMajor.symm nn) 0).val - (n - 1) < n
        omega
      show r + 0#32 = r + BitVec.ofNat 32 (F _)
      have hF : F (((⟨1, ![n]⟩ : Shape).rowMajor.symm nn) 0).val = 0 := if_neg hc
      rw [hF]
  · rw [Nat.zero_add, ← Fin.sum_univ_def]
    refine congrArg (BitVec.ofNat 32) ?_
    rw [← sum_window_range n (j 0).val hj c, ← Fin.sum_univ_eq_sum_range]
    exact Equiv.sum_comp (((⟨1, ![n]⟩ : Shape).rowMajor.symm).trans (idxEquiv1 n)) (fun w : Fin n => F w.val)

/-! ## A column of a flat array, words that need no wrapping, and small naturals as words -/

theorem bcast_col_apply {α : Type} {R : Nat} (hR : R ≠ 1)
    (h : (⟨1, ![R]⟩ : Shape).BroadcastsInDim ⟨2, ![R, 1]⟩ (![0] : Fin 1 → Fin 2))
    (x : (⟨1, ![R]⟩ : Shape).Idx → α) (jj : (⟨2, ![R, 1]⟩ : Shape).Idx) :
    broadcastInDim ⟨2, ![R, 1]⟩ ![0] h x jj = x (ix1 (jj 0)) := by
  unfold broadcastInDim
  refine congrArg x ?_
  funext a
  obtain rfl : a = 0 := Subsingleton.elim _ _
  rw [dif_neg (show ¬ (⟨1, ![R]⟩ : Shape).size 0 = 1 from hR)]
  rfl

/-- A word that is not negative is left alone by "add the axis length if negative". -/
theorem select_wrap_of_nonneg (x c : BitVec 32) (hx : 0 ≤ x.toInt) :
    Scalar.select (IntOp.cmpi .slt x 0#32) (IntOp.addi x c) x = x := by
  unfold Scalar.select
  rw [if_neg]
  intro h
  have := IntOp.cmpi_slt.mp h
  simp only [BitVec.toInt_zero] at this
  omega

theorem toInt_ofNat_of_lt (s : ℕ) (h : s < 2 ^ 31) : (BitVec.ofNat 32 s).toInt = (s : Int) := by
  rw [BitVec.toInt_eq_toNat_cond, BitVec.toNat_ofNat]
  omega

theorem toNat_ofNat_of_lt (s : ℕ) (h : s < 2 ^ 32) : (BitVec.ofNat 32 s).toNat = s := by
  rw [BitVec.toNat_ofNat]
  omega

theorem toNat_of_toInt_nonneg (x : BitVec 32) (hx : 0 ≤ x.toInt) : (x.toNat : Int) = x.toInt := by
  rw [BitVec.toInt_eq_toNat_cond] at hx ⊢
  have := x.isLt
  split at hx <;> split <;> omega

theorem eq_ofNat_toNat (x : BitVec 32) : x = BitVec.ofNat 32 x.toNat := by
  apply BitVec.eq_of_toNat_eq
  rw [BitVec.toNat_ofNat]
  have := x.isLt
  omega

theorem ofNat_sub_ofNat (a b : ℕ) (hab : b ≤ a) : BitVec.ofNat 32 a - BitVec.ofNat 32 b = BitVec.ofNat 32 (a - b) := by
  have h : BitVec.ofNat 32 a = BitVec.ofNat 32 (a - b) + BitVec.ofNat 32 b := by
    rw [← BitVec.ofNat_add]; congr 1; omega
  rw [h, BitVec.add_sub_cancel]

end Cert.ReferenceIdeal.Dispatch
-- ==== Proof.V.LibSortedGroups.lean ====
/-
  Sorted groups: positions of a nondecreasing rearrangement.

  Let `key : Fin n → α` be keys in a linear order and `σ` a bijection of the positions such that
  `key ∘ σ` is nondecreasing (`σ i` is the source of sorted position `i`). Then the sorted
  positions holding a key `< key (σ i)` all lie strictly before `i`, and every position up to and
  including `i` holds a key `≤ key (σ i)`. Counting through the bijection:

    #{k | key k < key (σ i)}  ≤  i  <  #{k | key k ≤ key (σ i)},

  that is, with `starts e = #{k | key k < e}` and `counts e = #{k | key k = e}`, a sorted position
  `i` holding `e` satisfies `starts e ≤ i < starts e + counts e`: its slot `i - starts e` within
  the group of `e` lies below the group's size.
-/
import Mathlib.Data.Fintype.Card
import Mathlib.Data.Fintype.Fin
import Mathlib.Order.Interval.Finset.Fin
import Mathlib.Data.Finset.Card
import Mathlib.Algebra.BigOperators.Group.Finset.Basic

namespace SortedGroups

open Finset

variable {n : ℕ} {α : Type} [LinearOrder α]

/-- Counting a predicate through a bijection: over all positions, or over the sorted positions. -/
theorem card_filter_comp_bijective {ι κ : Type} [Fintype ι] [Fintype κ] (σ : ι → κ) (hσ : Function.Bijective σ)
    (p : κ → Prop) [DecidablePred p] :
    (univ.filter fun j => p (σ j)).card = (univ.filter fun k => p k).card := by
  refine Finset.card_bij (fun j _ => σ j) ?_ ?_ ?_
  · intro j hj
    simpa using hj
  · intro a _ b _ h
    exact hσ.1 h
  · intro k hk
    obtain ⟨j, rfl⟩ := hσ.2 k
    exact ⟨j, by simpa using hk, rfl⟩

/-- No inversion (no later sorted position holds a strictly smaller key) is monotonicity. -/
theorem monotone_of_noInversion (key : Fin n → α) (σ : Fin n → Fin n)
    (h : ∀ i j : Fin n, i < j → ¬ key (σ j) < key (σ i)) : Monotone (key ∘ σ) := by
  intro i j hij
  rcases lt_or_eq_of_le hij with hlt | rfl
  · exact not_lt.mp (h i j hlt)
  · exact le_refl _

/-- The keys strictly below the key at sorted position `i` number at most `i`. -/
theorem card_lt_le (key : Fin n → α) (σ : Fin n → Fin n) (hσ : Function.Bijective σ)
    (hmono : Monotone (key ∘ σ)) (i : Fin n) :
    (univ.filter fun k => key k < key (σ i)).card ≤ i.val := by
  rw [← card_filter_comp_bijective σ hσ (fun k => key k < key (σ i))]
  have hsub : (univ.filter fun j => key (σ j) < key (σ i)) ⊆ Finset.Iio i := by
    intro j hj
    rw [Finset.mem_filter] at hj
    rw [Finset.mem_Iio]
    by_contra hji
    exact absurd hj.2 (not_lt.mpr (hmono (not_lt.mp hji)))
  calc (univ.filter fun j => key (σ j) < key (σ i)).card ≤ (Finset.Iio i).card := Finset.card_le_card hsub
    _ = i.val := Fin.card_Iio i

/-- The keys at or below the key at sorted position `i` number more than `i`. -/
theorem lt_card_le (key : Fin n → α) (σ : Fin n → Fin n) (hσ : Function.Bijective σ)
    (hmono : Monotone (key ∘ σ)) (i : Fin n) :
    i.val < (univ.filter fun k => key k ≤ key (σ i)).card := by
  rw [← card_filter_comp_bijective σ hσ (fun k => key k ≤ key (σ i))]
  have hsub : Finset.Iic i ⊆ (univ.filter fun j => key (σ j) ≤ key (σ i)) := by
    intro j hj
    rw [Finset.mem_Iic] at hj
    rw [Finset.mem_filter]
    exact ⟨Finset.mem_univ _, hmono hj⟩
  calc i.val < i.val + 1 := Nat.lt_succ_self _
    _ = (Finset.Iic i).card := (Fin.card_Iic i).symm
    _ ≤ _ := Finset.card_le_card hsub

/-- The keys at or below `e` are those strictly below it together with those equal to it. -/
theorem card_le_eq_card_lt_add_card_eq (key : Fin n → α) (e : α) :
    (univ.filter fun k => key k ≤ e).card
      = (univ.filter fun k => key k < e).card + (univ.filter fun k => key k = e).card := by
  rw [← Finset.card_union_of_disjoint]
  · congr 1
    ext k
    simp only [Finset.mem_filter, Finset.mem_univ, true_and, Finset.mem_union]
    exact le_iff_lt_or_eq
  · rw [Finset.disjoint_filter]
    intro k _ hlt heq
    exact absurd heq (ne_of_lt hlt)

/-- The groups of the keys `0, …, m - 1` together hold the keys below `m`. -/
theorem sum_range_card_eq (key : Fin n → ℕ) (m : ℕ) :
    ∑ e ∈ Finset.range m, (univ.filter fun k => key k = e).card = (univ.filter fun k => key k < m).card := by
  rw [Finset.card_eq_sum_card_fiberwise (f := key) (s := univ.filter fun k => key k < m) (t := Finset.range m)
    (fun k hk => by simpa using hk)]
  refine Finset.sum_congr rfl fun b hb => ?_
  rw [Finset.filter_filter]
  congr 1
  ext k
  simp only [Finset.mem_filter, Finset.mem_univ, true_and, Finset.mem_range] at hb ⊢
  constructor
  · intro h; exact ⟨by omega, h⟩
  · intro h; exact h.2

/-- **Slot below count.** With `starts e = #{k | key k < e}` and `counts e = #{k | key k = e}`, the
    sorted position `i`, holding `e = key (σ i)`, satisfies `starts e ≤ i < starts e + counts e`. -/
theorem starts_le_and_lt_starts_add_counts (key : Fin n → α) (σ : Fin n → Fin n) (hσ : Function.Bijective σ)
    (hmono : Monotone (key ∘ σ)) (i : Fin n) :
    (univ.filter fun k => key k < key (σ i)).card ≤ i.val ∧
      i.val < (univ.filter fun k => key k < key (σ i)).card + (univ.filter fun k => key k = key (σ i)).card := by
  refine ⟨card_lt_le key σ hσ hmono i, ?_⟩
  rw [← card_le_eq_card_lt_add_card_eq]
  exact lt_card_le key σ hσ hmono i

end SortedGroups
-- ==== Proof.V.DispatchCore.lean ====
/-
  The dispatch's combinatorics. With `flat` the routed expert ids (each in `[0, 64)`), the stable sort reads them
  through a bijection `σ` of the positions along which they are nondecreasing; the scatter of ones counts, for each
  expert `e`, the positions holding `e`; the running totals less the counts are the numbers of positions holding an
  expert below `e` (the starts); and the slot of sorted position `i` is `i` less the start of its expert. By the
  counting lemma for sorted groups the slot is nonnegative and below the count of that expert. No word wraps: all
  numbers are at most 8192.
-/
import proofs.«126691_j58317065945110_2_alg».proof.Proof.V.DispatchStages
import proofs.«126691_j58317065945110_2_alg».proof.Proof.V.DispatchOps
import proofs.«126691_j58317065945110_2_alg».proof.Proof.V.LibSortedGroups
import Idealize.ShloMosaic.Lib.Pipeline.Value

noncomputable section

namespace Cert.ReferenceIdeal.Dispatch

open Cert.ReferenceIdeal Cert.ReferenceIdeal.Gen Idealize.ShloMosaic Idealize.ShloMosaic.ValueIdx

/-- The routed expert ids: one word per (token, route). -/
abbrev IdsTy : Type := (⟨S1024x8, .i32⟩ : BufTy).Contents (Elt Ideal)

/-- The flat id at position `k`, as a natural number. -/
def flatN (ids : IdsTy) (k : Fin 8192) : ℕ := (st_v0 ids (ix1 k)).toNat

section
variable (ids : IdsTy) (hr : ∀ j, 0 ≤ (ids j).toInt ∧ (ids j).toInt < 64)
include hr

theorem v0_range (i : S8192.Idx) : 0 ≤ (st_v0 ids i).toInt ∧ (st_v0 ids i).toInt < 64 := hr _

theorem v0_toInt (k : Fin 8192) : (st_v0 ids (ix1 k)).toInt = (flatN ids k : Int) :=
  (toNat_of_toInt_nonneg _ (v0_range ids hr _).1).symm

theorem flatN_lt (k : Fin 8192) : flatN ids k < 64 := by
  have h1 := v0_range ids hr (ix1 k)
  have h2 := v0_toInt ids hr k
  omega

end

/-! ## The sort -/

/-- The order the sort compares two positions by: signed "less than" on the flat ids. -/
def before (ids : IdsTy) (k k' : Fin 8192) : Bool :=
  comparator_i32_i32_d0 (st_v0 ids (ix1 k), st_call0_v0 (ix1 k)) (st_v0 ids (ix1 k'), st_call0_v0 (ix1 k')) == 1#1

theorem before_eq (ids : IdsTy) (k k' : Fin 8192) :
    before ids k k' = decide ((st_v0 ids (ix1 k)).toInt < (st_v0 ids (ix1 k')).toInt) := by
  show (IntOp.cmpi .slt (st_v0 ids (ix1 k)) (st_v0 ids (ix1 k')) == 1#1) = decide _
  rw [Bool.eq_iff_iff, beq_iff_eq, decide_eq_true_eq]
  exact IntOp.cmpi_slt

set_option maxHeartbeats 400000 in
/-- **The sorted ids are the flat ids read through a bijection along which they are nondecreasing.** -/
theorem exists_perm (ids : IdsTy) (hr : ∀ j, 0 ≤ (ids j).toInt ∧ (ids j).toInt < 64) :
    ∃ σ : Fin 8192 → Fin 8192, Function.Bijective σ ∧ Monotone (flatN ids ∘ σ) ∧
      ∀ j : S8192.Idx, st_v1 ids j = BitVec.ofNat 32 (σ (j 0)).val := by
  have hinj := sortedFrom_injective (before ids)
  have hsur := sortedFrom_surjective (before ids)
  have hno : ∀ i j : Fin 8192, i < j → before ids (sortedFrom (before ids) j) (sortedFrom (before ids) i) = false := by
    intro i j hij
    refine sortedFrom_noInversion (before ids) (before ids) ?_ (fun _ _ h => h) ?_ i j hij
    · intro a b hab
      rw [before_eq] at hab ⊢
      simp only [decide_eq_true_eq, decide_eq_false_iff_not] at hab ⊢
      omega
    · intro a b c h1 h2
      rw [before_eq] at h1 h2 ⊢
      simp only [decide_eq_false_iff_not] at h1 h2 ⊢
      omega
  have hread : ∀ j : S8192.Idx, st_v1 ids j = BitVec.ofNat 32 (sortedFrom (before ids) (j 0)).val := by
    intro j
    unfold st_v1
    rw [sort2_rank1_snd]
    rfl
  generalize sortedFrom (before ids) = σ at hinj hsur hno hread
  refine ⟨σ, ⟨hinj, hsur⟩, ?_, hread⟩
  apply SortedGroups.monotone_of_noInversion
  intro i j hij hlt
  have h := hno i j hij
  rw [before_eq, decide_eq_false_iff_not, v0_toInt ids hr, v0_toInt ids hr] at h
  exact h (by exact_mod_cast hlt)

/-! ## The sorted ids -/

section
variable (ids : IdsTy) (hr : ∀ j, 0 ≤ (ids j).toInt ∧ (ids j).toInt < 64)
  (σ : Fin 8192 → Fin 8192) (hσ : ∀ j : S8192.Idx, st_v1 ids j = BitVec.ofNat 32 (σ (j 0)).val)
include hσ

set_option maxHeartbeats 400000 in
theorem v6_eq (j : S8192.Idx) : st_v6 ids j = BitVec.ofNat 32 (σ (j 0)).val := by
  have hlt := (σ (j 0)).isLt
  show Scalar.select (IntOp.cmpi .slt (st_v1 ids j) 0#32) (IntOp.addi (st_v1 ids j) (st_v4 j)) (st_v1 ids j) = _
  rw [select_wrap_of_nonneg _ _ (by rw [hσ, toInt_ofNat_of_lt _ (by omega)]; omega), hσ]

set_option maxHeartbeats 400000 in
/-- The sorted id at position `j` is the flat id at `σ j`. -/
theorem v8_eq (j : S8192.Idx) : st_v8 ids j = st_v0 ids (ix1 (σ (j 0))) := by
  have hlt := (σ (j 0)).isLt
  unfold st_v8
  have hd : gather_S8192_S8192x1_S8192_n_0_n_n_0_1_1
      = colDims 8192 8192 gather_S8192_S8192x1_S8192_n_0_n_n_0_1_1_wf := rfl
  rw [hd, gather_col_apply (by decide)]
  have h7 : st_v7 ids (ix2 (j 0) (0 : Fin 1)) = BitVec.ofNat 32 (σ (j 0)).val := by
    unfold st_v7
    rw [bcast_col_apply (by decide)]
    exact v6_eq ids σ hσ (ix1 (j 0))
  refine congrArg (st_v0 ids) (congrArg ix1 (Fin.ext ?_))
  show min (st_v7 ids (ix2 (j 0) (0 : Fin 1))).toInt.toNat (8192 - 1) = (σ (j 0)).val
  rw [h7, toInt_ofNat_of_lt _ (by omega)]
  omega

end

/-! ## The counts and the starts -/

section
variable (ids : IdsTy) (hr : ∀ j, 0 ≤ (ids j).toInt ∧ (ids j).toInt < 64)
include hr

set_option maxHeartbeats 400000 in
theorem v14_eq (i : S8192.Idx) : st_v14 ids i = st_v0 ids i := by
  show Scalar.select (IntOp.cmpi .slt (st_v0 ids i) 0#32) (IntOp.addi (st_v0 ids i) (st_v12 i)) (st_v0 ids i) = _
  exact select_wrap_of_nonneg _ _ (v0_range ids hr i).1

set_option maxHeartbeats 400000 in
/-- **The count of expert `e` is the number of positions holding `e`.** -/
theorem v17_eq (e : Fin 64) :
    st_v17 ids (ix1 e) = BitVec.ofNat 32 (Finset.univ.filter fun k : Fin 8192 => flatN ids k = e.val).card := by
  unfold st_v17
  have hd : scatter_S64_S8192x1_S8192_n_0_0_1 = colScatterDims 64 8192 scatter_S64_S8192x1_S8192_n_0_0_1_wf := rfl
  rw [hd, scatter_add_ones_apply (colScatterDims 64 8192 scatter_S64_S8192x1_S8192_n_0_0_1_wf) st_v9 (st_v15 ids) st_v16
    (fun _ => rfl) (ix1 e)]
  have h0 : st_v9 (ix1 e) = 0#32 := rfl
  rw [h0, BitVec.zero_add]
  refine congrArg (BitVec.ofNat 32) ?_
  have haux : ∀ kk : Fin 8192,
      ((colScatterDims 64 8192 scatter_S64_S8192x1_S8192_n_0_0_1_wf).resultIdx? (ix1 kk) (st_v15 ids)
        = some (ix1 e)) ↔ flatN ids kk = e.val := by
    intro kk
    rw [colScatter_resultIdx?_eq_some]
    have h15 : st_v15 ids (ix2 kk (0 : Fin 1)) = st_v0 ids (ix1 kk) := by
      unfold st_v15
      rw [bcast_col_apply (by decide)]
      exact v14_eq ids hr _
    show (st_v15 ids (ix2 kk (0 : Fin 1))).toInt = _ ↔ _
    rw [h15, v0_toInt ids hr]
    exact Int.ofNat_inj
  have hiff : ∀ nn : Fin S8192.numel,
      ((colScatterDims 64 8192 scatter_S64_S8192x1_S8192_n_0_0_1_wf).resultIdx? (S8192.rowMajor.symm nn) (st_v15 ids)
        = some (ix1 e)) ↔ flatN ids ((idxEquiv1 8192) (S8192.rowMajor.symm nn)) = e.val := by
    intro nn
    generalize S8192.rowMajor.symm nn = j
    obtain ⟨kk, rfl⟩ : ∃ kk, j = ix1 kk := ⟨_, eq_ix1 j⟩
    exact haux kk
  rw [length_filter_finRange, Finset.filter_congr (fun nn _ => hiff nn)]
  exact @SortedGroups.card_filter_comp_bijective _ _ _ _
    (fun nn : Fin S8192.numel => (idxEquiv1 8192) (S8192.rowMajor.symm nn))
    ((S8192.rowMajor.symm.trans (idxEquiv1 8192)).bijective) (fun k => flatN ids k = e.val) (fun k => inferInstance)

set_option maxHeartbeats 400000 in
/-- The running total at `e` is the number of positions holding an expert at or below `e`. -/
theorem v18_eq (e : Fin 64) :
    st_v18 ids (ix1 e) = BitVec.ofNat 32 (Finset.univ.filter fun k : Fin 8192 => flatN ids k < e.val + 1).card := by
  unfold st_v18
  refine (cumsum_apply (n := 64) (by decide) reduceWindows_S64_S64_w64s1p63_0 h_S_ (st_v17 ids) st_call1_call0_v0
    (fun _ => rfl) (fun e' => (Finset.univ.filter fun k : Fin 8192 => flatN ids k = e').card)
    (fun e' => v17_eq ids hr e') (ix1 e)).trans ?_
  exact congrArg (BitVec.ofNat 32) (SortedGroups.sum_range_card_eq (flatN ids) (e.val + 1))

set_option maxHeartbeats 400000 in
/-- **The start of expert `e` is the number of positions holding an expert below `e`.** -/
theorem v19_eq (e : Fin 64) :
    st_v19 ids (ix1 e) = BitVec.ofNat 32 (Finset.univ.filter fun k : Fin 8192 => flatN ids k < e.val).card := by
  show IntOp.subi (st_v18 ids (ix1 e)) (st_v17 ids (ix1 e)) = _
  rw [v18_eq ids hr, v17_eq ids hr]
  have h1 : (Finset.univ.filter fun k : Fin 8192 => flatN ids k < e.val + 1)
      = Finset.univ.filter fun k : Fin 8192 => flatN ids k ≤ e.val := by
    ext k; simp [Nat.lt_succ_iff]
  rw [h1, SortedGroups.card_le_eq_card_lt_add_card_eq (flatN ids) e.val]
  show BitVec.ofNat 32 _ - BitVec.ofNat 32 _ = _
  rw [ofNat_sub_ofNat _ _ (Nat.le_add_left _ _), Nat.add_sub_cancel]

end

/-! ## The mask: the slot is at most 511 -/

set_option maxHeartbeats 400000 in
theorem v70_snd (ids : IdsTy) (k : Fin 8192) : st_v70 ids (ix2 k (1 : Fin 2)) = st_v67 ids (ix1 k) := by
  unfold st_v70
  rw [concatenate_pair_apply_right (t := S8192x2) (s₁ := S8192x1) (s₂ := S8192x1) (1 : Fin 2) _ _
    concatenates_S8192x1_S8192x1_S8192x2_d1 (ix2 k (1 : Fin 2)) rfl rfl (ix2 k (0 : Fin 1))
    (fun b hb => by
      match b with
      | ⟨0, _⟩ => rfl
      | ⟨1, _⟩ => exact absurd rfl hb)
    rfl]
  unfold st_v69
  rw [bcast_col_apply (by decide)]

set_option maxHeartbeats 400000 in
theorem v74_snd (k : Fin 8192) : st_v74 (ix2 k (1 : Fin 2)) = 511#32 := by
  have h : ∀ x : Fin 2, x.val = 1 → lit0 x = 511#32 := by
    intro x hx
    obtain rfl : x = 1 := Fin.ext hx
    rfl
  unfold st_v74 st_v73 st_c_18 broadcastInDim
  apply h
  rw [Shape.rowMajor_val_one]
  rfl

set_option maxHeartbeats 400000 in
/-- Where the mask is set the slot coordinate is at most 511. -/
theorem mask_slot_le (ids : IdsTy) (k : Fin 8192) (hM : st_v77 ids (ix1 k) = 1#1) : (st_v67 ids (ix1 k)).toInt ≤ 511 := by
  have h76 : st_v76 ids (ix2 k (1 : Fin 2)) = 1#1 :=
    Host.reduce_andi_eq_one (st_v76 ids) st_c_20 reducesTo_S8192x2_S8192_d1 h_S_ (ix1 k) hM (ix2 k (1 : Fin 2)) (by
      funext b
      obtain rfl : b = 0 := Subsingleton.elim _ _
      rfl)
  have h75 : st_v75 ids (ix2 k (1 : Fin 2)) = 1#1 := (IntOp.andi_eq_one.mp h76).2
  have hle : (st_v70 ids (ix2 k (1 : Fin 2))).toInt ≤ (st_v74 (ix2 k (1 : Fin 2))).toInt := IntOp.cmpi_sle.mp h75
  rw [v70_snd, v74_snd] at hle
  exact hle

/-! ## The slot lies below the count -/

section
variable (ids : IdsTy) (hr : ∀ j, 0 ≤ (ids j).toInt ∧ (ids j).toInt < 64)
include hr

set_option maxHeartbeats 400000 in
/-- The gather's expert coordinate at `k` is the sorted id there, a flat id. -/
theorem v62_eq (σ : Fin 8192 → Fin 8192) (hσ : ∀ j : S8192.Idx, st_v1 ids j = BitVec.ofNat 32 (σ (j 0)).val) (k : Fin 8192) :
    st_v62 ids (ix1 k) = st_v0 ids (ix1 (σ k)) := by
  have h8 : st_v8 ids (ix1 k) = st_v0 ids (ix1 (σ k)) := v8_eq ids σ hσ (ix1 k)
  show Scalar.select (IntOp.cmpi .slt (st_v8 ids (ix1 k)) 0#32) (IntOp.addi (st_v8 ids (ix1 k)) (st_v60 (ix1 k)))
    (st_v8 ids (ix1 k)) = _
  rw [select_wrap_of_nonneg _ _ (by rw [h8]; exact (v0_range ids hr _).1), h8]

theorem v62_range (i : S8192.Idx) : 0 ≤ (st_v62 ids i).toInt ∧ (st_v62 ids i).toInt < 64 := by
  obtain ⟨k, rfl⟩ : ∃ k, i = ix1 k := ⟨i 0, eq_ix1 i⟩
  obtain ⟨σ, _, _, hσ⟩ := exists_perm ids hr
  rw [v62_eq ids hr σ hσ k]
  exact v0_range ids hr _

theorem v62_toNat_lt (i : S8192.Idx) : (st_v62 ids i).toNat < 64 := by
  have h := v62_range ids hr i
  have := toNat_of_toInt_nonneg _ h.1
  omega

set_option maxHeartbeats 400000 in
/-- The start gathered at sorted position `k` is the start of the expert held there. -/
theorem v27_eq (σ : Fin 8192 → Fin 8192) (hσ : ∀ j : S8192.Idx, st_v1 ids j = BitVec.ofNat 32 (σ (j 0)).val) (k : Fin 8192) :
    st_v27 ids (ix1 k) = st_v19 ids (ix1 ⟨flatN ids (σ k), flatN_lt ids hr (σ k)⟩) := by
  have h8 : st_v8 ids (ix1 k) = st_v0 ids (ix1 (σ k)) := v8_eq ids σ hσ (ix1 k)
  have he64 : flatN ids (σ k) < 64 := flatN_lt ids hr _
  unfold st_v27
  have hd : gather_S64_S8192x1_S8192_n_0_n_n_0_1_1
      = colDims 64 8192 gather_S64_S8192x1_S8192_n_0_n_n_0_1_1_wf := rfl
  rw [hd, gather_col_apply (by decide)]
  have h26 : st_v26 ids (ix2 k (0 : Fin 1)) = st_v0 ids (ix1 (σ k)) := by
    unfold st_v26
    rw [bcast_col_apply (by decide)]
    show Scalar.select (IntOp.cmpi .slt (st_v8 ids (ix1 k)) 0#32) (IntOp.addi (st_v8 ids (ix1 k)) (st_v23 (ix1 k)))
      (st_v8 ids (ix1 k)) = _
    rw [select_wrap_of_nonneg _ _ (by rw [h8]; exact (v0_range ids hr _).1), h8]
  have hidx : (⟨min (st_v26 ids (ix2 ((ix1 k : S8192.Idx) 0) (0 : Fin 1))).toInt.toNat (64 - 1), by omega⟩ : Fin 64)
      = ⟨flatN ids (σ k), he64⟩ := by
    refine Fin.ext ?_
    show min (st_v26 ids (ix2 k (0 : Fin 1))).toInt.toNat (64 - 1) = flatN ids (σ k)
    rw [h26, v0_toInt ids hr]
    omega
  rw [hidx]

/-- **The slot of sorted position `k` is `k` less the start of the expert held there.** -/
theorem v28_eq (σ : Fin 8192 → Fin 8192) (hσ : ∀ j : S8192.Idx, st_v1 ids j = BitVec.ofNat 32 (σ (j 0)).val) (k : Fin 8192) :
    st_v28 ids (ix1 k)
      = BitVec.ofNat 32 k.val - st_v19 ids (ix1 ⟨flatN ids (σ k), flatN_lt ids hr (σ k)⟩) := by
  show IntOp.subi (st_v20 (ix1 k)) (st_v27 ids (ix1 k)) = _
  rw [v27_eq ids hr σ hσ k]
  rfl

set_option maxHeartbeats 400000 in
/-- **Where the mask is set: the expert coordinate is an expert, the slot coordinate is a slot, and the slot lies
    below the count of that expert.** -/
theorem core (i : S8192.Idx) (hM : st_v77 ids i = 1#1) :
    0 ≤ (st_v62 ids i).toInt ∧ (st_v62 ids i).toInt < 64 ∧ 0 ≤ (st_v67 ids i).toInt ∧ (st_v67 ids i).toInt < 512
      ∧ (st_v67 ids i).toInt < (st_v17 ids (ix1 ⟨(st_v62 ids i).toNat, v62_toNat_lt ids hr i⟩)).toInt := by
  obtain ⟨k, rfl⟩ : ∃ k, i = ix1 k := ⟨i 0, eq_ix1 i⟩
  obtain ⟨σ, hbij, hmono, hσ⟩ := exists_perm ids hr
  have hklt := k.isLt
  have he64 : flatN ids (σ k) < 64 := flatN_lt ids hr _
  have h62 := v62_eq ids hr σ hσ k
  have h8 : st_v8 ids (ix1 k) = st_v0 ids (ix1 (σ k)) := v8_eq ids σ hσ (ix1 k)
  -- the group of the expert at sorted position k
  have hgrp := SortedGroups.starts_le_and_lt_starts_add_counts (flatN ids) σ hbij hmono k
  have hcnt : (Finset.univ.filter fun k' : Fin 8192 => flatN ids k' = flatN ids (σ k)).card ≤ 8192 :=
    (Finset.card_le_univ _).trans (by simp)
  generalize hst : (Finset.univ.filter fun k' : Fin 8192 => flatN ids k' < flatN ids (σ k)).card = st at hgrp
  generalize hct : (Finset.univ.filter fun k' : Fin 8192 => flatN ids k' = flatN ids (σ k)).card = cnt at hgrp hcnt
  -- the start gathered at k
  have h27 : st_v27 ids (ix1 k) = BitVec.ofNat 32 st := by
    rw [v27_eq ids hr σ hσ k, v19_eq ids hr ⟨flatN ids (σ k), flatN_lt ids hr (σ k)⟩, hst]
  -- the slot
  have h28 : st_v28 ids (ix1 k) = BitVec.ofNat 32 (k.val - st) := by
    show IntOp.subi (st_v20 (ix1 k)) (st_v27 ids (ix1 k)) = _
    rw [h27]
    exact ofNat_sub_ofNat _ _ hgrp.1
  have h28i : (st_v28 ids (ix1 k)).toInt = ((k.val - st : ℕ) : Int) := by
    rw [h28]; exact toInt_ofNat_of_lt _ (by omega)
  have h67 : st_v67 ids (ix1 k) = st_v28 ids (ix1 k) := by
    show Scalar.select (IntOp.cmpi .slt (st_v28 ids (ix1 k)) 0#32) (IntOp.addi (st_v28 ids (ix1 k)) (st_v65 (ix1 k)))
      (st_v28 ids (ix1 k)) = _
    exact select_wrap_of_nonneg _ _ (by rw [h28i]; omega)
  -- the count of that expert
  have h62n : (st_v62 ids (ix1 k)).toNat = flatN ids (σ k) := by rw [h62]; rfl
  have h17 : st_v17 ids (ix1 ⟨(st_v62 ids (ix1 k)).toNat, v62_toNat_lt ids hr (ix1 k)⟩) = BitVec.ofNat 32 cnt := by
    have hfin : (⟨(st_v62 ids (ix1 k)).toNat, v62_toNat_lt ids hr (ix1 k)⟩ : Fin 64) = ⟨flatN ids (σ k), he64⟩ :=
      Fin.ext h62n
    rw [hfin, v17_eq ids hr ⟨flatN ids (σ k), he64⟩, hct]
  have hmask := mask_slot_le ids k hM
  have hE := v62_range ids hr (ix1 k)
  refine ⟨hE.1, hE.2, ?_, ?_, ?_⟩
  · rw [h67, h28i]; omega
  · omega
  · rw [h17, toInt_ofNat_of_lt _ (by omega), h67, h28i]
    omega

end

end Cert.ReferenceIdeal.Dispatch

end
-- ==== Proof.V.MaskCore.lean ====
/-
  The mask fact over the stage tables of the two host programs. The reference's and the kernel program's dispatch are
  one text, so their stage tables agree with the dispatch definitions here by unfolding. Where the gather's in-bounds
  mask is set at sorted position `i`, the gathered pair is (expert `e`, slot `s`) with `s` below the count of `e`; the
  capacity tile holding row `s` starts at row `128·(s / 128) ≤ s`, which is below that count, so the kernel's
  "count at or below the tile's first row" condition fails there: the tile is one the kernel computed.
-/
import proofs.«126691_j58317065945110_2_alg».proof.Proof.V.DispatchCore
import proofs.«126691_j58317065945110_2_alg».proof.Proof.V.StagesRef
import proofs.«126691_j58317065945110_2_alg».proof.Proof.V.StagesKer
import proofs.«126691_j58317065945110_2_alg».proof.Proof.KI.Tile

noncomputable section

namespace Cert.ReferenceIdeal.Dispatch

open Cert.ReferenceIdeal Cert.ReferenceIdeal.Gen Idealize.ShloMosaic Idealize.ShloMosaic.ValueIdx

/-! ## The stage tables are the dispatch definitions -/

theorem link_ref_v17 (ids : IdsTy) : Cert.ReferenceIdeal.Stage.st_main_v17 (F := Ideal) ids = st_v17 ids := rfl
theorem link_ref_v70 (ids : IdsTy) : Cert.ReferenceIdeal.Stage.tl_main_v70 (F := Ideal) ids = st_v70 ids := rfl
theorem link_ref_v77 (ids : IdsTy) : Cert.ReferenceIdeal.Stage.tl_main_v77 (F := Ideal) ids = st_v77 ids := rfl
theorem link_ker_v17 (ids : IdsTy) : Cert.KernelIdeal.Stage.st_main_v17 (F := Ideal) ids = st_v17 ids := rfl
theorem link_ker_v70 (ids : IdsTy) : Cert.KernelIdeal.Stage.tl_main_v70 (F := Ideal) ids = st_v70 ids := rfl
theorem link_ker_v77 (ids : IdsTy) : Cert.KernelIdeal.Stage.tl_main_v77 (F := Ideal) ids = st_v77 ids := rfl

/-! ## The pair's first coordinate, and a tile's first row -/

set_option maxHeartbeats 400000 in
theorem v70_fst (ids : IdsTy) (k : Fin 8192) : st_v70 ids (ix2 k (0 : Fin 2)) = st_v62 ids (ix1 k) := by
  unfold st_v70
  rw [concatenate_pair_apply_left (t := S8192x2) (s₁ := S8192x1) (s₂ := S8192x1) (1 : Fin 2) _ _
    concatenates_S8192x1_S8192x1_S8192x2_d1 (ix2 k (0 : Fin 2)) rfl (ix2 k (0 : Fin 1))
    (fun b => by
      match b with
      | ⟨0, _⟩ => rfl
      | ⟨1, _⟩ => rfl)]
  unfold st_v68
  rw [bcast_col_apply (by decide)]

/-- The first row of capacity tile `q`, as a signed integer: `128·q`. -/
theorem tileRow_toInt (q : ℕ) (hq : q < 4) : (Scalar.muli (BitVec.ofNat 32 q) 128#32).toInt = 128 * (q : Int) := by
  interval_cases q <;> decide

/-! ## Where the mask is set the gathered row's tile was computed -/

set_option maxHeartbeats 400000 in
/-- At any grid point whose tile coordinate is the tile of the gathered slot, the kernel's "count at or below the
    tile's first row" condition fails on the count of the gathered expert. -/
theorem mask_tile_coords (ids : IdsTy) (hr : ∀ j, 0 ≤ (ids j).toInt ∧ (ids j).toInt < 64) (i : Fin 8192)
    (hM : Cert.ReferenceIdeal.Stage.tl_main_v77 (F := Ideal) ids (ix1 i) = 1#1)
    (c : Cert.KernelIdeal.grid0.Coords)
    (hc : (c 1).val
      = min (Cert.ReferenceIdeal.Stage.tl_main_v70 (F := Ideal) ids (ix2 i (1 : Fin 2))).toInt.toNat 511 / 128) :
    ¬ Cert.KernelIdeal.k0_cond2 c (Cert.KernelIdeal.Stage.st_main_v17 (F := Ideal) ids
        (ix1 ⟨min (Cert.ReferenceIdeal.Stage.tl_main_v70 (F := Ideal) ids (ix2 i (0 : Fin 2))).toInt.toNat 63,
          by omega⟩)) = 1#1 := by
  have hM' : st_v77 ids (ix1 i) = 1#1 := hM
  obtain ⟨hE0, hE1, hS0, hS1, hlt⟩ := core ids hr (ix1 i) hM'
  have h0 := v70_fst ids i
  have h1 := v70_snd ids i
  have hEn := toNat_of_toInt_nonneg _ hE0
  have hc' : (c 1).val = min (st_v70 ids (ix2 i (1 : Fin 2))).toInt.toNat 511 / 128 := hc
  rw [h1] at hc'
  have hfin : (⟨min (st_v70 ids (ix2 i (0 : Fin 2))).toInt.toNat 63, by omega⟩ : Fin 64)
      = ⟨(st_v62 ids (ix1 i)).toNat, v62_toNat_lt ids hr (ix1 i)⟩ := by
    apply Fin.ext
    show min (st_v70 ids (ix2 i (0 : Fin 2))).toInt.toNat 63 = (st_v62 ids (ix1 i)).toNat
    rw [h0]
    omega
  show ¬ Cert.KernelIdeal.k0_cond2 c (st_v17 ids
    (ix1 ⟨min (st_v70 ids (ix2 i (0 : Fin 2))).toInt.toNat 63, by omega⟩)) = 1#1
  rw [hfin, Cert.KernelIdeal.Hand.cond2_iff]
  have hq : (c 1).val < 4 := by omega
  show ¬ _ ≤ (Scalar.muli (BitVec.ofNat 32 (c 1).val) 128#32).toInt
  rw [tileRow_toInt _ hq]
  omega

end Cert.ReferenceIdeal.Dispatch

end
-- ==== Proof.V.KernelArray.lean ====
import proofs.«126691_j58317065945110_2_alg».proof.Proof.KI.Frame
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## From blocks to arrays

The grid has 64 experts × 4 capacity tiles, run row-major with the tile index fastest, so the point of expert `e` and
tile `ci` is number `4·e + ci`. Every window's block index is a function of the point's two coordinates alone: the token
buffer and the output move with both (block `(e, ci, 0)` of blocks `[1, 128, 1024]`), the two weight arrays with the expert
only (block `(e, 0, 0)`, a whole matrix). An element of a block sits in its array, on each axis, at block index × block
size + its coordinate inside the block. From these the blocks the body reads are rows of the arrays the region finds, the
count it reads is the table's entry for the expert, and the array the region leaves is, at `(e, s, h)`, what the point
`(e, s / 128)` stored at row `s % 128`. -/

/-! ### The grid point of an (expert, tile) pair -/

/-- The grid point of expert `e` and capacity tile `ci`, as a point of the printed grid. -/
def pt0 (e : Fin 64) (ci : Fin 4) : Fin grid0.N := ⟨e.val * 4 + ci.val, by rw [N_0]; omega⟩

/-- The same as a point of the pipeline's grid at the table's contents (the grid does not depend on them). -/
def pt (e : Fin 64) (ci : Fin 4) : Fin (cfgM m).N := pt0 e ci

set_option maxHeartbeats 400000 in
/-- Its coordinates are `e` and `ci`. -/
theorem coords_pt0 : ∀ (e : Fin 64) (ci : Fin 4), (grid0.coords (pt0 e ci) 0).val = e.val ∧ (grid0.coords (pt0 e ci) 1).val = ci.val := by
  decide +kernel

theorem coords_pt (e : Fin 64) (ci : Fin 4) :
    (grid0.coords (pt m e ci) 0).val = e.val ∧ (grid0.coords (pt m e ci) 1).val = ci.val := coords_pt0 e ci

set_option maxHeartbeats 400000 in
/-- The printed index maps and the count's offset at every point, as functions of the point's coordinates; and a point
    is the pair of its coordinates. Decided over the 256 points; no table contents occur. -/
theorem idx_facts : ∀ t : Fin grid0.N,
    (cc0_transform_0 (grid0.coords t) (0 : Fin 3) = (grid0.coords t 0).val ∧ cc0_transform_0 (grid0.coords t) (1 : Fin 3) = (grid0.coords t 1).val ∧ cc0_transform_0 (grid0.coords t) (2 : Fin 3) = 0)
    ∧ (cc0_transform_1 (grid0.coords t) (0 : Fin 3) = (grid0.coords t 0).val ∧ cc0_transform_1 (grid0.coords t) (1 : Fin 3) = 0 ∧ cc0_transform_1 (grid0.coords t) (2 : Fin 3) = 0)
    ∧ (cc0_transform_2 (grid0.coords t) (0 : Fin 3) = (grid0.coords t 0).val ∧ cc0_transform_2 (grid0.coords t) (1 : Fin 3) = 0 ∧ cc0_transform_2 (grid0.coords t) (2 : Fin 3) = 0)
    ∧ (cc0_transform_3 (grid0.coords t) (0 : Fin 3) = (grid0.coords t 0).val ∧ cc0_transform_3 (grid0.coords t) (1 : Fin 3) = (grid0.coords t 1).val ∧ cc0_transform_3 (grid0.coords t) (2 : Fin 3) = 0)
    ∧ k0_off1 (grid0.coords t) (0 : Fin 1) = (grid0.coords t 0).val
    ∧ (grid0.coords t 0).val * 4 + (grid0.coords t 1).val = t.val := by
  decide +kernel

/-! ### The input blocks as rows of their arrays

Each is stated first at any admissible table contents, any point and any array contents, and instantiated last. -/

set_option maxHeartbeats 100000 in
/-- Where an element of the token buffer's block at point `t` sits in the buffer. -/
theorem emb0_eq (a : (pcfg0 (F := F)).Adm) (t : Fin (cfg0 a).N) (y : S1x128x1024.Idx) (i : S64x512x1024.Idx)
    (h0 : (i 0).val = (grid0.coords t 0).val) (h1 : (i 1).val = 128 * (grid0.coords t 1).val + (y 1).val) (h2 : (i 2).val = (y 2).val) :
    (((cfg0 a).win 0).blk t).view.emb y = i := by
  obtain ⟨⟨f0, f1, f2⟩, -⟩ := idx_facts t
  funext b; apply Fin.ext
  match b with
  | ⟨0, _⟩ => show cc0_transform_0 (grid0.coords t) (0 : Fin 3) * 1 + 1 * (y 0).val = (i 0).val; have : (y 0).val < 1 := (y 0).isLt; omega
  | ⟨1, _⟩ => show cc0_transform_0 (grid0.coords t) (1 : Fin 3) * 128 + 1 * (y 1).val = (i 1).val; omega
  | ⟨2, _⟩ => show cc0_transform_0 (grid0.coords t) (2 : Fin 3) * 1024 + 1 * (y 2).val = (i 2).val; omega

set_option maxHeartbeats 100000 in
/-- So the block read off contents `A` is `A` there. -/
theorem read_blk0 (a : (pcfg0 (F := F)).Adm) (t : Fin (cfg0 a).N) (A : S64x512x1024.Idx → Elt F .bf16) (y : S1x128x1024.Idx) (i : S64x512x1024.Idx)
    (h0 : (i 0).val = (grid0.coords t 0).val) (h1 : (i 1).val = 128 * (grid0.coords t 1).val + (y 1).val) (h2 : (i 2).val = (y 2).val) :
    (((cfg0 a).win 0).blk t).view.read (Elt F) A y = A i := by
  show A ((((cfg0 a).win 0).blk t).view.emb y) = A i
  exact congrArg A (emb0_eq a t y i h0 h1 h2)

set_option maxHeartbeats 100000 in
/-- Input window 0 at point (e, ci): rows 128·ci … 128·ci + 127 of expert e's token buffer. -/
theorem iblk0_apply (c : Dev nD) (e : Fin 64) (ci : Fin 4) (r : Fin 128) (k : Fin 1024) :
    iblk m c 0 (pt m e ci) (ix3 0 r k) = V m c main_v52 (ix3 e ⟨128 * ci.val + r.val, by omega⟩ k) := by
  obtain ⟨c0, c1⟩ := coords_pt0 e ci
  unfold iblk
  exact read_blk0 (adm m) (pt0 e ci) (V m c (Pipeline.arrRef spec0 0)) (ix3 0 r k) (ix3 e ⟨128 * ci.val + r.val, by omega⟩ k) c0.symm (by show 128 * ci.val + r.val = 128 * (grid0.coords (pt0 e ci) 1).val + r.val; omega) rfl

set_option maxHeartbeats 100000 in
/-- Where an element of the first weight array's block at point `t` sits in the array. -/
theorem emb1_eq (a : (pcfg0 (F := F)).Adm) (t : Fin (cfg0 a).N) (y : S1x1024x1536.Idx) (i : S64x1024x1536.Idx)
    (h0 : (i 0).val = (grid0.coords t 0).val) (h1 : (i 1).val = (y 1).val) (h2 : (i 2).val = (y 2).val) :
    (((cfg0 a).win 1).blk t).view.emb y = i := by
  obtain ⟨-, ⟨f0, f1, f2⟩, -⟩ := idx_facts t
  funext b; apply Fin.ext
  match b with
  | ⟨0, _⟩ => show cc0_transform_1 (grid0.coords t) (0 : Fin 3) * 1 + 1 * (y 0).val = (i 0).val; have : (y 0).val < 1 := (y 0).isLt; omega
  | ⟨1, _⟩ => show cc0_transform_1 (grid0.coords t) (1 : Fin 3) * 1024 + 1 * (y 1).val = (i 1).val; omega
  | ⟨2, _⟩ => show cc0_transform_1 (grid0.coords t) (2 : Fin 3) * 1536 + 1 * (y 2).val = (i 2).val; omega

set_option maxHeartbeats 100000 in
/-- So the block read off contents `A` is `A` there. -/
theorem read_blk1 (a : (pcfg0 (F := F)).Adm) (t : Fin (cfg0 a).N) (A : S64x1024x1536.Idx → Elt F .bf16) (y : S1x1024x1536.Idx) (i : S64x1024x1536.Idx)
    (h0 : (i 0).val = (grid0.coords t 0).val) (h1 : (i 1).val = (y 1).val) (h2 : (i 2).val = (y 2).val) :
    (((cfg0 a).win 1).blk t).view.read (Elt F) A y = A i := by
  show A ((((cfg0 a).win 1).blk t).view.emb y) = A i
  exact congrArg A (emb1_eq a t y i h0 h1 h2)

set_option maxHeartbeats 100000 in
/-- Input window 1 at point (e, ci): expert e's transposed first weight matrix, whole. -/
theorem iblk1_apply (c : Dev nD) (e : Fin 64) (ci : Fin 4) (k : Fin 1024) (f : Fin 1536) :
    iblk m c 1 (pt m e ci) (ix3 0 k f) = V m c main_v54 (ix3 e k f) := by
  obtain ⟨c0, c1⟩ := coords_pt0 e ci
  unfold iblk
  exact read_blk1 (adm m) (pt0 e ci) (V m c (Pipeline.arrRef spec0 1)) (ix3 0 k f) (ix3 e k f) c0.symm rfl rfl

set_option maxHeartbeats 100000 in
/-- Where an element of the second weight array's block at point `t` sits in the array. -/
theorem emb2_eq (a : (pcfg0 (F := F)).Adm) (t : Fin (cfg0 a).N) (y : S1x768x1024.Idx) (i : S64x768x1024.Idx)
    (h0 : (i 0).val = (grid0.coords t 0).val) (h1 : (i 1).val = (y 1).val) (h2 : (i 2).val = (y 2).val) :
    (((cfg0 a).win 2).blk t).view.emb y = i := by
  obtain ⟨-, -, ⟨f0, f1, f2⟩, -⟩ := idx_facts t
  funext b; apply Fin.ext
  match b with
  | ⟨0, _⟩ => show cc0_transform_2 (grid0.coords t) (0 : Fin 3) * 1 + 1 * (y 0).val = (i 0).val; have : (y 0).val < 1 := (y 0).isLt; omega
  | ⟨1, _⟩ => show cc0_transform_2 (grid0.coords t) (1 : Fin 3) * 768 + 1 * (y 1).val = (i 1).val; omega
  | ⟨2, _⟩ => show cc0_transform_2 (grid0.coords t) (2 : Fin 3) * 1024 + 1 * (y 2).val = (i 2).val; omega

set_option maxHeartbeats 100000 in
/-- So the block read off contents `A` is `A` there. -/
theorem read_blk2 (a : (pcfg0 (F := F)).Adm) (t : Fin (cfg0 a).N) (A : S64x768x1024.Idx → Elt F .bf16) (y : S1x768x1024.Idx) (i : S64x768x1024.Idx)
    (h0 : (i 0).val = (grid0.coords t 0).val) (h1 : (i 1).val = (y 1).val) (h2 : (i 2).val = (y 2).val) :
    (((cfg0 a).win 2).blk t).view.read (Elt F) A y = A i := by
  show A ((((cfg0 a).win 2).blk t).view.emb y) = A i
  exact congrArg A (emb2_eq a t y i h0 h1 h2)

set_option maxHeartbeats 100000 in
/-- Input window 2 at point (e, ci): expert e's transposed second weight matrix, whole. -/
theorem iblk2_apply (c : Dev nD) (e : Fin 64) (ci : Fin 4) (f : Fin 768) (h : Fin 1024) :
    iblk m c 2 (pt m e ci) (ix3 0 f h) = V m c main_v56 (ix3 e f h) := by
  obtain ⟨c0, c1⟩ := coords_pt0 e ci
  unfold iblk
  exact read_blk2 (adm m) (pt0 e ci) (V m c (Pipeline.arrRef spec0 2)) (ix3 0 f h) (ix3 e f h) c0.symm rfl rfl

/-! ### The count the body reads -/

set_option maxHeartbeats 100000 in
/-- The count the body reads at coordinates i, out of any table contents: the table's entry at the expert. -/
theorem word1_apply (c : Dev nD) (i : grid0.Coords) (xt : CntBuf (F := F) c) (j : S64.Idx) (hj : (j 0).val = k0_off1 i (0 : Fin 1)) :
    word1 c i xt = xt j := by
  show xt (cntM.view.emb ((Rect.unit (s := S64) (k0_off1 i) S1.size (k0_off1_inb i)).toLoadRect.idx (Shape.Idx.first (numel1_S1.symm ▸ Nat.one_pos)))) = xt j
  refine congrArg xt ?_
  funext b; apply Fin.ext
  match b with
  | ⟨0, _⟩ => show k0_off1 i (0 : Fin 1) + 1 * 0 = (j 0).val; omega

set_option maxHeartbeats 100000 in
/-- The count read at point (e, ci) is the table's entry for expert e. -/
theorem countAt_pt (c : Dev nD) (e : Fin 64) (ci : Fin 4) :
    countAt m c (pt m e ci) = V m c main_v17 (ix1 e) := by
  obtain ⟨c0, c1⟩ := coords_pt0 e ci
  obtain ⟨-, -, -, -, fo, -⟩ := idx_facts (pt0 e ci)
  refine (word1_apply c (grid0.coords (pt0 e ci)) (tbl m 0) (ix1 e) (by rw [fo]; exact c0.symm)).trans ?_
  exact congrFun (V_pre m c 0).symm (ix1 e)

/-! ### The output array from the tiles the points store -/

/-- The whole array whose block at every point is that point's tile: at `(e, s, h)`, tile `(e, s / 128)` at row `s % 128`. -/
def arrOf (T : Fin grid0.N → S1x128x1024.Idx → Elt F .bf16) : S64x512x1024.Idx → Elt F .bf16 := fun i =>
  T (pt0 ⟨(i 0).val, (i 0).isLt⟩ ⟨(i 1).val / 128, by have : (i 1).val < 512 := (i 1).isLt; omega⟩)
    (ix3 (0 : Fin 1) (⟨(i 1).val % 128, Nat.mod_lt _ (by omega)⟩ : Fin 128) (⟨(i 2).val, (i 2).isLt⟩ : Fin 1024))

theorem arrOf_ix3 (T : Fin grid0.N → S1x128x1024.Idx → Elt F .bf16) (e : Fin 64) (s : Fin 512) (h : Fin 1024) :
    arrOf T (ix3 e s h) = T (pt0 e ⟨s.val / 128, by omega⟩) (ix3 0 ⟨s.val % 128, Nat.mod_lt _ (by omega)⟩ h) := rfl

set_option maxHeartbeats 100000 in
/-- At an index under point `t`'s block, at the block's element `y`, it is `t`'s tile at `y`. -/
theorem arrOf_apply (T : Fin grid0.N → S1x128x1024.Idx → Elt F .bf16) (t : Fin grid0.N) (y : S1x128x1024.Idx) (i : S64x512x1024.Idx)
    (h0 : (i 0).val = (grid0.coords t 0).val) (h1 : (i 1).val = 128 * (grid0.coords t 1).val + (y 1).val) (h2 : (i 2).val = (y 2).val) :
    arrOf T i = T t y := by
  obtain ⟨-, -, -, -, -, ft⟩ := idx_facts t
  have hy1 : (y 1).val < 128 := (y 1).isLt
  unfold arrOf
  refine congr (congrArg T (Fin.ext ?_)) (funext fun b => Fin.ext ?_)
  · show (i 0).val * 4 + (i 1).val / 128 = t.val; omega
  · match b with
    | ⟨0, _⟩ => show 0 = (y 0).val; have : (y 0).val < 1 := (y 0).isLt; omega
    | ⟨1, _⟩ => show (i 1).val % 128 = (y 1).val; omega
    | ⟨2, _⟩ => show (i 2).val = (y 2).val; omega

set_option maxHeartbeats 100000 in
/-- Where an element of the output's block at point `t` sits in the output array. -/
theorem emb3_eq (a : (pcfg0 (F := F)).Adm) (t : Fin (cfg0 a).N) (y : S1x128x1024.Idx) (i : S64x512x1024.Idx)
    (h0 : (i 0).val = (grid0.coords t 0).val) (h1 : (i 1).val = 128 * (grid0.coords t 1).val + (y 1).val) (h2 : (i 2).val = (y 2).val) :
    (((cfg0 a).win 3).blk t).view.emb y = i := by
  obtain ⟨-, -, -, ⟨f0, f1, f2⟩, -⟩ := idx_facts t
  funext b; apply Fin.ext
  match b with
  | ⟨0, _⟩ => show cc0_transform_3 (grid0.coords t) (0 : Fin 3) * 1 + 1 * (y 0).val = (i 0).val; have : (y 0).val < 1 := (y 0).isLt; omega
  | ⟨1, _⟩ => show cc0_transform_3 (grid0.coords t) (1 : Fin 3) * 128 + 1 * (y 1).val = (i 1).val; omega
  | ⟨2, _⟩ => show cc0_transform_3 (grid0.coords t) (2 : Fin 3) * 1024 + 1 * (y 2).val = (i 2).val; omega

set_option maxHeartbeats 100000 in
/-- The output's block at point `t`, read off the array of the tiles, is `t`'s tile. -/
theorem read_blk3 (a : (pcfg0 (F := F)).Adm) (t : Fin (cfg0 a).N) (T : Fin grid0.N → S1x128x1024.Idx → Elt F .bf16) (y : S1x128x1024.Idx) :
    (((cfg0 a).win 3).blk t).view.read (Elt F) (arrOf T) y = T t y := by
  show arrOf T ((((cfg0 a).win 3).blk t).view.emb y) = T t y
  obtain ⟨-, -, -, ⟨f0, f1, f2⟩, -⟩ := idx_facts t
  refine arrOf_apply T t y _ ?_ ?_ ?_
  · show cc0_transform_3 (grid0.coords t) (0 : Fin 3) * 1 + 1 * (y 0).val = (grid0.coords t 0).val; have : (y 0).val < 1 := (y 0).isLt; omega
  · show cc0_transform_3 (grid0.coords t) (1 : Fin 3) * 128 + 1 * (y 1).val = 128 * (grid0.coords t 1).val + (y 1).val; omega
  · show cc0_transform_3 (grid0.coords t) (2 : Fin 3) * 1024 + 1 * (y 2).val = (y 2).val; omega

set_option maxHeartbeats 100000 in
/-- An index of the output array lies in the block of the point whose coordinates are its expert and its row's tile. -/
theorem mem_blk3 (a : (pcfg0 (F := F)).Adm) (t : Fin (cfg0 a).N) (i : S64x512x1024.Idx)
    (h0 : (i 0).val = (grid0.coords t 0).val) (h1 : 128 * (grid0.coords t 1).val ≤ (i 1).val) (h1' : (i 1).val < 128 * (grid0.coords t 1).val + 128) :
    i ∈ (((cfg0 a).win 3).blk t).view.set := by
  obtain ⟨-, -, -, ⟨f0, f1, f2⟩, -⟩ := idx_facts t
  have hs : (((cfg0 a).win 3).blk t).view.set = (((cfg0 a).win 3).rect t).set := View.set_slice_whole main_v57 _
  refine (congrArg (fun s => i ∈ s) hs).mpr (Rect.mem_set_unit.mpr fun b => ?_)
  match b with
  | ⟨0, _⟩ => show cc0_transform_3 (grid0.coords t) (0 : Fin 3) * 1 ≤ (i 0).val ∧ (i 0).val < cc0_transform_3 (grid0.coords t) (0 : Fin 3) * 1 + 1; omega
  | ⟨1, _⟩ => show cc0_transform_3 (grid0.coords t) (1 : Fin 3) * 128 ≤ (i 1).val ∧ (i 1).val < cc0_transform_3 (grid0.coords t) (1 : Fin 3) * 128 + 128; omega
  | ⟨2, _⟩ => show cc0_transform_3 (grid0.coords t) (2 : Fin 3) * 1024 ≤ (i 2).val ∧ (i 2).val < cc0_transform_3 (grid0.coords t) (2 : Fin 3) * 1024 + 1024; have : (i 2).val < 1024 := (i 2).isLt; omega

/-- The array of the tiles the points leave. -/
def G3 (c : Dev nD) : S64x512x1024.Idx → Elt F .bf16 := arrOf fun t => tileAt m c t

set_option maxHeartbeats 100000 in
/-- What point `t` writes back is its block of that array. -/
theorem flushed3_eq (c : Dev nD) (t : Fin (cfgM m).N) :
    (dats m 0 c).flushed 3 t = (((cfgM m).win 3).blk t).view.read (Elt F) (G3 m c) := by
  show ((cfgM m).win 3).cut ((cfgM m).grid.coords t) ((dats m 0 c).after 3 t) = _
  rw [after3]
  funext y
  exact (read_blk3 (adm m) t (fun t => tileAt m c t) y).symm

set_option maxHeartbeats 100000 in
/-- Every index of the output array is in the block of some point, and every point writes its block back. -/
theorem cover3 (a : (pcfg0 (F := F)).Adm) (i : S64x512x1024.Idx) :
    ∃ t : Fin (cfg0 a).N, ((cfg0 a).win 3).flush t = true ∧ i ∈ (((cfg0 a).win 3).blk t).view.set := by
  have hi1 : (i 1).val < 512 := (i 1).isLt
  obtain ⟨c0, c1⟩ := coords_pt0 ⟨(i 0).val, (i 0).isLt⟩ ⟨(i 1).val / 128, by omega⟩
  refine ⟨pt0 ⟨(i 0).val, (i 0).isLt⟩ ⟨(i 1).val / 128, by omega⟩, flush3 a _, mem_blk3 a _ i c0.symm ?_ ?_⟩
  · rw [c1]; show 128 * ((i 1).val / 128) ≤ (i 1).val; omega
  · rw [c1]; show (i 1).val < 128 * ((i 1).val / 128) + 128; omega

set_option maxHeartbeats 200000 in
/-- So the array the region leaves is the array of the tiles. -/
theorem final3 (c : Dev nD) : (dats m 0 c).arrAt 3 (cfgM m).N = G3 m c :=
  (dats m 0 c).arrAt_eq_of_cover 3 (G3 m c) (fun t _ => flushed3_eq m c t) (cover3 (adm m))

set_option maxHeartbeats 200000 in
/-- The array the region leaves, index by index: at `(e, s, h)`, what point `(e, s / 128)` stored at row `s % 128`. -/
theorem out_array (c : Dev nD) (e : Fin 64) (s : Fin 512) (h : Fin 1024) :
    (dats m 0 c).arrAt 3 (cfgM m).N (ix3 e s h)
      = tileAt m c (pt m e ⟨s.val / 128, by omega⟩) (ix3 0 ⟨s.val % 128, Nat.mod_lt _ (by omega)⟩ h) :=
  (congrFun (final3 m c) (ix3 e s h)).trans (arrOf_ix3 (fun t => tileAt m c t) e s h)

end Cert.KernelIdeal.ArrayValue

end
-- ==== Proof.V.MaskTile.lean ====
/-
  The mask fact at the grid point of the gathered (expert, tile) pair: where the gather's in-bounds mask is set at
  sorted position `i`, with `e` the gathered expert and `s` the gathered slot (each read signed and clamped into its
  axis, as the gather reads them), the kernel's "count at or below the tile's first row" condition fails at the
  point of expert `e` and tile `s / 128`: that tile is one the kernel computed.
-/
import proofs.«126691_j58317065945110_2_alg».proof.Proof.V.MaskCore
import proofs.«126691_j58317065945110_2_alg».proof.Proof.V.KernelArray

noncomputable section

namespace Cert.ReferenceIdeal.Dispatch

open Cert.ReferenceIdeal Cert.ReferenceIdeal.Gen Idealize.ShloMosaic Idealize.ShloMosaic.ValueIdx

set_option maxHeartbeats 400000 in
theorem mask_tile (ids : IdsTy) (hr : ∀ j, 0 ≤ (ids j).toInt ∧ (ids j).toInt < 64) (i : Fin 8192)
    (hM : Cert.ReferenceIdeal.Stage.tl_main_v77 (F := Ideal) ids (ix1 i) = 1#1) :
    let e : Fin 64 :=
      ⟨min (Cert.ReferenceIdeal.Stage.tl_main_v70 (F := Ideal) ids (ix2 i (0 : Fin 2))).toInt.toNat 63, by omega⟩
    let s : Fin 512 :=
      ⟨min (Cert.ReferenceIdeal.Stage.tl_main_v70 (F := Ideal) ids (ix2 i (1 : Fin 2))).toInt.toNat 511, by omega⟩
    ¬ Cert.KernelIdeal.k0_cond2
        (Cert.KernelIdeal.grid0.coords (Cert.KernelIdeal.ArrayValue.pt0 e ⟨s.val / 128, by omega⟩))
        (Cert.KernelIdeal.Stage.st_main_v17 (F := Ideal) ids (ix1 e)) = 1#1 := by
  intro e s
  exact mask_tile_coords ids hr i hM _ (Cert.KernelIdeal.ArrayValue.coords_pt0 e ⟨s.val / 128, by omega⟩).2

end Cert.ReferenceIdeal.Dispatch

end
-- ==== Proof.V.PreIds.lean ====
/-
  The precondition read back at the routed expert ids. The printed predicate is a conjunction of five `jnp.all`s;
  its last conjunct is `jnp.all((ids ≥ 0) & (ids < 64))`. Where the predicate is all ones, that conjunct is one,
  so every element of the compared array is one, and each id lies in `[0, 64)` as a signed integer.
-/
import proofs.«126691_j58317065945110_2_alg».proof.Proof.Gen.Pre_finite_inputs
import Idealize.ShloMosaic.Lib.ReduceAll
import Idealize.ShloMosaic.Lib.ValueIdx
import Idealize.ShloMosaic.PureOps.Ideal

namespace Cert.Pre_finite_inputs.Decode

open Cert.Pre_finite_inputs Idealize.ShloMosaic Idealize.ShloMosaic.ValueIdx

/-- The scalar shape has one index. -/
instance : Subsingleton S_.Idx := ⟨fun a b => funext fun d => d.elim0⟩

set_option maxHeartbeats 400000 in
/-- **Where the precondition holds every routed expert id lies in `[0, 64)`.** -/
theorem ids_range (a0 : FVec Ideal S1024x1024 .f32) (a1 : FVec Ideal S1024x8 .f32) (ids : IVec S1024x8 32)
    (a3 : FVec Ideal S64x1536x1024 .f32) (a4 : FVec Ideal S64x1024x768 .f32)
    (h : fn (F := Ideal) a0 a1 ids a3 a4 = (fun _ => 1#1)) :
    ∀ j, 0 ≤ (ids j).toInt ∧ (ids j).toInt < 64 := by
  intro j
  have h0 : fn (F := Ideal) a0 a1 ids a3 a4 ix0 = 1#1 := congrFun h ix0
  dsimp only [fn, fn_part1] at h0
  have h24 := (IntOp.andi_eq_one.mp h0).2
  have h23 := Host.reduce_andi_all _ _ _ _ ix0 h24 j
  obtain ⟨hge, hlt⟩ := IntOp.andi_eq_one.mp h23
  have h1 : (0#32 : BitVec 32).toInt ≤ (ids j).toInt := IntOp.cmpi_sge.mp hge
  have h2 : (ids j).toInt < (64#32 : BitVec 32).toInt := IntOp.cmpi_slt.mp hlt
  have e0 : (0#32 : BitVec 32).toInt = 0 := by decide
  have e64 : (64#32 : BitVec 32).toInt = 64 := by decide
  omega

end Cert.Pre_finite_inputs.Decode
-- ==== Proof.V.MlpKernel.lean ====
import proofs.«126691_j58317065945110_2_alg».proof.Proof.Gen.KernelIdeal.Skeleton
import proofs.«126691_j58317065945110_2_alg».proof.Proof.V.MlpSpec
import Idealize.ShloMosaic.PureOps.Ideal.Laws
import Idealize.ShloMosaic.Lib.ValueLayout
import Idealize.ShloMosaic.Lib.StackMember

noncomputable section

namespace Cert.KernelIdeal.MlpValue

open Idealize.ShloMosaic Idealize.ShloMosaic.ValueIdx Cert.KernelIdeal Cert.KernelIdeal.Facts₀

/-! ## The kernel's tile payloads, read at an entry

Per 128-row tile the kernel forms, from the row block `x` (1 × 128 × 1024) and one expert's transposed weight blocks
`w1t` (1 × 1024 × 1536) and `w2t` (1 × 768 × 1024),

  H = x · w1t (128 × 1536, into a zero accumulator),  G = H[:, 0 … 767],  U = H[:, 768 … 1535],
  Y = ((G · σ(G)) · U) · w2t (128 × 1024, into a zero accumulator),

with σ the logistic function, entrywise. Over the extended reals every format change is the identity and each product
into a zero accumulator is the plain sum over the contracted coordinate, so entry (0, r, h) of the stored tile is

  Σ_f ( g_f · σ(g_f) · u_f ) · w2t[0, f, h],   g_f = Σ_k x[0, r, k] · w1t[0, k, f],   u_f = Σ_k x[0, r, k] · w1t[0, k, 768 + f]:

`Cert.MoeSpec.mlpEntry` of row `r` against the transposed blocks. Nothing is reassociated or distributed, so no
finiteness is assumed. The other payload is the zero tile. -/

/-- The zero tile: every entry of the second payload is the extended real `0`. -/
theorem pay2_apply (j : S1x128x1024.Idx) : Cert.KernelIdeal.Gen.k0_pay2 (F := Ideal) j = 0 := by
  show Ideal.ofBits .bf16 0x0000#16 = 0
  simp [Ideal.ofBits, Ideal.ieee]

/-- The first product's dimension numbers are those of a plain 128×1024 by 1024×1536 product. -/
theorem dot1_eq : dot_S128x1024_S1024x1536_S128x1536_1_0_0_1_n_n = DotDims.plain 128 1024 1536 := rfl

/-- The second product's dimension numbers are those of a plain 128×768 by 768×1024 product. -/
theorem dot2_eq : dot_S128x768_S768x1024_S128x1024_1_0_0_1_n_n = DotDims.plain 128 768 1024 := rfl

/-- The first product into the zero accumulator, read at (r, c): the sum over the contracted coordinate. -/
theorem matmul1_apply (A : FVec Ideal S128x1024 .bf16) (B : FVec Ideal S1024x1536 .bf16) (r : Fin 128) (c : Fin 1536) :
    matmul dot_S128x1024_S1024x1536_S128x1536_1_0_0_1_n_n none A B (constant S128x1536 .f32 0x00000000#32) (ix2 r c)
      = ∑ k : Fin 1024, A (ix2 r k) * B (ix2 k c) := by
  rw [matmul_zero_eq_dotGeneral, dot1_eq]
  exact StackMember.dotGeneral_plain_apply none A B r c

/-- The second product into the zero accumulator, read at (r, c): the sum over the contracted coordinate. -/
theorem matmul2_apply (A : FVec Ideal S128x768 .bf16) (B : FVec Ideal S768x1024 .bf16) (r : Fin 128) (c : Fin 1024) :
    matmul dot_S128x768_S768x1024_S128x1024_1_0_0_1_n_n none A B (constant S128x1024 .f32 0x00000000#32) (ix2 r c)
      = ∑ k : Fin 768, A (ix2 r k) * B (ix2 k c) := by
  rw [matmul_zero_eq_dotGeneral, dot2_eq]
  exact StackMember.dotGeneral_plain_apply none A B r c

/-- The first product of the two blocks with their unit axis dropped, read at (r, c), in the blocks' own entries. -/
theorem hidden_apply (x : Vec Ideal S1x128x1024 .bf16) (w1t : Vec Ideal S1x1024x1536 .bf16) (r : Fin 128) (c : Fin 1536) :
    matmul dot_S128x1024_S1024x1536_S128x1536_1_0_0_1_n_n none
        (shapeCast S128x1024 x shapeCasts_S1x128x1024_S128x1024 : FVec Ideal S128x1024 .bf16)
        (shapeCast S1024x1536 w1t shapeCasts_S1x1024x1536_S1024x1536 : FVec Ideal S1024x1536 .bf16)
        (constant S128x1536 .f32 0x00000000#32) (ix2 r c)
      = ∑ k : Fin 1024, x (ix3 (0 : Fin 1) r k) * w1t (ix3 (0 : Fin 1) k c) := by
  rw [matmul1_apply]
  refine Finset.sum_congr rfl fun k _ => ?_
  rw [shapeCast_1ab_ab_apply, shapeCast_1ab_ab_apply]

/-- The columns 0 … 767 of the 128×1536 product: entry (r, f) is the product's entry (r, f). -/
theorem slice_gate_apply (H : FVec Ideal S128x1536 .f32) (r : Fin 128) (f : Fin 768) :
    extractStridedSlice S128x768 ![0, 0] H slices_S128x1536_o0_0_S128x768 (ix2 r f)
      = H (ix2 r (⟨f.val, by omega⟩ : Fin 1536)) :=
  extractStridedSlice_apply _ H _ _ _ fun a => by
    match a with
    | ⟨0, _⟩ => exact (Nat.zero_add _).symm
    | ⟨1, _⟩ => exact (Nat.zero_add _).symm

/-- The columns 768 … 1535 of the 128×1536 product: entry (r, f) is the product's entry (r, 768 + f). -/
theorem slice_up_apply (H : FVec Ideal S128x1536 .f32) (r : Fin 128) (f : Fin 768) :
    extractStridedSlice S128x768 ![0, 768] H slices_S128x1536_o0_768_S128x768 (ix2 r f)
      = H (ix2 r (⟨768 + f.val, by omega⟩ : Fin 1536)) :=
  extractStridedSlice_apply _ H _ _ _ fun a => by
    match a with
    | ⟨0, _⟩ => exact (Nat.zero_add _).symm
    | ⟨1, _⟩ => rfl

/-- The logistic function of an array, read at an index, is the logistic function of the entry. -/
theorem logistic_apply {s : Shape} {φ : FTy} (a : FVec Ideal s φ) (i : s.Idx) : logistic a i = Ideal.logistic (a i) := rfl

/-- Entry (0, r, h) of the tile the kernel stores is the expert MLP's output entry `h` of the tile's row `r`, over the
    transposed weight blocks: the same sums of the same products, factor for factor. -/
theorem pay1_apply (x : Vec Ideal S1x128x1024 .bf16) (w1t : Vec Ideal S1x1024x1536 .bf16) (w2t : Vec Ideal S1x768x1024 .bf16)
    (r : Fin 128) (h : Fin 1024) :
    Cert.KernelIdeal.Gen.k0_pay1 (F := Ideal) x w1t w2t (ix3 (0 : Fin 1) r h)
      = Cert.MoeSpec.mlpEntry (fun k => x (ix3 (0 : Fin 1) r k)) (fun f k => w1t (ix3 (0 : Fin 1) k f))
          (fun h' f => w2t (ix3 (0 : Fin 1) f h')) h := by
  unfold Cert.KernelIdeal.Gen.k0_pay1
  rw [shapeCast_ab_1ab_apply, truncf_apply, matmul2_apply]
  unfold Cert.MoeSpec.mlpEntry
  refine Finset.sum_congr rfl fun f _ => ?_
  rw [shapeCast_1ab_ab_apply, truncf_apply, mulf_apply, mulf_apply, logistic_apply,
    slice_gate_apply, slice_up_apply, hidden_apply, hidden_apply]
  rfl

end Cert.KernelIdeal.MlpValue

end
-- ==== Proof.V.YbEntry.lean ====
/-
  The kernel's output array, entry by entry. The region leaves at `(e, s, h)` what the grid point of expert `e` and
  capacity tile `s / 128` stored at row `s % 128` of its tile: the zero tile where the expert's count is at or below
  the tile's first row, and otherwise the expert MLP of the tile's rows. The body loads its three input blocks whole,
  so the payload is the MLP of the blocks themselves; the blocks are rows of the per-expert token buffer and the
  expert's two transposed weight matrices; and `128·(s / 128) + s % 128 = s`. Hence the entry is `0` or the spec's
  `mlpEntry` of row `s` of expert `e`'s buffer.
-/
import proofs.«126691_j58317065945110_2_alg».proof.Proof.KI.Frame
import proofs.«126691_j58317065945110_2_alg».proof.Proof.KI.Tile
import proofs.«126691_j58317065945110_2_alg».proof.Proof.V.KernelArray
import proofs.«126691_j58317065945110_2_alg».proof.Proof.V.MlpKernel
import proofs.«126691_j58317065945110_2_alg».proof.Proof.V.StagesKer
import proofs.«126691_j58317065945110_2_alg».proof.Proof.V.MlpSpec

set_option maxRecDepth 16384

noncomputable section

namespace Cert.KernelIdeal.ArrayValue2

open Cert.KernelIdeal Cert.KernelIdeal.Gen Cert.KernelIdeal.Hand
open Idealize.ShloMosaic Idealize.ShloMosaic.TcCoe Idealize.SL.Sem
open Idealize.ShloMosaic.ValueIdx

/-- A load of a whole staging buffer through the whole-shape rectangle at zero offsets reads the contents it holds. -/
theorem whole_read {S : Shape} {e : EltTy} (mm : Memref sig .tc .vmem S e) (hm : mm.IsWhole)
    {off : Fin S.rank → Nat} (hoff : off = fun _ => 0) (inb : ∀ a, off a + S.size a ≤ S.size a)
    (X : S.Idx → Elt Ideal e) :
    View.readAt (Elt Ideal) mm.view (Rect.unit (s := S) off S.size inb).toLoadRect (hm.unread X) = X := by
  show View.ld (mm.view.read (Elt Ideal) (hm.unread X)) (Rect.unit off S.size inb) = X
  rw [hm.read_unread]
  exact View.ld_unit_zero hoff inb X

theorem off_zero_1 : (![0, 0, 0] : Fin S1x1024x1536.rank → Nat) = fun _ => 0 := by
  funext a; fin_cases a <;> rfl

theorem off_zero_2 : (![0, 0, 0] : Fin S1x768x1024.rank → Nat) = fun _ => 0 := by
  funext a; fin_cases a <;> rfl

set_option maxHeartbeats 400000 in
/-- The body loads its three input blocks whole: the payload is the MLP of the blocks themselves. -/
theorem mlpOf_whole (arg3 : Memref sig .tc .vmem S1x128x1024 .bf16) (harg3 : arg3.IsWhole)
    (arg4 : Memref sig .tc .vmem S1x1024x1536 .bf16) (harg4 : arg4.IsWhole)
    (arg5 : Memref sig .tc .vmem S1x768x1024 .bf16) (harg5 : arg5.IsWhole)
    (x0 : Vec Ideal S1x128x1024 .bf16) (x1 : Vec Ideal S1x1024x1536 .bf16) (x2 : Vec Ideal S1x768x1024 .bf16) :
    mlpOf arg3 harg3 arg4 harg4 arg5 harg5 x0 x1 x2 = k0_pay1 (F := Ideal) x0 x1 x2 := by
  show k0_pay1 (F := Ideal) _ _ _ = _
  rw [whole_read arg3 harg3 tile_off_zero inb_S1x128x1024_S1x128x1024_0_0_0 x0,
    whole_read arg4 harg4 off_zero_1 inb_S1x1024x1536_S1x1024x1536_0_0_0 x1,
    whole_read arg5 harg5 off_zero_2 inb_S1x768x1024_S1x768x1024_0_0_0 x2]

set_option maxHeartbeats 400000 in
/-- **Entry `(e, s, h)` of the kernel's output array: zero where the count of `e` is at or below the first row of
    the tile of `s`, and otherwise the expert MLP's output entry `h` of row `s` of expert `e`'s buffer.** -/
theorem yb_entry (m : (ℓ : Loc nD τ sig) → Buf (Elt Ideal) ℓ) (c : Dev nD)
    (x : (⟨S1024x1024, .f32⟩ : BufTy).Contents (Elt Ideal)) (ids : (⟨S1024x8, .i32⟩ : BufTy).Contents (Elt Ideal))
    (w1 : (⟨S64x1536x1024, .f32⟩ : BufTy).Contents (Elt Ideal)) (w2 : (⟨S64x1024x768, .f32⟩ : BufTy).Contents (Elt Ideal))
    (h17 : V m c main_v17 = Cert.KernelIdeal.Stage.st_main_v17 (F := Ideal) ids)
    (h52 : V m c main_v52 = Cert.KernelIdeal.Stage.st_main_v52 (F := Ideal) x ids)
    (h54 : V m c main_v54 = Cert.KernelIdeal.Stage.st_main_v54 (F := Ideal) w1)
    (h56 : V m c main_v56 = Cert.KernelIdeal.Stage.st_main_v56 (F := Ideal) w2)
    (e : Fin 64) (s : Fin 512) (h : Fin 1024) :
    (dats (F := Ideal) m 0 c).arrAt 3 (cfgM m).N (ix3 e s h)
      = if k0_cond2 (grid0.coords (ArrayValue.pt0 e ⟨s.val / 128, by omega⟩))
            (Cert.KernelIdeal.Stage.st_main_v17 (F := Ideal) ids (ix1 e)) = 1#1 then 0
        else Cert.MoeSpec.mlpEntry (fun k => Cert.KernelIdeal.Stage.st_main_v52 (F := Ideal) x ids (ix3 e s k))
          (fun f k => Cert.KernelIdeal.Stage.st_main_v54 (F := Ideal) w1 (ix3 e k f))
          (fun h' f => Cert.KernelIdeal.Stage.st_main_v56 (F := Ideal) w2 (ix3 e f h')) h := by
  have hs : s.val < 512 := s.isLt
  generalize hci : (⟨s.val / 128, by omega⟩ : Fin 4) = ci
  have hciv : ci.val = s.val / 128 := by rw [← hci]
  refine (ArrayValue.out_array m c e s h).trans ?_
  rw [hci]
  generalize hr : (⟨s.val % 128, Nat.mod_lt _ (by omega)⟩ : Fin 128) = r
  have hrv : r.val = s.val % 128 := by rw [← hr]
  have hcnt : countAt m c (ArrayValue.pt m e ci) = Cert.KernelIdeal.Stage.st_main_v17 (F := Ideal) ids (ix1 e) :=
    (ArrayValue.countAt_pt m c e ci).trans (congrFun h17 (ix1 e))
  unfold tileAt
  by_cases hc : k0_cond2 (grid0.coords (ArrayValue.pt0 e ci)) (Cert.KernelIdeal.Stage.st_main_v17 (F := Ideal) ids (ix1 e)) = 1#1
  · have hc' : k0_cond2 (grid0.coords (ArrayValue.pt m e ci)) (countAt m c (ArrayValue.pt m e ci)) = 1#1 :=
      (congrArg (fun n => k0_cond2 (grid0.coords (ArrayValue.pt0 e ci)) n = 1#1) hcnt).mpr hc
    rw [if_pos hc', if_pos hc]
    exact MlpValue.pay2_apply _
  · have hc' : ¬ k0_cond2 (grid0.coords (ArrayValue.pt m e ci)) (countAt m c (ArrayValue.pt m e ci)) = 1#1 :=
      fun hh => hc ((congrArg (fun n => k0_cond2 (grid0.coords (ArrayValue.pt0 e ci)) n = 1#1) hcnt).mp hh)
    rw [if_neg hc', if_neg hc]
    have hp := mlpOf_whole (ms0 m (ArrayValue.pt m e ci)) (hs0 m (ArrayValue.pt m e ci)) (ms1 m (ArrayValue.pt m e ci))
      (hs1 m (ArrayValue.pt m e ci)) (ms2 m (ArrayValue.pt m e ci)) (hs2 m (ArrayValue.pt m e ci))
      (iblk m c 0 (ArrayValue.pt m e ci)) (iblk m c 1 (ArrayValue.pt m e ci)) (iblk m c 2 (ArrayValue.pt m e ci))
    refine (congrFun hp (ix3 (0 : Fin 1) r h)).trans ((MlpValue.pay1_apply _ _ _ r h).trans ?_)
    have hrow : (⟨128 * ci.val + r.val, by omega⟩ : Fin 512) = s := Fin.ext (by show 128 * ci.val + r.val = s.val; omega)
    refine congrFun (congr (congr (congrArg Cert.MoeSpec.mlpEntry (funext fun k => ?_))
      (funext fun f => funext fun k => ?_)) (funext fun h' => funext fun f => ?_)) h
    · exact (ArrayValue.iblk0_apply m c e ci r k).trans ((congrFun h52 _).trans
        (congrArg (fun s' => Cert.KernelIdeal.Stage.st_main_v52 (F := Ideal) x ids (ix3 e s' k)) hrow))
    · exact (ArrayValue.iblk1_apply m c e ci k f).trans (congrFun h54 _)
    · exact (ArrayValue.iblk2_apply m c e ci f h').trans (congrFun h56 _)

end Cert.KernelIdeal.ArrayValue2

end
-- ==== Proof.V.Algebraic.lean ====
import proofs.«126691_j58317065945110_2_alg».proof.Defs
import proofs.«126691_j58317065945110_2_alg».proof.Proof.V.KernelValue
import proofs.«126691_j58317065945110_2_alg».proof.Proof.V.RefValue
import proofs.«126691_j58317065945110_2_alg».proof.Proof.V.SelectEq
import proofs.«126691_j58317065945110_2_alg».proof.Proof.V.MaskTile
import proofs.«126691_j58317065945110_2_alg».proof.Proof.V.PreIds
import proofs.«126691_j58317065945110_2_alg».proof.Proof.V.YbEntry

noncomputable section

namespace Cert.Proof.Value

open Idealize.ShloMosaic Idealize.ShloMosaic.TcCoe Idealize.SL.Sem

/-! ## The two programs end with equal results

Both results are the combine of an expert-output array, which reads that array only at the rows (expert, slot) the sorted
routing names, under the in-bounds mask. The kernel's array is, entry by entry, zero where the tile's first slot is at
or beyond the expert's count and the expert MLP of the token buffer's row otherwise; the reference's is that MLP
everywhere. Under the precondition every routed id is in [0, 64), so a masked-in row's slot is below its expert's count and
its tile is one the kernel computed: the two arrays agree wherever the combine looks. -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Stage.tl_main_v95 (F := Ideal)
      ((Cert.KernelIdeal.Hand.dats (F := Ideal) m 0 c).arrAt 3 (Cert.KernelIdeal.Hand.cfgM m).N)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value (F := Ideal) m ρ, ?_⟩
  refine (θ_run Cert.ReferenceIdeal.defs _ _).mono (fun r h c => ⟨(h c).1.trans ?_, (h c).2⟩)
    (Cert.ReferenceIdeal.Hand.run_value (F := Ideal) m' ρ')
  rw [(hagree c).1, (hagree c).2.1, (hagree c).2.2.1, (hagree c).2.2.2.1, (hagree c).2.2.2.2]
  have hr := Cert.Pre_finite_inputs.Decode.ids_range _ _ _ _ _ (hpre c)
  refine (Cert.MoeValue.tail_congr _ _ _ _ (Cert.MoeValue.sel_eq Cert.KernelIdeal.ArrayValue.pt0 _ _ _ _ _ ?_ ?_)).symm
  · intro i hM
    exact Cert.ReferenceIdeal.Dispatch.mask_tile _ hr i hM
  · intro e s h
    exact Cert.KernelIdeal.ArrayValue2.yb_entry m c _ _ _ _ (Cert.KernelIdeal.Hand.V_main_v17 m c) (Cert.KernelIdeal.Hand.V_main_v52 m c)
      (Cert.KernelIdeal.Hand.V_main_v54 m c) (Cert.KernelIdeal.Hand.V_main_v56 m c) e s h

end Cert.Proof.Value

end
-- ==== Proof.lean ====
/- The five claims of this certificate, assembled.

   The program is a mixture-of-experts layer: 8192 routed (token, expert) pairs are sorted by expert, each expert's rows
   are laid out in a buffer of 512 capacity slots, a grouped matmul applies the expert MLP
   y = (silu(x·w1ᵍ) ∘ (x·w1ᵘ))·w2 tile by tile (64 experts × 4 tiles of 128 slots), and the rows are gathered back and
   combined by the routing weights. The kernel skips — stores zeros into — every tile whose first slot is at or beyond
   the expert's row count; the reference computes every tile.

   Frames. The kernel's body reads the expert's count from a table and stores the tile under one of two conditions,
   128·ci < n or n ≤ 128·ci; exactly one holds, so the tile is stored whole at every grid point and the run needs no
   knowledge of the table (K/ and KI/: one text at the word-level and at the ideal instance). The reference is one
   straight line of 152 host operations (RI/).

   Values. Under the precondition that every routed expert id is in [0, 64), a sorted position i holding expert e lies in
   [starts e, starts e + counts e), so its slot i − starts e is below counts e: every row the combine step gathers lies in
   a tile the kernel computed, and there the tile's payload and the reference's two batched products are the same sums
   of the same products. Format changes are the identity on the extended reals. -/
import proofs.«126691_j58317065945110_2_alg».proof.Defs
import proofs.«126691_j58317065945110_2_alg».proof.Proof.Gen.Kernel
import proofs.«126691_j58317065945110_2_alg».proof.Proof.Gen.KernelIdeal
import proofs.«126691_j58317065945110_2_alg».proof.Proof.Gen.ReferenceIdeal
import proofs.«126691_j58317065945110_2_alg».proof.Proof.Gen.Pre_finite_inputs
import proofs.«126691_j58317065945110_2_alg».proof.Proof.K.Frame
import proofs.«126691_j58317065945110_2_alg».proof.Proof.KI.Frame
import proofs.«126691_j58317065945110_2_alg».proof.Proof.RI.Run
import proofs.«126691_j58317065945110_2_alg».proof.Proof.V.Algebraic
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference. -/
theorem frame_reference : Cert.frame_ReferenceIdeal (hReferenceIdeal := Cert.ReferenceIdeal.Gen.facts) (hPre_finite_inputs := Cert.Pre_finite_inputs.Gen.facts) :=
  fun m ρ _ => Cert.ReferenceIdeal.Hand.frame m ρ

/-- The ideal pass rewrote nothing: the idealization is the program's own text read at the ideal instance. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, Cert.Proof.Value.algebraic⟩

end Cert.Proof

end
